-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)) →
    ∃ (v0 : (c : Dev Cert.KernelIdeal.nD) → Buf (Elt Ideal) ((c.tc : Thread Cert.KernelIdeal.nD Cert.KernelIdeal.τ).loc Cert.KernelIdeal.main_v3)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v3) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v33) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4096x3 : Shape := ⟨2, ![4096, 3]⟩
abbrev S4096x4096 : Shape := ⟨2, ![4096, 4096]⟩
abbrev S3x16 : Shape := ⟨2, ![3, 16]⟩
abbrev S16 : Shape := ⟨1, ![16]⟩
abbrev S16x3 : Shape := ⟨2, ![16, 3]⟩
abbrev S3 : Shape := ⟨1, ![3]⟩
abbrev S3x3 : Shape := ⟨2, ![3, 3]⟩
abbrev S_ : Shape := ⟨0, ![]⟩

class Facts : Prop where
  bcast_S_S4096x3 : S_.BroadcastsInDim S4096x3 (![] : Fin 0 → Fin S4096x3.rank)
  reducesTo_S4096x3_S_d0_1 : S4096x3.ReducesTo [0, 1] S_
  h_S_ : 0 < S_.numel
  bcast_S_S4096x4096 : S_.BroadcastsInDim S4096x4096 (![] : Fin 0 → Fin S4096x4096.rank)
  reducesTo_S4096x4096_S_d0_1 : S4096x4096.ReducesTo [0, 1] S_
  bcast_S_S3x16 : S_.BroadcastsInDim S3x16 (![] : Fin 0 → Fin S3x16.rank)
  reducesTo_S3x16_S_d0_1 : S3x16.ReducesTo [0, 1] S_
  bcast_S_S16 : S_.BroadcastsInDim S16 (![] : Fin 0 → Fin S16.rank)
  reducesTo_S16_S_d0 : S16.ReducesTo [0] S_
  bcast_S_S16x3 : S_.BroadcastsInDim S16x3 (![] : Fin 0 → Fin S16x3.rank)
  reducesTo_S16x3_S_d0_1 : S16x3.ReducesTo [0, 1] S_
  bcast_S_S3 : S_.BroadcastsInDim S3 (![] : Fin 0 → Fin S3.rank)
  reducesTo_S3_S_d0 : S3.ReducesTo [0] S_
  bcast_S_S3x3 : S_.BroadcastsInDim S3x3 (![] : Fin 0 → Fin S3x3.rank)
  reducesTo_S3x3_S_d0_1 : S3x3.ReducesTo [0, 1] S_

variable [Facts]

def fn_part2 {F : FTy → Type} [FloatOps F] (main_arg1 : FVec F S4096x4096 .f32) (main_arg7 : FVec F S3 .f32) (main_v33 : IVec S_ 1) : IVec S_ 1 :=
  let main_v34 : FVec F S3 .f32 := Host.absf main_arg7
  let main_cst_12 : FVec F S_ .f32 := constant S_ .f32 0x7F800000#32
  let main_v35 : FVec F S3 .f32 := broadcastInDim S3 ![] bcast_S_S3 main_cst_12
  let main_v36 : IVec S3 1 := cmpf .olt main_v34 main_v35
  let main_c_13 : IVec S_ 1 := constantI S_ 1 1#1
  let main_v37 : IVec S_ 1 := (fun x v => Host.reduce IntOp.andi x v reducesTo_S3_S_d0 h_S_) main_v36 main_c_13
  let main_v38 : IVec S_ 1 := andi main_v33 main_v37
  let main_cst_14 : FVec F S_ .f32 := constant S_ .f32 0x00000000#32
  let main_v39 : FVec F S4096x4096 .f32 := broadcastInDim S4096x4096 ![] bcast_S_S4096x4096 main_cst_14
  let main_v40 : IVec S4096x4096 1 := cmpf .oeq main_arg1 main_v39
  let main_cst_15 : FVec F S_ .f32 := constant S_ .f32 0x3F800000#32
  let main_v41 : FVec F S4096x4096 .f32 := broadcastInDim S4096x4096 ![] bcast_S_S4096x4096 main_cst_15
  let main_v42 : IVec S4096x4096 1 := cmpf .oeq main_arg1 main_v41
  let main_v43 : IVec S4096x4096 1 := ori main_v40 main_v42
  let main_c_16 : IVec S_ 1 := constantI S_ 1 1#1
  let main_v44 : IVec S_ 1 := (fun x v => Host.reduce IntOp.andi x v reducesTo_S4096x4096_S_d0_1 h_S_) main_v43 main_c_16
  let main_v45 : IVec S_ 1 := andi main_v38 main_v44
  main_v45

def fn_part1 {F : FTy → Type} [FloatOps F] (main_arg1 : FVec F S4096x4096 .f32) (main_arg4 : FVec F S16x3 .f32) (main_arg5 : FVec F S3 .f32) (main_arg6 : FVec F S3x3 .f32) (main_arg7 : FVec F S3 .f32) (main_v13 : IVec S_ 1) (main_v16 : IVec S16 1) : IVec S_ 1 :=
  let main_c_5 : IVec S_ 1 := constantI S_ 1 1#1
  let main_v17 : IVec S_ 1 := (fun x v => Host.reduce IntOp.andi x v reducesTo_S16_S_d0 h_S_) main_v16 main_c_5
  let main_v18 : IVec S_ 1 := andi main_v13 main_v17
  let main_v19 : FVec F S16x3 .f32 := Host.absf main_arg4
  let main_cst_6 : FVec F S_ .f32 := constant S_ .f32 0x7F800000#32
  let main_v20 : FVec F S16x3 .f32 := broadcastInDim S16x3 ![] bcast_S_S16x3 main_cst_6
  let main_v21 : IVec S16x3 1 := cmpf .olt main_v19 main_v20
  let main_c_7 : IVec S_ 1 := constantI S_ 1 1#1
  let main_v22 : IVec S_ 1 := (fun x v => Host.reduce IntOp.andi x v reducesTo_S16x3_S_d0_1 h_S_) main_v21 main_c_7
  let main_v23 : IVec S_ 1 := andi main_v18 main_v22
  let main_v24 : FVec F S3 .f32 := Host.absf main_arg5
  let main_cst_8 : FVec F S_ .f32 := constant S_ .f32 0x7F800000#32
  let main_v25 : FVec F S3 .f32 := broadcastInDim S3 ![] bcast_S_S3 main_cst_8
  let main_v26 : IVec S3 1 := cmpf .olt main_v24 main_v25
  let main_c_9 : IVec S_ 1 := constantI S_ 1 1#1
  let main_v27 : IVec S_ 1 := (fun x v => Host.reduce IntOp.andi x v reducesTo_S3_S_d0 h_S_) main_v26 main_c_9
  let main_v28 : IVec S_ 1 := andi main_v23 main_v27
  let main_v29 : FVec F S3x3 .f32 := Host.absf main_arg6
  let main_cst_10 : FVec F S_ .f32 := constant S_ .f32 0x7F800000#32
  let main_v30 : FVec F S3x3 .f32 := broadcastInDim S3x3 ![] bcast_S_S3x3 main_cst_10
  let main_v31 : IVec S3x3 1 := cmpf .olt main_v29 main_v30
  let main_c_11 : IVec S_ 1 := constantI S_ 1 1#1
  let main_v32 : IVec S_ 1 := (fun x v => Host.reduce IntOp.andi x v reducesTo_S3x3_S_d0_1 h_S_) main_v31 main_c_11
  let main_v33 : IVec S_ 1 := andi main_v28 main_v32
  fn_part2 (F := F) main_arg1 main_arg7 main_v33

def fn {F : FTy → Type} [FloatOps F] (main_arg0 : FVec F S4096x3 .f32) (main_arg1 : FVec F S4096x4096 .f32) (main_arg2 : FVec F S3x16 .f32) (main_arg3 : FVec F S16 .f32) (main_arg4 : FVec F S16x3 .f32) (main_arg5 : FVec F S3 .f32) (main_arg6 : FVec F S3x3 .f32) (main_arg7 : FVec F S3 .f32) : IVec S_ 1 :=
  let main_v0 : FVec F S4096x3 .f32 := Host.absf main_arg0
  let main_cst : FVec F S_ .f32 := constant S_ .f32 0x7F800000#32
  let main_v1 : FVec F S4096x3 .f32 := broadcastInDim S4096x3 ![] bcast_S_S4096x3 main_cst
  let main_v2 : IVec S4096x3 1 := cmpf .olt main_v0 main_v1
  let main_c : IVec S_ 1 := constantI S_ 1 1#1
  let main_v3 : IVec S_ 1 := (fun x v => Host.reduce IntOp.andi x v reducesTo_S4096x3_S_d0_1 h_S_) main_v2 main_c
  let main_v4 : FVec F S4096x4096 .f32 := Host.absf main_arg1
  let main_cst_0 : FVec F S_ .f32 := constant S_ .f32 0x7F800000#32
  let main_v5 : FVec F S4096x4096 .f32 := broadcastInDim S4096x4096 ![] bcast_S_S4096x4096 main_cst_0
  let main_v6 : IVec S4096x4096 1 := cmpf .olt main_v4 main_v5
  let main_c_1 : IVec S_ 1 := constantI S_ 1 1#1
  let main_v7 : IVec S_ 1 := (fun x v => Host.reduce IntOp.andi x v reducesTo_S4096x4096_S_d0_1 h_S_) main_v6 main_c_1
  let main_v8 : IVec S_ 1 := andi main_v3 main_v7
  let main_v9 : FVec F S3x16 .f32 := Host.absf main_arg2
  let main_cst_2 : FVec F S_ .f32 := constant S_ .f32 0x7F800000#32
  let main_v10 : FVec F S3x16 .f32 := broadcastInDim S3x16 ![] bcast_S_S3x16 main_cst_2
  let main_v11 : IVec S3x16 1 := cmpf .olt main_v9 main_v10
  let main_c_3 : IVec S_ 1 := constantI S_ 1 1#1
  let main_v12 : IVec S_ 1 := (fun x v => Host.reduce IntOp.andi x v reducesTo_S3x16_S_d0_1 h_S_) main_v11 main_c_3
  let main_v13 : IVec S_ 1 := andi main_v8 main_v12
  let main_v14 : FVec F S16 .f32 := Host.absf main_arg3
  let main_cst_4 : FVec F S_ .f32 := constant S_ .f32 0x7F800000#32
  let main_v15 : FVec F S16 .f32 := broadcastInDim S16 ![] bcast_S_S16 main_cst_4
  let main_v16 : IVec S16 1 := cmpf .olt main_v14 main_v15
  fn_part1 (F := F) main_arg1 main_arg4 main_arg5 main_arg6 main_arg7 main_v13 main_v16
-- ==== Kernel.lean ====
abbrev S4096x3 : Shape := ⟨2, ![4096, 3]⟩
abbrev S4096x4096 : Shape := ⟨2, ![4096, 4096]⟩
abbrev S3x16 : Shape := ⟨2, ![3, 16]⟩
abbrev S16 : Shape := ⟨1, ![16]⟩
abbrev S16x3 : Shape := ⟨2, ![16, 3]⟩
abbrev S3 : Shape := ⟨1, ![3]⟩
abbrev S3x3 : Shape := ⟨2, ![3, 3]⟩
abbrev S1x16 : Shape := ⟨2, ![1, 16]⟩
abbrev S1x3 : Shape := ⟨2, ![1, 3]⟩
abbrev S512x4096 : Shape := ⟨2, ![512, 4096]⟩
abbrev S512x512 : Shape := ⟨2, ![512, 512]⟩
abbrev S1x4096 : Shape := ⟨2, ![1, 4096]⟩
abbrev S4096x1 : Shape := ⟨2, ![4096, 1]⟩
abbrev S3x4096 : Shape := ⟨2, ![3, 4096]⟩
abbrev S512x1 : Shape := ⟨2, ![512, 1]⟩
abbrev S512 : Shape := ⟨1, ![512]⟩
abbrev S4096x16 : Shape := ⟨2, ![4096, 16]⟩
abbrev S512x3 : Shape := ⟨2, ![512, 3]⟩

abbrev nBuf : Space → Nat
  | .hbm => 12
  | .vmem => 17
  | .smem => 0
  | _ => 0

abbrev bufTy : (tb : Table) → Fin (tcTables nBuf tb) → BufTy
  | .hbm, ⟨0, _⟩ => ⟨S4096x3, .f32⟩
  | .hbm, ⟨1, _⟩ => ⟨S4096x4096, .f32⟩
  | .hbm, ⟨2, _⟩ => ⟨S3x16, .f32⟩
  | .hbm, ⟨3, _⟩ => ⟨S16, .f32⟩
  | .hbm, ⟨4, _⟩ => ⟨S16x3, .f32⟩
  | .hbm, ⟨5, _⟩ => ⟨S3, .f32⟩
  | .hbm, ⟨6, _⟩ => ⟨S3x3, .f32⟩
  | .hbm, ⟨7, _⟩ => ⟨S3, .f32⟩
  | .hbm, ⟨8, _⟩ => ⟨S1x16, .f32⟩
  | .hbm, ⟨9, _⟩ => ⟨S1x3, .f32⟩
  | .hbm, ⟨10, _⟩ => ⟨S1x3, .f32⟩
  | .hbm, ⟨11, _⟩ => ⟨S4096x3, .f32⟩
  | .local _ .vmem, ⟨0, _⟩ => ⟨S4096x3, .f32⟩
  | .local _ .vmem, ⟨1, _⟩ => ⟨S512x4096, .f32⟩
  | .local _ .vmem, ⟨2, _⟩ => ⟨S512x4096, .f32⟩
  | .local _ .vmem, ⟨3, _⟩ => ⟨S512x512, .f32⟩
  | .local _ .vmem, ⟨4, _⟩ => ⟨S512x512, .f32⟩
  | .local _ .vmem, ⟨5, _⟩ => ⟨S3x16, .f32⟩
  | .local _ .vmem, ⟨6, _⟩ => ⟨S1x16, .f32⟩
  | .local _ .vmem, ⟨7, _⟩ => ⟨S16x3, .f32⟩
  | .local _ .vmem, ⟨8, _⟩ => ⟨S1x3, .f32⟩
  | .local _ .vmem, ⟨9, _⟩ => ⟨S3x3, .f32⟩
  | .local _ .vmem, ⟨10, _⟩ => ⟨S1x3, .f32⟩
  | .local _ .vmem, ⟨11, _⟩ => ⟨S4096x3, .f32⟩
  | .local _ .vmem, ⟨12, _⟩ => ⟨S1x4096, .f32⟩
  | .local _ .vmem, ⟨13, _⟩ => ⟨S4096x1, .f32⟩
  | .local _ .vmem, ⟨14, _⟩ => ⟨S3x4096, .f32⟩
  | .local _ .vmem, ⟨15, _⟩ => ⟨S4096x3, .bf16⟩
  | .local _ .vmem, ⟨16, _⟩ => ⟨S3x4096, .f32⟩
  | _, _ => ⟨S4096x3, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg7_0 : Ref sig .tc := ⟨.vmem, 9, rfl⟩
abbrev cc0_stg8_0 : Ref sig .tc := ⟨.vmem, 10, rfl⟩
abbrev cc0_stg9_0 : Ref sig .tc := ⟨.vmem, 11, rfl⟩
abbrev cc0_scratch0 : Ref sig .tc := ⟨.vmem, 12, rfl⟩
abbrev cc0_scratch1 : Ref sig .tc := ⟨.vmem, 13, rfl⟩
abbrev cc0_scratch2 : Ref sig .tc := ⟨.vmem, 14, rfl⟩
abbrev cc0_scratch3 : Ref sig .tc := ⟨.vmem, 15, rfl⟩
abbrev cc0_scratch4 : Ref sig .tc := ⟨.vmem, 16, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem7_0 : DmaSem sig := 9
abbrev cc0_sem8_0 : DmaSem sig := 10
abbrev cc0_sem9_0 : DmaSem sig := 11

abbrev nD : Nat := 1
abbrev τ : Topo := Topo.v7x

variable {F : FTy → Type} [FloatOps F]

abbrev grid0 : Pipeline.Grid := ⟨1, ![16], ![false]⟩

def k0_cond2 (i : grid0.Coords) : BitVec 1 :=
  let arg0 : BitVec 32 := BitVec.ofNat 32 (i 0).val
  let c8_i32_2 : BitVec 32 := 8#32
  let v6 : BitVec 1 := Scalar.cmpi .slt arg0 c8_i32_2
  let v7 : BitVec 32 := Scalar.extui v6
  let c0_i32_3 : BitVec 32 := 0#32
  let v8 : BitVec 1 := Scalar.cmpi .ne v7 c0_i32_3
  v8

def k0_off1 (i : grid0.Coords) : Fin 2 → Nat :=
  let arg0 : BitVec 32 := BitVec.ofNat 32 (i 0).val
  let c8_i32 : BitVec 32 := 8#32
  let v0 : BitVec 32 := Scalar.remsi arg0 c8_i32
  let c512_i32 : BitVec 32 := 512#32
  let v39 : BitVec 32 := Scalar.muli v0 c512_i32
  let v40 : Index := Scalar.indexCast v39
  let c0_20 : Index := 0#32
  ![v40.toNat, 0]
def k0_cond4 (i : grid0.Coords) : BitVec 1 :=
  let arg0 : BitVec 32 := BitVec.ofNat 32 (i 0).val
  let c8_i32_6 : BitVec 32 := 8#32
  let v12 : BitVec 1 := Scalar.cmpi .sge arg0 c8_i32_6
  let v13 : BitVec 32 := Scalar.extui v12
  let c0_i32_7 : BitVec 32 := 0#32
  let v14 : BitVec 1 := Scalar.cmpi .ne v13 c0_i32_7
  v14

def k0_off2 (i : grid0.Coords) : Fin 2 → Nat :=
  let arg0 : BitVec 32 := BitVec.ofNat 32 (i 0).val
  let c8_i32 : BitVec 32 := 8#32
  let v0 : BitVec 32 := Scalar.remsi arg0 c8_i32
  let c512_i32 : BitVec 32 := 512#32
  let v18 : BitVec 32 := Scalar.muli v0 c512_i32
  let v19 : Index := Scalar.indexCast v18
  let c0_9 : Index := 0#32
  ![v19.toNat, 0]
def k0_cond5 (i : grid0.Coords) : BitVec 1 :=
  let arg0 : BitVec 32 := BitVec.ofNat 32 (i 0).val
  let c15_i32 : BitVec 32 := 15#32
  let v15 : BitVec 1 := Scalar.cmpi .eq arg0 c15_i32
  let v16 : BitVec 32 := Scalar.extui v15
  let c0_i32_8 : BitVec 32 := 0#32
  let v17 : BitVec 1 := Scalar.cmpi .ne v16 c0_i32_8
  v17

def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let c8_i32 : BitVec 32 := 8#32
  let c0_i32 : BitVec 32 := 0#32
  let v0 : BitVec 1 := Scalar.cmpi .eq c8_i32 c0_i32
  let c1_i32 : BitVec 32 := 1#32
  let v1 : BitVec 32 := Scalar.select v0 c1_i32 c8_i32
  let v2 : BitVec 32 := Scalar.remsi arg0 v1
  let c0_i32_0 : BitVec 32 := 0#32
  let v3 : BitVec 1 := Scalar.cmpi .ne v2 c0_i32_0
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let v7 : BitVec 1 := Scalar.andi v6 v3
  let v8 : BitVec 32 := Scalar.addi v2 v1
  let v9 : BitVec 32 := Scalar.select v7 v8 v2
  let c0_i32_3 : BitVec 32 := 0#32
  let c0_i32_4 : BitVec 32 := 0#32
  ![v9.toNat, c0_i32_3.toNat]

def cc0_transform_2 (i : grid0.Coords) : Fin 2 → Nat :=
  let arg0 : BitVec 32 := BitVec.ofNat 32 (i 0).val
  let c8_i32 : BitVec 32 := 8#32
  let c0_i32 : BitVec 32 := 0#32
  let v0 : BitVec 1 := Scalar.cmpi .eq c8_i32 c0_i32
  let c1_i32 : BitVec 32 := 1#32
  let v1 : BitVec 32 := Scalar.select v0 c1_i32 c8_i32
  let v2 : BitVec 32 := Scalar.remsi arg0 v1
  let c0_i32_0 : BitVec 32 := 0#32
  let v3 : BitVec 1 := Scalar.cmpi .ne v2 c0_i32_0
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let v7 : BitVec 1 := Scalar.andi v6 v3
  let v8 : BitVec 32 := Scalar.addi v2 v1
  let v9 : BitVec 32 := Scalar.select v7 v8 v2
  let c8_i32_3 : BitVec 32 := 8#32
  let c0_i32_4 : BitVec 32 := 0#32
  let v10 : BitVec 1 := Scalar.cmpi .eq c8_i32_3 c0_i32_4
  let c1_i32_5 : BitVec 32 := 1#32
  let v11 : BitVec 32 := Scalar.select v10 c1_i32_5 c8_i32_3
  let v12 : BitVec 32 := Scalar.remsi arg0 v11
  let c0_i32_6 : BitVec 32 := 0#32
  let v13 : BitVec 1 := Scalar.cmpi .ne v12 c0_i32_6
  let c0_i32_7 : BitVec 32 := 0#32
  let v14 : BitVec 1 := Scalar.cmpi .slt v12 c0_i32_7
  let c0_i32_8 : BitVec 32 := 0#32
  let v15 : BitVec 1 := Scalar.cmpi .slt v11 c0_i32_8
  let v16 : BitVec 1 := Scalar.xori v14 v15
  let v17 : BitVec 1 := Scalar.andi v16 v13
  let v18 : BitVec 32 := Scalar.addi v12 v11
  let v19 : BitVec 32 := Scalar.select v17 v18 v12
  let c0_i32_9 : BitVec 32 := 0#32
  ![v9.toNat, v19.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 1 → Memref sig .tc .vmem S4096x3 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 2 → Memref sig .tc .vmem S512x4096 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S3x16 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x16 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S16x3 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x3 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S3x3 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1x3 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S4096x3 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

class Facts₀ : Prop where
  shapeCasts_S16_S1x16 : S16.ShapeCasts S1x16
  shapeCasts_S3_S1x3 : S3.ShapeCasts S1x3
  inb_S512x4096_S512x4096_0_0 : ∀ a, (![0, 0] : Fin 2 → Nat) a + S512x4096.size a ≤ S512x4096.size a
  h_S512x4096 : 0 < S512x4096.numel
  bitsLt_bf16_f32 : FTy.bits .bf16 < FTy.bits .f32
  inb_S1x4096_S1x4096_0_0 : ∀ a, (![0, 0] : Fin 2 → Nat) a + S1x4096.size a ≤ S1x4096.size a
  h_S1x4096 : 0 < S1x4096.numel
  shapeCasts_S1x4096_S1x4096 : S1x4096.ShapeCasts S1x4096
  inb_S512x512_S512x512_0_0 : ∀ a, (![0, 0] : Fin 2 → Nat) a + S512x512.size a ≤ S512x512.size a
  h_S512x512 : 0 < S512x512.numel
  iota_S512x512_d0_w32 : S512x512.Iotas .tc 32 [0]
  iota_S512x512_d1_w32 : S512x512.Iotas .tc 32 [1]
  natLt_1_32 : 1 < 32
  reduces_S512x512_S512 : S512x512.Reduces [1] S512
  shapeCasts_S512_S512x1 : S512.ShapeCasts S512x1
  h_S512x1 : 0 < S512x1.numel
  shapeCasts_S512x1_S512x1 : S512x1.ShapeCasts S512x1
  inb_S4096x1_S4096x1_0_0 : ∀ a, (![0, 0] : Fin 2 → Nat) a + S4096x1.size a ≤ S4096x1.size a
  h_S4096x1 : 0 < S4096x1.numel
  transposes_S4096x1_p1_0_S1x4096 : S4096x1.Transposes [1, 0] S1x4096
  inb_S4096x3_S4096x3_0_0 : ∀ a, (![0, 0] : Fin 2 → Nat) a + S4096x3.size a ≤ S4096x3.size a
  h_S4096x3 : 0 < S4096x3.numel
  inb_S3x16_S3x16_0_0 : ∀ a, (![0, 0] : Fin 2 → Nat) a + S3x16.size a ≤ S3x16.size a
  h_S3x16 : 0 < S3x16.numel
  inb_S1x16_S1x16_0_0 : ∀ a, (![0, 0] : Fin 2 → Nat) a + S1x16.size a ≤ S1x16.size a
  h_S1x16 : 0 < S1x16.numel
  shapeCasts_S1x16_S1x16 : S1x16.ShapeCasts S1x16
  broadcasts_S1x16_S4096x16 : S1x16.Broadcasts S4096x16
  inb_S16x3_S16x3_0_0 : ∀ a, (![0, 0] : Fin 2 → Nat) a + S16x3.size a ≤ S16x3.size a
  h_S16x3 : 0 < S16x3.numel
  inb_S1x3_S1x3_0_0 : ∀ a, (![0, 0] : Fin 2 → Nat) a + S1x3.size a ≤ S1x3.size a
  h_S1x3 : 0 < S1x3.numel
  shapeCasts_S1x3_S1x3 : S1x3.ShapeCasts S1x3
  broadcasts_S1x3_S4096x3 : S1x3.Broadcasts S4096x3
  inb_S3x3_S3x3_0_0 : ∀ a, (![0, 0] : Fin 2 → Nat) a + S3x3.size a ≤ S3x3.size a
  h_S3x3 : 0 < S3x3.numel
  transposes_S1x4096_p1_0_S4096x1 : S1x4096.Transposes [1, 0] S4096x1
  broadcasts_S4096x1_S4096x3 : S4096x1.Broadcasts S4096x3
  shapeCasts_S4096x3_S4096x3 : S4096x3.ShapeCasts S4096x3
  packedbf16_S4096x3_S4096x3_0_0 : (Rect.unit (s := S4096x3) ![0, 0] S4096x3.size inb_S4096x3_S4096x3_0_0).PackedRows (EltTy.packing .bf16)
  transposes_S4096x3_p1_0_S3x4096 : S4096x3.Transposes [1, 0] S3x4096
  inb_S3x4096_S3x4096_0_0 : ∀ a, (![0, 0] : Fin 2 → Nat) a + S3x4096.size a ≤ S3x4096.size a
  h_S3x4096 : 0 < S3x4096.numel
  shapeCasts_S3x4096_S3x4096 : S3x4096.ShapeCasts S3x4096
  h_S512x3 : 0 < S512x3.numel
  broadcasts_S1x4096_S3x4096 : S1x4096.Broadcasts S3x4096
  transposes_S3x4096_p1_0_S4096x3 : S3x4096.Transposes [1, 0] S4096x3
  dot_S512x1_S512x4096_S1x4096_0_0_1_1_n_n_wf : DotDims.WF S512x1 S512x4096 S1x4096 [0] [0] [1] [1] [] []
  dot_S4096x3_S3x16_S4096x16_1_0_0_1_n_n_wf : DotDims.WF S4096x3 S3x16 S4096x16 [1] [0] [0] [1] [] []
  dot_S4096x16_S16x3_S4096x3_1_0_0_1_n_n_wf : DotDims.WF S4096x16 S16x3 S4096x3 [1] [0] [0] [1] [] []
  dot_S4096x3_S3x3_S4096x3_1_0_0_1_n_n_wf : DotDims.WF S4096x3 S3x3 S4096x3 [1] [0] [0] [1] [] []
  dot_S512x3_S512x4096_S3x4096_0_0_1_1_n_n_wf : DotDims.WF S512x3 S512x4096 S3x4096 [0] [0] [1] [1] [] []
  hrank0 : 0 < grid0.rank
  k0_off1_inb : ∀ i : grid0.Coords, ∀ (k0_h2 : k0_cond2 i = 1#1), ∀ a, (k0_off1 i) a + S512x1.size a ≤ S4096x1.size a
  k0_off2_inb : ∀ i : grid0.Coords, ∀ (k0_h4 : k0_cond4 i = 1#1), ∀ a, (k0_off2 i) a + S512x3.size a ≤ S4096x3.size a
  hstage0_0 : ∀ j, (stage0_0 j).IsWhole
  nbuf0_0 : grid0.bufCount reads0_0 true = 1
  hreads0_0 : ∀ i i' : grid0.Coords, (∀ a, reads0_0 a = true → i a = i' a) → cc0_transform_0 i = cc0_transform_0 i'
  hinb0_0 : ∀ (i : grid0.Coords) a, (cc0_transform_0 i a + 1) * S4096x3.size a ≤ S4096x3.size a
  hwx0_0 : ∀ i : grid0.Coords, EltTy.bits .f32 = 32 ∨ (Rect.block (s := S4096x3) S4096x3.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S512x4096.size a ≤ S4096x4096.size a
  hwx0_1 : ∀ i : grid0.Coords, EltTy.bits .f32 = 32 ∨ (Rect.block (s := S4096x4096) S512x4096.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S512x512.size a ≤ S4096x4096.size a
  hwx0_2 : ∀ i : grid0.Coords, EltTy.bits .f32 = 32 ∨ (Rect.block (s := S4096x4096) S512x512.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S3x16.size a ≤ S3x16.size a
  hwx0_3 : ∀ i : grid0.Coords, EltTy.bits .f32 = 32 ∨ (Rect.block (s := S3x16) S3x16.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1x16.size a ≤ S1x16.size a
  hwx0_4 : ∀ i : grid0.Coords, EltTy.bits .f32 = 32 ∨ (Rect.block (s := S1x16) S1x16.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S16x3.size a ≤ S16x3.size a
  hwx0_5 : ∀ i : grid0.Coords, EltTy.bits .f32 = 32 ∨ (Rect.block (s := S16x3) S16x3.size (cc0_transform_5 i) (hinb0_5 i)).WholeWords (EltTy.packing .f32)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S1x3.size a ≤ S1x3.size a
  hwx0_6 : ∀ i : grid0.Coords, EltTy.bits .f32 = 32 ∨ (Rect.block (s := S1x3) S1x3.size (cc0_transform_6 i) (hinb0_6 i)).WholeWords (EltTy.packing .f32)
  hstage0_7 : ∀ j, (stage0_7 j).IsWhole
  nbuf0_7 : grid0.bufCount reads0_7 true = 1
  hreads0_7 : ∀ i i' : grid0.Coords, (∀ a, reads0_7 a = true → i a = i' a) → cc0_transform_7 i = cc0_transform_7 i'
  hinb0_7 : ∀ (i : grid0.Coords) a, (cc0_transform_7 i a + 1) * S3x3.size a ≤ S3x3.size a
  hwx0_7 : ∀ i : grid0.Coords, EltTy.bits .f32 = 32 ∨ (Rect.block (s := S3x3) S3x3.size (cc0_transform_7 i) (hinb0_7 i)).WholeWords (EltTy.packing .f32)
  hstage0_8 : ∀ j, (stage0_8 j).IsWhole
  nbuf0_8 : grid0.bufCount reads0_8 true = 1
  hreads0_8 : ∀ i i' : grid0.Coords, (∀ a, reads0_8 a = true → i a = i' a) → cc0_transform_8 i = cc0_transform_8 i'
  hinb0_8 : ∀ (i : grid0.Coords) a, (cc0_transform_8 i a + 1) * S1x3.size a ≤ S1x3.size a
  hwx0_8 : ∀ i : grid0.Coords, EltTy.bits .f32 = 32 ∨ (Rect.block (s := S1x3) S1x3.size (cc0_transform_8 i) (hinb0_8 i)).WholeWords (EltTy.packing .f32)
  hstage0_9 : ∀ j, (stage0_9 j).IsWhole
  nbuf0_9 : grid0.bufCount reads0_9 true = 1
  hreads0_9 : ∀ i i' : grid0.Coords, (∀ a, reads0_9 a = true → i a = i' a) → cc0_transform_9 i = cc0_transform_9 i'
  hinb0_9 : ∀ (i : grid0.Coords) a, (cc0_transform_9 i a + 1) * S4096x3.size a ≤ S4096x3.size a
  hwx0_9 : ∀ i : grid0.Coords, EltTy.bits .f32 = 32 ∨ (Rect.block (s := S4096x3) S4096x3.size (cc0_transform_9 i) (hinb0_9 i)).WholeWords (EltTy.packing .f32)

variable [Facts₀]

def dot_S512x1_S512x4096_S1x4096_0_0_1_1_n_n : DotDims S512x1 S512x4096 S1x4096 where
  lhsContracting := [0]
  rhsContracting := [0]
  lhsNonContracting := [1]
  rhsNonContracting := [1]
  lhsBatch := []
  rhsBatch := []
  wf := dot_S512x1_S512x4096_S1x4096_0_0_1_1_n_n_wf
def dot_S4096x3_S3x16_S4096x16_1_0_0_1_n_n : DotDims S4096x3 S3x16 S4096x16 where
  lhsContracting := [1]
  rhsContracting := [0]
  lhsNonContracting := [0]
  rhsNonContracting := [1]
  lhsBatch := []
  rhsBatch := []
  wf := dot_S4096x3_S3x16_S4096x16_1_0_0_1_n_n_wf
def dot_S4096x16_S16x3_S4096x3_1_0_0_1_n_n : DotDims S4096x16 S16x3 S4096x3 where
  lhsContracting := [1]
  rhsContracting := [0]
  lhsNonContracting := [0]
  rhsNonContracting := [1]
  lhsBatch := []
  rhsBatch := []
  wf := dot_S4096x16_S16x3_S4096x3_1_0_0_1_n_n_wf
def dot_S4096x3_S3x3_S4096x3_1_0_0_1_n_n : DotDims S4096x3 S3x3 S4096x3 where
  lhsContracting := [1]
  rhsContracting := [0]
  lhsNonContracting := [0]
  rhsNonContracting := [1]
  lhsBatch := []
  rhsBatch := []
  wf := dot_S4096x3_S3x3_S4096x3_1_0_0_1_n_n_wf
def dot_S512x3_S512x4096_S3x4096_0_0_1_1_n_n : DotDims S512x3 S512x4096 S3x4096 where
  lhsContracting := [0]
  rhsContracting := [0]
  lhsNonContracting := [1]
  rhsNonContracting := [1]
  lhsBatch := []
  rhsBatch := []
  wf := dot_S512x3_S512x4096_S3x4096_0_0_1_1_n_n_wf

abbrev win0_0 : Pipeline.Window sig grid0 :=
  Pipeline.Window.ofSpec (Memref.whole main_arg0) S4096x3.size cc0_transform_0 reads0_0 false true 1 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S512x4096.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg1) S512x512.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_arg2) S3x16.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v0) S1x16.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_arg4) S16x3.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v1) S1x3.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_arg6) S3x3.size cc0_transform_7 reads0_7 false true 1 stage0_7 sem0_7
    hrank0 hreads0_7 hinb0_7 nbuf0_7 (Memref.isWhole_whole _) hwx0_7 hstage0_7

abbrev win0_8 : Pipeline.Window sig grid0 :=
  Pipeline.Window.ofSpec (Memref.whole main_v2) S1x3.size cc0_transform_8 reads0_8 false true 1 stage0_8 sem0_8
    hrank0 hreads0_8 hinb0_8 nbuf0_8 (Memref.isWhole_whole _) hwx0_8 hstage0_8

abbrev win0_9 : Pipeline.Window sig grid0 :=
  Pipeline.Window.ofSpec (Memref.whole main_v3) S4096x3.size cc0_transform_9 reads0_9 true true 1 stage0_9 sem0_9
    hrank0 hreads0_9 hinb0_9 nbuf0_9 (Memref.isWhole_whole _) hwx0_9 hstage0_9

abbrev win0 : Fin 10 → Pipeline.Window sig grid0 := fun | 0 => win0_0 | 1 => win0_1 | 2 => win0_2 | 3 => win0_3 | 4 => win0_4 | 5 => win0_5 | 6 => win0_6 | 7 => win0_7 | 8 => win0_8 | 9 => win0_9 | ⟨_ + 10, h⟩ => absurd h (Nat.not_lt.2 (Nat.le_add_left _ _))
abbrev spec0 : Fin 10 → Pipeline.WinSpec sig grid0.rank := fun w => (win0 w).toWinSpec

abbrev idle0 : Fin 10 → grid0.Coords → Bool := fun | 0 => fun _ => false | 1 => fun _ => false | 2 => fun _ => false | 3 => fun _ => false | 4 => fun _ => false | 5 => fun _ => false | 6 => fun _ => false | 7 => fun _ => false | 8 => fun _ => false | 9 => fun i => !(k0_cond5 i == 1#1) | ⟨_ + 10, h⟩ => absurd h (Nat.not_lt.2 (Nat.le_add_left _ _))

class Facts : Prop extends Facts₀ where

variable [Facts]
-- ==== ReferenceIdeal.lean ====
abbrev S4096x3 : Shape := ⟨2, ![4096, 3]⟩
abbrev S4096x4096 : Shape := ⟨2, ![4096, 4096]⟩
abbrev S3x16 : Shape := ⟨2, ![3, 16]⟩
abbrev S16 : Shape := ⟨1, ![16]⟩
abbrev S16x3 : Shape := ⟨2, ![16, 3]⟩
abbrev S3 : Shape := ⟨1, ![3]⟩
abbrev S3x3 : Shape := ⟨2, ![3, 3]⟩
abbrev S4096x16 : Shape := ⟨2, ![4096, 16]⟩
abbrev S1x16 : Shape := ⟨2, ![1, 16]⟩
abbrev S_ : Shape := ⟨0, ![]⟩
abbrev S1x3 : Shape := ⟨2, ![1, 3]⟩
abbrev S4096 : Shape := ⟨1, ![4096]⟩
abbrev S4096x1 : Shape := ⟨2, ![4096, 1]⟩

abbrev nBuf : Space → Nat
  | .hbm => 52
  | .vmem => 0
  | .smem => 0
  | _ => 0

abbrev bufTy : (tb : Table) → Fin (tcTables nBuf tb) → BufTy
  | .hbm, ⟨0, _⟩ => ⟨S4096x3, .f32⟩
  | .hbm, ⟨1, _⟩ => ⟨S4096x4096, .f32⟩
  | .hbm, ⟨2, _⟩ => ⟨S3x16, .f32⟩
  | .hbm, ⟨3, _⟩ => ⟨S16, .f32⟩
  | .hbm, ⟨4, _⟩ => ⟨S16x3, .f32⟩
  | .hbm, ⟨5, _⟩ => ⟨S3, .f32⟩
  | .hbm, ⟨6, _⟩ => ⟨S3x3, .f32⟩
  | .hbm, ⟨7, _⟩ => ⟨S3, .f32⟩
  | .hbm, ⟨8, _⟩ => ⟨S4096x16, .f32⟩
  | .hbm, ⟨9, _⟩ => ⟨S1x16, .f32⟩
  | .hbm, ⟨10, _⟩ => ⟨S4096x16, .f32⟩
  | .hbm, ⟨11, _⟩ => ⟨S4096x16, .f32⟩
  | .hbm, ⟨12, _⟩ => ⟨S_, .f32⟩
  | .hbm, ⟨13, _⟩ => ⟨S4096x16, .f32⟩
  | .hbm, ⟨14, _⟩ => ⟨S4096x16, .f32⟩
  | .hbm, ⟨15, _⟩ => ⟨S4096x3, .f32⟩
  | .hbm, ⟨16, _⟩ => ⟨S1x3, .f32⟩
  | .hbm, ⟨17, _⟩ => ⟨S4096x3, .f32⟩
  | .hbm, ⟨18, _⟩ => ⟨S4096x3, .f32⟩
  | .hbm, ⟨19, _⟩ => ⟨S_, .f32⟩
  | .hbm, ⟨20, _⟩ => ⟨S4096x3, .f32⟩
  | .hbm, ⟨21, _⟩ => ⟨S4096x3, .f32⟩
  | .hbm, ⟨22, _⟩ => ⟨S4096x4096, .i32⟩
  | .hbm, ⟨23, _⟩ => ⟨S4096x4096, .i32⟩
  | .hbm, ⟨24, _⟩ => ⟨S_, .i32⟩
  | .hbm, ⟨25, _⟩ => ⟨S4096x4096, .i32⟩
  | .hbm, ⟨26, _⟩ => ⟨S4096x4096, .i32⟩
  | .hbm, ⟨27, _⟩ => ⟨S4096x4096, .i1⟩
  | .hbm, ⟨28, _⟩ => ⟨S4096x4096, .f32⟩
  | .hbm, ⟨29, _⟩ => ⟨S4096x4096, .f32⟩
  | .hbm, ⟨30, _⟩ => ⟨S_, .f32⟩
  | .hbm, ⟨31, _⟩ => ⟨S4096, .f32⟩
  | .hbm, ⟨32, _⟩ => ⟨S_, .f32⟩
  | .hbm, ⟨33, _⟩ => ⟨S4096, .f32⟩
  | .hbm, ⟨34, _⟩ => ⟨S4096, .i1⟩
  | .hbm, ⟨35, _⟩ => ⟨S4096, .f32⟩
  | .hbm, ⟨36, _⟩ => ⟨S_, .f32⟩
  | .hbm, ⟨37, _⟩ => ⟨S_, .f32⟩
  | .hbm, ⟨38, _⟩ => ⟨S4096, .f32⟩
  | .hbm, ⟨39, _⟩ => ⟨S4096, .f32⟩
  | .hbm, ⟨40, _⟩ => ⟨S4096x3, .f32⟩
  | .hbm, ⟨41, _⟩ => ⟨S4096x1, .f32⟩
  | .hbm, ⟨42, _⟩ => ⟨S4096x4096, .f32⟩
  | .hbm, ⟨43, _⟩ => ⟨S4096x1, .f32⟩
  | .hbm, ⟨44, _⟩ => ⟨S4096x3, .f32⟩
  | .hbm, ⟨45, _⟩ => ⟨S4096x3, .f32⟩
  | .hbm, ⟨46, _⟩ => ⟨S4096x3, .f32⟩
  | .hbm, ⟨47, _⟩ => ⟨S4096x3, .f32⟩
  | .hbm, ⟨48, _⟩ => ⟨S4096x3, .f32⟩
  | .hbm, ⟨49, _⟩ => ⟨S1x3, .f32⟩
  | .hbm, ⟨50, _⟩ => ⟨S4096x3, .f32⟩
  | .hbm, ⟨51, _⟩ => ⟨S4096x3, .f32⟩
  | _, _ => ⟨S4096x3, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_call0_cst : Ref sig .tc := ⟨.hbm, 12, rfl⟩
abbrev main_call0_v0 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_call1_cst : Ref sig .tc := ⟨.hbm, 19, rfl⟩
abbrev main_call1_v0 : Ref sig .tc := ⟨.hbm, 20, rfl⟩
abbrev main_v9 : Ref sig .tc := ⟨.hbm, 21, rfl⟩
abbrev main_v10 : Ref sig .tc := ⟨.hbm, 22, rfl⟩
abbrev main_v11 : Ref sig .tc := ⟨.hbm, 23, rfl⟩
abbrev main_c : Ref sig .tc := ⟨.hbm, 24, rfl⟩
abbrev main_v12 : Ref sig .tc := ⟨.hbm, 25, rfl⟩
abbrev main_v13 : Ref sig .tc := ⟨.hbm, 26, rfl⟩
abbrev main_v14 : Ref sig .tc := ⟨.hbm, 27, rfl⟩
abbrev main_v15 : Ref sig .tc := ⟨.hbm, 28, rfl⟩
abbrev main_v16 : Ref sig .tc := ⟨.hbm, 29, rfl⟩
abbrev main_cst : Ref sig .tc := ⟨.hbm, 30, rfl⟩
abbrev main_v17 : Ref sig .tc := ⟨.hbm, 31, rfl⟩
abbrev main_cst_0 : Ref sig .tc := ⟨.hbm, 32, rfl⟩
abbrev main_v18 : Ref sig .tc := ⟨.hbm, 33, rfl⟩
abbrev main_v19 : Ref sig .tc := ⟨.hbm, 34, rfl⟩
abbrev main_v20 : Ref sig .tc := ⟨.hbm, 35, rfl⟩
abbrev main_cst_1 : Ref sig .tc := ⟨.hbm, 36, rfl⟩
abbrev main_call2_v0 : Ref sig .tc := ⟨.hbm, 37, rfl⟩
abbrev main_call2_v1 : Ref sig .tc := ⟨.hbm, 38, rfl⟩
abbrev main_v21 : Ref sig .tc := ⟨.hbm, 39, rfl⟩
abbrev main_v22 : Ref sig .tc := ⟨.hbm, 40, rfl⟩
abbrev main_v23 : Ref sig .tc := ⟨.hbm, 41, rfl⟩
abbrev main_v24 : Ref sig .tc := ⟨.hbm, 42, rfl⟩
abbrev main_v25 : Ref sig .tc := ⟨.hbm, 43, rfl⟩
abbrev main_v26 : Ref sig .tc := ⟨.hbm, 44, rfl⟩
abbrev main_v27 : Ref sig .tc := ⟨.hbm, 45, rfl⟩
abbrev main_v28 : Ref sig .tc := ⟨.hbm, 46, rfl⟩
abbrev main_v29 : Ref sig .tc := ⟨.hbm, 47, rfl⟩
abbrev main_v30 : Ref sig .tc := ⟨.hbm, 48, rfl⟩
abbrev main_v31 : Ref sig .tc := ⟨.hbm, 49, rfl⟩
abbrev main_v32 : Ref sig .tc := ⟨.hbm, 50, rfl⟩
abbrev main_v33 : Ref sig .tc := ⟨.hbm, 51, rfl⟩

abbrev nD : Nat := 1
abbrev τ : Topo := Topo.v7x

variable {F : FTy → Type} [FloatOps F]

class Facts₀ : Prop where
  bcast_S16_S1x16_1 : S16.BroadcastsInDim S1x16 (![1] : Fin 1 → Fin S1x16.rank)
  bcast_S1x16_S4096x16_0_1 : S1x16.BroadcastsInDim S4096x16 (![0, 1] : Fin 2 → Fin S4096x16.rank)
  bcast_S_S4096x16 : S_.BroadcastsInDim S4096x16 (![] : Fin 0 → Fin S4096x16.rank)
  bcast_S3_S1x3_1 : S3.BroadcastsInDim S1x3 (![1] : Fin 1 → Fin S1x3.rank)
  bcast_S1x3_S4096x3_0_1 : S1x3.BroadcastsInDim S4096x3 (![0, 1] : Fin 2 → Fin S4096x3.rank)
  bcast_S_S4096x3 : S_.BroadcastsInDim S4096x3 (![] : Fin 0 → Fin S4096x3.rank)
  bcast_S_S4096x4096 : S_.BroadcastsInDim S4096x4096 (![] : Fin 0 → Fin S4096x4096.rank)
  reducesTo_S4096x4096_S4096_d0 : S4096x4096.ReducesTo [0] S4096
  h_S_ : 0 < S_.numel
  bcast_S_S4096 : S_.BroadcastsInDim S4096 (![] : Fin 0 → Fin S4096.rank)
  bcast_S4096_S4096x1_0 : S4096.BroadcastsInDim S4096x1 (![0] : Fin 1 → Fin S4096x1.rank)
  transposes_S4096x4096_S4096x4096_1_0 : S4096x4096.Transposes [1, 0] S4096x4096
  bcast_S4096x1_S4096x3_0_1 : S4096x1.BroadcastsInDim S4096x3 (![0, 1] : Fin 2 → Fin S4096x3.rank)
  dot_S4096x3_S3x16_S4096x16_1_0_0_1_n_n_wf : DotDims.WF S4096x3 S3x16 S4096x16 [1] [0] [0] [1] [] []
  dot_S4096x16_S16x3_S4096x3_1_0_0_1_n_n_wf : DotDims.WF S4096x16 S16x3 S4096x3 [1] [0] [0] [1] [] []
  dot_S4096x3_S3x3_S4096x3_1_0_0_1_n_n_wf : DotDims.WF S4096x3 S3x3 S4096x3 [1] [0] [0] [1] [] []
  dot_S4096x4096_S4096x3_S4096x3_1_0_0_1_n_n_wf : DotDims.WF S4096x4096 S4096x3 S4096x3 [1] [0] [0] [1] [] []

variable [Facts₀]

def dot_S4096x3_S3x16_S4096x16_1_0_0_1_n_n : DotDims S4096x3 S3x16 S4096x16 where
  lhsContracting := [1]
  rhsContracting := [0]
  lhsNonContracting := [0]
  rhsNonContracting := [1]
  lhsBatch := []
  rhsBatch := []
  wf := dot_S4096x3_S3x16_S4096x16_1_0_0_1_n_n_wf
def dot_S4096x16_S16x3_S4096x3_1_0_0_1_n_n : DotDims S4096x16 S16x3 S4096x3 where
  lhsContracting := [1]
  rhsContracting := [0]
  lhsNonContracting := [0]
  rhsNonContracting := [1]
  lhsBatch := []
  rhsBatch := []
  wf := dot_S4096x16_S16x3_S4096x3_1_0_0_1_n_n_wf
def dot_S4096x3_S3x3_S4096x3_1_0_0_1_n_n : DotDims S4096x3 S3x3 S4096x3 where
  lhsContracting := [1]
  rhsContracting := [0]
  lhsNonContracting := [0]
  rhsNonContracting := [1]
  lhsBatch := []
  rhsBatch := []
  wf := dot_S4096x3_S3x3_S4096x3_1_0_0_1_n_n_wf
def dot_S4096x4096_S4096x3_S4096x3_1_0_0_1_n_n : DotDims S4096x4096 S4096x3 S4096x3 where
  lhsContracting := [1]
  rhsContracting := [0]
  lhsNonContracting := [0]
  rhsNonContracting := [1]
  lhsBatch := []
  rhsBatch := []
  wf := dot_S4096x4096_S4096x3_S4096x3_1_0_0_1_n_n_wf

class Facts : Prop extends Facts₀ where

variable [Facts]
-- ==== Proof.Bits.SharedLaunch.lean ====
/-
  One array behind two windows. The kernel is handed the adjacency matrix twice: a band of 512 rows and, of the same
  band, the 512 × 512 square on the diagonal. Both windows only read it, so the array's full share is dealt between
  them, the left half to the band and the right half to the square, and given back joined when the region ends. What
  is proved here is the run of @main for any proof data of the region: the three reshapes of the bias vectors, then
  the region launched with the shares so dealt; every windowed array ends at what the data compute and every other
  buffer of @main as the region found it.
-/
import proofs.«101174_g88562225643609_cont_sun_c4_799_5_alg».proof.Proof.Gen.Kernel.Launch
import proofs.«101174_g88562225643609_cont_sun_c4_799_5_alg».proof.Proof.Gen.Kernel.Points
import Idealize.ShloMosaic.Lib.Pipeline.FrameBody
import Idealize.ShloMosaic.Lib.Pipeline.Launch
import Idealize.ShloMosaic.Lib.Tactic

set_option maxRecDepth 16384

noncomputable section

namespace Cert.Kernel.Shared

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- Core `c`'s buffers when the region is entered: after the three reshapes. -/
abbrev V (c : Dev nD) (b : Ref sig .tc) : Buf (Elt F) ((c : Thread nD τ).loc b) :=
  StableHlo.after hostOps0 (fun b => m (c, b)) b

theorem hostOps0_fresh : (hostOps0 : List (HloOp τ sig (Elt F))).Forall fun op => op.fresh = ∅ := by
  simp only [List.Forall]; repeat' constructor

/-- @main is the three reshapes, then the region. -/
theorem hmain (𝒱₀ : Variants) :
    Pipeline.HMain (Ix := Unit) (Name := ℕ) (U := UR sig nD τ) (Lvl := ℕ) cfgs 0 defs₀ 𝒱₀ m (main (F := F)) (V m) :=
  Pipeline.hmain_prefix cfgs 0 defs₀ 𝒱₀ m main hostOps0 hostOps0_sub hostOps0_fresh main_chain

/-- The shares: the band window holds the left half of the adjacency array, the diagonal square the right half, every
    other input its array whole. -/
def shares : Fin 10 → PosShare TreeShare := fun
  | 1 => fullShare.left
  | 2 => fullShare.right
  | _ => fullShare

/-- The buffers behind the windows' arrays — nine, the adjacency array counted once — make the data's arrays at the
    region's entry: each array whole to its window, the adjacency array's two halves to the band and to the square. -/
theorem arrays_of_arrBufs (c : Dev nD) (dat : Dat τ (Elt F) Unit ℕ (UR sig nD τ) ℕ cfg0 c)
    (hq : dat.q = shares) (hA : ∀ w, dat.A w = V m c (Pipeline.arrRef spec0 w)) :
    (Pipeline.arrBufs spec0 c (V m c) : sProp 𝕄) ⊢ dat.arrays (dat.arrAt · 0) := by
  have key : ∀ w : Fin 10,
      (View.loc c.tc (cfg0.win w).arr.view ↦[(cfg0.win w).arr.view.set]{dat.share w} dat.arrAt w 0 : sProp 𝕄)
        = (c.tc.loc (Pipeline.arrRef spec0 w) ↦{dat.share w} V m c (Pipeline.arrRef spec0 w)) := fun w => by
    rw [(arr_whole0 w).set_eq_univ, show dat.arrAt w 0 = dat.A w from rfl, hA]
  have sh (w : Fin 10) (hw : (cfg0.win w).isOut = false) : dat.share w = shares w := by
    unfold Dat.share; rw [hw, hq]; rfl
  rw [show dat.arrays (dat.arrAt · 0)
      = bigSep Finset.univ (fun w : Fin 10 => (c.tc.loc (Pipeline.arrRef spec0 w) ↦{dat.share w} V m c (Pipeline.arrRef spec0 w) : sProp 𝕄))
      from bigSep_congr fun w _ => key w]
  unfold Pipeline.arrBufs
  rw [bigSep_eq_bigSepL_of_eq [main_arg0, main_arg1, main_arg2, main_v0, main_arg4, main_v1, main_arg6, main_v2, main_v3]
    (by decide) (by decide), bigSep_W0]
  rw [sh 0 rfl, sh 1 rfl, sh 2 rfl, sh 3 rfl, sh 4 rfl, sh 5 rfl, sh 6 rfl, sh 7 rfl, sh 8 rfl,
    show dat.share 9 = fullShare from rfl]
  refine BIBase.Entails.trans (BIBase.Entails.of_eq (show _ = iprop((c.tc.loc main_arg0 ↦{fullShare} V m c main_arg0)
    ∗ (c.tc.loc main_arg1 ↦{fullShare} V m c main_arg1) ∗ (c.tc.loc main_arg2 ↦{fullShare} V m c main_arg2)
    ∗ (c.tc.loc main_v0 ↦{fullShare} V m c main_v0) ∗ (c.tc.loc main_arg4 ↦{fullShare} V m c main_arg4)
    ∗ (c.tc.loc main_v1 ↦{fullShare} V m c main_v1) ∗ (c.tc.loc main_arg6 ↦{fullShare} V m c main_arg6)
    ∗ (c.tc.loc main_v2 ↦{fullShare} V m c main_v2) ∗ (c.tc.loc main_v3 ↦{fullShare} V m c main_v3)) from rfl)) ?_
  iintro ⟨Hx, Hadj, Hw1, Hb1, Hw3, Hb3, Hwg, Hbg, Hout⟩
  ihave Hadj' := (pointsTo_share (PosShare.mem_left_op_right fullShare)).1 $$ Hadj
  icases Hadj' with ⟨Hband, Hsq⟩
  isplitl [Hx]; · iexact Hx
  isplitl [Hband]; · iexact Hband
  isplitl [Hsq]; · iexact Hsq
  isplitl [Hw1]; · iexact Hw1
  isplitl [Hb1]; · iexact Hb1
  isplitl [Hw3]; · iexact Hw3
  isplitl [Hb3]; · iexact Hb3
  isplitl [Hwg]; · iexact Hwg
  isplitl [Hbg]; · iexact Hbg
  iexact Hout

/-- The run of @main, for any proof data of the region that deal the shares as above, owe nothing, start from the
    arrays as the region finds them, and whose invariant is made from the kernel's scratch buffers before the first
    point and gives them back after the last: every weakly fair execution terminates, every windowed array ends at
    what the data compute, every other buffer of @main at what the region found. -/
theorem run_shared (𝒱₀ : Variants)
    (dats : (p : Fin 1) → (c : Dev nD) → Dat τ (Elt F) Unit ℕ (UR sig nD τ) ℕ (cfgs p) c)
    (hbody : ∀ c, Pipeline.BodyObligationLoose (dats 0 c) (defs₀ (F := F)) 𝒱₀ () Set.univ)
    (hq : ∀ c, (dats 0 c).q = shares) (howed : ∀ c t, (dats 0 c).owed t = 0)
    (hA : ∀ c w, (dats 0 c).A w = V m c (Pipeline.arrRef spec0 w))
    (hin : ∀ c, (Pipeline.scopedRest spec0 c : sProp 𝕄) ⊢ (dats 0 c).Φ 0)
    (hout : ∀ c, (dats 0 c).Φ (Fin.last cfg0.N) ⊢ (Pipeline.scopedRest spec0 c : sProp 𝕄)) :
    θ_run defs (onTc (τ := τ) (main (F := F))) (s₀ m ρ) (Pipeline.FramePost cfgs dats 0 (V m)) := by
  classical
  exact Pipeline.θ_run_region_noSem_shared cfgs dats () cellOf_inj (0 : Fin 1) winFacts₀0 emb₁ defs₀ 𝒱₀ m ρ main
    hbody block_pos0 arr_whole0 stage_whole0 howed
    (u₀ := initOf (Pipeline.cells cfgs cellOf_inj) (Pipeline.launchToks cfgs cellOf_inj))
    (hu₀ := .rfl)
    (V := V m) (hmain := hmain m 𝒱₀)
    (hsplit := fun c => arrays_of_arrBufs m c (dats 0 c) (hq c) (hA c))
    (X := fun _ => iprop(emp)) (Y := fun _ => iprop(emp))
    (Z := fun c => Pipeline.unscopedRest (Ix := Unit) (Name := ℕ) (U := UR sig nD τ) (Lvl := ℕ) spec0 c (V m c))
    (hX := fun c => by
      iintro H; isplitr; · iempintro
      iexact H)
    (hin := fun c => by
      iintro ⟨-, H⟩; iapply (hin c); iexact H)
    (hout := fun c => (hout c).trans (by
      iintro H; isplitr; · iempintro
      iexact H))
    (QY := fun c s => ∀ b ∈ Pipeline.restRefs sig spec0, s.mem ((c.tc : Thread nD τ).loc b) = V m c b)
    (hY := fun c s' => by
      iintro ⟨-, HU, HSI⟩
      unfold Pipeline.unscopedRest
      imodintro
      iapply (pointsTo_read_all (Pipeline.restRefs sig spec0) (fun b => (c.tc : Thread nD τ).loc b) (V m c) s')
      isplitl [HU] <;> iassumption)
    (hQ := fun s h c => ⟨(h c).1, (h c).2⟩)

end Cert.Kernel.Shared

end
-- ==== Proof.Bits.Points.lean ====
/-
  The sixteen grid points and the five branches of the body. Point t runs the branch "first point" iff t = 0,
  "degree phase" iff t < 8, "transition" iff t = 8, "message phase" iff 8 ≤ t, "last point" iff t = 15: five kinds of
  point (0; 1–7; 8; 9–14; 15). The output window is idle, and not written back, at every point but the last.
-/
import proofs.«101174_g88562225643609_cont_sun_c4_799_5_alg».proof.Proof.Bits.SharedLaunch
import proofs.«101174_g88562225643609_cont_sun_c4_799_5_alg».proof.Proof.Gen.Kernel.Skeleton
import Idealize.ShloMosaic.Lib.Ring

set_option maxRecDepth 16384

noncomputable section

namespace Cert.Kernel.Shared

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The body's branch on "this is the first point" (the degree row is cleared). -/
abbrev isFirst (i : grid0.Coords) : Prop :=
  (Scalar.cmpi .ne (Scalar.extui (Scalar.cmpi .eq (BitVec.ofNat 32 (i 0).val) 0#32)) 0#32) = 1#1
theorem isFirst_iff : ∀ t : Fin cfg0.N, isFirst (grid0.coords t) ↔ t.val = 0 :=
  (by decide +kernel : ∀ t : Fin grid0.N, isFirst (grid0.coords t) ↔ t.val = 0)

/-- The branch of the degree phase: column sums and the diagonal's slice of `miss`. -/
abbrev inDegPhase (i : grid0.Coords) : Prop := k0_cond2 i = 1#1
theorem inDegPhase_iff : ∀ t : Fin cfg0.N, inDegPhase (grid0.coords t) ↔ t.val < 8 :=
  (by decide +kernel : ∀ t : Fin grid0.N, inDegPhase (grid0.coords t) ↔ t.val < 8)

/-- The branch of the transition: the normalisation, the hidden layers, the messages; the accumulator cleared. -/
abbrev isTransition (i : grid0.Coords) : Prop :=
  (Scalar.cmpi .ne (Scalar.extui (Scalar.cmpi .eq (BitVec.ofNat 32 (i 0).val) 8#32)) 0#32) = 1#1
theorem isTransition_iff : ∀ t : Fin cfg0.N, isTransition (grid0.coords t) ↔ t.val = 8 :=
  (by decide +kernel : ∀ t : Fin grid0.N, isTransition (grid0.coords t) ↔ t.val = 8)

/-- The branch of the message phase: one band's contribution to the accumulator. -/
abbrev inMsgPhase (i : grid0.Coords) : Prop := k0_cond4 i = 1#1
theorem inMsgPhase_iff : ∀ t : Fin cfg0.N, inMsgPhase (grid0.coords t) ↔ 8 ≤ t.val :=
  (by decide +kernel : ∀ t : Fin grid0.N, inMsgPhase (grid0.coords t) ↔ 8 ≤ t.val)

/-- The branch of the last point: the result is assembled and stored. -/
abbrev isLast (i : grid0.Coords) : Prop := k0_cond5 i = 1#1
theorem isLast_iff : ∀ t : Fin cfg0.N, isLast (grid0.coords t) ↔ t.val = 15 :=
  (by decide +kernel : ∀ t : Fin grid0.N, isLast (grid0.coords t) ↔ t.val = 15)

/-- The output window is idle exactly off the last point, and written back exactly there. -/
theorem idle_out_iff : ∀ t : Fin cfg0.N, cfg0.idle 9 (grid0.coords t) = true ↔ t.val ≠ 15 := by decide +kernel
theorem flush_out_iff : ∀ t : Fin cfg0.N, (cfg0.win 9).flush t = true ↔ t.val = 15 := by decide +kernel
/-- No input window is ever idle. -/
theorem live_in : ∀ (w : Fin 10), w ≠ 9 → ∀ t : Fin cfg0.N, cfg0.idle w (grid0.coords t) = false := by decide +kernel

/-- The five scratch buffers as memrefs: the degree row (later the normalisation), `miss`, the accumulator, the
    messages in the narrow format, the messages transposed. -/
abbrev scDeg : Memref sig .tc .vmem S1x4096 .f32 := Memref.whole cc0_scratch0
abbrev scMiss : Memref sig .tc .vmem S4096x1 .f32 := Memref.whole cc0_scratch1
abbrev scAcc : Memref sig .tc .vmem S3x4096 .f32 := Memref.whole cc0_scratch2
abbrev scMsgN : Memref sig .tc .vmem S4096x3 .bf16 := Memref.whole cc0_scratch3
abbrev scMsgT : Memref sig .tc .vmem S3x4096 .f32 := Memref.whole cc0_scratch4

end Cert.Kernel.Shared

end
-- ==== Proof.Bits.Model.lean ====
/-
  What the kernel's scratch buffers and its result hold, as closed forms of the windows' blocks. The degree row after n
  bands is the cleared row with the bands' column sums added one by one; the column `miss` is, slice by slice, one
  minus the indicator of a positive diagonal entry; at point 8 the degree row becomes the normalisation, the messages
  are computed from the hidden layers and kept narrow and transposed; the accumulator after j bands is the cleared
  accumulator with the bands' contributions added one by one; the result is assembled from all of these.
-/
import proofs.«101174_g88562225643609_cont_sun_c4_799_5_alg».proof.Proof.Bits.Points
import Idealize.ShloMosaic.Lib.ValueIdx

set_option maxRecDepth 16384

noncomputable section

namespace Cert.Kernel.Shared

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- Window `w`'s block at point `t`, read off its array as the region finds it. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-- Point number `n` of the grid. -/
abbrev pt (n : ℕ) (h : n < 16) : Fin cfg0.N := ⟨n, lt_of_lt_of_eq h N_0.symm⟩

/-- The degree row after the first `n` bands (`n ≤ 8`): cleared, then each band's column sums added. -/
def degRow (c : Dev nD) : (n : ℕ) → n ≤ 8 → Vec F S1x4096 .f32
  | 0, _ => k0_pay2 (F := F)
  | n + 1, h => k0_pay3 (iblk m c 1 (pt n (by omega))) (degRow c n (by omega))

/-- The column `miss`, whole: row `r` is written at point `r / 512` from that point's diagonal square, at its row `r % 512`. -/
def missCol (c : Dev nD) : Vec F S4096x1 .f32 := fun y =>
  k0_pay4 (iblk m c 2 (pt ((y 0).val / 512) (by have h : (y 0).val < 4096 := (y 0).isLt; omega)))
    (ValueIdx.ix2 (⟨(y 0).val % 512, Nat.mod_lt _ (by decide)⟩ : Fin 512) (0 : Fin 1))

/-- The point of the transition. -/
abbrev t8 : Fin cfg0.N := pt 8 (by decide)
/-- The last point. -/
abbrev t15 : Fin cfg0.N := pt 15 (by decide)

/-- The normalisation row: the inverse square root of the degrees, `miss` added and clamped below by one. -/
def normRow (c : Dev nD) : Vec F S1x4096 .f32 := k0_pay11 (missCol m c) (degRow m c 8 le_rfl)

/-- The messages: the normalisation times the features of the two hidden layers and the convolution's weights. -/
def msgs (c : Dev nD) : Vec F S4096x3 .f32 :=
  k0_pay12 (missCol m c) (degRow m c 8 le_rfl) (iblk m c 0 t8) (iblk m c 3 t8) (iblk m c 4 t8) (iblk m c 5 t8) (iblk m c 6 t8) (iblk m c 7 t8)
/-- The messages in the narrow format, as stored. -/
def msgsN (c : Dev nD) : Vec F S4096x3 .bf16 :=
  k0_pay5 (k0_pay13 (missCol m c) (degRow m c 8 le_rfl) (iblk m c 0 t8) (iblk m c 3 t8) (iblk m c 4 t8) (iblk m c 5 t8) (iblk m c 6 t8) (iblk m c 7 t8))
/-- The messages transposed, as stored. -/
def msgsT (c : Dev nD) : Vec F S3x4096 .f32 := k0_pay6 (msgs m c)

/-- The rows of the narrow messages that band `8 + j` meets. -/
def msgSlice (c : Dev nD) (j : ℕ) (h : j < 8) : Vec F S512x3 .bf16 :=
  View.ld (msgsN m c) (Rect.unit (s := S4096x3) (k0_off2 (grid0.coords (pt (8 + j) (by omega)))) S512x3.size
    (k0_off2_inb _ ((inMsgPhase_iff (pt (8 + j) (by omega))).mpr (Nat.le_add_right 8 j))))

/-- The accumulator after the first `j` bands of the message phase (`j ≤ 8`): cleared, then each band's contribution added. -/
def accAt (c : Dev nD) : (j : ℕ) → j ≤ 8 → Vec F S3x4096 .f32
  | 0, _ => k0_pay7 (F := F)
  | j + 1, h => k0_pay8 (iblk m c 1 (pt (8 + j) (by omega))) (msgSlice m c j (by omega)) (accAt c j (by omega))

/-- The result, as stored at the last point. -/
def result (c : Dev nD) : Vec F S4096x3 .f32 :=
  k0_pay9 (missCol m c) (normRow m c) (accAt m c 8 le_rfl) (msgsT m c) (iblk m c 8 t15)

end Cert.Kernel.Shared

end
-- ==== Proof.Bits.Invariant.lean ====
/-
  What is known of the scratch buffers before each point, and how each kind of point carries it on. Before point n,
  1 ≤ n ≤ 8: the degree row holds the first n bands' column sums and the first 512·n rows of `miss` are final (the
  rest of `miss`, the accumulator and the two message buffers still hold whatever they held at the start). Before point
  n ≥ 9: the degree row holds the normalisation, `miss` and both message buffers are final, and the accumulator holds
  the first n − 8 bands' contributions. Row r of `miss` belongs to the slice written at point r / 512.
-/
import proofs.«101174_g88562225643609_cont_sun_c4_799_5_alg».proof.Proof.Bits.Model

set_option maxRecDepth 16384

noncomputable section

namespace Cert.Kernel.Shared

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The slice of `miss` the degree phase writes at point t starts at row 512·t, -/
theorem off1_eq : ∀ t : Fin cfg0.N, t.val < 8 → k0_off1 (grid0.coords t) = ![512 * t.val, 0] :=
  (by decide +kernel : ∀ t : Fin grid0.N, t.val < 8 → k0_off1 (grid0.coords t) = ![512 * t.val, 0])
/-- and the rows of the messages the message phase reads at point t start at row 512·(t − 8). -/
theorem off2_eq : ∀ t : Fin cfg0.N, 8 ≤ t.val → k0_off2 (grid0.coords t) = ![512 * (t.val - 8), 0] :=
  (by decide +kernel : ∀ t : Fin grid0.N, 8 ≤ t.val → k0_off2 (grid0.coords t) = ![512 * (t.val - 8), 0])

variable (c : Dev nD)

/-- The degree row after n bands, for every n (constant from 8 on). -/
def degTot (n : ℕ) : Vec F S1x4096 .f32 := if h : n ≤ 8 then degRow m c n h else degRow m c 8 le_rfl
/-- The accumulator after j bands, for every j (constant from 8 on). -/
def accTot (j : ℕ) : Vec F S3x4096 .f32 := if h : j ≤ 8 then accAt m c j h else accAt m c 8 le_rfl

theorem degTot_zero : degTot m c 0 = k0_pay2 (F := F) := by unfold degTot; rw [dif_pos (Nat.zero_le _)]; rfl
theorem degTot_succ (n : ℕ) (h : n < 8) : degTot m c (n + 1) = k0_pay3 (iblk m c 1 (pt n (by omega))) (degTot m c n) := by
  unfold degTot; rw [dif_pos (by omega : n + 1 ≤ 8), dif_pos (by omega : n ≤ 8)]; rfl
theorem degTot_eight : degTot m c 8 = degRow m c 8 le_rfl := by unfold degTot; rw [dif_pos le_rfl]
theorem accTot_zero : accTot m c 0 = k0_pay7 (F := F) := by unfold accTot; rw [dif_pos (Nat.zero_le _)]; rfl
theorem accTot_succ (j : ℕ) (h : j < 8) : accTot m c (j + 1) = k0_pay8 (iblk m c 1 (pt (8 + j) (by omega))) (msgSlice m c j h) (accTot m c j) := by
  unfold accTot; rw [dif_pos (by omega : j + 1 ≤ 8), dif_pos (by omega : j ≤ 8)]; rfl
theorem accTot_eight : accTot m c 8 = accAt m c 8 le_rfl := by unfold accTot; rw [dif_pos le_rfl]

/-- What is known of the five scratch buffers' contents before point `n`. -/
def Known (n : ℕ) (X0 : Vec F S1x4096 .f32) (X1 : Vec F S4096x1 .f32) (X2 : Vec F S3x4096 .f32) (X3 : Vec F S4096x3 .bf16)
    (X4 : Vec F S3x4096 .f32) : Prop :=
  (1 ≤ n → n ≤ 8 → X0 = degTot m c n ∧ ∀ y : S4096x1.Idx, (y 0).val < 512 * n → X1 y = missCol m c y)
  ∧ (9 ≤ n → X0 = normRow m c ∧ X1 = missCol m c ∧ X2 = accTot m c (n - 8) ∧ X3 = msgsN m c ∧ X4 = msgsT m c)

theorem known_zero (X0 X1 X2 X3 X4) : Known m c 0 X0 X1 X2 X3 X4 := ⟨fun h => absurd h (by omega), fun h => absurd h (by omega)⟩

/-- The slice written at point `n < 8`: the payload of the point's diagonal square on rows 512·n … 512·n + 511, the earlier
    contents elsewhere; with it the first 512·(n+1) rows are final. -/
theorem miss_step (n : ℕ) (hn : n < 8) (h16 : n < 16) (X1 : Vec F S4096x1 .f32)
    (inb : ∀ a, (k0_off1 (grid0.coords (pt n h16))) a + S512x1.size a ≤ S4096x1.size a)
    (hX : ∀ y : S4096x1.Idx, (y 0).val < 512 * n → X1 y = missCol m c y) (y : S4096x1.Idx) (hy : (y 0).val < 512 * (n + 1)) :
    (Rect.unit (s := S4096x1) (k0_off1 (grid0.coords (pt n h16))) S512x1.size inb).overlay X1
      (k0_pay4 (iblk m c 2 (pt n h16))) y = missCol m c y := by
  have ho := off1_eq (pt n h16) hn
  by_cases hlo : (y 0).val < 512 * n
  · rw [Rect.overlay_of_not_mem _ _ _ (fun hm => by
      have h0 := (Rect.mem_set_unit.mp hm 0).1
      rw [ho] at h0; simp at h0; omega)]
    exact hX y hlo
  · have hm : y ∈ (Rect.unit (s := S4096x1) (k0_off1 (grid0.coords (pt n h16))) S512x1.size inb).set := by
      rw [Rect.mem_set_unit]; intro a; rw [ho]
      fin_cases a
      · simp; omega
      · have := (y 1).isLt; simp at this ⊢; omega
    obtain ⟨x, hx⟩ := (Rect.unit (s := S4096x1) (k0_off1 (grid0.coords (pt n h16))) S512x1.size inb).exists_idx_of_mem hm
    subst hx
    rw [show (Rect.unit (s := S4096x1) (k0_off1 (grid0.coords (pt n h16))) S512x1.size inb).idx x
        = (Rect.unit (s := S4096x1) (k0_off1 (grid0.coords (pt n h16))) S512x1.size inb).emb x from rfl, Rect.overlay_emb]
    have h0 : (((Rect.unit (s := S4096x1) (k0_off1 (grid0.coords (pt n h16))) S512x1.size inb).emb x) 0).val = 512 * n + (x 0).val := by
      show k0_off1 (grid0.coords (pt n h16)) 0 + 1 * (x 0).val = _
      have h0' : k0_off1 (grid0.coords (pt n h16)) 0 = 512 * n := by have := congrFun ho 0; simpa using this
      omega
    have hx0 : (x 0).val < 512 := (x 0).isLt
    have hx1 : (x 1).val < 1 := (x 1).isLt
    have key : ∀ (a : ℕ) (ha : a < 16) (z : S512x1.Idx), a = n → z = x →
        k0_pay4 (iblk m c 2 (pt a ha)) z = k0_pay4 (iblk m c 2 (pt n h16)) x := by
      intro a ha z e1 e2; subst e1; subst e2; rfl
    unfold missCol
    refine (key _ _ _ ?_ ?_).symm
    · rw [h0]; omega
    · funext a
      fin_cases a
      · apply Fin.ext
        show (((Rect.unit (s := S4096x1) (k0_off1 (grid0.coords (pt n h16))) S512x1.size inb).emb x) 0).val % 512 = (x 0).val
        rw [h0]; omega
      · apply Fin.ext
        show 0 = (x 1).val
        omega

variable (X0 : Vec F S1x4096 .f32) (X1 : Vec F S4096x1 .f32) (X2 : Vec F S3x4096 .f32) (X3 : Vec F S4096x3 .bf16) (X4 : Vec F S3x4096 .f32)

/-- After the first point: one band's column sums over the cleared row, and the first slice of `miss`. -/
theorem known_first (h16 : 0 < 16)
    (inb : ∀ a, (k0_off1 (grid0.coords (pt 0 h16))) a + S512x1.size a ≤ S4096x1.size a) :
    Known m c 1 (k0_pay3 (iblk m c 1 (pt 0 h16)) (k0_pay2 (F := F)))
      ((Rect.unit (s := S4096x1) (k0_off1 (grid0.coords (pt 0 h16))) S512x1.size inb).overlay X1 (k0_pay4 (iblk m c 2 (pt 0 h16)))) X2 X3 X4 := by
  refine ⟨fun _ _ => ⟨?_, fun y hy => ?_⟩, fun h => absurd h (by omega)⟩
  · rw [degTot_succ m c 0 (by omega), degTot_zero]
  · exact miss_step m c 0 (by omega) h16 X1 inb (fun y hy => absurd hy (by omega)) y hy

/-- After a further point of the degree phase. -/
theorem known_deg (n : ℕ) (h1 : 1 ≤ n) (h8 : n < 8) (h16 : n < 16)
    (inb : ∀ a, (k0_off1 (grid0.coords (pt n h16))) a + S512x1.size a ≤ S4096x1.size a)
    (hK : Known m c n X0 X1 X2 X3 X4) :
    Known m c (n + 1) (k0_pay3 (iblk m c 1 (pt n h16)) X0)
      ((Rect.unit (s := S4096x1) (k0_off1 (grid0.coords (pt n h16))) S512x1.size inb).overlay X1 (k0_pay4 (iblk m c 2 (pt n h16)))) X2 X3 X4 := by
  obtain ⟨hX0, hX1⟩ := hK.1 h1 (by omega)
  refine ⟨fun _ _ => ⟨?_, fun y hy => miss_step m c n h8 h16 X1 inb hX1 y hy⟩, fun h => absurd h (by omega)⟩
  rw [degTot_succ m c n h8, hX0]

/-- After the transition: the normalisation, both message buffers, and the first band's contribution over the cleared accumulator. -/
theorem known_transition
    (inb : ∀ a, (k0_off2 (grid0.coords t8)) a + S512x3.size a ≤ S4096x3.size a)
    (hK : Known m c 8 X0 X1 X2 X3 X4) :
    Known m c 9 (k0_pay11 X1 X0) X1
      (k0_pay8 (iblk m c 1 t8) (View.ld (k0_pay5 (k0_pay13 X1 X0 (iblk m c 0 t8) (iblk m c 3 t8) (iblk m c 4 t8) (iblk m c 5 t8) (iblk m c 6 t8) (iblk m c 7 t8)))
        (Rect.unit (s := S4096x3) (k0_off2 (grid0.coords t8)) S512x3.size inb)) (k0_pay7 (F := F)))
      (k0_pay5 (k0_pay13 X1 X0 (iblk m c 0 t8) (iblk m c 3 t8) (iblk m c 4 t8) (iblk m c 5 t8) (iblk m c 6 t8) (iblk m c 7 t8))) (k0_pay6 (k0_pay12 X1 X0 (iblk m c 0 t8) (iblk m c 3 t8) (iblk m c 4 t8) (iblk m c 5 t8) (iblk m c 6 t8) (iblk m c 7 t8))) := by
  obtain ⟨hX0, hX1⟩ := hK.1 (by omega) le_rfl
  have hX1' : X1 = missCol m c := funext fun y => hX1 y (by have : (y 0).val < 4096 := (y 0).isLt; omega)
  rw [degTot_eight] at hX0
  subst hX1'; subst hX0
  refine ⟨fun _ h => absurd h (by omega), fun _ => ⟨rfl, rfl, ?_, rfl, rfl⟩⟩
  show _ = accTot m c 1
  rw [accTot_succ m c 0 (by omega), accTot_zero]
  rfl

/-- After a further point of the message phase (the last point included). -/
theorem known_msg (n : ℕ) (h9 : 9 ≤ n) (h16 : n < 16)
    (inb : ∀ a, (k0_off2 (grid0.coords (pt n h16))) a + S512x3.size a ≤ S4096x3.size a)
    (hK : Known m c n X0 X1 X2 X3 X4) :
    Known m c (n + 1) X0 X1
      (k0_pay8 (iblk m c 1 (pt n h16)) (View.ld X3 (Rect.unit (s := S4096x3) (k0_off2 (grid0.coords (pt n h16))) S512x3.size inb)) X2) X3 X4 := by
  obtain ⟨h0, h1, h2, h3, h4⟩ := hK.2 h9
  refine ⟨fun _ h => absurd h (by omega), fun _ => ⟨h0, h1, ?_, h3, h4⟩⟩
  subst h3; subst h2
  obtain ⟨j, rfl⟩ : ∃ j, n = 8 + j := ⟨n - 8, by omega⟩
  rw [show 8 + j + 1 - 8 = j + 1 by omega, show 8 + j - 8 = j by omega, accTot_succ m c j (by omega)]
  rfl

/-- What the last point stores is the model's result. -/
theorem known_result
    (inb : ∀ a, (k0_off2 (grid0.coords t15)) a + S512x3.size a ≤ S4096x3.size a)
    (hK : Known m c 15 X0 X1 X2 X3 X4) :
    k0_pay9 X1 X0 (k0_pay8 (iblk m c 1 t15) (View.ld X3 (Rect.unit (s := S4096x3) (k0_off2 (grid0.coords t15)) S512x3.size inb)) X2) X4 (iblk m c 8 t15)
      = result m c := by
  obtain ⟨h0, h1, h2, h3, h4⟩ := hK.2 (by omega)
  subst h0; subst h1; subst h2; subst h3; subst h4
  unfold result
  rw [← accTot_eight, show (8 : ℕ) = 7 + 1 from rfl, accTot_succ m c 7 (by omega)]
  rfl

end Cert.Kernel.Shared

end
-- ==== Proof.Bits.Data.lean ====
/-
  The proof data of the region. The arrays are those the region finds; every input window's staging buffer holds its
  block at every point, fetched there or not, and the body leaves it so; the output window is left at the model's
  result at the last point, the only point that stores into it and the only one that writes it back; the invariant
  before point n is the five scratch buffers at some contents of which `Known n` holds. It is made from the scratch
  buffers at anything when the region starts, and gives them back at anything when it ends.
-/
import proofs.«101174_g88562225643609_cont_sun_c4_799_5_alg».proof.Proof.Bits.Invariant

set_option maxRecDepth 16384

noncomputable section

namespace Cert.Kernel.Shared

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

variable (c : Dev nD)

/-- The invariant before point `n`. -/
def PhiS (n : ℕ) : sProp 𝕄 :=
  iprop(∃ (X0 : Vec F S1x4096 .f32) (X1 : Vec F S4096x1 .f32) (X2 : Vec F S3x4096 .f32) (X3 : Vec F S4096x3 .bf16) (X4 : Vec F S3x4096 .f32),
    ⌜Known m c n X0 X1 X2 X3 X4⌝ ∗ owns (c : Thread nD τ) scDeg fullShare X0 ∗ owns (c : Thread nD τ) scMiss fullShare X1
      ∗ owns (c : Thread nD τ) scAcc fullShare X2 ∗ owns (c : Thread nD τ) scMsgN fullShare X3 ∗ owns (c : Thread nD τ) scMsgT fullShare X4)

/-- The proof data of the one pipeline on core `c`. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, _⟩ => iblk m c 8 t
    | ⟨9, _⟩ => result m c
  Φ t := PhiS m c t.val
  q := shares
  owed _ := 0

theorem A_eq (w : Fin cfg0.W) : (dats m 0 c).A w = V m c (Pipeline.arrRef spec0 w) := by dsimp only [dats]
theorem q_eq : (dats m 0 c).q = shares := by dsimp only [dats]

theorem after_0 (t : Fin cfg0.N) : (dats m 0 c).after 0 t = iblk m c 0 t := by dsimp only [dats]
theorem after_1 (t : Fin cfg0.N) : (dats m 0 c).after 1 t = iblk m c 1 t := by dsimp only [dats]
theorem after_2 (t : Fin cfg0.N) : (dats m 0 c).after 2 t = iblk m c 2 t := by dsimp only [dats]
theorem after_3 (t : Fin cfg0.N) : (dats m 0 c).after 3 t = iblk m c 3 t := by dsimp only [dats]
theorem after_4 (t : Fin cfg0.N) : (dats m 0 c).after 4 t = iblk m c 4 t := by dsimp only [dats]
theorem after_5 (t : Fin cfg0.N) : (dats m 0 c).after 5 t = iblk m c 5 t := by dsimp only [dats]
theorem after_6 (t : Fin cfg0.N) : (dats m 0 c).after 6 t = iblk m c 6 t := by dsimp only [dats]
theorem after_7 (t : Fin cfg0.N) : (dats m 0 c).after 7 t = iblk m c 7 t := by dsimp only [dats]
theorem after_8 (t : Fin cfg0.N) : (dats m 0 c).after 8 t = iblk m c 8 t := by dsimp only [dats]
theorem after_9 (t : Fin cfg0.N) : (dats m 0 c).after 9 t = result m c := by dsimp only [dats]

/-- Input window 0's current staging buffer holds its block at every point. -/
theorem before_0 (t : Fin cfg0.N) (d) : (dats m 0 c).before 0 t d = iblk m c 0 t :=
  ((dats m 0 c).before_in_eq_fetched 0 rfl (fun _ => rfl) (fun _ _ _ => rfl)
    (fun t => by rw [after_0]; unfold Dat.blockOf iblk; rw [A_eq]; try rfl) t d).trans
    (by unfold Dat.fetched Dat.blockOf iblk; rw [A_eq]; try rfl)
/-- Input window 1's current staging buffer holds its block at every point. -/
theorem before_1 (t : Fin cfg0.N) (d) : (dats m 0 c).before 1 t d = iblk m c 1 t :=
  ((dats m 0 c).before_in_eq_fetched 1 rfl (fun _ => rfl) (fun _ _ _ => rfl)
    (fun t => by rw [after_1]; unfold Dat.blockOf iblk; rw [A_eq]; try rfl) t d).trans
    (by unfold Dat.fetched Dat.blockOf iblk; rw [A_eq]; try rfl)
/-- Input window 2's current staging buffer holds its block at every point. -/
theorem before_2 (t : Fin cfg0.N) (d) : (dats m 0 c).before 2 t d = iblk m c 2 t :=
  ((dats m 0 c).before_in_eq_fetched 2 rfl (fun _ => rfl) (fun _ _ _ => rfl)
    (fun t => by rw [after_2]; unfold Dat.blockOf iblk; rw [A_eq]; try rfl) t d).trans
    (by unfold Dat.fetched Dat.blockOf iblk; rw [A_eq]; try rfl)
/-- Input window 3's current staging buffer holds its block at every point. -/
theorem before_3 (t : Fin cfg0.N) (d) : (dats m 0 c).before 3 t d = iblk m c 3 t :=
  ((dats m 0 c).before_in_eq_fetched 3 rfl (fun _ => rfl) (fun _ _ _ => rfl)
    (fun t => by rw [after_3]; unfold Dat.blockOf iblk; rw [A_eq]; try rfl) t d).trans
    (by unfold Dat.fetched Dat.blockOf iblk; rw [A_eq]; try rfl)
/-- Input window 4's current staging buffer holds its block at every point. -/
theorem before_4 (t : Fin cfg0.N) (d) : (dats m 0 c).before 4 t d = iblk m c 4 t :=
  ((dats m 0 c).before_in_eq_fetched 4 rfl (fun _ => rfl) (fun _ _ _ => rfl)
    (fun t => by rw [after_4]; unfold Dat.blockOf iblk; rw [A_eq]; try rfl) t d).trans
    (by unfold Dat.fetched Dat.blockOf iblk; rw [A_eq]; try rfl)
/-- Input window 5's current staging buffer holds its block at every point. -/
theorem before_5 (t : Fin cfg0.N) (d) : (dats m 0 c).before 5 t d = iblk m c 5 t :=
  ((dats m 0 c).before_in_eq_fetched 5 rfl (fun _ => rfl) (fun _ _ _ => rfl)
    (fun t => by rw [after_5]; unfold Dat.blockOf iblk; rw [A_eq]; try rfl) t d).trans
    (by unfold Dat.fetched Dat.blockOf iblk; rw [A_eq]; try rfl)
/-- Input window 6's current staging buffer holds its block at every point. -/
theorem before_6 (t : Fin cfg0.N) (d) : (dats m 0 c).before 6 t d = iblk m c 6 t :=
  ((dats m 0 c).before_in_eq_fetched 6 rfl (fun _ => rfl) (fun _ _ _ => rfl)
    (fun t => by rw [after_6]; unfold Dat.blockOf iblk; rw [A_eq]; try rfl) t d).trans
    (by unfold Dat.fetched Dat.blockOf iblk; rw [A_eq]; try rfl)
/-- Input window 7's current staging buffer holds its block at every point. -/
theorem before_7 (t : Fin cfg0.N) (d) : (dats m 0 c).before 7 t d = iblk m c 7 t :=
  ((dats m 0 c).before_in_eq_fetched 7 rfl (fun _ => rfl) (fun _ _ _ => rfl)
    (fun t => by rw [after_7]; unfold Dat.blockOf iblk; rw [A_eq]; try rfl) t d).trans
    (by unfold Dat.fetched Dat.blockOf iblk; rw [A_eq]; try rfl)
/-- Input window 8's current staging buffer holds its block at every point. -/
theorem before_8 (t : Fin cfg0.N) (d) : (dats m 0 c).before 8 t d = iblk m c 8 t :=
  ((dats m 0 c).before_in_eq_fetched 8 rfl (fun _ => rfl) (fun _ _ _ => rfl)
    (fun t => by rw [after_8]; unfold Dat.blockOf iblk; rw [A_eq]; try rfl) t d).trans
    (by unfold Dat.fetched Dat.blockOf iblk; rw [A_eq]; try rfl)

theorem Phi_castSucc (t : Fin cfg0.N) : (dats m 0 c).Φ t.castSucc = PhiS m c t.val := by
  dsimp only [dats]; simp only [Fin.coe_castSucc]
theorem Phi_succ (t : Fin cfg0.N) : (dats m 0 c).Φ t.succ = PhiS m c (t.val + 1) := by
  dsimp only [dats]; simp only [Fin.val_succ]

/-- When the region starts, the scratch buffers at anything are the invariant before the first point. -/
theorem phi_in : (Pipeline.scopedRest spec0 c : sProp 𝕄) ⊢ (dats m 0 c).Φ 0 := by
  rw [show (dats m 0 c).Φ 0 = PhiS m c 0 from rfl, scopedRest0_eq]
  unfold PhiS
  simp only [← owns_whole]
  iintro ⟨⟨%f0, H0⟩, ⟨%f1, H1⟩, ⟨%f2, H2⟩, ⟨%f3, H3⟩, ⟨%f4, H4⟩⟩
  iexists f0, f1, f2, f3, f4
  isplitr; · ipureintro; exact known_zero m c f0 f1 f2 f3 f4
  isplitl [H0]; · iexact H0
  isplitl [H1]; · iexact H1
  isplitl [H2]; · iexact H2
  isplitl [H3]; · iexact H3
  iexact H4

/-- When it ends, the invariant gives them back, their contents forgotten. -/
theorem phi_out : (dats m 0 c).Φ (Fin.last cfg0.N) ⊢ (Pipeline.scopedRest spec0 c : sProp 𝕄) := by
  rw [show (dats m 0 c).Φ (Fin.last cfg0.N) = PhiS m c (Fin.last cfg0.N).val from rfl, scopedRest0_eq]
  unfold PhiS
  simp only [← owns_whole]
  iintro ⟨%f0, %f1, %f2, %f3, %f4, -, H0, H1, H2, H3, H4⟩
  isplitl [H0]; · iexists f0; iexact H0
  isplitl [H1]; · iexists f1; iexact H1
  isplitl [H2]; · iexists f2; iexact H2
  isplitl [H3]; · iexists f3; iexact H3
  iexists f4; iexact H4

/-- What the body is called with at point `t`, -/
def bodyPre (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d))
    ∗ (∃ d, owns (c : Thread nD τ) (st0_5 t) fullShare ((dats m 0 c).before 5 t d))
    ∗ (∃ d, owns (c : Thread nD τ) (st0_6 t) fullShare ((dats m 0 c).before 6 t d))
    ∗ (∃ d, owns (c : Thread nD τ) (st0_7 t) fullShare ((dats m 0 c).before 7 t d))
    ∗ (∃ d, owns (c : Thread nD τ) (st0_8 t) fullShare ((dats m 0 c).before 8 t d))
    ∗ (∃ d, owns (c : Thread nD τ) (st0_9 t) fullShare ((dats m 0 c).before 9 t d)))

/-- and what it returns. -/
def bodyPost (t : Fin cfg0.N) : sProp 𝕄 :=
  iprop((dats m 0 c).Φ t.succ ∗ (dats m 0 c).owesAt () t.succ
    ∗ (dats m 0 c).leavesExact 0 t
    ∗ (dats m 0 c).leavesExact 1 t
    ∗ (dats m 0 c).leavesExact 2 t
    ∗ (dats m 0 c).leavesExact 3 t
    ∗ (dats m 0 c).leavesExact 4 t
    ∗ (dats m 0 c).leavesExact 5 t
    ∗ (dats m 0 c).leavesExact 6 t
    ∗ (dats m 0 c).leavesExact 7 t
    ∗ (dats m 0 c).leavesExact 8 t
    ∗ (dats m 0 c).leavesExact 9 t)

/-- An input window's buffer is handed back at its block. -/
theorem leaves_0 (t : Fin cfg0.N) : (dats m 0 c).leavesExact 0 t = owns (c : Thread nD τ) (st0_0 t) fullShare (iblk m c 0 t) := by
  unfold Dat.leavesExact; rw [live_in 0 (by decide) t, after_0]
theorem leaves_1 (t : Fin cfg0.N) : (dats m 0 c).leavesExact 1 t = owns (c : Thread nD τ) (st0_1 t) fullShare (iblk m c 1 t) := by
  unfold Dat.leavesExact; rw [live_in 1 (by decide) t, after_1]
theorem leaves_2 (t : Fin cfg0.N) : (dats m 0 c).leavesExact 2 t = owns (c : Thread nD τ) (st0_2 t) fullShare (iblk m c 2 t) := by
  unfold Dat.leavesExact; rw [live_in 2 (by decide) t, after_2]
theorem leaves_3 (t : Fin cfg0.N) : (dats m 0 c).leavesExact 3 t = owns (c : Thread nD τ) (st0_3 t) fullShare (iblk m c 3 t) := by
  unfold Dat.leavesExact; rw [live_in 3 (by decide) t, after_3]
theorem leaves_4 (t : Fin cfg0.N) : (dats m 0 c).leavesExact 4 t = owns (c : Thread nD τ) (st0_4 t) fullShare (iblk m c 4 t) := by
  unfold Dat.leavesExact; rw [live_in 4 (by decide) t, after_4]
theorem leaves_5 (t : Fin cfg0.N) : (dats m 0 c).leavesExact 5 t = owns (c : Thread nD τ) (st0_5 t) fullShare (iblk m c 5 t) := by
  unfold Dat.leavesExact; rw [live_in 5 (by decide) t, after_5]
theorem leaves_6 (t : Fin cfg0.N) : (dats m 0 c).leavesExact 6 t = owns (c : Thread nD τ) (st0_6 t) fullShare (iblk m c 6 t) := by
  unfold Dat.leavesExact; rw [live_in 6 (by decide) t, after_6]
theorem leaves_7 (t : Fin cfg0.N) : (dats m 0 c).leavesExact 7 t = owns (c : Thread nD τ) (st0_7 t) fullShare (iblk m c 7 t) := by
  unfold Dat.leavesExact; rw [live_in 7 (by decide) t, after_7]
theorem leaves_8 (t : Fin cfg0.N) : (dats m 0 c).leavesExact 8 t = owns (c : Thread nD τ) (st0_8 t) fullShare (iblk m c 8 t) := by
  unfold Dat.leavesExact; rw [live_in 8 (by decide) t, after_8]
/-- Off the last point the output window's buffer is handed back as found; at the last point at the result. -/
theorem leaves_9_idle (t : Fin cfg0.N) (h : t.val ≠ 15) :
    (dats m 0 c).leavesExact 9 t = iprop(∃ d, owns (c : Thread nD τ) (st0_9 t) fullShare ((dats m 0 c).before 9 t d)) :=
  Dat.leavesExact_idle (dats m 0 c) 9 t ((idle_out_iff t).mpr h) (by
    have := flush_out_iff t; cases hf : (cfg0.win 9).flush t
    · rfl
    · exact absurd (this.mp hf) h)
theorem leaves_9_last (t : Fin cfg0.N) (h : t.val = 15) :
    (dats m 0 c).leavesExact 9 t = owns (c : Thread nD τ) (st0_9 t) fullShare (result m c) := by
  unfold Dat.leavesExact
  rw [show cfg0.idle 9 (grid0.coords t) = false from by
    have := idle_out_iff t; cases hi : cfg0.idle 9 (grid0.coords t)
    · rfl
    · exact absurd h (this.mp hi), after_9]

end Cert.Kernel.Shared

end
-- ==== Proof.Bits.RunA.lean ====
/-
  The body at the first point: the degree row is cleared, then the first band's column sums are added and the first slice of `miss` is written. Run once on any whole staging and scratch buffers at any contents; what each
  buffer it stores into ends with is found by the run, as the list of pieces stored.
-/
import proofs.«101174_g88562225643609_cont_sun_c4_799_5_alg».proof.Proof.Bits.Points
import Idealize.ShloMosaic.Lib.Pipeline.FrameBody

set_option maxRecDepth 16384

noncomputable section

namespace Cert.Kernel.Shared

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option maxHeartbeats 4000000 in
noncomputable def runA (c : Dev nD) (i : grid0.Coords) (arg1 : Memref sig .tc .vmem S4096x3 .f32) (harg1 : arg1.IsWhole) (arg2 : Memref sig .tc .vmem S512x4096 .f32) (harg2 : arg2.IsWhole) (arg3 : Memref sig .tc .vmem S512x512 .f32) (harg3 : arg3.IsWhole) (arg4 : Memref sig .tc .vmem S3x16 .f32) (harg4 : arg4.IsWhole) (arg5 : Memref sig .tc .vmem S1x16 .f32) (harg5 : arg5.IsWhole) (arg6 : Memref sig .tc .vmem S16x3 .f32) (harg6 : arg6.IsWhole) (arg7 : Memref sig .tc .vmem S1x3 .f32) (harg7 : arg7.IsWhole) (arg8 : Memref sig .tc .vmem S3x3 .f32) (harg8 : arg8.IsWhole) (arg9 : Memref sig .tc .vmem S1x3 .f32) (harg9 : arg9.IsWhole) (arg10 : Memref sig .tc .vmem S4096x3 .f32) (harg10 : arg10.IsWhole) (arg11 : Memref sig .tc .vmem S1x4096 .f32) (harg11 : arg11.IsWhole) (arg12 : Memref sig .tc .vmem S4096x1 .f32) (harg12 : arg12.IsWhole) (arg13 : Memref sig .tc .vmem S3x4096 .f32) (harg13 : arg13.IsWhole) (arg14 : Memref sig .tc .vmem S4096x3 .bf16) (harg14 : arg14.IsWhole) (arg15 : Memref sig .tc .vmem S3x4096 .f32) (harg15 : arg15.IsWhole)
    (hc0 : isFirst i) (hc1 : inDegPhase i) (hc2 : ¬isTransition i) (hc3 : ¬inMsgPhase i) (hc4 : ¬isLast i)
    (x1 : Vec F S4096x3 .f32) (x2 : Vec F S512x4096 .f32) (x3 : Vec F S512x512 .f32) (x4 : Vec F S3x16 .f32) (x5 : Vec F S1x16 .f32) (x6 : Vec F S16x3 .f32) (x7 : Vec F S1x3 .f32) (x8 : Vec F S3x3 .f32) (x9 : Vec F S1x3 .f32) (x10 : Vec F S4096x3 .f32) (x11 : Vec F S1x4096 .f32) (x12 : Vec F S4096x1 .f32) (x13 : Vec F S3x4096 .f32) (x14 : Vec F S4096x3 .bf16) (x15 : Vec F S3x4096 .f32) :
    Σ' (L11 : List (View.Piece (Elt F) S1x4096 .f32)), { L12 : List (View.Piece (Elt F) S4096x1 .f32) //
      ∀ (E : Set ℕ) (K : PUnit → sProp 𝕄),
        iprop(owns (c : Thread nD τ) arg1 fullShare x1 ∗ owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg6 fullShare x6 ∗ owns (c : Thread nD τ) arg7 fullShare x7 ∗ owns (c : Thread nD τ) arg8 fullShare x8 ∗ owns (c : Thread nD τ) arg9 fullShare x9 ∗ owns (c : Thread nD τ) arg10 fullShare x10 ∗ owns (c : Thread nD τ) arg11 fullShare x11 ∗ owns (c : Thread nD τ) arg12 fullShare x12 ∗ owns (c : Thread nD τ) arg13 fullShare x13 ∗ owns (c : Thread nD τ) arg14 fullShare x14 ∗ owns (c : Thread nD τ) arg15 fullShare x15
            ∗ (iprop(owns (c : Thread nD τ) arg1 fullShare x1 ∗ owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg6 fullShare x6 ∗ owns (c : Thread nD τ) arg7 fullShare x7 ∗ owns (c : Thread nD τ) arg8 fullShare x8 ∗ owns (c : Thread nD τ) arg9 fullShare x9 ∗ owns (c : Thread nD τ) arg10 fullShare x10 ∗ (∃ f, arg11.view.loc (c : Thread nD τ) ↦[arg11.view.set]{fullShare} arg11.view.writes (Elt F) f L11) ∗ (arg12.view.loc (c : Thread nD τ) ↦[arg12.view.set]{fullShare} arg12.view.writes (Elt F) (harg12.unread x12) L12) ∗ owns (c : Thread nD τ) arg13 fullShare x13 ∗ owns (c : Thread nD τ) arg14 fullShare x14 ∗ owns (c : Thread nD τ) arg15 fullShare x15) -∗ K ⟨⟩))
          ⊢ wp frame (wpE (defs₀ (F := F)) Variants.none c none) E (cc0__gcn_kernel i arg1 harg1 arg2 harg2 arg3 harg3 arg4 harg4 arg5 harg5 arg6 harg6 arg7 harg7 arg8 harg8 arg9 harg9 arg10 harg10 arg11 harg11 arg12 harg12 arg13 harg13 arg14 harg14 arg15 harg15) K } := by
  refine ⟨?_, ?_, fun E K => ?run⟩
  case run =>
    simp only [cc0__gcn_kernel_eq_skeleton]; unfold cc0__gcn_kernel_skel
    unfold owns
    iintro ⟨⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%f12, %hf12, H12⟩, ⟨%f13, %hf13, H13⟩, ⟨%f14, %hf14, H14⟩, ⟨%f15, %hf15, H15⟩, Hk⟩
    obtain rfl := harg1.eq_unread hf1; obtain rfl := harg2.eq_unread hf2; obtain rfl := harg3.eq_unread hf3; obtain rfl := harg4.eq_unread hf4; obtain rfl := harg5.eq_unread hf5; obtain rfl := harg6.eq_unread hf6; obtain rfl := harg7.eq_unread hf7; obtain rfl := harg8.eq_unread hf8; obtain rfl := harg9.eq_unread hf9; obtain rfl := harg10.eq_unread hf10; obtain rfl := harg11.eq_unread hf11; obtain rfl := harg12.eq_unread hf12; obtain rfl := harg13.eq_unread hf13; obtain rfl := harg14.eq_unread hf14; obtain rfl := harg15.eq_unread hf15
    sl_exec (disch := first | exact hc0 | exact hc1 | exact hc2 | exact hc3 | exact hc4)
    sl_step
    iapply Hk
    isplitl [H1]
    · iexists _; isplitr; · ipureintro; exact harg1.read_unread _
      iexact H1
    isplitl [H2]
    · iexists _; isplitr; · ipureintro; exact harg2.read_unread _
      iexact H2
    isplitl [H3]
    · iexists _; isplitr; · ipureintro; exact harg3.read_unread _
      iexact H3
    isplitl [H4]
    · iexists _; isplitr; · ipureintro; exact harg4.read_unread _
      iexact H4
    isplitl [H5]
    · iexists _; isplitr; · ipureintro; exact harg5.read_unread _
      iexact H5
    isplitl [H6]
    · iexists _; isplitr; · ipureintro; exact harg6.read_unread _
      iexact H6
    isplitl [H7]
    · iexists _; isplitr; · ipureintro; exact harg7.read_unread _
      iexact H7
    isplitl [H8]
    · iexists _; isplitr; · ipureintro; exact harg8.read_unread _
      iexact H8
    isplitl [H9]
    · iexists _; isplitr; · ipureintro; exact harg9.read_unread _
      iexact H9
    isplitl [H10]
    · iexists _; isplitr; · ipureintro; exact harg10.read_unread _
      iexact H10
    isplitl [H11]
    · iexists _; iexact H11
    isplitl [H12]
    · iexact H12
    isplitl [H13]
    · iexists _; isplitr; · ipureintro; exact harg13.read_unread _
      iexact H13
    isplitl [H14]
    · iexists _; isplitr; · ipureintro; exact harg14.read_unread _
      iexact H14
    iexists _; isplitr; · ipureintro; exact harg15.read_unread _
    iexact H15

end Cert.Kernel.Shared

end
-- ==== Proof.Bits.Readback.lean ====
/-
  Reading back what stores leave. A store through the whole rectangle of a buffer, made last, leaves its payload,
  whatever was stored before it and whatever the buffer held; a load through the whole rectangle reads the contents;
  a store through a part leaves the payload on the part and the earlier contents off it.
-/
import proofs.«101174_g88562225643609_cont_sun_c4_799_5_alg».proof.Proof.Bits.Points
import Idealize.ShloMosaic.Lib.Pipeline.Value

set_option maxRecDepth 16384

noncomputable section

namespace Cert.Kernel.Shared

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

theorem zeros2 : (![0, 0] : Fin 2 → ℕ) = fun _ => 0 := by funext a; fin_cases a <;> rfl

section
variable {sg : RefSig} {κ : Kind} {sp : Space} {S : Shape} {e : EltTy} {Val : EltTy → Type} [∀ e, Nonempty (Val e)]

/-- The last store, through the whole rectangle, leaves its payload. -/
theorem read_store_whole (v : View sg κ sp S e) (f : v.ty.Contents Val) {off : Fin S.rank → ℕ} (hz : off = fun _ => 0)
    (inb : ∀ a, off a + S.size a ≤ S.size a) (w : S.Idx → Val e) (L : List (View.Piece Val S e)) :
    v.read Val (v.writes Val f (⟨Rect.unit off S.size inb, w⟩ :: L)) = w := by
  rw [View.read_writes_eq_canon v f _ (fun y => ⟨_, List.mem_cons_self, View.mem_set_unit_zero hz inb y⟩),
    View.canon_cons_unit_zero hz inb w L]

/-- A load through the whole rectangle of a whole buffer reads its contents. -/
theorem load_whole (mr : Memref sg κ sp S e) (h : mr.IsWhole) {off : Fin S.rank → ℕ} (hz : off = fun _ => 0)
    (inb : ∀ a, off a + S.size a ≤ S.size a) (X : S.Idx → Val e) :
    View.readAt Val mr.view (Rect.unit off S.size inb).toLoadRect (h.unread X) = X := by
  rw [View.readAt_eq_ld, h.read_unread, View.ld_unit_zero hz inb]

/-- One store through a part of a whole buffer that held `X` leaves the payload on the part, `X` off it. -/
theorem read_store_part (mr : Memref sg κ sp S e) (h : mr.IsWhole) (r : Rect S) (w : r.shape.Idx → Val e) (X : S.Idx → Val e) :
    mr.view.read Val (mr.view.writes Val (h.unread X) [⟨r, w⟩]) = r.overlay X w := by
  funext y
  by_cases hy : y ∈ r.set
  · obtain ⟨x, rfl⟩ := r.exists_idx_of_mem hy
    rw [show r.idx x = r.emb x from rfl, View.read_writes_cons_emb, Rect.overlay_emb]
  · rw [View.read_writes_apply_of_forall_not_mem _ _ y [⟨r, w⟩] (fun p hp => by
        rw [List.mem_singleton] at hp; subst hp; exact hy), h.read_unread, Rect.overlay_of_not_mem _ _ _ hy]

/-- The two facts above at rank two, the offsets spelt `![0, 0]`, as the printed programs spell them. -/
theorem ld_whole2 {d : Fin 2 → ℕ} (X : (⟨2, d⟩ : Shape).Idx → Val e)
    (inb : ∀ a, (![0, 0] : Fin 2 → ℕ) a + d a ≤ (⟨2, d⟩ : Shape).size a) :
    View.ld X (Rect.unit (s := ⟨2, d⟩) ![0, 0] d inb) = X := View.ld_unit_zero zeros2 inb X

theorem read_store_whole2 {d : Fin 2 → ℕ} (v : View sg κ sp ⟨2, d⟩ e) (f : v.ty.Contents Val)
    (inb : ∀ a, (![0, 0] : Fin 2 → ℕ) a + d a ≤ (⟨2, d⟩ : Shape).size a) (w : (⟨2, d⟩ : Shape).Idx → Val e)
    (L : List (View.Piece Val ⟨2, d⟩ e)) :
    v.read Val (v.writes Val f (⟨Rect.unit (s := ⟨2, d⟩) ![0, 0] d inb, w⟩ :: L)) = w := read_store_whole v f zeros2 inb w L

/-- A load through a part of a whole buffer reads the contents at the part's indices. -/
theorem load_part (mr : Memref sg κ sp S e) (h : mr.IsWhole) (r : Rect S) (X : S.Idx → Val e) :
    View.readAt Val mr.view r.toLoadRect (h.unread X) = View.ld X r := by
  rw [View.readAt_eq_ld, h.read_unread]
end

end Cert.Kernel.Shared

end
-- ==== Proof.Bits.Covered.lean ====
/-
  A load that follows a store of the same point. After one store through the whole rectangle of a buffer, a load
  through any part of it reads the stored payload at the part's indices, whatever the buffer held before.
-/
import proofs.«101174_g88562225643609_cont_sun_c4_799_5_alg».proof.Proof.Bits.Readback

set_option maxRecDepth 16384

noncomputable section

namespace Cert.Kernel.Shared

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

section
variable {sg : RefSig} {κ : Kind} {sp : Space} {e : EltTy} {Val : EltTy → Type} [∀ e, Nonempty (Val e)]

theorem readCov_part {S : Shape} (v : View sg κ sp S e) {off : Fin S.rank → ℕ} (hz : off = fun _ => 0)
    (inb : ∀ a, off a + S.size a ≤ S.size a) (w : S.Idx → Val e) (r : Rect S) :
    v.readCov [(⟨Rect.unit off S.size inb, w⟩ : View.Piece Val S e)] r.toLoadRect = View.ld w r := by
  subst hz
  rw [View.readCov_eq_canon_ld v _ r (fun y => ⟨_, List.mem_singleton_self _, View.mem_set_unit_zero rfl inb y⟩),
    View.canon_unit_zero rfl inb w]

theorem readCov_part2 {d : Fin 2 → ℕ} (v : View sg κ sp ⟨2, d⟩ e)
    (inb : ∀ a, (![0, 0] : Fin 2 → ℕ) a + d a ≤ (⟨2, d⟩ : Shape).size a) (w : (⟨2, d⟩ : Shape).Idx → Val e) (r : Rect ⟨2, d⟩) :
    v.readCov [(⟨Rect.unit (s := ⟨2, d⟩) ![0, 0] d inb, w⟩ : View.Piece Val ⟨2, d⟩ e)] r.toLoadRect = View.ld w r :=
  readCov_part v zeros2 inb w r
end

end Cert.Kernel.Shared

end
-- ==== Proof.Bits.StepA.lean ====
/-
  The same step with what it leaves named: at the first point: the degree row is cleared, then the first band's column sums are added and the first slice of `miss` is written, each buffer the body stores into ends
  at the stated function of what the buffers held; the others are handed back as they were.
-/
import proofs.«101174_g88562225643609_cont_sun_c4_799_5_alg».proof.Proof.Bits.RunA
import proofs.«101174_g88562225643609_cont_sun_c4_799_5_alg».proof.Proof.Bits.Covered

set_option maxRecDepth 16384

noncomputable section

namespace Cert.Kernel.Shared

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option maxHeartbeats 2000000 in
theorem stepA (c : Dev nD) (i : grid0.Coords) (arg1 : Memref sig .tc .vmem S4096x3 .f32) (harg1 : arg1.IsWhole) (arg2 : Memref sig .tc .vmem S512x4096 .f32) (harg2 : arg2.IsWhole) (arg3 : Memref sig .tc .vmem S512x512 .f32) (harg3 : arg3.IsWhole) (arg4 : Memref sig .tc .vmem S3x16 .f32) (harg4 : arg4.IsWhole) (arg5 : Memref sig .tc .vmem S1x16 .f32) (harg5 : arg5.IsWhole) (arg6 : Memref sig .tc .vmem S16x3 .f32) (harg6 : arg6.IsWhole) (arg7 : Memref sig .tc .vmem S1x3 .f32) (harg7 : arg7.IsWhole) (arg8 : Memref sig .tc .vmem S3x3 .f32) (harg8 : arg8.IsWhole) (arg9 : Memref sig .tc .vmem S1x3 .f32) (harg9 : arg9.IsWhole) (arg10 : Memref sig .tc .vmem S4096x3 .f32) (harg10 : arg10.IsWhole) (arg11 : Memref sig .tc .vmem S1x4096 .f32) (harg11 : arg11.IsWhole) (arg12 : Memref sig .tc .vmem S4096x1 .f32) (harg12 : arg12.IsWhole) (arg13 : Memref sig .tc .vmem S3x4096 .f32) (harg13 : arg13.IsWhole) (arg14 : Memref sig .tc .vmem S4096x3 .bf16) (harg14 : arg14.IsWhole) (arg15 : Memref sig .tc .vmem S3x4096 .f32) (harg15 : arg15.IsWhole)
    (hc0 : isFirst i) (hc1 : inDegPhase i) (hc2 : ¬isTransition i) (hc3 : ¬inMsgPhase i) (hc4 : ¬isLast i)
    (x1 : Vec F S4096x3 .f32) (x2 : Vec F S512x4096 .f32) (x3 : Vec F S512x512 .f32) (x4 : Vec F S3x16 .f32) (x5 : Vec F S1x16 .f32) (x6 : Vec F S16x3 .f32) (x7 : Vec F S1x3 .f32) (x8 : Vec F S3x3 .f32) (x9 : Vec F S1x3 .f32) (x10 : Vec F S4096x3 .f32) (x11 : Vec F S1x4096 .f32) (x12 : Vec F S4096x1 .f32) (x13 : Vec F S3x4096 .f32) (x14 : Vec F S4096x3 .bf16) (x15 : Vec F S3x4096 .f32) (E : Set ℕ) (K : PUnit → sProp 𝕄) :
    iprop(owns (c : Thread nD τ) arg1 fullShare x1 ∗ owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg6 fullShare x6 ∗ owns (c : Thread nD τ) arg7 fullShare x7 ∗ owns (c : Thread nD τ) arg8 fullShare x8 ∗ owns (c : Thread nD τ) arg9 fullShare x9 ∗ owns (c : Thread nD τ) arg10 fullShare x10 ∗ owns (c : Thread nD τ) arg11 fullShare x11 ∗ owns (c : Thread nD τ) arg12 fullShare x12 ∗ owns (c : Thread nD τ) arg13 fullShare x13 ∗ owns (c : Thread nD τ) arg14 fullShare x14 ∗ owns (c : Thread nD τ) arg15 fullShare x15
        ∗ (iprop(owns (c : Thread nD τ) arg1 fullShare x1
            ∗ owns (c : Thread nD τ) arg2 fullShare x2
            ∗ owns (c : Thread nD τ) arg3 fullShare x3
            ∗ owns (c : Thread nD τ) arg4 fullShare x4
            ∗ owns (c : Thread nD τ) arg5 fullShare x5
            ∗ owns (c : Thread nD τ) arg6 fullShare x6
            ∗ owns (c : Thread nD τ) arg7 fullShare x7
            ∗ owns (c : Thread nD τ) arg8 fullShare x8
            ∗ owns (c : Thread nD τ) arg9 fullShare x9
            ∗ owns (c : Thread nD τ) arg10 fullShare x10
            ∗ owns (c : Thread nD τ) arg11 fullShare (k0_pay3 x2 (k0_pay2 (F := F)))
            ∗ owns (c : Thread nD τ) arg12 fullShare ((Rect.unit (s := S4096x1) (k0_off1 i) S512x1.size (k0_off1_inb i hc1)).overlay x12 (k0_pay4 x3))
            ∗ owns (c : Thread nD τ) arg13 fullShare x13
            ∗ owns (c : Thread nD τ) arg14 fullShare x14
            ∗ owns (c : Thread nD τ) arg15 fullShare x15) -∗ K ⟨⟩))
      ⊢ wp frame (wpE (defs₀ (F := F)) Variants.none c none) E (cc0__gcn_kernel i arg1 harg1 arg2 harg2 arg3 harg3 arg4 harg4 arg5 harg5 arg6 harg6 arg7 harg7 arg8 harg8 arg9 harg9 arg10 harg10 arg11 harg11 arg12 harg12 arg13 harg13 arg14 harg14 arg15 harg15) K := by
  iintro ⟨H1, H2, H3, H4, H5, H6, H7, H8, H9, H10, H11, H12, H13, H14, H15, Hk⟩
  iapply ((runA c i arg1 harg1 arg2 harg2 arg3 harg3 arg4 harg4 arg5 harg5 arg6 harg6 arg7 harg7 arg8 harg8 arg9 harg9 arg10 harg10 arg11 harg11 arg12 harg12 arg13 harg13 arg14 harg14 arg15 harg15 hc0 hc1 hc2 hc3 hc4 x1 x2 x3 x4 x5 x6 x7 x8 x9 x10 x11 x12 x13 x14 x15).2.2 E K)
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  isplitl [H14]; · iexact H14
  isplitl [H15]; · iexact H15
  iintro ⟨H1, H2, H3, H4, H5, H6, H7, H8, H9, H10, H11, H12, H13, H14, H15⟩
  iapply Hk
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]
  · icases H11 with ⟨%f, H11⟩
    unfold owns; iexists _; isplitr
    swap; · iexact H11
    ipureintro
    unfold runA; dsimp only
    sl_unfold_words
    simp only [load_part, read_store_part, ld_whole2, read_store_whole2, readCov_part2]
  isplitl [H12]
  · unfold owns; iexists _; isplitr
    swap; · iexact H12
    ipureintro
    unfold runA; dsimp only
    sl_unfold_words
    simp only [load_part, read_store_part, ld_whole2, read_store_whole2, readCov_part2]
  isplitl [H13]; · iexact H13
  isplitl [H14]; · iexact H14
  iexact H15

end Cert.Kernel.Shared

end
-- ==== Proof.Bits.SoundA.lean ====
/-
  The body at the first point: the degree row is cleared, then the first band's column sums are added and the first slice of `miss` is written, as the pipeline calls it: from the invariant before the point and
  every window's buffer at what it then holds, to the invariant after it and every buffer at what the body leaves.
-/
import proofs.«101174_g88562225643609_cont_sun_c4_799_5_alg».proof.Proof.Bits.Data
import proofs.«101174_g88562225643609_cont_sun_c4_799_5_alg».proof.Proof.Bits.StepA

set_option maxRecDepth 16384

noncomputable section

namespace Cert.Kernel.Shared

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

variable (c : Dev nD)
variable (X0 : Vec F S1x4096 .f32) (X1 : Vec F S4096x1 .f32) (X2 : Vec F S3x4096 .f32) (X3 : Vec F S4096x3 .bf16) (X4 : Vec F S3x4096 .f32)

private theorem known_at (t : Fin cfg0.N) (h0 : t.val = 0)
    (inb : ∀ a, (k0_off1 (grid0.coords t)) a + S512x1.size a ≤ S4096x1.size a) :
    Known m c (t.val + 1) (k0_pay3 (iblk m c 1 t) (k0_pay2 (F := F))) ((Rect.unit (s := S4096x1) (k0_off1 (grid0.coords t)) S512x1.size inb).overlay X1 (k0_pay4 (iblk m c 2 t))) X2 X3 X4 := by
  obtain rfl : t = pt 0 (by decide) := Fin.ext h0
  exact known_first m c X1 X2 X3 X4 _ inb

set_option maxHeartbeats 4000000 in
theorem soundA (t : Fin cfg0.N) (h0 : t.val = 0) :
    bodyPre m c t ⊢ wp frame (wpE (defs₀ (F := F)) Variants.none c none) Set.univ (bodyAt0 t) (fun _ => bodyPost m c t) := by
  have hlt : t.val < 16 := lt_of_lt_of_eq t.isLt N_0
  have hc0 : isFirst (grid0.coords t) := (isFirst_iff t).mpr (by omega)
  have hc1 : inDegPhase (grid0.coords t) := (inDegPhase_iff t).mpr (by omega)
  have hc2 : ¬isTransition (grid0.coords t) := fun h => absurd ((isTransition_iff t).mp h) (by omega)
  have hc3 : ¬inMsgPhase (grid0.coords t) := fun h => absurd ((inMsgPhase_iff t).mp h) (by omega)
  have hc4 : ¬isLast (grid0.coords t) := fun h => absurd ((isLast_iff t).mp h) (by omega)
  unfold bodyPre bodyPost bodyAt0
  simp only [before_0, before_1, before_2, before_3, before_4, before_5, before_6, before_7, before_8]
  rw [show (dats m 0 c).owesAt () t.succ = (dats m 0 c).owesAt () t.castSucc from rfl, Phi_castSucc, Phi_succ,
    leaves_0, leaves_1, leaves_2, leaves_3, leaves_4, leaves_5, leaves_6, leaves_7, leaves_8, leaves_9_idle m c t (by omega)]
  unfold PhiS
  iintro ⟨⟨%X0, %X1, %X2, %X3, %X4, %hK, HS0, HS1, HS2, HS3, HS4⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩⟩
  iapply (stepA c (grid0.coords t) _ _ _ _ _ _ _ _ _ _ _ _ _ _ _ _ _ _ _ _ _ _ _ _ _ _ _ _ _ _ hc0 hc1 hc2 hc3 hc4
    (iblk m c 0 t) (iblk m c 1 t) (iblk m c 2 t) (iblk m c 3 t) (iblk m c 4 t) (iblk m c 5 t) (iblk m c 6 t) (iblk m c 7 t) (iblk m c 8 t) ((dats m 0 c).before 9 t d9) X0 X1 X2 X3 X4 Set.univ _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [HS0]; · iexact HS0
  isplitl [HS1]; · iexact HS1
  isplitl [HS2]; · iexact HS2
  isplitl [HS3]; · iexact HS3
  isplitl [HS4]; · iexact HS4
  iintro ⟨H0, H1, H2, H3, H4, H5, H6, H7, H8, H9, HS0, HS1, HS2, HS3, HS4⟩
  isplitl [HS0 HS1 HS2 HS3 HS4]
  · iexists _, _, _, _, _
    isplitr; · ipureintro; exact known_at m c X1 X2 X3 X4 t h0 (k0_off1_inb _ hc1)
    isplitl [HS0]; · iexact HS0
    isplitl [HS1]; · iexact HS1
    isplitl [HS2]; · iexact HS2
    isplitl [HS3]; · iexact HS3
    iexact HS4
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  iexists d9; iexact H9

end Cert.Kernel.Shared

end
-- ==== Proof.Bits.RunB.lean ====
/-
  The body at points 1 to 7: one band's column sums are added to the degree row and one slice of `miss` is written. Run once on any whole staging and scratch buffers at any contents; what each
  buffer it stores into ends with is found by the run, as the list of pieces stored.
-/
import proofs.«101174_g88562225643609_cont_sun_c4_799_5_alg».proof.Proof.Bits.RunA
import Idealize.ShloMosaic.Lib.Pipeline.FrameBody

set_option maxRecDepth 16384

noncomputable section

namespace Cert.Kernel.Shared

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option maxHeartbeats 4000000 in
noncomputable def runB (c : Dev nD) (i : grid0.Coords) (arg1 : Memref sig .tc .vmem S4096x3 .f32) (harg1 : arg1.IsWhole) (arg2 : Memref sig .tc .vmem S512x4096 .f32) (harg2 : arg2.IsWhole) (arg3 : Memref sig .tc .vmem S512x512 .f32) (harg3 : arg3.IsWhole) (arg4 : Memref sig .tc .vmem S3x16 .f32) (harg4 : arg4.IsWhole) (arg5 : Memref sig .tc .vmem S1x16 .f32) (harg5 : arg5.IsWhole) (arg6 : Memref sig .tc .vmem S16x3 .f32) (harg6 : arg6.IsWhole) (arg7 : Memref sig .tc .vmem S1x3 .f32) (harg7 : arg7.IsWhole) (arg8 : Memref sig .tc .vmem S3x3 .f32) (harg8 : arg8.IsWhole) (arg9 : Memref sig .tc .vmem S1x3 .f32) (harg9 : arg9.IsWhole) (arg10 : Memref sig .tc .vmem S4096x3 .f32) (harg10 : arg10.IsWhole) (arg11 : Memref sig .tc .vmem S1x4096 .f32) (harg11 : arg11.IsWhole) (arg12 : Memref sig .tc .vmem S4096x1 .f32) (harg12 : arg12.IsWhole) (arg13 : Memref sig .tc .vmem S3x4096 .f32) (harg13 : arg13.IsWhole) (arg14 : Memref sig .tc .vmem S4096x3 .bf16) (harg14 : arg14.IsWhole) (arg15 : Memref sig .tc .vmem S3x4096 .f32) (harg15 : arg15.IsWhole)
    (hc0 : ¬isFirst i) (hc1 : inDegPhase i) (hc2 : ¬isTransition i) (hc3 : ¬inMsgPhase i) (hc4 : ¬isLast i)
    (x1 : Vec F S4096x3 .f32) (x2 : Vec F S512x4096 .f32) (x3 : Vec F S512x512 .f32) (x4 : Vec F S3x16 .f32) (x5 : Vec F S1x16 .f32) (x6 : Vec F S16x3 .f32) (x7 : Vec F S1x3 .f32) (x8 : Vec F S3x3 .f32) (x9 : Vec F S1x3 .f32) (x10 : Vec F S4096x3 .f32) (x11 : Vec F S1x4096 .f32) (x12 : Vec F S4096x1 .f32) (x13 : Vec F S3x4096 .f32) (x14 : Vec F S4096x3 .bf16) (x15 : Vec F S3x4096 .f32) :
    Σ' (L11 : List (View.Piece (Elt F) S1x4096 .f32)), { L12 : List (View.Piece (Elt F) S4096x1 .f32) //
      ∀ (E : Set ℕ) (K : PUnit → sProp 𝕄),
        iprop(owns (c : Thread nD τ) arg1 fullShare x1 ∗ owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg6 fullShare x6 ∗ owns (c : Thread nD τ) arg7 fullShare x7 ∗ owns (c : Thread nD τ) arg8 fullShare x8 ∗ owns (c : Thread nD τ) arg9 fullShare x9 ∗ owns (c : Thread nD τ) arg10 fullShare x10 ∗ owns (c : Thread nD τ) arg11 fullShare x11 ∗ owns (c : Thread nD τ) arg12 fullShare x12 ∗ owns (c : Thread nD τ) arg13 fullShare x13 ∗ owns (c : Thread nD τ) arg14 fullShare x14 ∗ owns (c : Thread nD τ) arg15 fullShare x15
            ∗ (iprop(owns (c : Thread nD τ) arg1 fullShare x1 ∗ owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg6 fullShare x6 ∗ owns (c : Thread nD τ) arg7 fullShare x7 ∗ owns (c : Thread nD τ) arg8 fullShare x8 ∗ owns (c : Thread nD τ) arg9 fullShare x9 ∗ owns (c : Thread nD τ) arg10 fullShare x10 ∗ (∃ f, arg11.view.loc (c : Thread nD τ) ↦[arg11.view.set]{fullShare} arg11.view.writes (Elt F) f L11) ∗ (arg12.view.loc (c : Thread nD τ) ↦[arg12.view.set]{fullShare} arg12.view.writes (Elt F) (harg12.unread x12) L12) ∗ owns (c : Thread nD τ) arg13 fullShare x13 ∗ owns (c : Thread nD τ) arg14 fullShare x14 ∗ owns (c : Thread nD τ) arg15 fullShare x15) -∗ K ⟨⟩))
          ⊢ wp frame (wpE (defs₀ (F := F)) Variants.none c none) E (cc0__gcn_kernel i arg1 harg1 arg2 harg2 arg3 harg3 arg4 harg4 arg5 harg5 arg6 harg6 arg7 harg7 arg8 harg8 arg9 harg9 arg10 harg10 arg11 harg11 arg12 harg12 arg13 harg13 arg14 harg14 arg15 harg15) K } := by
  refine ⟨?_, ?_, fun E K => ?run⟩
  case run =>
    simp only [cc0__gcn_kernel_eq_skeleton]; unfold cc0__gcn_kernel_skel
    unfold owns
    iintro ⟨⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%f12, %hf12, H12⟩, ⟨%f13, %hf13, H13⟩, ⟨%f14, %hf14, H14⟩, ⟨%f15, %hf15, H15⟩, Hk⟩
    obtain rfl := harg1.eq_unread hf1; obtain rfl := harg2.eq_unread hf2; obtain rfl := harg3.eq_unread hf3; obtain rfl := harg4.eq_unread hf4; obtain rfl := harg5.eq_unread hf5; obtain rfl := harg6.eq_unread hf6; obtain rfl := harg7.eq_unread hf7; obtain rfl := harg8.eq_unread hf8; obtain rfl := harg9.eq_unread hf9; obtain rfl := harg10.eq_unread hf10; obtain rfl := harg11.eq_unread hf11; obtain rfl := harg12.eq_unread hf12; obtain rfl := harg13.eq_unread hf13; obtain rfl := harg14.eq_unread hf14; obtain rfl := harg15.eq_unread hf15
    sl_exec (disch := first | exact hc0 | exact hc1 | exact hc2 | exact hc3 | exact hc4)
    sl_step
    iapply Hk
    isplitl [H1]
    · iexists _; isplitr; · ipureintro; exact harg1.read_unread _
      iexact H1
    isplitl [H2]
    · iexists _; isplitr; · ipureintro; exact harg2.read_unread _
      iexact H2
    isplitl [H3]
    · iexists _; isplitr; · ipureintro; exact harg3.read_unread _
      iexact H3
    isplitl [H4]
    · iexists _; isplitr; · ipureintro; exact harg4.read_unread _
      iexact H4
    isplitl [H5]
    · iexists _; isplitr; · ipureintro; exact harg5.read_unread _
      iexact H5
    isplitl [H6]
    · iexists _; isplitr; · ipureintro; exact harg6.read_unread _
      iexact H6
    isplitl [H7]
    · iexists _; isplitr; · ipureintro; exact harg7.read_unread _
      iexact H7
    isplitl [H8]
    · iexists _; isplitr; · ipureintro; exact harg8.read_unread _
      iexact H8
    isplitl [H9]
    · iexists _; isplitr; · ipureintro; exact harg9.read_unread _
      iexact H9
    isplitl [H10]
    · iexists _; isplitr; · ipureintro; exact harg10.read_unread _
      iexact H10
    isplitl [H11]
    · iexists _; iexact H11
    isplitl [H12]
    · iexact H12
    isplitl [H13]
    · iexists _; isplitr; · ipureintro; exact harg13.read_unread _
      iexact H13
    isplitl [H14]
    · iexists _; isplitr; · ipureintro; exact harg14.read_unread _
      iexact H14
    iexists _; isplitr; · ipureintro; exact harg15.read_unread _
    iexact H15

end Cert.Kernel.Shared

end
-- ==== Proof.Bits.StepB.lean ====
/-
  The same step with what it leaves named: at points 1 to 7: one band's column sums are added to the degree row and one slice of `miss` is written, each buffer the body stores into ends
  at the stated function of what the buffers held; the others are handed back as they were.
-/
import proofs.«101174_g88562225643609_cont_sun_c4_799_5_alg».proof.Proof.Bits.RunB
import proofs.«101174_g88562225643609_cont_sun_c4_799_5_alg».proof.Proof.Bits.Readback

set_option maxRecDepth 16384

noncomputable section

namespace Cert.Kernel.Shared

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option maxHeartbeats 2000000 in
theorem stepB (c : Dev nD) (i : grid0.Coords) (arg1 : Memref sig .tc .vmem S4096x3 .f32) (harg1 : arg1.IsWhole) (arg2 : Memref sig .tc .vmem S512x4096 .f32) (harg2 : arg2.IsWhole) (arg3 : Memref sig .tc .vmem S512x512 .f32) (harg3 : arg3.IsWhole) (arg4 : Memref sig .tc .vmem S3x16 .f32) (harg4 : arg4.IsWhole) (arg5 : Memref sig .tc .vmem S1x16 .f32) (harg5 : arg5.IsWhole) (arg6 : Memref sig .tc .vmem S16x3 .f32) (harg6 : arg6.IsWhole) (arg7 : Memref sig .tc .vmem S1x3 .f32) (harg7 : arg7.IsWhole) (arg8 : Memref sig .tc .vmem S3x3 .f32) (harg8 : arg8.IsWhole) (arg9 : Memref sig .tc .vmem S1x3 .f32) (harg9 : arg9.IsWhole) (arg10 : Memref sig .tc .vmem S4096x3 .f32) (harg10 : arg10.IsWhole) (arg11 : Memref sig .tc .vmem S1x4096 .f32) (harg11 : arg11.IsWhole) (arg12 : Memref sig .tc .vmem S4096x1 .f32) (harg12 : arg12.IsWhole) (arg13 : Memref sig .tc .vmem S3x4096 .f32) (harg13 : arg13.IsWhole) (arg14 : Memref sig .tc .vmem S4096x3 .bf16) (harg14 : arg14.IsWhole) (arg15 : Memref sig .tc .vmem S3x4096 .f32) (harg15 : arg15.IsWhole)
    (hc0 : ¬isFirst i) (hc1 : inDegPhase i) (hc2 : ¬isTransition i) (hc3 : ¬inMsgPhase i) (hc4 : ¬isLast i)
    (x1 : Vec F S4096x3 .f32) (x2 : Vec F S512x4096 .f32) (x3 : Vec F S512x512 .f32) (x4 : Vec F S3x16 .f32) (x5 : Vec F S1x16 .f32) (x6 : Vec F S16x3 .f32) (x7 : Vec F S1x3 .f32) (x8 : Vec F S3x3 .f32) (x9 : Vec F S1x3 .f32) (x10 : Vec F S4096x3 .f32) (x11 : Vec F S1x4096 .f32) (x12 : Vec F S4096x1 .f32) (x13 : Vec F S3x4096 .f32) (x14 : Vec F S4096x3 .bf16) (x15 : Vec F S3x4096 .f32) (E : Set ℕ) (K : PUnit → sProp 𝕄) :
    iprop(owns (c : Thread nD τ) arg1 fullShare x1 ∗ owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg6 fullShare x6 ∗ owns (c : Thread nD τ) arg7 fullShare x7 ∗ owns (c : Thread nD τ) arg8 fullShare x8 ∗ owns (c : Thread nD τ) arg9 fullShare x9 ∗ owns (c : Thread nD τ) arg10 fullShare x10 ∗ owns (c : Thread nD τ) arg11 fullShare x11 ∗ owns (c : Thread nD τ) arg12 fullShare x12 ∗ owns (c : Thread nD τ) arg13 fullShare x13 ∗ owns (c : Thread nD τ) arg14 fullShare x14 ∗ owns (c : Thread nD τ) arg15 fullShare x15
        ∗ (iprop(owns (c : Thread nD τ) arg1 fullShare x1
            ∗ owns (c : Thread nD τ) arg2 fullShare x2
            ∗ owns (c : Thread nD τ) arg3 fullShare x3
            ∗ owns (c : Thread nD τ) arg4 fullShare x4
            ∗ owns (c : Thread nD τ) arg5 fullShare x5
            ∗ owns (c : Thread nD τ) arg6 fullShare x6
            ∗ owns (c : Thread nD τ) arg7 fullShare x7
            ∗ owns (c : Thread nD τ) arg8 fullShare x8
            ∗ owns (c : Thread nD τ) arg9 fullShare x9
            ∗ owns (c : Thread nD τ) arg10 fullShare x10
            ∗ owns (c : Thread nD τ) arg11 fullShare (k0_pay3 x2 x11)
            ∗ owns (c : Thread nD τ) arg12 fullShare ((Rect.unit (s := S4096x1) (k0_off1 i) S512x1.size (k0_off1_inb i hc1)).overlay x12 (k0_pay4 x3))
            ∗ owns (c : Thread nD τ) arg13 fullShare x13
            ∗ owns (c : Thread nD τ) arg14 fullShare x14
            ∗ owns (c : Thread nD τ) arg15 fullShare x15) -∗ K ⟨⟩))
      ⊢ wp frame (wpE (defs₀ (F := F)) Variants.none c none) E (cc0__gcn_kernel i arg1 harg1 arg2 harg2 arg3 harg3 arg4 harg4 arg5 harg5 arg6 harg6 arg7 harg7 arg8 harg8 arg9 harg9 arg10 harg10 arg11 harg11 arg12 harg12 arg13 harg13 arg14 harg14 arg15 harg15) K := by
  iintro ⟨H1, H2, H3, H4, H5, H6, H7, H8, H9, H10, H11, H12, H13, H14, H15, Hk⟩
  iapply ((runB c i arg1 harg1 arg2 harg2 arg3 harg3 arg4 harg4 arg5 harg5 arg6 harg6 arg7 harg7 arg8 harg8 arg9 harg9 arg10 harg10 arg11 harg11 arg12 harg12 arg13 harg13 arg14 harg14 arg15 harg15 hc0 hc1 hc2 hc3 hc4 x1 x2 x3 x4 x5 x6 x7 x8 x9 x10 x11 x12 x13 x14 x15).2.2 E K)
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  isplitl [H14]; · iexact H14
  isplitl [H15]; · iexact H15
  iintro ⟨H1, H2, H3, H4, H5, H6, H7, H8, H9, H10, H11, H12, H13, H14, H15⟩
  iapply Hk
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]
  · icases H11 with ⟨%f, H11⟩
    unfold owns; iexists _; isplitr
    swap; · iexact H11
    ipureintro
    unfold runB; dsimp only
    simp only [load_part, read_store_part, ld_whole2, read_store_whole2]
  isplitl [H12]
  · unfold owns; iexists _; isplitr
    swap; · iexact H12
    ipureintro
    unfold runB; dsimp only
    simp only [load_part, read_store_part, ld_whole2, read_store_whole2]
  isplitl [H13]; · iexact H13
  isplitl [H14]; · iexact H14
  iexact H15

end Cert.Kernel.Shared

end
-- ==== Proof.Bits.SoundB.lean ====
/-
  The body at points 1 to 7: one band's column sums are added to the degree row and one slice of `miss` is written, as the pipeline calls it: from the invariant before the point and
  every window's buffer at what it then holds, to the invariant after it and every buffer at what the body leaves.
-/
import proofs.«101174_g88562225643609_cont_sun_c4_799_5_alg».proof.Proof.Bits.Data
import proofs.«101174_g88562225643609_cont_sun_c4_799_5_alg».proof.Proof.Bits.StepB

set_option maxRecDepth 16384

noncomputable section

namespace Cert.Kernel.Shared

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

variable (c : Dev nD)
variable (X0 : Vec F S1x4096 .f32) (X1 : Vec F S4096x1 .f32) (X2 : Vec F S3x4096 .f32) (X3 : Vec F S4096x3 .bf16) (X4 : Vec F S3x4096 .f32)

private theorem known_at (t : Fin cfg0.N) (h1 : 1 ≤ t.val) (h8 : t.val < 8)
    (inb : ∀ a, (k0_off1 (grid0.coords t)) a + S512x1.size a ≤ S4096x1.size a)
    (hK : Known m c t.val X0 X1 X2 X3 X4) :
    Known m c (t.val + 1) (k0_pay3 (iblk m c 1 t) X0) ((Rect.unit (s := S4096x1) (k0_off1 (grid0.coords t)) S512x1.size inb).overlay X1 (k0_pay4 (iblk m c 2 t))) X2 X3 X4 :=
  known_deg m c X0 X1 X2 X3 X4 t.val h1 h8 (lt_of_lt_of_eq t.isLt N_0) inb hK

set_option maxHeartbeats 4000000 in
theorem soundB (t : Fin cfg0.N) (h1 : 1 ≤ t.val) (h8 : t.val < 8) :
    bodyPre m c t ⊢ wp frame (wpE (defs₀ (F := F)) Variants.none c none) Set.univ (bodyAt0 t) (fun _ => bodyPost m c t) := by
  have hlt : t.val < 16 := lt_of_lt_of_eq t.isLt N_0
  have hc0 : ¬isFirst (grid0.coords t) := fun h => absurd ((isFirst_iff t).mp h) (by omega)
  have hc1 : inDegPhase (grid0.coords t) := (inDegPhase_iff t).mpr (by omega)
  have hc2 : ¬isTransition (grid0.coords t) := fun h => absurd ((isTransition_iff t).mp h) (by omega)
  have hc3 : ¬inMsgPhase (grid0.coords t) := fun h => absurd ((inMsgPhase_iff t).mp h) (by omega)
  have hc4 : ¬isLast (grid0.coords t) := fun h => absurd ((isLast_iff t).mp h) (by omega)
  unfold bodyPre bodyPost bodyAt0
  simp only [before_0, before_1, before_2, before_3, before_4, before_5, before_6, before_7, before_8]
  rw [show (dats m 0 c).owesAt () t.succ = (dats m 0 c).owesAt () t.castSucc from rfl, Phi_castSucc, Phi_succ,
    leaves_0, leaves_1, leaves_2, leaves_3, leaves_4, leaves_5, leaves_6, leaves_7, leaves_8, leaves_9_idle m c t (by omega)]
  unfold PhiS
  iintro ⟨⟨%X0, %X1, %X2, %X3, %X4, %hK, HS0, HS1, HS2, HS3, HS4⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩⟩
  iapply (stepB c (grid0.coords t) _ _ _ _ _ _ _ _ _ _ _ _ _ _ _ _ _ _ _ _ _ _ _ _ _ _ _ _ _ _ hc0 hc1 hc2 hc3 hc4
    (iblk m c 0 t) (iblk m c 1 t) (iblk m c 2 t) (iblk m c 3 t) (iblk m c 4 t) (iblk m c 5 t) (iblk m c 6 t) (iblk m c 7 t) (iblk m c 8 t) ((dats m 0 c).before 9 t d9) X0 X1 X2 X3 X4 Set.univ _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [HS0]; · iexact HS0
  isplitl [HS1]; · iexact HS1
  isplitl [HS2]; · iexact HS2
  isplitl [HS3]; · iexact HS3
  isplitl [HS4]; · iexact HS4
  iintro ⟨H0, H1, H2, H3, H4, H5, H6, H7, H8, H9, HS0, HS1, HS2, HS3, HS4⟩
  isplitl [HS0 HS1 HS2 HS3 HS4]
  · iexists _, _, _, _, _
    isplitr; · ipureintro; exact known_at m c X0 X1 X2 X3 X4 t h1 h8 (k0_off1_inb _ hc1) hK
    isplitl [HS0]; · iexact HS0
    isplitl [HS1]; · iexact HS1
    isplitl [HS2]; · iexact HS2
    isplitl [HS3]; · iexact HS3
    iexact HS4
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  iexists d9; iexact H9

end Cert.Kernel.Shared

end
-- ==== Proof.Bits.RunC.lean ====
/-
  The body at point 8: the degree row becomes the normalisation, the messages are computed and kept in both layouts, the accumulator is cleared and receives the first band's contribution. Run once on any whole staging and scratch buffers at any contents; what each
  buffer it stores into ends with is found by the run, as the list of pieces stored.
-/
import proofs.«101174_g88562225643609_cont_sun_c4_799_5_alg».proof.Proof.Bits.Points
import Idealize.ShloMosaic.Lib.Pipeline.FrameBody

set_option maxRecDepth 16384

noncomputable section

namespace Cert.Kernel.Shared

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option maxHeartbeats 4000000 in
noncomputable def runC (c : Dev nD) (i : grid0.Coords) (arg1 : Memref sig .tc .vmem S4096x3 .f32) (harg1 : arg1.IsWhole) (arg2 : Memref sig .tc .vmem S512x4096 .f32) (harg2 : arg2.IsWhole) (arg3 : Memref sig .tc .vmem S512x512 .f32) (harg3 : arg3.IsWhole) (arg4 : Memref sig .tc .vmem S3x16 .f32) (harg4 : arg4.IsWhole) (arg5 : Memref sig .tc .vmem S1x16 .f32) (harg5 : arg5.IsWhole) (arg6 : Memref sig .tc .vmem S16x3 .f32) (harg6 : arg6.IsWhole) (arg7 : Memref sig .tc .vmem S1x3 .f32) (harg7 : arg7.IsWhole) (arg8 : Memref sig .tc .vmem S3x3 .f32) (harg8 : arg8.IsWhole) (arg9 : Memref sig .tc .vmem S1x3 .f32) (harg9 : arg9.IsWhole) (arg10 : Memref sig .tc .vmem S4096x3 .f32) (harg10 : arg10.IsWhole) (arg11 : Memref sig .tc .vmem S1x4096 .f32) (harg11 : arg11.IsWhole) (arg12 : Memref sig .tc .vmem S4096x1 .f32) (harg12 : arg12.IsWhole) (arg13 : Memref sig .tc .vmem S3x4096 .f32) (harg13 : arg13.IsWhole) (arg14 : Memref sig .tc .vmem S4096x3 .bf16) (harg14 : arg14.IsWhole) (arg15 : Memref sig .tc .vmem S3x4096 .f32) (harg15 : arg15.IsWhole)
    (hc0 : ¬isFirst i) (hc1 : ¬inDegPhase i) (hc2 : isTransition i) (hc3 : inMsgPhase i) (hc4 : ¬isLast i)
    (x1 : Vec F S4096x3 .f32) (x2 : Vec F S512x4096 .f32) (x3 : Vec F S512x512 .f32) (x4 : Vec F S3x16 .f32) (x5 : Vec F S1x16 .f32) (x6 : Vec F S16x3 .f32) (x7 : Vec F S1x3 .f32) (x8 : Vec F S3x3 .f32) (x9 : Vec F S1x3 .f32) (x10 : Vec F S4096x3 .f32) (x11 : Vec F S1x4096 .f32) (x12 : Vec F S4096x1 .f32) (x13 : Vec F S3x4096 .f32) (x14 : Vec F S4096x3 .bf16) (x15 : Vec F S3x4096 .f32) :
    Σ' (L11 : List (View.Piece (Elt F) S1x4096 .f32)) (L13 : List (View.Piece (Elt F) S3x4096 .f32)) (L14 : List (View.Piece (Elt F) S4096x3 .bf16)), { L15 : List (View.Piece (Elt F) S3x4096 .f32) //
      ∀ (E : Set ℕ) (K : PUnit → sProp 𝕄),
        iprop(owns (c : Thread nD τ) arg1 fullShare x1 ∗ owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg6 fullShare x6 ∗ owns (c : Thread nD τ) arg7 fullShare x7 ∗ owns (c : Thread nD τ) arg8 fullShare x8 ∗ owns (c : Thread nD τ) arg9 fullShare x9 ∗ owns (c : Thread nD τ) arg10 fullShare x10 ∗ owns (c : Thread nD τ) arg11 fullShare x11 ∗ owns (c : Thread nD τ) arg12 fullShare x12 ∗ owns (c : Thread nD τ) arg13 fullShare x13 ∗ owns (c : Thread nD τ) arg14 fullShare x14 ∗ owns (c : Thread nD τ) arg15 fullShare x15
            ∗ (iprop(owns (c : Thread nD τ) arg1 fullShare x1 ∗ owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg6 fullShare x6 ∗ owns (c : Thread nD τ) arg7 fullShare x7 ∗ owns (c : Thread nD τ) arg8 fullShare x8 ∗ owns (c : Thread nD τ) arg9 fullShare x9 ∗ owns (c : Thread nD τ) arg10 fullShare x10 ∗ (∃ f, arg11.view.loc (c : Thread nD τ) ↦[arg11.view.set]{fullShare} arg11.view.writes (Elt F) f L11) ∗ owns (c : Thread nD τ) arg12 fullShare x12 ∗ (∃ f, arg13.view.loc (c : Thread nD τ) ↦[arg13.view.set]{fullShare} arg13.view.writes (Elt F) f L13) ∗ (∃ f, arg14.view.loc (c : Thread nD τ) ↦[arg14.view.set]{fullShare} arg14.view.writes (Elt F) f L14) ∗ (∃ f, arg15.view.loc (c : Thread nD τ) ↦[arg15.view.set]{fullShare} arg15.view.writes (Elt F) f L15)) -∗ K ⟨⟩))
          ⊢ wp frame (wpE (defs₀ (F := F)) Variants.none c none) E (cc0__gcn_kernel i arg1 harg1 arg2 harg2 arg3 harg3 arg4 harg4 arg5 harg5 arg6 harg6 arg7 harg7 arg8 harg8 arg9 harg9 arg10 harg10 arg11 harg11 arg12 harg12 arg13 harg13 arg14 harg14 arg15 harg15) K } := by
  refine ⟨?_, ?_, ?_, ?_, fun E K => ?run⟩
  case run =>
    simp only [cc0__gcn_kernel_eq_skeleton]; unfold cc0__gcn_kernel_skel
    simp only [k0_part1_eq_skeleton]
    unfold owns
    iintro ⟨⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%f12, %hf12, H12⟩, ⟨%f13, %hf13, H13⟩, ⟨%f14, %hf14, H14⟩, ⟨%f15, %hf15, H15⟩, Hk⟩
    obtain rfl := harg1.eq_unread hf1; obtain rfl := harg2.eq_unread hf2; obtain rfl := harg3.eq_unread hf3; obtain rfl := harg4.eq_unread hf4; obtain rfl := harg5.eq_unread hf5; obtain rfl := harg6.eq_unread hf6; obtain rfl := harg7.eq_unread hf7; obtain rfl := harg8.eq_unread hf8; obtain rfl := harg9.eq_unread hf9; obtain rfl := harg10.eq_unread hf10; obtain rfl := harg11.eq_unread hf11; obtain rfl := harg12.eq_unread hf12; obtain rfl := harg13.eq_unread hf13; obtain rfl := harg14.eq_unread hf14; obtain rfl := harg15.eq_unread hf15
    sl_exec (disch := first | exact hc0 | exact hc1 | exact hc2 | exact hc3 | exact hc4)
    sl_step
    iapply Hk
    isplitl [H1]
    · iexists _; isplitr; · ipureintro; exact harg1.read_unread _
      iexact H1
    isplitl [H2]
    · iexists _; isplitr; · ipureintro; exact harg2.read_unread _
      iexact H2
    isplitl [H3]
    · iexists _; isplitr; · ipureintro; exact harg3.read_unread _
      iexact H3
    isplitl [H4]
    · iexists _; isplitr; · ipureintro; exact harg4.read_unread _
      iexact H4
    isplitl [H5]
    · iexists _; isplitr; · ipureintro; exact harg5.read_unread _
      iexact H5
    isplitl [H6]
    · iexists _; isplitr; · ipureintro; exact harg6.read_unread _
      iexact H6
    isplitl [H7]
    · iexists _; isplitr; · ipureintro; exact harg7.read_unread _
      iexact H7
    isplitl [H8]
    · iexists _; isplitr; · ipureintro; exact harg8.read_unread _
      iexact H8
    isplitl [H9]
    · iexists _; isplitr; · ipureintro; exact harg9.read_unread _
      iexact H9
    isplitl [H10]
    · iexists _; isplitr; · ipureintro; exact harg10.read_unread _
      iexact H10
    isplitl [H11]
    · iexists _; iexact H11
    isplitl [H12]
    · iexists _; isplitr; · ipureintro; exact harg12.read_unread _
      iexact H12
    isplitl [H13]
    · iexists _; iexact H13
    isplitl [H14]
    · iexists _; iexact H14
    iexists _; iexact H15

end Cert.Kernel.Shared

end
-- ==== Proof.Bits.StepC.lean ====
/-
  The same step with what it leaves named: at point 8: the degree row becomes the normalisation, the messages are computed and kept in both layouts, the accumulator is cleared and receives the first band's contribution, each buffer the body stores into ends
  at the stated function of what the buffers held; the others are handed back as they were.
-/
import proofs.«101174_g88562225643609_cont_sun_c4_799_5_alg».proof.Proof.Bits.RunC
import proofs.«101174_g88562225643609_cont_sun_c4_799_5_alg».proof.Proof.Bits.Covered

set_option maxRecDepth 16384

noncomputable section

namespace Cert.Kernel.Shared

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option maxHeartbeats 2000000 in
theorem stepC (c : Dev nD) (i : grid0.Coords) (arg1 : Memref sig .tc .vmem S4096x3 .f32) (harg1 : arg1.IsWhole) (arg2 : Memref sig .tc .vmem S512x4096 .f32) (harg2 : arg2.IsWhole) (arg3 : Memref sig .tc .vmem S512x512 .f32) (harg3 : arg3.IsWhole) (arg4 : Memref sig .tc .vmem S3x16 .f32) (harg4 : arg4.IsWhole) (arg5 : Memref sig .tc .vmem S1x16 .f32) (harg5 : arg5.IsWhole) (arg6 : Memref sig .tc .vmem S16x3 .f32) (harg6 : arg6.IsWhole) (arg7 : Memref sig .tc .vmem S1x3 .f32) (harg7 : arg7.IsWhole) (arg8 : Memref sig .tc .vmem S3x3 .f32) (harg8 : arg8.IsWhole) (arg9 : Memref sig .tc .vmem S1x3 .f32) (harg9 : arg9.IsWhole) (arg10 : Memref sig .tc .vmem S4096x3 .f32) (harg10 : arg10.IsWhole) (arg11 : Memref sig .tc .vmem S1x4096 .f32) (harg11 : arg11.IsWhole) (arg12 : Memref sig .tc .vmem S4096x1 .f32) (harg12 : arg12.IsWhole) (arg13 : Memref sig .tc .vmem S3x4096 .f32) (harg13 : arg13.IsWhole) (arg14 : Memref sig .tc .vmem S4096x3 .bf16) (harg14 : arg14.IsWhole) (arg15 : Memref sig .tc .vmem S3x4096 .f32) (harg15 : arg15.IsWhole)
    (hc0 : ¬isFirst i) (hc1 : ¬inDegPhase i) (hc2 : isTransition i) (hc3 : inMsgPhase i) (hc4 : ¬isLast i)
    (x1 : Vec F S4096x3 .f32) (x2 : Vec F S512x4096 .f32) (x3 : Vec F S512x512 .f32) (x4 : Vec F S3x16 .f32) (x5 : Vec F S1x16 .f32) (x6 : Vec F S16x3 .f32) (x7 : Vec F S1x3 .f32) (x8 : Vec F S3x3 .f32) (x9 : Vec F S1x3 .f32) (x10 : Vec F S4096x3 .f32) (x11 : Vec F S1x4096 .f32) (x12 : Vec F S4096x1 .f32) (x13 : Vec F S3x4096 .f32) (x14 : Vec F S4096x3 .bf16) (x15 : Vec F S3x4096 .f32) (E : Set ℕ) (K : PUnit → sProp 𝕄) :
    iprop(owns (c : Thread nD τ) arg1 fullShare x1 ∗ owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg6 fullShare x6 ∗ owns (c : Thread nD τ) arg7 fullShare x7 ∗ owns (c : Thread nD τ) arg8 fullShare x8 ∗ owns (c : Thread nD τ) arg9 fullShare x9 ∗ owns (c : Thread nD τ) arg10 fullShare x10 ∗ owns (c : Thread nD τ) arg11 fullShare x11 ∗ owns (c : Thread nD τ) arg12 fullShare x12 ∗ owns (c : Thread nD τ) arg13 fullShare x13 ∗ owns (c : Thread nD τ) arg14 fullShare x14 ∗ owns (c : Thread nD τ) arg15 fullShare x15
        ∗ (iprop(owns (c : Thread nD τ) arg1 fullShare x1
            ∗ owns (c : Thread nD τ) arg2 fullShare x2
            ∗ owns (c : Thread nD τ) arg3 fullShare x3
            ∗ owns (c : Thread nD τ) arg4 fullShare x4
            ∗ owns (c : Thread nD τ) arg5 fullShare x5
            ∗ owns (c : Thread nD τ) arg6 fullShare x6
            ∗ owns (c : Thread nD τ) arg7 fullShare x7
            ∗ owns (c : Thread nD τ) arg8 fullShare x8
            ∗ owns (c : Thread nD τ) arg9 fullShare x9
            ∗ owns (c : Thread nD τ) arg10 fullShare x10
            ∗ owns (c : Thread nD τ) arg11 fullShare (k0_pay11 x12 x11)
            ∗ owns (c : Thread nD τ) arg12 fullShare x12
            ∗ owns (c : Thread nD τ) arg13 fullShare (k0_pay8 x2 (View.ld (k0_pay5 (k0_pay13 x12 x11 x1 x4 x5 x6 x7 x8)) (Rect.unit (s := S4096x3) (k0_off2 i) S512x3.size (k0_off2_inb i hc3))) (k0_pay7 (F := F)))
            ∗ owns (c : Thread nD τ) arg14 fullShare (k0_pay5 (k0_pay13 x12 x11 x1 x4 x5 x6 x7 x8))
            ∗ owns (c : Thread nD τ) arg15 fullShare (k0_pay6 (k0_pay12 x12 x11 x1 x4 x5 x6 x7 x8))) -∗ K ⟨⟩))
      ⊢ wp frame (wpE (defs₀ (F := F)) Variants.none c none) E (cc0__gcn_kernel i arg1 harg1 arg2 harg2 arg3 harg3 arg4 harg4 arg5 harg5 arg6 harg6 arg7 harg7 arg8 harg8 arg9 harg9 arg10 harg10 arg11 harg11 arg12 harg12 arg13 harg13 arg14 harg14 arg15 harg15) K := by
  iintro ⟨H1, H2, H3, H4, H5, H6, H7, H8, H9, H10, H11, H12, H13, H14, H15, Hk⟩
  iapply ((runC c i arg1 harg1 arg2 harg2 arg3 harg3 arg4 harg4 arg5 harg5 arg6 harg6 arg7 harg7 arg8 harg8 arg9 harg9 arg10 harg10 arg11 harg11 arg12 harg12 arg13 harg13 arg14 harg14 arg15 harg15 hc0 hc1 hc2 hc3 hc4 x1 x2 x3 x4 x5 x6 x7 x8 x9 x10 x11 x12 x13 x14 x15).2.2.2.2 E K)
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  isplitl [H14]; · iexact H14
  isplitl [H15]; · iexact H15
  iintro ⟨H1, H2, H3, H4, H5, H6, H7, H8, H9, H10, H11, H12, H13, H14, H15⟩
  iapply Hk
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]
  · icases H11 with ⟨%f, H11⟩
    unfold owns; iexists _; isplitr
    swap; · iexact H11
    ipureintro
    unfold runC; dsimp only
    sl_unfold_words
    simp only [View.readAt_eq_ld, Memref.IsWhole.read_unread, load_part, read_store_part, ld_whole2, read_store_whole2, readCov_part2]
  isplitl [H12]; · iexact H12
  isplitl [H13]
  · icases H13 with ⟨%f, H13⟩
    unfold owns; iexists _; isplitr
    swap; · iexact H13
    ipureintro
    unfold runC; dsimp only
    sl_unfold_words
    simp only [View.readAt_eq_ld, Memref.IsWhole.read_unread, load_part, read_store_part, ld_whole2, read_store_whole2, readCov_part2]
  isplitl [H14]
  · icases H14 with ⟨%f, H14⟩
    unfold owns; iexists _; isplitr
    swap; · iexact H14
    ipureintro
    unfold runC; dsimp only
    sl_unfold_words
    simp only [View.readAt_eq_ld, Memref.IsWhole.read_unread, load_part, read_store_part, ld_whole2, read_store_whole2, readCov_part2]
  icases H15 with ⟨%f, H15⟩
  unfold owns; iexists _; isplitr
  swap; · iexact H15
  ipureintro
  unfold runC; dsimp only
  sl_unfold_words
  simp only [View.readAt_eq_ld, Memref.IsWhole.read_unread, load_part, read_store_part, ld_whole2, read_store_whole2, readCov_part2]

end Cert.Kernel.Shared

end
-- ==== Proof.Bits.SoundC.lean ====
/-
  The body at point 8: the degree row becomes the normalisation, the messages are computed and kept in both layouts, the accumulator is cleared and receives the first band's contribution, as the pipeline calls it: from the invariant before the point and
  every window's buffer at what it then holds, to the invariant after it and every buffer at what the body leaves.
-/
import proofs.«101174_g88562225643609_cont_sun_c4_799_5_alg».proof.Proof.Bits.Data
import proofs.«101174_g88562225643609_cont_sun_c4_799_5_alg».proof.Proof.Bits.StepC

set_option maxRecDepth 16384

noncomputable section

namespace Cert.Kernel.Shared

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

variable (c : Dev nD)
variable (X0 : Vec F S1x4096 .f32) (X1 : Vec F S4096x1 .f32) (X2 : Vec F S3x4096 .f32) (X3 : Vec F S4096x3 .bf16) (X4 : Vec F S3x4096 .f32)

private theorem known_at (t : Fin cfg0.N) (h8 : t.val = 8)
    (inb : ∀ a, (k0_off2 (grid0.coords t)) a + S512x3.size a ≤ S4096x3.size a)
    (hK : Known m c t.val X0 X1 X2 X3 X4) :
    Known m c (t.val + 1) (k0_pay11 X1 X0) X1
      (k0_pay8 (iblk m c 1 t) (View.ld (k0_pay5 (k0_pay13 X1 X0 (iblk m c 0 t) (iblk m c 3 t) (iblk m c 4 t) (iblk m c 5 t) (iblk m c 6 t) (iblk m c 7 t))) (Rect.unit (s := S4096x3) (k0_off2 (grid0.coords t)) S512x3.size inb)) (k0_pay7 (F := F)))
      (k0_pay5 (k0_pay13 X1 X0 (iblk m c 0 t) (iblk m c 3 t) (iblk m c 4 t) (iblk m c 5 t) (iblk m c 6 t) (iblk m c 7 t))) (k0_pay6 (k0_pay12 X1 X0 (iblk m c 0 t) (iblk m c 3 t) (iblk m c 4 t) (iblk m c 5 t) (iblk m c 6 t) (iblk m c 7 t))) := by
  obtain rfl : t = t8 := Fin.ext h8
  exact known_transition m c X0 X1 X2 X3 X4 inb hK

set_option maxHeartbeats 4000000 in
theorem soundC (t : Fin cfg0.N) (h8 : t.val = 8) :
    bodyPre m c t ⊢ wp frame (wpE (defs₀ (F := F)) Variants.none c none) Set.univ (bodyAt0 t) (fun _ => bodyPost m c t) := by
  have hlt : t.val < 16 := lt_of_lt_of_eq t.isLt N_0
  have hc0 : ¬isFirst (grid0.coords t) := fun h => absurd ((isFirst_iff t).mp h) (by omega)
  have hc1 : ¬inDegPhase (grid0.coords t) := fun h => absurd ((inDegPhase_iff t).mp h) (by omega)
  have hc2 : isTransition (grid0.coords t) := (isTransition_iff t).mpr (by omega)
  have hc3 : inMsgPhase (grid0.coords t) := (inMsgPhase_iff t).mpr (by omega)
  have hc4 : ¬isLast (grid0.coords t) := fun h => absurd ((isLast_iff t).mp h) (by omega)
  unfold bodyPre bodyPost bodyAt0
  simp only [before_0, before_1, before_2, before_3, before_4, before_5, before_6, before_7, before_8]
  rw [show (dats m 0 c).owesAt () t.succ = (dats m 0 c).owesAt () t.castSucc from rfl, Phi_castSucc, Phi_succ,
    leaves_0, leaves_1, leaves_2, leaves_3, leaves_4, leaves_5, leaves_6, leaves_7, leaves_8, leaves_9_idle m c t (by omega)]
  unfold PhiS
  iintro ⟨⟨%X0, %X1, %X2, %X3, %X4, %hK, HS0, HS1, HS2, HS3, HS4⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩⟩
  iapply (stepC c (grid0.coords t) _ _ _ _ _ _ _ _ _ _ _ _ _ _ _ _ _ _ _ _ _ _ _ _ _ _ _ _ _ _ hc0 hc1 hc2 hc3 hc4
    (iblk m c 0 t) (iblk m c 1 t) (iblk m c 2 t) (iblk m c 3 t) (iblk m c 4 t) (iblk m c 5 t) (iblk m c 6 t) (iblk m c 7 t) (iblk m c 8 t) ((dats m 0 c).before 9 t d9) X0 X1 X2 X3 X4 Set.univ _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [HS0]; · iexact HS0
  isplitl [HS1]; · iexact HS1
  isplitl [HS2]; · iexact HS2
  isplitl [HS3]; · iexact HS3
  isplitl [HS4]; · iexact HS4
  iintro ⟨H0, H1, H2, H3, H4, H5, H6, H7, H8, H9, HS0, HS1, HS2, HS3, HS4⟩
  isplitl [HS0 HS1 HS2 HS3 HS4]
  · iexists _, _, _, _, _
    isplitr; · ipureintro; exact known_at m c X0 X1 X2 X3 X4 t h8 (k0_off2_inb _ hc3) hK
    isplitl [HS0]; · iexact HS0
    isplitl [HS1]; · iexact HS1
    isplitl [HS2]; · iexact HS2
    isplitl [HS3]; · iexact HS3
    iexact HS4
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  iexists d9; iexact H9

end Cert.Kernel.Shared

end
-- ==== Proof.Bits.RunD.lean ====
/-
  The body at points 9 to 14: one band's contribution is added to the accumulator. Run once on any whole staging and scratch buffers at any contents; what each
  buffer it stores into ends with is found by the run, as the list of pieces stored.
-/
import proofs.«101174_g88562225643609_cont_sun_c4_799_5_alg».proof.Proof.Bits.RunB
import Idealize.ShloMosaic.Lib.Pipeline.FrameBody

set_option maxRecDepth 16384

noncomputable section

namespace Cert.Kernel.Shared

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option maxHeartbeats 4000000 in
noncomputable def runD (c : Dev nD) (i : grid0.Coords) (arg1 : Memref sig .tc .vmem S4096x3 .f32) (harg1 : arg1.IsWhole) (arg2 : Memref sig .tc .vmem S512x4096 .f32) (harg2 : arg2.IsWhole) (arg3 : Memref sig .tc .vmem S512x512 .f32) (harg3 : arg3.IsWhole) (arg4 : Memref sig .tc .vmem S3x16 .f32) (harg4 : arg4.IsWhole) (arg5 : Memref sig .tc .vmem S1x16 .f32) (harg5 : arg5.IsWhole) (arg6 : Memref sig .tc .vmem S16x3 .f32) (harg6 : arg6.IsWhole) (arg7 : Memref sig .tc .vmem S1x3 .f32) (harg7 : arg7.IsWhole) (arg8 : Memref sig .tc .vmem S3x3 .f32) (harg8 : arg8.IsWhole) (arg9 : Memref sig .tc .vmem S1x3 .f32) (harg9 : arg9.IsWhole) (arg10 : Memref sig .tc .vmem S4096x3 .f32) (harg10 : arg10.IsWhole) (arg11 : Memref sig .tc .vmem S1x4096 .f32) (harg11 : arg11.IsWhole) (arg12 : Memref sig .tc .vmem S4096x1 .f32) (harg12 : arg12.IsWhole) (arg13 : Memref sig .tc .vmem S3x4096 .f32) (harg13 : arg13.IsWhole) (arg14 : Memref sig .tc .vmem S4096x3 .bf16) (harg14 : arg14.IsWhole) (arg15 : Memref sig .tc .vmem S3x4096 .f32) (harg15 : arg15.IsWhole)
    (hc0 : ¬isFirst i) (hc1 : ¬inDegPhase i) (hc2 : ¬isTransition i) (hc3 : inMsgPhase i) (hc4 : ¬isLast i)
    (x1 : Vec F S4096x3 .f32) (x2 : Vec F S512x4096 .f32) (x3 : Vec F S512x512 .f32) (x4 : Vec F S3x16 .f32) (x5 : Vec F S1x16 .f32) (x6 : Vec F S16x3 .f32) (x7 : Vec F S1x3 .f32) (x8 : Vec F S3x3 .f32) (x9 : Vec F S1x3 .f32) (x10 : Vec F S4096x3 .f32) (x11 : Vec F S1x4096 .f32) (x12 : Vec F S4096x1 .f32) (x13 : Vec F S3x4096 .f32) (x14 : Vec F S4096x3 .bf16) (x15 : Vec F S3x4096 .f32) :
    { L13 : List (View.Piece (Elt F) S3x4096 .f32) //
      ∀ (E : Set ℕ) (K : PUnit → sProp 𝕄),
        iprop(owns (c : Thread nD τ) arg1 fullShare x1 ∗ owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg6 fullShare x6 ∗ owns (c : Thread nD τ) arg7 fullShare x7 ∗ owns (c : Thread nD τ) arg8 fullShare x8 ∗ owns (c : Thread nD τ) arg9 fullShare x9 ∗ owns (c : Thread nD τ) arg10 fullShare x10 ∗ owns (c : Thread nD τ) arg11 fullShare x11 ∗ owns (c : Thread nD τ) arg12 fullShare x12 ∗ owns (c : Thread nD τ) arg13 fullShare x13 ∗ owns (c : Thread nD τ) arg14 fullShare x14 ∗ owns (c : Thread nD τ) arg15 fullShare x15
            ∗ (iprop(owns (c : Thread nD τ) arg1 fullShare x1 ∗ owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg6 fullShare x6 ∗ owns (c : Thread nD τ) arg7 fullShare x7 ∗ owns (c : Thread nD τ) arg8 fullShare x8 ∗ owns (c : Thread nD τ) arg9 fullShare x9 ∗ owns (c : Thread nD τ) arg10 fullShare x10 ∗ owns (c : Thread nD τ) arg11 fullShare x11 ∗ owns (c : Thread nD τ) arg12 fullShare x12 ∗ (∃ f, arg13.view.loc (c : Thread nD τ) ↦[arg13.view.set]{fullShare} arg13.view.writes (Elt F) f L13) ∗ owns (c : Thread nD τ) arg14 fullShare x14 ∗ owns (c : Thread nD τ) arg15 fullShare x15) -∗ K ⟨⟩))
          ⊢ wp frame (wpE (defs₀ (F := F)) Variants.none c none) E (cc0__gcn_kernel i arg1 harg1 arg2 harg2 arg3 harg3 arg4 harg4 arg5 harg5 arg6 harg6 arg7 harg7 arg8 harg8 arg9 harg9 arg10 harg10 arg11 harg11 arg12 harg12 arg13 harg13 arg14 harg14 arg15 harg15) K } := by
  refine ⟨?_, fun E K => ?run⟩
  case run =>
    simp only [cc0__gcn_kernel_eq_skeleton]; unfold cc0__gcn_kernel_skel
    unfold owns
    iintro ⟨⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%f12, %hf12, H12⟩, ⟨%f13, %hf13, H13⟩, ⟨%f14, %hf14, H14⟩, ⟨%f15, %hf15, H15⟩, Hk⟩
    obtain rfl := harg1.eq_unread hf1; obtain rfl := harg2.eq_unread hf2; obtain rfl := harg3.eq_unread hf3; obtain rfl := harg4.eq_unread hf4; obtain rfl := harg5.eq_unread hf5; obtain rfl := harg6.eq_unread hf6; obtain rfl := harg7.eq_unread hf7; obtain rfl := harg8.eq_unread hf8; obtain rfl := harg9.eq_unread hf9; obtain rfl := harg10.eq_unread hf10; obtain rfl := harg11.eq_unread hf11; obtain rfl := harg12.eq_unread hf12; obtain rfl := harg13.eq_unread hf13; obtain rfl := harg14.eq_unread hf14; obtain rfl := harg15.eq_unread hf15
    sl_exec (disch := first | exact hc0 | exact hc1 | exact hc2 | exact hc3 | exact hc4)
    sl_step
    iapply Hk
    isplitl [H1]
    · iexists _; isplitr; · ipureintro; exact harg1.read_unread _
      iexact H1
    isplitl [H2]
    · iexists _; isplitr; · ipureintro; exact harg2.read_unread _
      iexact H2
    isplitl [H3]
    · iexists _; isplitr; · ipureintro; exact harg3.read_unread _
      iexact H3
    isplitl [H4]
    · iexists _; isplitr; · ipureintro; exact harg4.read_unread _
      iexact H4
    isplitl [H5]
    · iexists _; isplitr; · ipureintro; exact harg5.read_unread _
      iexact H5
    isplitl [H6]
    · iexists _; isplitr; · ipureintro; exact harg6.read_unread _
      iexact H6
    isplitl [H7]
    · iexists _; isplitr; · ipureintro; exact harg7.read_unread _
      iexact H7
    isplitl [H8]
    · iexists _; isplitr; · ipureintro; exact harg8.read_unread _
      iexact H8
    isplitl [H9]
    · iexists _; isplitr; · ipureintro; exact harg9.read_unread _
      iexact H9
    isplitl [H10]
    · iexists _; isplitr; · ipureintro; exact harg10.read_unread _
      iexact H10
    isplitl [H11]
    · iexists _; isplitr; · ipureintro; exact harg11.read_unread _
      iexact H11
    isplitl [H12]
    · iexists _; isplitr; · ipureintro; exact harg12.read_unread _
      iexact H12
    isplitl [H13]
    · iexists _; iexact H13
    isplitl [H14]
    · iexists _; isplitr; · ipureintro; exact harg14.read_unread _
      iexact H14
    iexists _; isplitr; · ipureintro; exact harg15.read_unread _
    iexact H15

end Cert.Kernel.Shared

end
-- ==== Proof.Bits.StepD.lean ====
/-
  The same step with what it leaves named: at points 9 to 14: one band's contribution is added to the accumulator, each buffer the body stores into ends
  at the stated function of what the buffers held; the others are handed back as they were.
-/
import proofs.«101174_g88562225643609_cont_sun_c4_799_5_alg».proof.Proof.Bits.RunD
import proofs.«101174_g88562225643609_cont_sun_c4_799_5_alg».proof.Proof.Bits.Readback

set_option maxRecDepth 16384

noncomputable section

namespace Cert.Kernel.Shared

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option maxHeartbeats 2000000 in
theorem stepD (c : Dev nD) (i : grid0.Coords) (arg1 : Memref sig .tc .vmem S4096x3 .f32) (harg1 : arg1.IsWhole) (arg2 : Memref sig .tc .vmem S512x4096 .f32) (harg2 : arg2.IsWhole) (arg3 : Memref sig .tc .vmem S512x512 .f32) (harg3 : arg3.IsWhole) (arg4 : Memref sig .tc .vmem S3x16 .f32) (harg4 : arg4.IsWhole) (arg5 : Memref sig .tc .vmem S1x16 .f32) (harg5 : arg5.IsWhole) (arg6 : Memref sig .tc .vmem S16x3 .f32) (harg6 : arg6.IsWhole) (arg7 : Memref sig .tc .vmem S1x3 .f32) (harg7 : arg7.IsWhole) (arg8 : Memref sig .tc .vmem S3x3 .f32) (harg8 : arg8.IsWhole) (arg9 : Memref sig .tc .vmem S1x3 .f32) (harg9 : arg9.IsWhole) (arg10 : Memref sig .tc .vmem S4096x3 .f32) (harg10 : arg10.IsWhole) (arg11 : Memref sig .tc .vmem S1x4096 .f32) (harg11 : arg11.IsWhole) (arg12 : Memref sig .tc .vmem S4096x1 .f32) (harg12 : arg12.IsWhole) (arg13 : Memref sig .tc .vmem S3x4096 .f32) (harg13 : arg13.IsWhole) (arg14 : Memref sig .tc .vmem S4096x3 .bf16) (harg14 : arg14.IsWhole) (arg15 : Memref sig .tc .vmem S3x4096 .f32) (harg15 : arg15.IsWhole)
    (hc0 : ¬isFirst i) (hc1 : ¬inDegPhase i) (hc2 : ¬isTransition i) (hc3 : inMsgPhase i) (hc4 : ¬isLast i)
    (x1 : Vec F S4096x3 .f32) (x2 : Vec F S512x4096 .f32) (x3 : Vec F S512x512 .f32) (x4 : Vec F S3x16 .f32) (x5 : Vec F S1x16 .f32) (x6 : Vec F S16x3 .f32) (x7 : Vec F S1x3 .f32) (x8 : Vec F S3x3 .f32) (x9 : Vec F S1x3 .f32) (x10 : Vec F S4096x3 .f32) (x11 : Vec F S1x4096 .f32) (x12 : Vec F S4096x1 .f32) (x13 : Vec F S3x4096 .f32) (x14 : Vec F S4096x3 .bf16) (x15 : Vec F S3x4096 .f32) (E : Set ℕ) (K : PUnit → sProp 𝕄) :
    iprop(owns (c : Thread nD τ) arg1 fullShare x1 ∗ owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg6 fullShare x6 ∗ owns (c : Thread nD τ) arg7 fullShare x7 ∗ owns (c : Thread nD τ) arg8 fullShare x8 ∗ owns (c : Thread nD τ) arg9 fullShare x9 ∗ owns (c : Thread nD τ) arg10 fullShare x10 ∗ owns (c : Thread nD τ) arg11 fullShare x11 ∗ owns (c : Thread nD τ) arg12 fullShare x12 ∗ owns (c : Thread nD τ) arg13 fullShare x13 ∗ owns (c : Thread nD τ) arg14 fullShare x14 ∗ owns (c : Thread nD τ) arg15 fullShare x15
        ∗ (iprop(owns (c : Thread nD τ) arg1 fullShare x1
            ∗ owns (c : Thread nD τ) arg2 fullShare x2
            ∗ owns (c : Thread nD τ) arg3 fullShare x3
            ∗ owns (c : Thread nD τ) arg4 fullShare x4
            ∗ owns (c : Thread nD τ) arg5 fullShare x5
            ∗ owns (c : Thread nD τ) arg6 fullShare x6
            ∗ owns (c : Thread nD τ) arg7 fullShare x7
            ∗ owns (c : Thread nD τ) arg8 fullShare x8
            ∗ owns (c : Thread nD τ) arg9 fullShare x9
            ∗ owns (c : Thread nD τ) arg10 fullShare x10
            ∗ owns (c : Thread nD τ) arg11 fullShare x11
            ∗ owns (c : Thread nD τ) arg12 fullShare x12
            ∗ owns (c : Thread nD τ) arg13 fullShare (k0_pay8 x2 (View.ld x14 (Rect.unit (s := S4096x3) (k0_off2 i) S512x3.size (k0_off2_inb i hc3))) x13)
            ∗ owns (c : Thread nD τ) arg14 fullShare x14
            ∗ owns (c : Thread nD τ) arg15 fullShare x15) -∗ K ⟨⟩))
      ⊢ wp frame (wpE (defs₀ (F := F)) Variants.none c none) E (cc0__gcn_kernel i arg1 harg1 arg2 harg2 arg3 harg3 arg4 harg4 arg5 harg5 arg6 harg6 arg7 harg7 arg8 harg8 arg9 harg9 arg10 harg10 arg11 harg11 arg12 harg12 arg13 harg13 arg14 harg14 arg15 harg15) K := by
  iintro ⟨H1, H2, H3, H4, H5, H6, H7, H8, H9, H10, H11, H12, H13, H14, H15, Hk⟩
  iapply ((runD c i arg1 harg1 arg2 harg2 arg3 harg3 arg4 harg4 arg5 harg5 arg6 harg6 arg7 harg7 arg8 harg8 arg9 harg9 arg10 harg10 arg11 harg11 arg12 harg12 arg13 harg13 arg14 harg14 arg15 harg15 hc0 hc1 hc2 hc3 hc4 x1 x2 x3 x4 x5 x6 x7 x8 x9 x10 x11 x12 x13 x14 x15).2 E K)
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  isplitl [H14]; · iexact H14
  isplitl [H15]; · iexact H15
  iintro ⟨H1, H2, H3, H4, H5, H6, H7, H8, H9, H10, H11, H12, H13, H14, H15⟩
  iapply Hk
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]
  · icases H13 with ⟨%f, H13⟩
    unfold owns; iexists _; isplitr
    swap; · iexact H13
    ipureintro
    unfold runD; dsimp only
    simp only [load_part, read_store_part, ld_whole2, read_store_whole2]
  isplitl [H14]; · iexact H14
  iexact H15

end Cert.Kernel.Shared

end
-- ==== Proof.Bits.SoundD.lean ====
/-
  The body at points 9 to 14: one band's contribution is added to the accumulator, as the pipeline calls it: from the invariant before the point and
  every window's buffer at what it then holds, to the invariant after it and every buffer at what the body leaves.
-/
import proofs.«101174_g88562225643609_cont_sun_c4_799_5_alg».proof.Proof.Bits.Data
import proofs.«101174_g88562225643609_cont_sun_c4_799_5_alg».proof.Proof.Bits.StepD

set_option maxRecDepth 16384

noncomputable section

namespace Cert.Kernel.Shared

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

variable (c : Dev nD)
variable (X0 : Vec F S1x4096 .f32) (X1 : Vec F S4096x1 .f32) (X2 : Vec F S3x4096 .f32) (X3 : Vec F S4096x3 .bf16) (X4 : Vec F S3x4096 .f32)

private theorem known_at (t : Fin cfg0.N) (h9 : 9 ≤ t.val)
    (inb : ∀ a, (k0_off2 (grid0.coords t)) a + S512x3.size a ≤ S4096x3.size a)
    (hK : Known m c t.val X0 X1 X2 X3 X4) :
    Known m c (t.val + 1) X0 X1 (k0_pay8 (iblk m c 1 t) (View.ld X3 (Rect.unit (s := S4096x3) (k0_off2 (grid0.coords t)) S512x3.size inb)) X2) X3 X4 :=
  known_msg m c X0 X1 X2 X3 X4 t.val h9 (lt_of_lt_of_eq t.isLt N_0) inb hK

set_option maxHeartbeats 4000000 in
theorem soundD (t : Fin cfg0.N) (h9 : 9 ≤ t.val) (h15 : t.val < 15) :
    bodyPre m c t ⊢ wp frame (wpE (defs₀ (F := F)) Variants.none c none) Set.univ (bodyAt0 t) (fun _ => bodyPost m c t) := by
  have hlt : t.val < 16 := lt_of_lt_of_eq t.isLt N_0
  have hc0 : ¬isFirst (grid0.coords t) := fun h => absurd ((isFirst_iff t).mp h) (by omega)
  have hc1 : ¬inDegPhase (grid0.coords t) := fun h => absurd ((inDegPhase_iff t).mp h) (by omega)
  have hc2 : ¬isTransition (grid0.coords t) := fun h => absurd ((isTransition_iff t).mp h) (by omega)
  have hc3 : inMsgPhase (grid0.coords t) := (inMsgPhase_iff t).mpr (by omega)
  have hc4 : ¬isLast (grid0.coords t) := fun h => absurd ((isLast_iff t).mp h) (by omega)
  unfold bodyPre bodyPost bodyAt0
  simp only [before_0, before_1, before_2, before_3, before_4, before_5, before_6, before_7, before_8]
  rw [show (dats m 0 c).owesAt () t.succ = (dats m 0 c).owesAt () t.castSucc from rfl, Phi_castSucc, Phi_succ,
    leaves_0, leaves_1, leaves_2, leaves_3, leaves_4, leaves_5, leaves_6, leaves_7, leaves_8, leaves_9_idle m c t (by omega)]
  unfold PhiS
  iintro ⟨⟨%X0, %X1, %X2, %X3, %X4, %hK, HS0, HS1, HS2, HS3, HS4⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩⟩
  iapply (stepD c (grid0.coords t) _ _ _ _ _ _ _ _ _ _ _ _ _ _ _ _ _ _ _ _ _ _ _ _ _ _ _ _ _ _ hc0 hc1 hc2 hc3 hc4
    (iblk m c 0 t) (iblk m c 1 t) (iblk m c 2 t) (iblk m c 3 t) (iblk m c 4 t) (iblk m c 5 t) (iblk m c 6 t) (iblk m c 7 t) (iblk m c 8 t) ((dats m 0 c).before 9 t d9) X0 X1 X2 X3 X4 Set.univ _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [HS0]; · iexact HS0
  isplitl [HS1]; · iexact HS1
  isplitl [HS2]; · iexact HS2
  isplitl [HS3]; · iexact HS3
  isplitl [HS4]; · iexact HS4
  iintro ⟨H0, H1, H2, H3, H4, H5, H6, H7, H8, H9, HS0, HS1, HS2, HS3, HS4⟩
  isplitl [HS0 HS1 HS2 HS3 HS4]
  · iexists _, _, _, _, _
    isplitr; · ipureintro; exact known_at m c X0 X1 X2 X3 X4 t h9 (k0_off2_inb _ hc3) hK
    isplitl [HS0]; · iexact HS0
    isplitl [HS1]; · iexact HS1
    isplitl [HS2]; · iexact HS2
    isplitl [HS3]; · iexact HS3
    iexact HS4
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  iexists d9; iexact H9

end Cert.Kernel.Shared

end
-- ==== Proof.Bits.RunE.lean ====
/-
  The body at the last point: the last band's contribution is added, then the result is assembled and stored. Run once on any whole staging and scratch buffers at any contents; what each
  buffer it stores into ends with is found by the run, as the list of pieces stored.
-/
import proofs.«101174_g88562225643609_cont_sun_c4_799_5_alg».proof.Proof.Bits.RunC
import Idealize.ShloMosaic.Lib.Pipeline.FrameBody

set_option maxRecDepth 16384

noncomputable section

namespace Cert.Kernel.Shared

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option maxHeartbeats 4000000 in
noncomputable def runE (c : Dev nD) (i : grid0.Coords) (arg1 : Memref sig .tc .vmem S4096x3 .f32) (harg1 : arg1.IsWhole) (arg2 : Memref sig .tc .vmem S512x4096 .f32) (harg2 : arg2.IsWhole) (arg3 : Memref sig .tc .vmem S512x512 .f32) (harg3 : arg3.IsWhole) (arg4 : Memref sig .tc .vmem S3x16 .f32) (harg4 : arg4.IsWhole) (arg5 : Memref sig .tc .vmem S1x16 .f32) (harg5 : arg5.IsWhole) (arg6 : Memref sig .tc .vmem S16x3 .f32) (harg6 : arg6.IsWhole) (arg7 : Memref sig .tc .vmem S1x3 .f32) (harg7 : arg7.IsWhole) (arg8 : Memref sig .tc .vmem S3x3 .f32) (harg8 : arg8.IsWhole) (arg9 : Memref sig .tc .vmem S1x3 .f32) (harg9 : arg9.IsWhole) (arg10 : Memref sig .tc .vmem S4096x3 .f32) (harg10 : arg10.IsWhole) (arg11 : Memref sig .tc .vmem S1x4096 .f32) (harg11 : arg11.IsWhole) (arg12 : Memref sig .tc .vmem S4096x1 .f32) (harg12 : arg12.IsWhole) (arg13 : Memref sig .tc .vmem S3x4096 .f32) (harg13 : arg13.IsWhole) (arg14 : Memref sig .tc .vmem S4096x3 .bf16) (harg14 : arg14.IsWhole) (arg15 : Memref sig .tc .vmem S3x4096 .f32) (harg15 : arg15.IsWhole)
    (hc0 : ¬isFirst i) (hc1 : ¬inDegPhase i) (hc2 : ¬isTransition i) (hc3 : inMsgPhase i) (hc4 : isLast i)
    (x1 : Vec F S4096x3 .f32) (x2 : Vec F S512x4096 .f32) (x3 : Vec F S512x512 .f32) (x4 : Vec F S3x16 .f32) (x5 : Vec F S1x16 .f32) (x6 : Vec F S16x3 .f32) (x7 : Vec F S1x3 .f32) (x8 : Vec F S3x3 .f32) (x9 : Vec F S1x3 .f32) (x10 : Vec F S4096x3 .f32) (x11 : Vec F S1x4096 .f32) (x12 : Vec F S4096x1 .f32) (x13 : Vec F S3x4096 .f32) (x14 : Vec F S4096x3 .bf16) (x15 : Vec F S3x4096 .f32) :
    Σ' (L10 : List (View.Piece (Elt F) S4096x3 .f32)), { L13 : List (View.Piece (Elt F) S3x4096 .f32) //
      ∀ (E : Set ℕ) (K : PUnit → sProp 𝕄),
        iprop(owns (c : Thread nD τ) arg1 fullShare x1 ∗ owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg6 fullShare x6 ∗ owns (c : Thread nD τ) arg7 fullShare x7 ∗ owns (c : Thread nD τ) arg8 fullShare x8 ∗ owns (c : Thread nD τ) arg9 fullShare x9 ∗ owns (c : Thread nD τ) arg10 fullShare x10 ∗ owns (c : Thread nD τ) arg11 fullShare x11 ∗ owns (c : Thread nD τ) arg12 fullShare x12 ∗ owns (c : Thread nD τ) arg13 fullShare x13 ∗ owns (c : Thread nD τ) arg14 fullShare x14 ∗ owns (c : Thread nD τ) arg15 fullShare x15
            ∗ (iprop(owns (c : Thread nD τ) arg1 fullShare x1 ∗ owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg6 fullShare x6 ∗ owns (c : Thread nD τ) arg7 fullShare x7 ∗ owns (c : Thread nD τ) arg8 fullShare x8 ∗ owns (c : Thread nD τ) arg9 fullShare x9 ∗ (∃ f, arg10.view.loc (c : Thread nD τ) ↦[arg10.view.set]{fullShare} arg10.view.writes (Elt F) f L10) ∗ owns (c : Thread nD τ) arg11 fullShare x11 ∗ owns (c : Thread nD τ) arg12 fullShare x12 ∗ (∃ f, arg13.view.loc (c : Thread nD τ) ↦[arg13.view.set]{fullShare} arg13.view.writes (Elt F) f L13) ∗ owns (c : Thread nD τ) arg14 fullShare x14 ∗ owns (c : Thread nD τ) arg15 fullShare x15) -∗ K ⟨⟩))
          ⊢ wp frame (wpE (defs₀ (F := F)) Variants.none c none) E (cc0__gcn_kernel i arg1 harg1 arg2 harg2 arg3 harg3 arg4 harg4 arg5 harg5 arg6 harg6 arg7 harg7 arg8 harg8 arg9 harg9 arg10 harg10 arg11 harg11 arg12 harg12 arg13 harg13 arg14 harg14 arg15 harg15) K } := by
  refine ⟨?_, ?_, fun E K => ?run⟩
  case run =>
    simp only [cc0__gcn_kernel_eq_skeleton]; unfold cc0__gcn_kernel_skel
    unfold owns
    iintro ⟨⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%f12, %hf12, H12⟩, ⟨%f13, %hf13, H13⟩, ⟨%f14, %hf14, H14⟩, ⟨%f15, %hf15, H15⟩, Hk⟩
    obtain rfl := harg1.eq_unread hf1; obtain rfl := harg2.eq_unread hf2; obtain rfl := harg3.eq_unread hf3; obtain rfl := harg4.eq_unread hf4; obtain rfl := harg5.eq_unread hf5; obtain rfl := harg6.eq_unread hf6; obtain rfl := harg7.eq_unread hf7; obtain rfl := harg8.eq_unread hf8; obtain rfl := harg9.eq_unread hf9; obtain rfl := harg10.eq_unread hf10; obtain rfl := harg11.eq_unread hf11; obtain rfl := harg12.eq_unread hf12; obtain rfl := harg13.eq_unread hf13; obtain rfl := harg14.eq_unread hf14; obtain rfl := harg15.eq_unread hf15
    sl_exec (disch := first | exact hc0 | exact hc1 | exact hc2 | exact hc3 | exact hc4)
    sl_step
    iapply Hk
    isplitl [H1]
    · iexists _; isplitr; · ipureintro; exact harg1.read_unread _
      iexact H1
    isplitl [H2]
    · iexists _; isplitr; · ipureintro; exact harg2.read_unread _
      iexact H2
    isplitl [H3]
    · iexists _; isplitr; · ipureintro; exact harg3.read_unread _
      iexact H3
    isplitl [H4]
    · iexists _; isplitr; · ipureintro; exact harg4.read_unread _
      iexact H4
    isplitl [H5]
    · iexists _; isplitr; · ipureintro; exact harg5.read_unread _
      iexact H5
    isplitl [H6]
    · iexists _; isplitr; · ipureintro; exact harg6.read_unread _
      iexact H6
    isplitl [H7]
    · iexists _; isplitr; · ipureintro; exact harg7.read_unread _
      iexact H7
    isplitl [H8]
    · iexists _; isplitr; · ipureintro; exact harg8.read_unread _
      iexact H8
    isplitl [H9]
    · iexists _; isplitr; · ipureintro; exact harg9.read_unread _
      iexact H9
    isplitl [H10]
    · iexists _; iexact H10
    isplitl [H11]
    · iexists _; isplitr; · ipureintro; exact harg11.read_unread _
      iexact H11
    isplitl [H12]
    · iexists _; isplitr; · ipureintro; exact harg12.read_unread _
      iexact H12
    isplitl [H13]
    · iexists _; iexact H13
    isplitl [H14]
    · iexists _; isplitr; · ipureintro; exact harg14.read_unread _
      iexact H14
    iexists _; isplitr; · ipureintro; exact harg15.read_unread _
    iexact H15

end Cert.Kernel.Shared

end
-- ==== Proof.Bits.StepE.lean ====
/-
  The same step with what it leaves named: at the last point: the last band's contribution is added, then the result is assembled and stored, each buffer the body stores into ends
  at the stated function of what the buffers held; the others are handed back as they were.
-/
import proofs.«101174_g88562225643609_cont_sun_c4_799_5_alg».proof.Proof.Bits.RunE
import proofs.«101174_g88562225643609_cont_sun_c4_799_5_alg».proof.Proof.Bits.Covered

set_option maxRecDepth 16384

noncomputable section

namespace Cert.Kernel.Shared

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option maxHeartbeats 2000000 in
theorem stepE (c : Dev nD) (i : grid0.Coords) (arg1 : Memref sig .tc .vmem S4096x3 .f32) (harg1 : arg1.IsWhole) (arg2 : Memref sig .tc .vmem S512x4096 .f32) (harg2 : arg2.IsWhole) (arg3 : Memref sig .tc .vmem S512x512 .f32) (harg3 : arg3.IsWhole) (arg4 : Memref sig .tc .vmem S3x16 .f32) (harg4 : arg4.IsWhole) (arg5 : Memref sig .tc .vmem S1x16 .f32) (harg5 : arg5.IsWhole) (arg6 : Memref sig .tc .vmem S16x3 .f32) (harg6 : arg6.IsWhole) (arg7 : Memref sig .tc .vmem S1x3 .f32) (harg7 : arg7.IsWhole) (arg8 : Memref sig .tc .vmem S3x3 .f32) (harg8 : arg8.IsWhole) (arg9 : Memref sig .tc .vmem S1x3 .f32) (harg9 : arg9.IsWhole) (arg10 : Memref sig .tc .vmem S4096x3 .f32) (harg10 : arg10.IsWhole) (arg11 : Memref sig .tc .vmem S1x4096 .f32) (harg11 : arg11.IsWhole) (arg12 : Memref sig .tc .vmem S4096x1 .f32) (harg12 : arg12.IsWhole) (arg13 : Memref sig .tc .vmem S3x4096 .f32) (harg13 : arg13.IsWhole) (arg14 : Memref sig .tc .vmem S4096x3 .bf16) (harg14 : arg14.IsWhole) (arg15 : Memref sig .tc .vmem S3x4096 .f32) (harg15 : arg15.IsWhole)
    (hc0 : ¬isFirst i) (hc1 : ¬inDegPhase i) (hc2 : ¬isTransition i) (hc3 : inMsgPhase i) (hc4 : isLast i)
    (x1 : Vec F S4096x3 .f32) (x2 : Vec F S512x4096 .f32) (x3 : Vec F S512x512 .f32) (x4 : Vec F S3x16 .f32) (x5 : Vec F S1x16 .f32) (x6 : Vec F S16x3 .f32) (x7 : Vec F S1x3 .f32) (x8 : Vec F S3x3 .f32) (x9 : Vec F S1x3 .f32) (x10 : Vec F S4096x3 .f32) (x11 : Vec F S1x4096 .f32) (x12 : Vec F S4096x1 .f32) (x13 : Vec F S3x4096 .f32) (x14 : Vec F S4096x3 .bf16) (x15 : Vec F S3x4096 .f32) (E : Set ℕ) (K : PUnit → sProp 𝕄) :
    iprop(owns (c : Thread nD τ) arg1 fullShare x1 ∗ owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg6 fullShare x6 ∗ owns (c : Thread nD τ) arg7 fullShare x7 ∗ owns (c : Thread nD τ) arg8 fullShare x8 ∗ owns (c : Thread nD τ) arg9 fullShare x9 ∗ owns (c : Thread nD τ) arg10 fullShare x10 ∗ owns (c : Thread nD τ) arg11 fullShare x11 ∗ owns (c : Thread nD τ) arg12 fullShare x12 ∗ owns (c : Thread nD τ) arg13 fullShare x13 ∗ owns (c : Thread nD τ) arg14 fullShare x14 ∗ owns (c : Thread nD τ) arg15 fullShare x15
        ∗ (iprop(owns (c : Thread nD τ) arg1 fullShare x1
            ∗ owns (c : Thread nD τ) arg2 fullShare x2
            ∗ owns (c : Thread nD τ) arg3 fullShare x3
            ∗ owns (c : Thread nD τ) arg4 fullShare x4
            ∗ owns (c : Thread nD τ) arg5 fullShare x5
            ∗ owns (c : Thread nD τ) arg6 fullShare x6
            ∗ owns (c : Thread nD τ) arg7 fullShare x7
            ∗ owns (c : Thread nD τ) arg8 fullShare x8
            ∗ owns (c : Thread nD τ) arg9 fullShare x9
            ∗ owns (c : Thread nD τ) arg10 fullShare (k0_pay9 x12 x11 (k0_pay8 x2 (View.ld x14 (Rect.unit (s := S4096x3) (k0_off2 i) S512x3.size (k0_off2_inb i hc3))) x13) x15 x9)
            ∗ owns (c : Thread nD τ) arg11 fullShare x11
            ∗ owns (c : Thread nD τ) arg12 fullShare x12
            ∗ owns (c : Thread nD τ) arg13 fullShare (k0_pay8 x2 (View.ld x14 (Rect.unit (s := S4096x3) (k0_off2 i) S512x3.size (k0_off2_inb i hc3))) x13)
            ∗ owns (c : Thread nD τ) arg14 fullShare x14
            ∗ owns (c : Thread nD τ) arg15 fullShare x15) -∗ K ⟨⟩))
      ⊢ wp frame (wpE (defs₀ (F := F)) Variants.none c none) E (cc0__gcn_kernel i arg1 harg1 arg2 harg2 arg3 harg3 arg4 harg4 arg5 harg5 arg6 harg6 arg7 harg7 arg8 harg8 arg9 harg9 arg10 harg10 arg11 harg11 arg12 harg12 arg13 harg13 arg14 harg14 arg15 harg15) K := by
  iintro ⟨H1, H2, H3, H4, H5, H6, H7, H8, H9, H10, H11, H12, H13, H14, H15, Hk⟩
  iapply ((runE c i arg1 harg1 arg2 harg2 arg3 harg3 arg4 harg4 arg5 harg5 arg6 harg6 arg7 harg7 arg8 harg8 arg9 harg9 arg10 harg10 arg11 harg11 arg12 harg12 arg13 harg13 arg14 harg14 arg15 harg15 hc0 hc1 hc2 hc3 hc4 x1 x2 x3 x4 x5 x6 x7 x8 x9 x10 x11 x12 x13 x14 x15).2.2 E K)
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  isplitl [H14]; · iexact H14
  isplitl [H15]; · iexact H15
  iintro ⟨H1, H2, H3, H4, H5, H6, H7, H8, H9, H10, H11, H12, H13, H14, H15⟩
  iapply Hk
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]
  · icases H10 with ⟨%f, H10⟩
    unfold owns; iexists _; isplitr
    swap; · iexact H10
    ipureintro
    unfold runE; dsimp only
    sl_unfold_words
    simp only [load_part, read_store_part, ld_whole2, read_store_whole2, readCov_part2]
  isplitl [H11]; · iexact H11
  isplitl [H12]; · iexact H12
  isplitl [H13]
  · icases H13 with ⟨%f, H13⟩
    unfold owns; iexists _; isplitr
    swap; · iexact H13
    ipureintro
    unfold runE; dsimp only
    sl_unfold_words
    simp only [load_part, read_store_part, ld_whole2, read_store_whole2, readCov_part2]
  isplitl [H14]; · iexact H14
  iexact H15

end Cert.Kernel.Shared

end
-- ==== Proof.Bits.SoundE.lean ====
/-
  The body at the last point: the last band's contribution is added, then the result is assembled and stored, as the pipeline calls it: from the invariant before the point and
  every window's buffer at what it then holds, to the invariant after it and every buffer at what the body leaves.
-/
import proofs.«101174_g88562225643609_cont_sun_c4_799_5_alg».proof.Proof.Bits.Data
import proofs.«101174_g88562225643609_cont_sun_c4_799_5_alg».proof.Proof.Bits.StepE

set_option maxRecDepth 16384

noncomputable section

namespace Cert.Kernel.Shared

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

variable (c : Dev nD)
variable (X0 : Vec F S1x4096 .f32) (X1 : Vec F S4096x1 .f32) (X2 : Vec F S3x4096 .f32) (X3 : Vec F S4096x3 .bf16) (X4 : Vec F S3x4096 .f32)

private theorem known_at (t : Fin cfg0.N) (h9 : 9 ≤ t.val)
    (inb : ∀ a, (k0_off2 (grid0.coords t)) a + S512x3.size a ≤ S4096x3.size a)
    (hK : Known m c t.val X0 X1 X2 X3 X4) :
    Known m c (t.val + 1) X0 X1 (k0_pay8 (iblk m c 1 t) (View.ld X3 (Rect.unit (s := S4096x3) (k0_off2 (grid0.coords t)) S512x3.size inb)) X2) X3 X4 :=
  known_msg m c X0 X1 X2 X3 X4 t.val h9 (lt_of_lt_of_eq t.isLt N_0) inb hK

private theorem result_at (t : Fin cfg0.N) (h15 : t.val = 15)
    (inb : ∀ a, (k0_off2 (grid0.coords t)) a + S512x3.size a ≤ S4096x3.size a)
    (hK : Known m c t.val X0 X1 X2 X3 X4) :
    k0_pay9 X1 X0 (k0_pay8 (iblk m c 1 t) (View.ld X3 (Rect.unit (s := S4096x3) (k0_off2 (grid0.coords t)) S512x3.size inb)) X2) X4 (iblk m c 8 t) = result m c := by
  obtain rfl : t = t15 := Fin.ext h15
  exact known_result m c X0 X1 X2 X3 X4 inb hK

set_option maxHeartbeats 4000000 in
theorem soundE (t : Fin cfg0.N) (h15 : t.val = 15) :
    bodyPre m c t ⊢ wp frame (wpE (defs₀ (F := F)) Variants.none c none) Set.univ (bodyAt0 t) (fun _ => bodyPost m c t) := by
  have hlt : t.val < 16 := lt_of_lt_of_eq t.isLt N_0
  have hc0 : ¬isFirst (grid0.coords t) := fun h => absurd ((isFirst_iff t).mp h) (by omega)
  have hc1 : ¬inDegPhase (grid0.coords t) := fun h => absurd ((inDegPhase_iff t).mp h) (by omega)
  have hc2 : ¬isTransition (grid0.coords t) := fun h => absurd ((isTransition_iff t).mp h) (by omega)
  have hc3 : inMsgPhase (grid0.coords t) := (inMsgPhase_iff t).mpr (by omega)
  have hc4 : isLast (grid0.coords t) := (isLast_iff t).mpr (by omega)
  unfold bodyPre bodyPost bodyAt0
  simp only [before_0, before_1, before_2, before_3, before_4, before_5, before_6, before_7, before_8]
  rw [show (dats m 0 c).owesAt () t.succ = (dats m 0 c).owesAt () t.castSucc from rfl, Phi_castSucc, Phi_succ,
    leaves_0, leaves_1, leaves_2, leaves_3, leaves_4, leaves_5, leaves_6, leaves_7, leaves_8, leaves_9_last m c t h15]
  unfold PhiS
  iintro ⟨⟨%X0, %X1, %X2, %X3, %X4, %hK, HS0, HS1, HS2, HS3, HS4⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩⟩
  rw [← result_at m c X0 X1 X2 X3 X4 t h15 (k0_off2_inb _ hc3) hK]
  iapply (stepE c (grid0.coords t) _ _ _ _ _ _ _ _ _ _ _ _ _ _ _ _ _ _ _ _ _ _ _ _ _ _ _ _ _ _ hc0 hc1 hc2 hc3 hc4
    (iblk m c 0 t) (iblk m c 1 t) (iblk m c 2 t) (iblk m c 3 t) (iblk m c 4 t) (iblk m c 5 t) (iblk m c 6 t) (iblk m c 7 t) (iblk m c 8 t) ((dats m 0 c).before 9 t d9) X0 X1 X2 X3 X4 Set.univ _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [HS0]; · iexact HS0
  isplitl [HS1]; · iexact HS1
  isplitl [HS2]; · iexact HS2
  isplitl [HS3]; · iexact HS3
  isplitl [HS4]; · iexact HS4
  iintro ⟨H0, H1, H2, H3, H4, H5, H6, H7, H8, H9, HS0, HS1, HS2, HS3, HS4⟩
  isplitl [HS0 HS1 HS2 HS3 HS4]
  · iexists _, _, _, _, _
    isplitr; · ipureintro; exact known_at m c X0 X1 X2 X3 X4 t (by omega) (k0_off2_inb _ hc3) hK
    isplitl [HS0]; · iexact HS0
    isplitl [HS1]; · iexact HS1
    isplitl [HS2]; · iexact HS2
    isplitl [HS3]; · iexact HS3
    iexact HS4
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  iexact H9

end Cert.Kernel.Shared

end
-- ==== Proof.Bits.Frame.lean ====
/-
  The run of the whole program. The body's obligation at a point is that of its kind of point; with it, the launch
  (one array behind two windows) gives the run of @main. The result window's one write-back, at the last point, puts
  the model's result through the block that is the whole array, so the result array ends at the model's result; an
  argument array a window stages ends as the region found it, the three bias vectors are never a window's array, and
  no reshape writes an argument: every argument ends as it was launched.
-/
import proofs.«101174_g88562225643609_cont_sun_c4_799_5_alg».proof.Proof.Bits.SoundA
import proofs.«101174_g88562225643609_cont_sun_c4_799_5_alg».proof.Proof.Bits.SoundB
import proofs.«101174_g88562225643609_cont_sun_c4_799_5_alg».proof.Proof.Bits.SoundC
import proofs.«101174_g88562225643609_cont_sun_c4_799_5_alg».proof.Proof.Bits.SoundD
import proofs.«101174_g88562225643609_cont_sun_c4_799_5_alg».proof.Proof.Bits.SoundE
import Idealize.ShloMosaic.Lib.Pipeline.Value

set_option maxRecDepth 16384

noncomputable section

namespace Cert.Kernel.Shared

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

variable (c : Dev nD)

/-- The body's obligation, at every point. -/
theorem body_obligation : BodyObligation (dats (F := F) m 0 c) (defs₀ (F := F)) Variants.none () Set.univ := fun t => by
  rw [bigSep_W0, bigSep_W0]
  have hlt : t.val < 16 := lt_of_lt_of_eq t.isLt N_0
  by_cases h0 : t.val = 0
  · exact soundA m c t h0
  by_cases h8 : t.val < 8
  · exact soundB m c t (by omega) h8
  by_cases he : t.val = 8
  · exact soundC m c t he
  by_cases h15 : t.val < 15
  · exact soundD m c t (by omega) h15
  · exact soundE m c t (by omega)

/-- The run of @main: every windowed array at what the proof data compute, every other buffer as the region found it. -/
theorem run_main : θ_run defs (onTc (τ := τ) (main (F := F))) (s₀ m ρ) (Pipeline.FramePost cfgs (dats m) 0 (V m)) :=
  run_shared m ρ Variants.none (dats m) (fun c => (body_obligation m c).loose) (fun c => q_eq m c) (fun _ _ => rfl)
    (fun c w => A_eq m c w) (fun c => phi_in m c) (fun c => phi_out m c)

/-- No reshape before the region writes argument 0. -/
theorem V_main_arg0 : V m c main_arg0 = m ((c : Thread nD τ).loc main_arg0) :=
  StableHlo.after_of_forall_not_mem (b := Proc.devRef .tc main_arg0) _ _ (List.forall_iff_forall_mem.mp (by
    simp only [hostOps0, List.Forall, StableHlo.reshape_writes, Finset.mem_singleton]
    repeat' apply And.intro
    all_goals exact StableHlo.devRef_ne_of_ne (by decide)))
/-- No reshape before the region writes argument 1. -/
theorem V_main_arg1 : V m c main_arg1 = m ((c : Thread nD τ).loc main_arg1) :=
  StableHlo.after_of_forall_not_mem (b := Proc.devRef .tc main_arg1) _ _ (List.forall_iff_forall_mem.mp (by
    simp only [hostOps0, List.Forall, StableHlo.reshape_writes, Finset.mem_singleton]
    repeat' apply And.intro
    all_goals exact StableHlo.devRef_ne_of_ne (by decide)))
/-- No reshape before the region writes argument 2. -/
theorem V_main_arg2 : V m c main_arg2 = m ((c : Thread nD τ).loc main_arg2) :=
  StableHlo.after_of_forall_not_mem (b := Proc.devRef .tc main_arg2) _ _ (List.forall_iff_forall_mem.mp (by
    simp only [hostOps0, List.Forall, StableHlo.reshape_writes, Finset.mem_singleton]
    repeat' apply And.intro
    all_goals exact StableHlo.devRef_ne_of_ne (by decide)))
/-- No reshape before the region writes argument 3. -/
theorem V_main_arg3 : V m c main_arg3 = m ((c : Thread nD τ).loc main_arg3) :=
  StableHlo.after_of_forall_not_mem (b := Proc.devRef .tc main_arg3) _ _ (List.forall_iff_forall_mem.mp (by
    simp only [hostOps0, List.Forall, StableHlo.reshape_writes, Finset.mem_singleton]
    repeat' apply And.intro
    all_goals exact StableHlo.devRef_ne_of_ne (by decide)))
/-- No reshape before the region writes argument 4. -/
theorem V_main_arg4 : V m c main_arg4 = m ((c : Thread nD τ).loc main_arg4) :=
  StableHlo.after_of_forall_not_mem (b := Proc.devRef .tc main_arg4) _ _ (List.forall_iff_forall_mem.mp (by
    simp only [hostOps0, List.Forall, StableHlo.reshape_writes, Finset.mem_singleton]
    repeat' apply And.intro
    all_goals exact StableHlo.devRef_ne_of_ne (by decide)))
/-- No reshape before the region writes argument 5. -/
theorem V_main_arg5 : V m c main_arg5 = m ((c : Thread nD τ).loc main_arg5) :=
  StableHlo.after_of_forall_not_mem (b := Proc.devRef .tc main_arg5) _ _ (List.forall_iff_forall_mem.mp (by
    simp only [hostOps0, List.Forall, StableHlo.reshape_writes, Finset.mem_singleton]
    repeat' apply And.intro
    all_goals exact StableHlo.devRef_ne_of_ne (by decide)))
/-- No reshape before the region writes argument 6. -/
theorem V_main_arg6 : V m c main_arg6 = m ((c : Thread nD τ).loc main_arg6) :=
  StableHlo.after_of_forall_not_mem (b := Proc.devRef .tc main_arg6) _ _ (List.forall_iff_forall_mem.mp (by
    simp only [hostOps0, List.Forall, StableHlo.reshape_writes, Finset.mem_singleton]
    repeat' apply And.intro
    all_goals exact StableHlo.devRef_ne_of_ne (by decide)))
/-- No reshape before the region writes argument 7. -/
theorem V_main_arg7 : V m c main_arg7 = m ((c : Thread nD τ).loc main_arg7) :=
  StableHlo.after_of_forall_not_mem (b := Proc.devRef .tc main_arg7) _ _ (List.forall_iff_forall_mem.mp (by
    simp only [hostOps0, List.Forall, StableHlo.reshape_writes, Finset.mem_singleton]
    repeat' apply And.intro
    all_goals exact StableHlo.devRef_ne_of_ne (by decide)))

/-- The one write-back of the result window, at the last point, writes the model's result: its block is the whole array. -/
theorem flushed_eq (t : Fin cfg0.N) (hf : (cfg0.win 9).flush t = true) :
    (dats m 0 c).flushed 9 t = ((cfg0.win 9).blk t).view.read (Elt F) (result m c) := by
  have h15 : t.val = 15 := (flush_out_iff t).mp hf
  obtain rfl : t = t15 := Fin.ext h15
  show (cfg0.win 9).cut (grid0.coords t15) ((dats m 0 c).after 9 t15) = _
  rw [after_9]
  have hz' : (fun a => win0_9.index t15 a * main_v3.ty.shape.size a) = fun _ => 0 := funext fun a => by fin_cases a <;> decide +kernel
  exact (Memref.read_access_unit_zero (Elt F) main_v3 hz' (fun a => by rw [congrFun hz' a]; simp) (result m c)).symm

/-- So the result array ends holding the model's result. -/
theorem final_result : (dats m 0 c).arrAt 9 cfg0.N = result m c :=
  (dats m 0 c).arrAt_eq_of_cover 9 (result m c) (flushed_eq m c) fun i =>
    ⟨t15, (flush_out_iff t15).mpr rfl, by
      show i ∈ ((View.whole main_v3).slice (win0_9.rect t15)).set
      rw [View.set_slice_whole, Rect.mem_set_unit]
      intro a
      have h0 : (i 0 : Nat) < 4096 := (i 0).isLt
      have h1 : (i 1 : Nat) < 3 := (i 1).isLt
      match a with
      | ⟨0, _⟩ =>
        show win0_9.index t15 0 * win0_9.size 0 ≤ (i 0 : Nat) ∧ (i 0 : Nat) < win0_9.index t15 0 * win0_9.size 0 + win0_9.xsize (grid0.coords t15) 0
        rw [show win0_9.index t15 0 * win0_9.size 0 = 0 from by decide +kernel, show win0_9.xsize (grid0.coords t15) 0 = 4096 from by decide +kernel]; omega
      | ⟨1, _⟩ =>
        show win0_9.index t15 1 * win0_9.size 1 ≤ (i 1 : Nat) ∧ (i 1 : Nat) < win0_9.index t15 1 * win0_9.size 1 + win0_9.xsize (grid0.coords t15) 1
        rw [show win0_9.index t15 1 * win0_9.size 1 = 0 from by decide +kernel, show win0_9.xsize (grid0.coords t15) 1 = 3 from by decide +kernel]; omega⟩

/-- The run, read: the result array at the model's result, every argument as launched. -/
theorem run : θ_run defs (onTc (τ := τ) (main (F := F))) ⟨m, fun _ => 0, ρ⟩ fun r => ∀ c : Dev nD,
      r.2.mem ((c.tc : Thread nD τ).loc main_v3) = result m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7) :=
  (θ_run defs _ _).mono (fun _ h c => ⟨((h c).1 9).trans (final_result m c),
      ((h c).1 0).trans (((dats m 0 c).arrAt_in 0 rfl _).trans ((A_eq m c 0).trans (V_main_arg0 m c))),
      ((h c).1 1).trans (((dats m 0 c).arrAt_in 1 rfl _).trans ((A_eq m c 1).trans (V_main_arg1 m c))),
      ((h c).1 3).trans (((dats m 0 c).arrAt_in 3 rfl _).trans ((A_eq m c 3).trans (V_main_arg2 m c))),
      ((h c).2 main_arg3 (Pipeline.mem_restRefs_of main_arg3 (by decide) (by decide))).trans (V_main_arg3 m c),
      ((h c).1 5).trans (((dats m 0 c).arrAt_in 5 rfl _).trans ((A_eq m c 5).trans (V_main_arg4 m c))),
      ((h c).2 main_arg5 (Pipeline.mem_restRefs_of main_arg5 (by decide) (by decide))).trans (V_main_arg5 m c),
      ((h c).1 7).trans (((dats m 0 c).arrAt_in 7 rfl _).trans ((A_eq m c 7).trans (V_main_arg6 m c))),
      ((h c).2 main_arg7 (Pipeline.mem_restRefs_of main_arg7 (by decide) (by decide))).trans (V_main_arg7 m c)⟩)
    (run_main m ρ)

/-- The frame: every weakly fair execution terminates, without a fault, every argument as launched. -/
theorem frame : θ_run defs (onTc (τ := τ) (main (F := F))) ⟨m, fun _ => 0, ρ⟩ fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7) :=
  (θ_run defs _ _).mono (fun _ h c => (h c).2) (run m ρ)

end Cert.Kernel.Shared

end
-- ==== Proof.Ideal.SharedLaunch.lean ====
/-
  One array behind two windows. The kernel is handed the adjacency matrix twice: a band of 512 rows and, of the same
  band, the 512 × 512 square on the diagonal. Both windows only read it, so the array's full share is dealt between
  them, the left half to the band and the right half to the square, and given back joined when the region ends. What
  is proved here is the run of @main for any proof data of the region: the three reshapes of the bias vectors, then
  the region launched with the shares so dealt; every windowed array ends at what the data compute and every other
  buffer of @main as the region found it.
-/
import proofs.«101174_g88562225643609_cont_sun_c4_799_5_alg».proof.Proof.Gen.KernelIdeal.Launch
import proofs.«101174_g88562225643609_cont_sun_c4_799_5_alg».proof.Proof.Gen.KernelIdeal.Points
import Idealize.ShloMosaic.Lib.Pipeline.FrameBody
import Idealize.ShloMosaic.Lib.Pipeline.Launch
import Idealize.ShloMosaic.Lib.Tactic

set_option maxRecDepth 16384

noncomputable section

namespace Cert.KernelIdeal.Shared

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- Core `c`'s buffers when the region is entered: after the three reshapes. -/
abbrev V (c : Dev nD) (b : Ref sig .tc) : Buf (Elt F) ((c : Thread nD τ).loc b) :=
  StableHlo.after hostOps0 (fun b => m (c, b)) b

theorem hostOps0_fresh : (hostOps0 : List (HloOp τ sig (Elt F))).Forall fun op => op.fresh = ∅ := by
  simp only [List.Forall]; repeat' constructor

/-- @main is the three reshapes, then the region. -/
theorem hmain (𝒱₀ : Variants) :
    Pipeline.HMain (Ix := Unit) (Name := ℕ) (U := UR sig nD τ) (Lvl := ℕ) cfgs 0 defs₀ 𝒱₀ m (main (F := F)) (V m) :=
  Pipeline.hmain_prefix cfgs 0 defs₀ 𝒱₀ m main hostOps0 hostOps0_sub hostOps0_fresh main_chain

/-- The shares: the band window holds the left half of the adjacency array, the diagonal square the right half, every
    other input its array whole. -/
def shares : Fin 10 → PosShare TreeShare := fun
  | 1 => fullShare.left
  | 2 => fullShare.right
  | _ => fullShare

/-- The buffers behind the windows' arrays — nine, the adjacency array counted once — make the data's arrays at the
    region's entry: each array whole to its window, the adjacency array's two halves to the band and to the square. -/
theorem arrays_of_arrBufs (c : Dev nD) (dat : Dat τ (Elt F) Unit ℕ (UR sig nD τ) ℕ cfg0 c)
    (hq : dat.q = shares) (hA : ∀ w, dat.A w = V m c (Pipeline.arrRef spec0 w)) :
    (Pipeline.arrBufs spec0 c (V m c) : sProp 𝕄) ⊢ dat.arrays (dat.arrAt · 0) := by
  have key : ∀ w : Fin 10,
      (View.loc c.tc (cfg0.win w).arr.view ↦[(cfg0.win w).arr.view.set]{dat.share w} dat.arrAt w 0 : sProp 𝕄)
        = (c.tc.loc (Pipeline.arrRef spec0 w) ↦{dat.share w} V m c (Pipeline.arrRef spec0 w)) := fun w => by
    rw [(arr_whole0 w).set_eq_univ, show dat.arrAt w 0 = dat.A w from rfl, hA]
  have sh (w : Fin 10) (hw : (cfg0.win w).isOut = false) : dat.share w = shares w := by
    unfold Dat.share; rw [hw, hq]; rfl
  rw [show dat.arrays (dat.arrAt · 0)
      = bigSep Finset.univ (fun w : Fin 10 => (c.tc.loc (Pipeline.arrRef spec0 w) ↦{dat.share w} V m c (Pipeline.arrRef spec0 w) : sProp 𝕄))
      from bigSep_congr fun w _ => key w]
  unfold Pipeline.arrBufs
  rw [bigSep_eq_bigSepL_of_eq [main_arg0, main_arg1, main_arg2, main_v0, main_arg4, main_v1, main_arg6, main_v2, main_v3]
    (by decide) (by decide), bigSep_W0]
  rw [sh 0 rfl, sh 1 rfl, sh 2 rfl, sh 3 rfl, sh 4 rfl, sh 5 rfl, sh 6 rfl, sh 7 rfl, sh 8 rfl,
    show dat.share 9 = fullShare from rfl]
  refine BIBase.Entails.trans (BIBase.Entails.of_eq (show _ = iprop((c.tc.loc main_arg0 ↦{fullShare} V m c main_arg0)
    ∗ (c.tc.loc main_arg1 ↦{fullShare} V m c main_arg1) ∗ (c.tc.loc main_arg2 ↦{fullShare} V m c main_arg2)
    ∗ (c.tc.loc main_v0 ↦{fullShare} V m c main_v0) ∗ (c.tc.loc main_arg4 ↦{fullShare} V m c main_arg4)
    ∗ (c.tc.loc main_v1 ↦{fullShare} V m c main_v1) ∗ (c.tc.loc main_arg6 ↦{fullShare} V m c main_arg6)
    ∗ (c.tc.loc main_v2 ↦{fullShare} V m c main_v2) ∗ (c.tc.loc main_v3 ↦{fullShare} V m c main_v3)) from rfl)) ?_
  iintro ⟨Hx, Hadj, Hw1, Hb1, Hw3, Hb3, Hwg, Hbg, Hout⟩
  ihave Hadj' := (pointsTo_share (PosShare.mem_left_op_right fullShare)).1 $$ Hadj
  icases Hadj' with ⟨Hband, Hsq⟩
  isplitl [Hx]; · iexact Hx
  isplitl [Hband]; · iexact Hband
  isplitl [Hsq]; · iexact Hsq
  isplitl [Hw1]; · iexact Hw1
  isplitl [Hb1]; · iexact Hb1
  isplitl [Hw3]; · iexact Hw3
  isplitl [Hb3]; · iexact Hb3
  isplitl [Hwg]; · iexact Hwg
  isplitl [Hbg]; · iexact Hbg
  iexact Hout

/-- The run of @main, for any proof data of the region that deal the shares as above, owe nothing, start from the
    arrays as the region finds them, and whose invariant is made from the kernel's scratch buffers before the first
    point and gives them back after the last: every weakly fair execution terminates, every windowed array ends at
    what the data compute, every other buffer of @main at what the region found. -/
theorem run_shared (𝒱₀ : Variants)
    (dats : (p : Fin 1) → (c : Dev nD) → Dat τ (Elt F) Unit ℕ (UR sig nD τ) ℕ (cfgs p) c)
    (hbody : ∀ c, Pipeline.BodyObligationLoose (dats 0 c) (defs₀ (F := F)) 𝒱₀ () Set.univ)
    (hq : ∀ c, (dats 0 c).q = shares) (howed : ∀ c t, (dats 0 c).owed t = 0)
    (hA : ∀ c w, (dats 0 c).A w = V m c (Pipeline.arrRef spec0 w))
    (hin : ∀ c, (Pipeline.scopedRest spec0 c : sProp 𝕄) ⊢ (dats 0 c).Φ 0)
    (hout : ∀ c, (dats 0 c).Φ (Fin.last cfg0.N) ⊢ (Pipeline.scopedRest spec0 c : sProp 𝕄)) :
    θ_run defs (onTc (τ := τ) (main (F := F))) (s₀ m ρ) (Pipeline.FramePost cfgs dats 0 (V m)) := by
  classical
  exact Pipeline.θ_run_region_noSem_shared cfgs dats () cellOf_inj (0 : Fin 1) winFacts₀0 emb₁ defs₀ 𝒱₀ m ρ main
    hbody block_pos0 arr_whole0 stage_whole0 howed
    (u₀ := initOf (Pipeline.cells cfgs cellOf_inj) (Pipeline.launchToks cfgs cellOf_inj))
    (hu₀ := .rfl)
    (V := V m) (hmain := hmain m 𝒱₀)
    (hsplit := fun c => arrays_of_arrBufs m c (dats 0 c) (hq c) (hA c))
    (X := fun _ => iprop(emp)) (Y := fun _ => iprop(emp))
    (Z := fun c => Pipeline.unscopedRest (Ix := Unit) (Name := ℕ) (U := UR sig nD τ) (Lvl := ℕ) spec0 c (V m c))
    (hX := fun c => by
      iintro H; isplitr; · iempintro
      iexact H)
    (hin := fun c => by
      iintro ⟨-, H⟩; iapply (hin c); iexact H)
    (hout := fun c => (hout c).trans (by
      iintro H; isplitr; · iempintro
      iexact H))
    (QY := fun c s => ∀ b ∈ Pipeline.restRefs sig spec0, s.mem ((c.tc : Thread nD τ).loc b) = V m c b)
    (hY := fun c s' => by
      iintro ⟨-, HU, HSI⟩
      unfold Pipeline.unscopedRest
      imodintro
      iapply (pointsTo_read_all (Pipeline.restRefs sig spec0) (fun b => (c.tc : Thread nD τ).loc b) (V m c) s')
      isplitl [HU] <;> iassumption)
    (hQ := fun s h c => ⟨(h c).1, (h c).2⟩)

end Cert.KernelIdeal.Shared

end
-- ==== Proof.Ideal.Points.lean ====
/-
  The sixteen grid points and the five branches of the body. Point t runs the branch "first point" iff t = 0,
  "degree phase" iff t < 8, "transition" iff t = 8, "message phase" iff 8 ≤ t, "last point" iff t = 15: five kinds of
  point (0; 1–7; 8; 9–14; 15). The output window is idle, and not written back, at every point but the last.
-/
import proofs.«101174_g88562225643609_cont_sun_c4_799_5_alg».proof.Proof.Ideal.SharedLaunch
import proofs.«101174_g88562225643609_cont_sun_c4_799_5_alg».proof.Proof.Gen.KernelIdeal.Skeleton
import Idealize.ShloMosaic.Lib.Ring

set_option maxRecDepth 16384

noncomputable section

namespace Cert.KernelIdeal.Shared

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The body's branch on "this is the first point" (the degree row is cleared). -/
abbrev isFirst (i : grid0.Coords) : Prop :=
  (Scalar.cmpi .ne (Scalar.extui (Scalar.cmpi .eq (BitVec.ofNat 32 (i 0).val) 0#32)) 0#32) = 1#1
theorem isFirst_iff : ∀ t : Fin cfg0.N, isFirst (grid0.coords t) ↔ t.val = 0 :=
  (by decide +kernel : ∀ t : Fin grid0.N, isFirst (grid0.coords t) ↔ t.val = 0)

/-- The branch of the degree phase: column sums and the diagonal's slice of `miss`. -/
abbrev inDegPhase (i : grid0.Coords) : Prop := k0_cond2 i = 1#1
theorem inDegPhase_iff : ∀ t : Fin cfg0.N, inDegPhase (grid0.coords t) ↔ t.val < 8 :=
  (by decide +kernel : ∀ t : Fin grid0.N, inDegPhase (grid0.coords t) ↔ t.val < 8)

/-- The branch of the transition: the normalisation, the hidden layers, the messages; the accumulator cleared. -/
abbrev isTransition (i : grid0.Coords) : Prop :=
  (Scalar.cmpi .ne (Scalar.extui (Scalar.cmpi .eq (BitVec.ofNat 32 (i 0).val) 8#32)) 0#32) = 1#1
theorem isTransition_iff : ∀ t : Fin cfg0.N, isTransition (grid0.coords t) ↔ t.val = 8 :=
  (by decide +kernel : ∀ t : Fin grid0.N, isTransition (grid0.coords t) ↔ t.val = 8)

/-- The branch of the message phase: one band's contribution to the accumulator. -/
abbrev inMsgPhase (i : grid0.Coords) : Prop := k0_cond4 i = 1#1
theorem inMsgPhase_iff : ∀ t : Fin cfg0.N, inMsgPhase (grid0.coords t) ↔ 8 ≤ t.val :=
  (by decide +kernel : ∀ t : Fin grid0.N, inMsgPhase (grid0.coords t) ↔ 8 ≤ t.val)

/-- The branch of the last point: the result is assembled and stored. -/
abbrev isLast (i : grid0.Coords) : Prop := k0_cond5 i = 1#1
theorem isLast_iff : ∀ t : Fin cfg0.N, isLast (grid0.coords t) ↔ t.val = 15 :=
  (by decide +kernel : ∀ t : Fin grid0.N, isLast (grid0.coords t) ↔ t.val = 15)

/-- The output window is idle exactly off the last point, and written back exactly there. -/
theorem idle_out_iff : ∀ t : Fin cfg0.N, cfg0.idle 9 (grid0.coords t) = true ↔ t.val ≠ 15 := by decide +kernel
theorem flush_out_iff : ∀ t : Fin cfg0.N, (cfg0.win 9).flush t = true ↔ t.val = 15 := by decide +kernel
/-- No input window is ever idle. -/
theorem live_in : ∀ (w : Fin 10), w ≠ 9 → ∀ t : Fin cfg0.N, cfg0.idle w (grid0.coords t) = false := by decide +kernel

/-- The five scratch buffers as memrefs: the degree row (later the normalisation), `miss`, the accumulator, the
    messages in the narrow format, the messages transposed. -/
abbrev scDeg : Memref sig .tc .vmem S1x4096 .f32 := Memref.whole cc0_scratch0
abbrev scMiss : Memref sig .tc .vmem S4096x1 .f32 := Memref.whole cc0_scratch1
abbrev scAcc : Memref sig .tc .vmem S3x4096 .f32 := Memref.whole cc0_scratch2
abbrev scMsgN : Memref sig .tc .vmem S4096x3 .bf16 := Memref.whole cc0_scratch3
abbrev scMsgT : Memref sig .tc .vmem S3x4096 .f32 := Memref.whole cc0_scratch4

end Cert.KernelIdeal.Shared

end
-- ==== Proof.Ideal.Model.lean ====
/-
  What the kernel's scratch buffers and its result hold, as closed forms of the windows' blocks. The degree row after n
  bands is the cleared row with the bands' column sums added one by one; the column `miss` is, slice by slice, one
  minus the indicator of a positive diagonal entry; at point 8 the degree row becomes the normalisation, the messages
  are computed from the hidden layers and kept narrow and transposed; the accumulator after j bands is the cleared
  accumulator with the bands' contributions added one by one; the result is assembled from all of these.
-/
import proofs.«101174_g88562225643609_cont_sun_c4_799_5_alg».proof.Proof.Ideal.Points
import Idealize.ShloMosaic.Lib.ValueIdx

set_option maxRecDepth 16384

noncomputable section

namespace Cert.KernelIdeal.Shared

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- Window `w`'s block at point `t`, read off its array as the region finds it. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-- Point number `n` of the grid. -/
abbrev pt (n : ℕ) (h : n < 16) : Fin cfg0.N := ⟨n, lt_of_lt_of_eq h N_0.symm⟩

/-- The degree row after the first `n` bands (`n ≤ 8`): cleared, then each band's column sums added. -/
def degRow (c : Dev nD) : (n : ℕ) → n ≤ 8 → Vec F S1x4096 .f32
  | 0, _ => k0_pay2 (F := F)
  | n + 1, h => k0_pay3 (iblk m c 1 (pt n (by omega))) (degRow c n (by omega))

/-- The column `miss`, whole: row `r` is written at point `r / 512` from that point's diagonal square, at its row `r % 512`. -/
def missCol (c : Dev nD) : Vec F S4096x1 .f32 := fun y =>
  k0_pay4 (iblk m c 2 (pt ((y 0).val / 512) (by have h : (y 0).val < 4096 := (y 0).isLt; omega)))
    (ValueIdx.ix2 (⟨(y 0).val % 512, Nat.mod_lt _ (by decide)⟩ : Fin 512) (0 : Fin 1))

/-- The point of the transition. -/
abbrev t8 : Fin cfg0.N := pt 8 (by decide)
/-- The last point. -/
abbrev t15 : Fin cfg0.N := pt 15 (by decide)

/-- The normalisation row: the inverse square root of the degrees, `miss` added and clamped below by one. -/
def normRow (c : Dev nD) : Vec F S1x4096 .f32 := k0_pay11 (missCol m c) (degRow m c 8 le_rfl)

/-- The messages: the normalisation times the features of the two hidden layers and the convolution's weights. -/
def msgs (c : Dev nD) : Vec F S4096x3 .f32 :=
  k0_pay12 (missCol m c) (degRow m c 8 le_rfl) (iblk m c 0 t8) (iblk m c 3 t8) (iblk m c 4 t8) (iblk m c 5 t8) (iblk m c 6 t8) (iblk m c 7 t8)
/-- The messages in the narrow format, as stored. -/
def msgsN (c : Dev nD) : Vec F S4096x3 .bf16 :=
  k0_pay5 (k0_pay13 (missCol m c) (degRow m c 8 le_rfl) (iblk m c 0 t8) (iblk m c 3 t8) (iblk m c 4 t8) (iblk m c 5 t8) (iblk m c 6 t8) (iblk m c 7 t8))
/-- The messages transposed, as stored. -/
def msgsT (c : Dev nD) : Vec F S3x4096 .f32 := k0_pay6 (msgs m c)

/-- The rows of the narrow messages that band `8 + j` meets. -/
def msgSlice (c : Dev nD) (j : ℕ) (h : j < 8) : Vec F S512x3 .bf16 :=
  View.ld (msgsN m c) (Rect.unit (s := S4096x3) (k0_off2 (grid0.coords (pt (8 + j) (by omega)))) S512x3.size
    (k0_off2_inb _ ((inMsgPhase_iff (pt (8 + j) (by omega))).mpr (Nat.le_add_right 8 j))))

/-- The accumulator after the first `j` bands of the message phase (`j ≤ 8`): cleared, then each band's contribution added. -/
def accAt (c : Dev nD) : (j : ℕ) → j ≤ 8 → Vec F S3x4096 .f32
  | 0, _ => k0_pay7 (F := F)
  | j + 1, h => k0_pay8 (iblk m c 1 (pt (8 + j) (by omega))) (msgSlice m c j (by omega)) (accAt c j (by omega))

/-- The result, as stored at the last point. -/
def result (c : Dev nD) : Vec F S4096x3 .f32 :=
  k0_pay9 (missCol m c) (normRow m c) (accAt m c 8 le_rfl) (msgsT m c) (iblk m c 8 t15)

end Cert.KernelIdeal.Shared

end
-- ==== Proof.Ideal.Invariant.lean ====
/-
  What is known of the scratch buffers before each point, and how each kind of point carries it on. Before point n,
  1 ≤ n ≤ 8: the degree row holds the first n bands' column sums and the first 512·n rows of `miss` are final (the
  rest of `miss`, the accumulator and the two message buffers still hold whatever they held at the start). Before point
  n ≥ 9: the degree row holds the normalisation, `miss` and both message buffers are final, and the accumulator holds
  the first n − 8 bands' contributions. Row r of `miss` belongs to the slice written at point r / 512.
-/
import proofs.«101174_g88562225643609_cont_sun_c4_799_5_alg».proof.Proof.Ideal.Model

set_option maxRecDepth 16384

noncomputable section

namespace Cert.KernelIdeal.Shared

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The slice of `miss` the degree phase writes at point t starts at row 512·t, -/
theorem off1_eq : ∀ t : Fin cfg0.N, t.val < 8 → k0_off1 (grid0.coords t) = ![512 * t.val, 0] :=
  (by decide +kernel : ∀ t : Fin grid0.N, t.val < 8 → k0_off1 (grid0.coords t) = ![512 * t.val, 0])
/-- and the rows of the messages the message phase reads at point t start at row 512·(t − 8). -/
theorem off2_eq : ∀ t : Fin cfg0.N, 8 ≤ t.val → k0_off2 (grid0.coords t) = ![512 * (t.val - 8), 0] :=
  (by decide +kernel : ∀ t : Fin grid0.N, 8 ≤ t.val → k0_off2 (grid0.coords t) = ![512 * (t.val - 8), 0])

variable (c : Dev nD)

/-- The degree row after n bands, for every n (constant from 8 on). -/
def degTot (n : ℕ) : Vec F S1x4096 .f32 := if h : n ≤ 8 then degRow m c n h else degRow m c 8 le_rfl
/-- The accumulator after j bands, for every j (constant from 8 on). -/
def accTot (j : ℕ) : Vec F S3x4096 .f32 := if h : j ≤ 8 then accAt m c j h else accAt m c 8 le_rfl

theorem degTot_zero : degTot m c 0 = k0_pay2 (F := F) := by unfold degTot; rw [dif_pos (Nat.zero_le _)]; rfl
theorem degTot_succ (n : ℕ) (h : n < 8) : degTot m c (n + 1) = k0_pay3 (iblk m c 1 (pt n (by omega))) (degTot m c n) := by
  unfold degTot; rw [dif_pos (by omega : n + 1 ≤ 8), dif_pos (by omega : n ≤ 8)]; rfl
theorem degTot_eight : degTot m c 8 = degRow m c 8 le_rfl := by unfold degTot; rw [dif_pos le_rfl]
theorem accTot_zero : accTot m c 0 = k0_pay7 (F := F) := by unfold accTot; rw [dif_pos (Nat.zero_le _)]; rfl
theorem accTot_succ (j : ℕ) (h : j < 8) : accTot m c (j + 1) = k0_pay8 (iblk m c 1 (pt (8 + j) (by omega))) (msgSlice m c j h) (accTot m c j) := by
  unfold accTot; rw [dif_pos (by omega : j + 1 ≤ 8), dif_pos (by omega : j ≤ 8)]; rfl
theorem accTot_eight : accTot m c 8 = accAt m c 8 le_rfl := by unfold accTot; rw [dif_pos le_rfl]

/-- What is known of the five scratch buffers' contents before point `n`. -/
def Known (n : ℕ) (X0 : Vec F S1x4096 .f32) (X1 : Vec F S4096x1 .f32) (X2 : Vec F S3x4096 .f32) (X3 : Vec F S4096x3 .bf16)
    (X4 : Vec F S3x4096 .f32) : Prop :=
  (1 ≤ n → n ≤ 8 → X0 = degTot m c n ∧ ∀ y : S4096x1.Idx, (y 0).val < 512 * n → X1 y = missCol m c y)
  ∧ (9 ≤ n → X0 = normRow m c ∧ X1 = missCol m c ∧ X2 = accTot m c (n - 8) ∧ X3 = msgsN m c ∧ X4 = msgsT m c)

theorem known_zero (X0 X1 X2 X3 X4) : Known m c 0 X0 X1 X2 X3 X4 := ⟨fun h => absurd h (by omega), fun h => absurd h (by omega)⟩

/-- The slice written at point `n < 8`: the payload of the point's diagonal square on rows 512·n … 512·n + 511, the earlier
    contents elsewhere; with it the first 512·(n+1) rows are final. -/
theorem miss_step (n : ℕ) (hn : n < 8) (h16 : n < 16) (X1 : Vec F S4096x1 .f32)
    (inb : ∀ a, (k0_off1 (grid0.coords (pt n h16))) a + S512x1.size a ≤ S4096x1.size a)
    (hX : ∀ y : S4096x1.Idx, (y 0).val < 512 * n → X1 y = missCol m c y) (y : S4096x1.Idx) (hy : (y 0).val < 512 * (n + 1)) :
    (Rect.unit (s := S4096x1) (k0_off1 (grid0.coords (pt n h16))) S512x1.size inb).overlay X1
      (k0_pay4 (iblk m c 2 (pt n h16))) y = missCol m c y := by
  have ho := off1_eq (pt n h16) hn
  by_cases hlo : (y 0).val < 512 * n
  · rw [Rect.overlay_of_not_mem _ _ _ (fun hm => by
      have h0 := (Rect.mem_set_unit.mp hm 0).1
      rw [ho] at h0; simp at h0; omega)]
    exact hX y hlo
  · have hm : y ∈ (Rect.unit (s := S4096x1) (k0_off1 (grid0.coords (pt n h16))) S512x1.size inb).set := by
      rw [Rect.mem_set_unit]; intro a; rw [ho]
      fin_cases a
      · simp; omega
      · have := (y 1).isLt; simp at this ⊢; omega
    obtain ⟨x, hx⟩ := (Rect.unit (s := S4096x1) (k0_off1 (grid0.coords (pt n h16))) S512x1.size inb).exists_idx_of_mem hm
    subst hx
    rw [show (Rect.unit (s := S4096x1) (k0_off1 (grid0.coords (pt n h16))) S512x1.size inb).idx x
        = (Rect.unit (s := S4096x1) (k0_off1 (grid0.coords (pt n h16))) S512x1.size inb).emb x from rfl, Rect.overlay_emb]
    have h0 : (((Rect.unit (s := S4096x1) (k0_off1 (grid0.coords (pt n h16))) S512x1.size inb).emb x) 0).val = 512 * n + (x 0).val := by
      show k0_off1 (grid0.coords (pt n h16)) 0 + 1 * (x 0).val = _
      have h0' : k0_off1 (grid0.coords (pt n h16)) 0 = 512 * n := by have := congrFun ho 0; simpa using this
      omega
    have hx0 : (x 0).val < 512 := (x 0).isLt
    have hx1 : (x 1).val < 1 := (x 1).isLt
    have key : ∀ (a : ℕ) (ha : a < 16) (z : S512x1.Idx), a = n → z = x →
        k0_pay4 (iblk m c 2 (pt a ha)) z = k0_pay4 (iblk m c 2 (pt n h16)) x := by
      intro a ha z e1 e2; subst e1; subst e2; rfl
    unfold missCol
    refine (key _ _ _ ?_ ?_).symm
    · rw [h0]; omega
    · funext a
      fin_cases a
      · apply Fin.ext
        show (((Rect.unit (s := S4096x1) (k0_off1 (grid0.coords (pt n h16))) S512x1.size inb).emb x) 0).val % 512 = (x 0).val
        rw [h0]; omega
      · apply Fin.ext
        show 0 = (x 1).val
        omega

variable (X0 : Vec F S1x4096 .f32) (X1 : Vec F S4096x1 .f32) (X2 : Vec F S3x4096 .f32) (X3 : Vec F S4096x3 .bf16) (X4 : Vec F S3x4096 .f32)

/-- After the first point: one band's column sums over the cleared row, and the first slice of `miss`. -/
theorem known_first (h16 : 0 < 16)
    (inb : ∀ a, (k0_off1 (grid0.coords (pt 0 h16))) a + S512x1.size a ≤ S4096x1.size a) :
    Known m c 1 (k0_pay3 (iblk m c 1 (pt 0 h16)) (k0_pay2 (F := F)))
      ((Rect.unit (s := S4096x1) (k0_off1 (grid0.coords (pt 0 h16))) S512x1.size inb).overlay X1 (k0_pay4 (iblk m c 2 (pt 0 h16)))) X2 X3 X4 := by
  refine ⟨fun _ _ => ⟨?_, fun y hy => ?_⟩, fun h => absurd h (by omega)⟩
  · rw [degTot_succ m c 0 (by omega), degTot_zero]
  · exact miss_step m c 0 (by omega) h16 X1 inb (fun y hy => absurd hy (by omega)) y hy

/-- After a further point of the degree phase. -/
theorem known_deg (n : ℕ) (h1 : 1 ≤ n) (h8 : n < 8) (h16 : n < 16)
    (inb : ∀ a, (k0_off1 (grid0.coords (pt n h16))) a + S512x1.size a ≤ S4096x1.size a)
    (hK : Known m c n X0 X1 X2 X3 X4) :
    Known m c (n + 1) (k0_pay3 (iblk m c 1 (pt n h16)) X0)
      ((Rect.unit (s := S4096x1) (k0_off1 (grid0.coords (pt n h16))) S512x1.size inb).overlay X1 (k0_pay4 (iblk m c 2 (pt n h16)))) X2 X3 X4 := by
  obtain ⟨hX0, hX1⟩ := hK.1 h1 (by omega)
  refine ⟨fun _ _ => ⟨?_, fun y hy => miss_step m c n h8 h16 X1 inb hX1 y hy⟩, fun h => absurd h (by omega)⟩
  rw [degTot_succ m c n h8, hX0]

/-- After the transition: the normalisation, both message buffers, and the first band's contribution over the cleared accumulator. -/
theorem known_transition
    (inb : ∀ a, (k0_off2 (grid0.coords t8)) a + S512x3.size a ≤ S4096x3.size a)
    (hK : Known m c 8 X0 X1 X2 X3 X4) :
    Known m c 9 (k0_pay11 X1 X0) X1
      (k0_pay8 (iblk m c 1 t8) (View.ld (k0_pay5 (k0_pay13 X1 X0 (iblk m c 0 t8) (iblk m c 3 t8) (iblk m c 4 t8) (iblk m c 5 t8) (iblk m c 6 t8) (iblk m c 7 t8)))
        (Rect.unit (s := S4096x3) (k0_off2 (grid0.coords t8)) S512x3.size inb)) (k0_pay7 (F := F)))
      (k0_pay5 (k0_pay13 X1 X0 (iblk m c 0 t8) (iblk m c 3 t8) (iblk m c 4 t8) (iblk m c 5 t8) (iblk m c 6 t8) (iblk m c 7 t8))) (k0_pay6 (k0_pay12 X1 X0 (iblk m c 0 t8) (iblk m c 3 t8) (iblk m c 4 t8) (iblk m c 5 t8) (iblk m c 6 t8) (iblk m c 7 t8))) := by
  obtain ⟨hX0, hX1⟩ := hK.1 (by omega) le_rfl
  have hX1' : X1 = missCol m c := funext fun y => hX1 y (by have : (y 0).val < 4096 := (y 0).isLt; omega)
  rw [degTot_eight] at hX0
  subst hX1'; subst hX0
  refine ⟨fun _ h => absurd h (by omega), fun _ => ⟨rfl, rfl, ?_, rfl, rfl⟩⟩
  show _ = accTot m c 1
  rw [accTot_succ m c 0 (by omega), accTot_zero]
  rfl

/-- After a further point of the message phase (the last point included). -/
theorem known_msg (n : ℕ) (h9 : 9 ≤ n) (h16 : n < 16)
    (inb : ∀ a, (k0_off2 (grid0.coords (pt n h16))) a + S512x3.size a ≤ S4096x3.size a)
    (hK : Known m c n X0 X1 X2 X3 X4) :
    Known m c (n + 1) X0 X1
      (k0_pay8 (iblk m c 1 (pt n h16)) (View.ld X3 (Rect.unit (s := S4096x3) (k0_off2 (grid0.coords (pt n h16))) S512x3.size inb)) X2) X3 X4 := by
  obtain ⟨h0, h1, h2, h3, h4⟩ := hK.2 h9
  refine ⟨fun _ h => absurd h (by omega), fun _ => ⟨h0, h1, ?_, h3, h4⟩⟩
  subst h3; subst h2
  obtain ⟨j, rfl⟩ : ∃ j, n = 8 + j := ⟨n - 8, by omega⟩
  rw [show 8 + j + 1 - 8 = j + 1 by omega, show 8 + j - 8 = j by omega, accTot_succ m c j (by omega)]
  rfl

/-- What the last point stores is the model's result. -/
theorem known_result
    (inb : ∀ a, (k0_off2 (grid0.coords t15)) a + S512x3.size a ≤ S4096x3.size a)
    (hK : Known m c 15 X0 X1 X2 X3 X4) :
    k0_pay9 X1 X0 (k0_pay8 (iblk m c 1 t15) (View.ld X3 (Rect.unit (s := S4096x3) (k0_off2 (grid0.coords t15)) S512x3.size inb)) X2) X4 (iblk m c 8 t15)
      = result m c := by
  obtain ⟨h0, h1, h2, h3, h4⟩ := hK.2 (by omega)
  subst h0; subst h1; subst h2; subst h3; subst h4
  unfold result
  rw [← accTot_eight, show (8 : ℕ) = 7 + 1 from rfl, accTot_succ m c 7 (by omega)]
  rfl

end Cert.KernelIdeal.Shared

end
-- ==== Proof.Ideal.Data.lean ====
/-
  The proof data of the region. The arrays are those the region finds; every input window's staging buffer holds its
  block at every point, fetched there or not, and the body leaves it so; the output window is left at the model's
  result at the last point, the only point that stores into it and the only one that writes it back; the invariant
  before point n is the five scratch buffers at some contents of which `Known n` holds. It is made from the scratch
  buffers at anything when the region starts, and gives them back at anything when it ends.
-/
import proofs.«101174_g88562225643609_cont_sun_c4_799_5_alg».proof.Proof.Ideal.Invariant

set_option maxRecDepth 16384

noncomputable section

namespace Cert.KernelIdeal.Shared

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

variable (c : Dev nD)

/-- The invariant before point `n`. -/
def PhiS (n : ℕ) : sProp 𝕄 :=
  iprop(∃ (X0 : Vec F S1x4096 .f32) (X1 : Vec F S4096x1 .f32) (X2 : Vec F S3x4096 .f32) (X3 : Vec F S4096x3 .bf16) (X4 : Vec F S3x4096 .f32),
    ⌜Known m c n X0 X1 X2 X3 X4⌝ ∗ owns (c : Thread nD τ) scDeg fullShare X0 ∗ owns (c : Thread nD τ) scMiss fullShare X1
      ∗ owns (c : Thread nD τ) scAcc fullShare X2 ∗ owns (c : Thread nD τ) scMsgN fullShare X3 ∗ owns (c : Thread nD τ) scMsgT fullShare X4)

/-- The proof data of the one pipeline on core `c`. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, _⟩ => iblk m c 8 t
    | ⟨9, _⟩ => result m c
  Φ t := PhiS m c t.val
  q := shares
  owed _ := 0

theorem A_eq (w : Fin cfg0.W) : (dats m 0 c).A w = V m c (Pipeline.arrRef spec0 w) := by dsimp only [dats]
theorem q_eq : (dats m 0 c).q = shares := by dsimp only [dats]

theorem after_0 (t : Fin cfg0.N) : (dats m 0 c).after 0 t = iblk m c 0 t := by dsimp only [dats]
theorem after_1 (t : Fin cfg0.N) : (dats m 0 c).after 1 t = iblk m c 1 t := by dsimp only [dats]
theorem after_2 (t : Fin cfg0.N) : (dats m 0 c).after 2 t = iblk m c 2 t := by dsimp only [dats]
theorem after_3 (t : Fin cfg0.N) : (dats m 0 c).after 3 t = iblk m c 3 t := by dsimp only [dats]
theorem after_4 (t : Fin cfg0.N) : (dats m 0 c).after 4 t = iblk m c 4 t := by dsimp only [dats]
theorem after_5 (t : Fin cfg0.N) : (dats m 0 c).after 5 t = iblk m c 5 t := by dsimp only [dats]
theorem after_6 (t : Fin cfg0.N) : (dats m 0 c).after 6 t = iblk m c 6 t := by dsimp only [dats]
theorem after_7 (t : Fin cfg0.N) : (dats m 0 c).after 7 t = iblk m c 7 t := by dsimp only [dats]
theorem after_8 (t : Fin cfg0.N) : (dats m 0 c).after 8 t = iblk m c 8 t := by dsimp only [dats]
theorem after_9 (t : Fin cfg0.N) : (dats m 0 c).after 9 t = result m c := by dsimp only [dats]

/-- Input window 0's current staging buffer holds its block at every point. -/
theorem before_0 (t : Fin cfg0.N) (d) : (dats m 0 c).before 0 t d = iblk m c 0 t :=
  ((dats m 0 c).before_in_eq_fetched 0 rfl (fun _ => rfl) (fun _ _ _ => rfl)
    (fun t => by rw [after_0]; unfold Dat.blockOf iblk; rw [A_eq]; try rfl) t d).trans
    (by unfold Dat.fetched Dat.blockOf iblk; rw [A_eq]; try rfl)
/-- Input window 1's current staging buffer holds its block at every point. -/
theorem before_1 (t : Fin cfg0.N) (d) : (dats m 0 c).before 1 t d = iblk m c 1 t :=
  ((dats m 0 c).before_in_eq_fetched 1 rfl (fun _ => rfl) (fun _ _ _ => rfl)
    (fun t => by rw [after_1]; unfold Dat.blockOf iblk; rw [A_eq]; try rfl) t d).trans
    (by unfold Dat.fetched Dat.blockOf iblk; rw [A_eq]; try rfl)
/-- Input window 2's current staging buffer holds its block at every point. -/
theorem before_2 (t : Fin cfg0.N) (d) : (dats m 0 c).before 2 t d = iblk m c 2 t :=
  ((dats m 0 c).before_in_eq_fetched 2 rfl (fun _ => rfl) (fun _ _ _ => rfl)
    (fun t => by rw [after_2]; unfold Dat.blockOf iblk; rw [A_eq]; try rfl) t d).trans
    (by unfold Dat.fetched Dat.blockOf iblk; rw [A_eq]; try rfl)
/-- Input window 3's current staging buffer holds its block at every point. -/
theorem before_3 (t : Fin cfg0.N) (d) : (dats m 0 c).before 3 t d = iblk m c 3 t :=
  ((dats m 0 c).before_in_eq_fetched 3 rfl (fun _ => rfl) (fun _ _ _ => rfl)
    (fun t => by rw [after_3]; unfold Dat.blockOf iblk; rw [A_eq]; try rfl) t d).trans
    (by unfold Dat.fetched Dat.blockOf iblk; rw [A_eq]; try rfl)
/-- Input window 4's current staging buffer holds its block at every point. -/
theorem before_4 (t : Fin cfg0.N) (d) : (dats m 0 c).before 4 t d = iblk m c 4 t :=
  ((dats m 0 c).before_in_eq_fetched 4 rfl (fun _ => rfl) (fun _ _ _ => rfl)
    (fun t => by rw [after_4]; unfold Dat.blockOf iblk; rw [A_eq]; try rfl) t d).trans
    (by unfold Dat.fetched Dat.blockOf iblk; rw [A_eq]; try rfl)
/-- Input window 5's current staging buffer holds its block at every point. -/
theorem before_5 (t : Fin cfg0.N) (d) : (dats m 0 c).before 5 t d = iblk m c 5 t :=
  ((dats m 0 c).before_in_eq_fetched 5 rfl (fun _ => rfl) (fun _ _ _ => rfl)
    (fun t => by rw [after_5]; unfold Dat.blockOf iblk; rw [A_eq]; try rfl) t d).trans
    (by unfold Dat.fetched Dat.blockOf iblk; rw [A_eq]; try rfl)
/-- Input window 6's current staging buffer holds its block at every point. -/
theorem before_6 (t : Fin cfg0.N) (d) : (dats m 0 c).before 6 t d = iblk m c 6 t :=
  ((dats m 0 c).before_in_eq_fetched 6 rfl (fun _ => rfl) (fun _ _ _ => rfl)
    (fun t => by rw [after_6]; unfold Dat.blockOf iblk; rw [A_eq]; try rfl) t d).trans
    (by unfold Dat.fetched Dat.blockOf iblk; rw [A_eq]; try rfl)
/-- Input window 7's current staging buffer holds its block at every point. -/
theorem before_7 (t : Fin cfg0.N) (d) : (dats m 0 c).before 7 t d = iblk m c 7 t :=
  ((dats m 0 c).before_in_eq_fetched 7 rfl (fun _ => rfl) (fun _ _ _ => rfl)
    (fun t => by rw [after_7]; unfold Dat.blockOf iblk; rw [A_eq]; try rfl) t d).trans
    (by unfold Dat.fetched Dat.blockOf iblk; rw [A_eq]; try rfl)
/-- Input window 8's current staging buffer holds its block at every point. -/
theorem before_8 (t : Fin cfg0.N) (d) : (dats m 0 c).before 8 t d = iblk m c 8 t :=
  ((dats m 0 c).before_in_eq_fetched 8 rfl (fun _ => rfl) (fun _ _ _ => rfl)
    (fun t => by rw [after_8]; unfold Dat.blockOf iblk; rw [A_eq]; try rfl) t d).trans
    (by unfold Dat.fetched Dat.blockOf iblk; rw [A_eq]; try rfl)

theorem Phi_castSucc (t : Fin cfg0.N) : (dats m 0 c).Φ t.castSucc = PhiS m c t.val := by
  dsimp only [dats]; simp only [Fin.coe_castSucc]
theorem Phi_succ (t : Fin cfg0.N) : (dats m 0 c).Φ t.succ = PhiS m c (t.val + 1) := by
  dsimp only [dats]; simp only [Fin.val_succ]

/-- When the region starts, the scratch buffers at anything are the invariant before the first point. -/
theorem phi_in : (Pipeline.scopedRest spec0 c : sProp 𝕄) ⊢ (dats m 0 c).Φ 0 := by
  rw [show (dats m 0 c).Φ 0 = PhiS m c 0 from rfl, scopedRest0_eq]
  unfold PhiS
  simp only [← owns_whole]
  iintro ⟨⟨%f0, H0⟩, ⟨%f1, H1⟩, ⟨%f2, H2⟩, ⟨%f3, H3⟩, ⟨%f4, H4⟩⟩
  iexists f0, f1, f2, f3, f4
  isplitr; · ipureintro; exact known_zero m c f0 f1 f2 f3 f4
  isplitl [H0]; · iexact H0
  isplitl [H1]; · iexact H1
  isplitl [H2]; · iexact H2
  isplitl [H3]; · iexact H3
  iexact H4

/-- When it ends, the invariant gives them back, their contents forgotten. -/
theorem phi_out : (dats m 0 c).Φ (Fin.last cfg0.N) ⊢ (Pipeline.scopedRest spec0 c : sProp 𝕄) := by
  rw [show (dats m 0 c).Φ (Fin.last cfg0.N) = PhiS m c (Fin.last cfg0.N).val from rfl, scopedRest0_eq]
  unfold PhiS
  simp only [← owns_whole]
  iintro ⟨%f0, %f1, %f2, %f3, %f4, -, H0, H1, H2, H3, H4⟩
  isplitl [H0]; · iexists f0; iexact H0
  isplitl [H1]; · iexists f1; iexact H1
  isplitl [H2]; · iexists f2; iexact H2
  isplitl [H3]; · iexists f3; iexact H3
  iexists f4; iexact H4

/-- What the body is called with at point `t`, -/
def bodyPre (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d))
    ∗ (∃ d, owns (c : Thread nD τ) (st0_5 t) fullShare ((dats m 0 c).before 5 t d))
    ∗ (∃ d, owns (c : Thread nD τ) (st0_6 t) fullShare ((dats m 0 c).before 6 t d))
    ∗ (∃ d, owns (c : Thread nD τ) (st0_7 t) fullShare ((dats m 0 c).before 7 t d))
    ∗ (∃ d, owns (c : Thread nD τ) (st0_8 t) fullShare ((dats m 0 c).before 8 t d))
    ∗ (∃ d, owns (c : Thread nD τ) (st0_9 t) fullShare ((dats m 0 c).before 9 t d)))

/-- and what it returns. -/
def bodyPost (t : Fin cfg0.N) : sProp 𝕄 :=
  iprop((dats m 0 c).Φ t.succ ∗ (dats m 0 c).owesAt () t.succ
    ∗ (dats m 0 c).leavesExact 0 t
    ∗ (dats m 0 c).leavesExact 1 t
    ∗ (dats m 0 c).leavesExact 2 t
    ∗ (dats m 0 c).leavesExact 3 t
    ∗ (dats m 0 c).leavesExact 4 t
    ∗ (dats m 0 c).leavesExact 5 t
    ∗ (dats m 0 c).leavesExact 6 t
    ∗ (dats m 0 c).leavesExact 7 t
    ∗ (dats m 0 c).leavesExact 8 t
    ∗ (dats m 0 c).leavesExact 9 t)

/-- An input window's buffer is handed back at its block. -/
theorem leaves_0 (t : Fin cfg0.N) : (dats m 0 c).leavesExact 0 t = owns (c : Thread nD τ) (st0_0 t) fullShare (iblk m c 0 t) := by
  unfold Dat.leavesExact; rw [live_in 0 (by decide) t, after_0]
theorem leaves_1 (t : Fin cfg0.N) : (dats m 0 c).leavesExact 1 t = owns (c : Thread nD τ) (st0_1 t) fullShare (iblk m c 1 t) := by
  unfold Dat.leavesExact; rw [live_in 1 (by decide) t, after_1]
theorem leaves_2 (t : Fin cfg0.N) : (dats m 0 c).leavesExact 2 t = owns (c : Thread nD τ) (st0_2 t) fullShare (iblk m c 2 t) := by
  unfold Dat.leavesExact; rw [live_in 2 (by decide) t, after_2]
theorem leaves_3 (t : Fin cfg0.N) : (dats m 0 c).leavesExact 3 t = owns (c : Thread nD τ) (st0_3 t) fullShare (iblk m c 3 t) := by
  unfold Dat.leavesExact; rw [live_in 3 (by decide) t, after_3]
theorem leaves_4 (t : Fin cfg0.N) : (dats m 0 c).leavesExact 4 t = owns (c : Thread nD τ) (st0_4 t) fullShare (iblk m c 4 t) := by
  unfold Dat.leavesExact; rw [live_in 4 (by decide) t, after_4]
theorem leaves_5 (t : Fin cfg0.N) : (dats m 0 c).leavesExact 5 t = owns (c : Thread nD τ) (st0_5 t) fullShare (iblk m c 5 t) := by
  unfold Dat.leavesExact; rw [live_in 5 (by decide) t, after_5]
theorem leaves_6 (t : Fin cfg0.N) : (dats m 0 c).leavesExact 6 t = owns (c : Thread nD τ) (st0_6 t) fullShare (iblk m c 6 t) := by
  unfold Dat.leavesExact; rw [live_in 6 (by decide) t, after_6]
theorem leaves_7 (t : Fin cfg0.N) : (dats m 0 c).leavesExact 7 t = owns (c : Thread nD τ) (st0_7 t) fullShare (iblk m c 7 t) := by
  unfold Dat.leavesExact; rw [live_in 7 (by decide) t, after_7]
theorem leaves_8 (t : Fin cfg0.N) : (dats m 0 c).leavesExact 8 t = owns (c : Thread nD τ) (st0_8 t) fullShare (iblk m c 8 t) := by
  unfold Dat.leavesExact; rw [live_in 8 (by decide) t, after_8]
/-- Off the last point the output window's buffer is handed back as found; at the last point at the result. -/
theorem leaves_9_idle (t : Fin cfg0.N) (h : t.val ≠ 15) :
    (dats m 0 c).leavesExact 9 t = iprop(∃ d, owns (c : Thread nD τ) (st0_9 t) fullShare ((dats m 0 c).before 9 t d)) :=
  Dat.leavesExact_idle (dats m 0 c) 9 t ((idle_out_iff t).mpr h) (by
    have := flush_out_iff t; cases hf : (cfg0.win 9).flush t
    · rfl
    · exact absurd (this.mp hf) h)
theorem leaves_9_last (t : Fin cfg0.N) (h : t.val = 15) :
    (dats m 0 c).leavesExact 9 t = owns (c : Thread nD τ) (st0_9 t) fullShare (result m c) := by
  unfold Dat.leavesExact
  rw [show cfg0.idle 9 (grid0.coords t) = false from by
    have := idle_out_iff t; cases hi : cfg0.idle 9 (grid0.coords t)
    · rfl
    · exact absurd h (this.mp hi), after_9]

end Cert.KernelIdeal.Shared

end
-- ==== Proof.Ideal.RunA.lean ====
/-
  The body at the first point: the degree row is cleared, then the first band's column sums are added and the first slice of `miss` is written. Run once on any whole staging and scratch buffers at any contents; what each
  buffer it stores into ends with is found by the run, as the list of pieces stored.
-/
import proofs.«101174_g88562225643609_cont_sun_c4_799_5_alg».proof.Proof.Ideal.Points
import Idealize.ShloMosaic.Lib.Pipeline.FrameBody

set_option maxRecDepth 16384

noncomputable section

namespace Cert.KernelIdeal.Shared

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option maxHeartbeats 4000000 in
noncomputable def runA (c : Dev nD) (i : grid0.Coords) (arg1 : Memref sig .tc .vmem S4096x3 .f32) (harg1 : arg1.IsWhole) (arg2 : Memref sig .tc .vmem S512x4096 .f32) (harg2 : arg2.IsWhole) (arg3 : Memref sig .tc .vmem S512x512 .f32) (harg3 : arg3.IsWhole) (arg4 : Memref sig .tc .vmem S3x16 .f32) (harg4 : arg4.IsWhole) (arg5 : Memref sig .tc .vmem S1x16 .f32) (harg5 : arg5.IsWhole) (arg6 : Memref sig .tc .vmem S16x3 .f32) (harg6 : arg6.IsWhole) (arg7 : Memref sig .tc .vmem S1x3 .f32) (harg7 : arg7.IsWhole) (arg8 : Memref sig .tc .vmem S3x3 .f32) (harg8 : arg8.IsWhole) (arg9 : Memref sig .tc .vmem S1x3 .f32) (harg9 : arg9.IsWhole) (arg10 : Memref sig .tc .vmem S4096x3 .f32) (harg10 : arg10.IsWhole) (arg11 : Memref sig .tc .vmem S1x4096 .f32) (harg11 : arg11.IsWhole) (arg12 : Memref sig .tc .vmem S4096x1 .f32) (harg12 : arg12.IsWhole) (arg13 : Memref sig .tc .vmem S3x4096 .f32) (harg13 : arg13.IsWhole) (arg14 : Memref sig .tc .vmem S4096x3 .bf16) (harg14 : arg14.IsWhole) (arg15 : Memref sig .tc .vmem S3x4096 .f32) (harg15 : arg15.IsWhole)
    (hc0 : isFirst i) (hc1 : inDegPhase i) (hc2 : ¬isTransition i) (hc3 : ¬inMsgPhase i) (hc4 : ¬isLast i)
    (x1 : Vec F S4096x3 .f32) (x2 : Vec F S512x4096 .f32) (x3 : Vec F S512x512 .f32) (x4 : Vec F S3x16 .f32) (x5 : Vec F S1x16 .f32) (x6 : Vec F S16x3 .f32) (x7 : Vec F S1x3 .f32) (x8 : Vec F S3x3 .f32) (x9 : Vec F S1x3 .f32) (x10 : Vec F S4096x3 .f32) (x11 : Vec F S1x4096 .f32) (x12 : Vec F S4096x1 .f32) (x13 : Vec F S3x4096 .f32) (x14 : Vec F S4096x3 .bf16) (x15 : Vec F S3x4096 .f32) :
    Σ' (L11 : List (View.Piece (Elt F) S1x4096 .f32)), { L12 : List (View.Piece (Elt F) S4096x1 .f32) //
      ∀ (E : Set ℕ) (K : PUnit → sProp 𝕄),
        iprop(owns (c : Thread nD τ) arg1 fullShare x1 ∗ owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg6 fullShare x6 ∗ owns (c : Thread nD τ) arg7 fullShare x7 ∗ owns (c : Thread nD τ) arg8 fullShare x8 ∗ owns (c : Thread nD τ) arg9 fullShare x9 ∗ owns (c : Thread nD τ) arg10 fullShare x10 ∗ owns (c : Thread nD τ) arg11 fullShare x11 ∗ owns (c : Thread nD τ) arg12 fullShare x12 ∗ owns (c : Thread nD τ) arg13 fullShare x13 ∗ owns (c : Thread nD τ) arg14 fullShare x14 ∗ owns (c : Thread nD τ) arg15 fullShare x15
            ∗ (iprop(owns (c : Thread nD τ) arg1 fullShare x1 ∗ owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg6 fullShare x6 ∗ owns (c : Thread nD τ) arg7 fullShare x7 ∗ owns (c : Thread nD τ) arg8 fullShare x8 ∗ owns (c : Thread nD τ) arg9 fullShare x9 ∗ owns (c : Thread nD τ) arg10 fullShare x10 ∗ (∃ f, arg11.view.loc (c : Thread nD τ) ↦[arg11.view.set]{fullShare} arg11.view.writes (Elt F) f L11) ∗ (arg12.view.loc (c : Thread nD τ) ↦[arg12.view.set]{fullShare} arg12.view.writes (Elt F) (harg12.unread x12) L12) ∗ owns (c : Thread nD τ) arg13 fullShare x13 ∗ owns (c : Thread nD τ) arg14 fullShare x14 ∗ owns (c : Thread nD τ) arg15 fullShare x15) -∗ K ⟨⟩))
          ⊢ wp frame (wpE (defs₀ (F := F)) Variants.none c none) E (cc0__gcn_kernel i arg1 harg1 arg2 harg2 arg3 harg3 arg4 harg4 arg5 harg5 arg6 harg6 arg7 harg7 arg8 harg8 arg9 harg9 arg10 harg10 arg11 harg11 arg12 harg12 arg13 harg13 arg14 harg14 arg15 harg15) K } := by
  refine ⟨?_, ?_, fun E K => ?run⟩
  case run =>
    simp only [cc0__gcn_kernel_eq_skeleton]; unfold cc0__gcn_kernel_skel
    unfold owns
    iintro ⟨⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%f12, %hf12, H12⟩, ⟨%f13, %hf13, H13⟩, ⟨%f14, %hf14, H14⟩, ⟨%f15, %hf15, H15⟩, Hk⟩
    obtain rfl := harg1.eq_unread hf1; obtain rfl := harg2.eq_unread hf2; obtain rfl := harg3.eq_unread hf3; obtain rfl := harg4.eq_unread hf4; obtain rfl := harg5.eq_unread hf5; obtain rfl := harg6.eq_unread hf6; obtain rfl := harg7.eq_unread hf7; obtain rfl := harg8.eq_unread hf8; obtain rfl := harg9.eq_unread hf9; obtain rfl := harg10.eq_unread hf10; obtain rfl := harg11.eq_unread hf11; obtain rfl := harg12.eq_unread hf12; obtain rfl := harg13.eq_unread hf13; obtain rfl := harg14.eq_unread hf14; obtain rfl := harg15.eq_unread hf15
    sl_exec (disch := first | exact hc0 | exact hc1 | exact hc2 | exact hc3 | exact hc4)
    sl_step
    iapply Hk
    isplitl [H1]
    · iexists _; isplitr; · ipureintro; exact harg1.read_unread _
      iexact H1
    isplitl [H2]
    · iexists _; isplitr; · ipureintro; exact harg2.read_unread _
      iexact H2
    isplitl [H3]
    · iexists _; isplitr; · ipureintro; exact harg3.read_unread _
      iexact H3
    isplitl [H4]
    · iexists _; isplitr; · ipureintro; exact harg4.read_unread _
      iexact H4
    isplitl [H5]
    · iexists _; isplitr; · ipureintro; exact harg5.read_unread _
      iexact H5
    isplitl [H6]
    · iexists _; isplitr; · ipureintro; exact harg6.read_unread _
      iexact H6
    isplitl [H7]
    · iexists _; isplitr; · ipureintro; exact harg7.read_unread _
      iexact H7
    isplitl [H8]
    · iexists _; isplitr; · ipureintro; exact harg8.read_unread _
      iexact H8
    isplitl [H9]
    · iexists _; isplitr; · ipureintro; exact harg9.read_unread _
      iexact H9
    isplitl [H10]
    · iexists _; isplitr; · ipureintro; exact harg10.read_unread _
      iexact H10
    isplitl [H11]
    · iexists _; iexact H11
    isplitl [H12]
    · iexact H12
    isplitl [H13]
    · iexists _; isplitr; · ipureintro; exact harg13.read_unread _
      iexact H13
    isplitl [H14]
    · iexists _; isplitr; · ipureintro; exact harg14.read_unread _
      iexact H14
    iexists _; isplitr; · ipureintro; exact harg15.read_unread _
    iexact H15

end Cert.KernelIdeal.Shared

end
-- ==== Proof.Ideal.Readback.lean ====
/-
  Reading back what stores leave. A store through the whole rectangle of a buffer, made last, leaves its payload,
  whatever was stored before it and whatever the buffer held; a load through the whole rectangle reads the contents;
  a store through a part leaves the payload on the part and the earlier contents off it.
-/
import proofs.«101174_g88562225643609_cont_sun_c4_799_5_alg».proof.Proof.Ideal.Points
import Idealize.ShloMosaic.Lib.Pipeline.Value

set_option maxRecDepth 16384

noncomputable section

namespace Cert.KernelIdeal.Shared

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

theorem zeros2 : (![0, 0] : Fin 2 → ℕ) = fun _ => 0 := by funext a; fin_cases a <;> rfl

section
variable {sg : RefSig} {κ : Kind} {sp : Space} {S : Shape} {e : EltTy} {Val : EltTy → Type} [∀ e, Nonempty (Val e)]

/-- The last store, through the whole rectangle, leaves its payload. -/
theorem read_store_whole (v : View sg κ sp S e) (f : v.ty.Contents Val) {off : Fin S.rank → ℕ} (hz : off = fun _ => 0)
    (inb : ∀ a, off a + S.size a ≤ S.size a) (w : S.Idx → Val e) (L : List (View.Piece Val S e)) :
    v.read Val (v.writes Val f (⟨Rect.unit off S.size inb, w⟩ :: L)) = w := by
  rw [View.read_writes_eq_canon v f _ (fun y => ⟨_, List.mem_cons_self, View.mem_set_unit_zero hz inb y⟩),
    View.canon_cons_unit_zero hz inb w L]

/-- A load through the whole rectangle of a whole buffer reads its contents. -/
theorem load_whole (mr : Memref sg κ sp S e) (h : mr.IsWhole) {off : Fin S.rank → ℕ} (hz : off = fun _ => 0)
    (inb : ∀ a, off a + S.size a ≤ S.size a) (X : S.Idx → Val e) :
    View.readAt Val mr.view (Rect.unit off S.size inb).toLoadRect (h.unread X) = X := by
  rw [View.readAt_eq_ld, h.read_unread, View.ld_unit_zero hz inb]

/-- One store through a part of a whole buffer that held `X` leaves the payload on the part, `X` off it. -/
theorem read_store_part (mr : Memref sg κ sp S e) (h : mr.IsWhole) (r : Rect S) (w : r.shape.Idx → Val e) (X : S.Idx → Val e) :
    mr.view.read Val (mr.view.writes Val (h.unread X) [⟨r, w⟩]) = r.overlay X w := by
  funext y
  by_cases hy : y ∈ r.set
  · obtain ⟨x, rfl⟩ := r.exists_idx_of_mem hy
    rw [show r.idx x = r.emb x from rfl, View.read_writes_cons_emb, Rect.overlay_emb]
  · rw [View.read_writes_apply_of_forall_not_mem _ _ y [⟨r, w⟩] (fun p hp => by
        rw [List.mem_singleton] at hp; subst hp; exact hy), h.read_unread, Rect.overlay_of_not_mem _ _ _ hy]

/-- The two facts above at rank two, the offsets spelt `![0, 0]`, as the printed programs spell them. -/
theorem ld_whole2 {d : Fin 2 → ℕ} (X : (⟨2, d⟩ : Shape).Idx → Val e)
    (inb : ∀ a, (![0, 0] : Fin 2 → ℕ) a + d a ≤ (⟨2, d⟩ : Shape).size a) :
    View.ld X (Rect.unit (s := ⟨2, d⟩) ![0, 0] d inb) = X := View.ld_unit_zero zeros2 inb X

theorem read_store_whole2 {d : Fin 2 → ℕ} (v : View sg κ sp ⟨2, d⟩ e) (f : v.ty.Contents Val)
    (inb : ∀ a, (![0, 0] : Fin 2 → ℕ) a + d a ≤ (⟨2, d⟩ : Shape).size a) (w : (⟨2, d⟩ : Shape).Idx → Val e)
    (L : List (View.Piece Val ⟨2, d⟩ e)) :
    v.read Val (v.writes Val f (⟨Rect.unit (s := ⟨2, d⟩) ![0, 0] d inb, w⟩ :: L)) = w := read_store_whole v f zeros2 inb w L

/-- A load through a part of a whole buffer reads the contents at the part's indices. -/
theorem load_part (mr : Memref sg κ sp S e) (h : mr.IsWhole) (r : Rect S) (X : S.Idx → Val e) :
    View.readAt Val mr.view r.toLoadRect (h.unread X) = View.ld X r := by
  rw [View.readAt_eq_ld, h.read_unread]
end

end Cert.KernelIdeal.Shared

end
-- ==== Proof.Ideal.Covered.lean ====
/-
  A load that follows a store of the same point. After one store through the whole rectangle of a buffer, a load
  through any part of it reads the stored payload at the part's indices, whatever the buffer held before.
-/
import proofs.«101174_g88562225643609_cont_sun_c4_799_5_alg».proof.Proof.Ideal.Readback

set_option maxRecDepth 16384

noncomputable section

namespace Cert.KernelIdeal.Shared

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

section
variable {sg : RefSig} {κ : Kind} {sp : Space} {e : EltTy} {Val : EltTy → Type} [∀ e, Nonempty (Val e)]

theorem readCov_part {S : Shape} (v : View sg κ sp S e) {off : Fin S.rank → ℕ} (hz : off = fun _ => 0)
    (inb : ∀ a, off a + S.size a ≤ S.size a) (w : S.Idx → Val e) (r : Rect S) :
    v.readCov [(⟨Rect.unit off S.size inb, w⟩ : View.Piece Val S e)] r.toLoadRect = View.ld w r := by
  subst hz
  rw [View.readCov_eq_canon_ld v _ r (fun y => ⟨_, List.mem_singleton_self _, View.mem_set_unit_zero rfl inb y⟩),
    View.canon_unit_zero rfl inb w]

theorem readCov_part2 {d : Fin 2 → ℕ} (v : View sg κ sp ⟨2, d⟩ e)
    (inb : ∀ a, (![0, 0] : Fin 2 → ℕ) a + d a ≤ (⟨2, d⟩ : Shape).size a) (w : (⟨2, d⟩ : Shape).Idx → Val e) (r : Rect ⟨2, d⟩) :
    v.readCov [(⟨Rect.unit (s := ⟨2, d⟩) ![0, 0] d inb, w⟩ : View.Piece Val ⟨2, d⟩ e)] r.toLoadRect = View.ld w r :=
  readCov_part v zeros2 inb w r
end

end Cert.KernelIdeal.Shared

end
-- ==== Proof.Ideal.StepA.lean ====
/-
  The same step with what it leaves named: at the first point: the degree row is cleared, then the first band's column sums are added and the first slice of `miss` is written, each buffer the body stores into ends
  at the stated function of what the buffers held; the others are handed back as they were.
-/
import proofs.«101174_g88562225643609_cont_sun_c4_799_5_alg».proof.Proof.Ideal.RunA
import proofs.«101174_g88562225643609_cont_sun_c4_799_5_alg».proof.Proof.Ideal.Covered

set_option maxRecDepth 16384

noncomputable section

namespace Cert.KernelIdeal.Shared

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option maxHeartbeats 2000000 in
theorem stepA (c : Dev nD) (i : grid0.Coords) (arg1 : Memref sig .tc .vmem S4096x3 .f32) (harg1 : arg1.IsWhole) (arg2 : Memref sig .tc .vmem S512x4096 .f32) (harg2 : arg2.IsWhole) (arg3 : Memref sig .tc .vmem S512x512 .f32) (harg3 : arg3.IsWhole) (arg4 : Memref sig .tc .vmem S3x16 .f32) (harg4 : arg4.IsWhole) (arg5 : Memref sig .tc .vmem S1x16 .f32) (harg5 : arg5.IsWhole) (arg6 : Memref sig .tc .vmem S16x3 .f32) (harg6 : arg6.IsWhole) (arg7 : Memref sig .tc .vmem S1x3 .f32) (harg7 : arg7.IsWhole) (arg8 : Memref sig .tc .vmem S3x3 .f32) (harg8 : arg8.IsWhole) (arg9 : Memref sig .tc .vmem S1x3 .f32) (harg9 : arg9.IsWhole) (arg10 : Memref sig .tc .vmem S4096x3 .f32) (harg10 : arg10.IsWhole) (arg11 : Memref sig .tc .vmem S1x4096 .f32) (harg11 : arg11.IsWhole) (arg12 : Memref sig .tc .vmem S4096x1 .f32) (harg12 : arg12.IsWhole) (arg13 : Memref sig .tc .vmem S3x4096 .f32) (harg13 : arg13.IsWhole) (arg14 : Memref sig .tc .vmem S4096x3 .bf16) (harg14 : arg14.IsWhole) (arg15 : Memref sig .tc .vmem S3x4096 .f32) (harg15 : arg15.IsWhole)
    (hc0 : isFirst i) (hc1 : inDegPhase i) (hc2 : ¬isTransition i) (hc3 : ¬inMsgPhase i) (hc4 : ¬isLast i)
    (x1 : Vec F S4096x3 .f32) (x2 : Vec F S512x4096 .f32) (x3 : Vec F S512x512 .f32) (x4 : Vec F S3x16 .f32) (x5 : Vec F S1x16 .f32) (x6 : Vec F S16x3 .f32) (x7 : Vec F S1x3 .f32) (x8 : Vec F S3x3 .f32) (x9 : Vec F S1x3 .f32) (x10 : Vec F S4096x3 .f32) (x11 : Vec F S1x4096 .f32) (x12 : Vec F S4096x1 .f32) (x13 : Vec F S3x4096 .f32) (x14 : Vec F S4096x3 .bf16) (x15 : Vec F S3x4096 .f32) (E : Set ℕ) (K : PUnit → sProp 𝕄) :
    iprop(owns (c : Thread nD τ) arg1 fullShare x1 ∗ owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg6 fullShare x6 ∗ owns (c : Thread nD τ) arg7 fullShare x7 ∗ owns (c : Thread nD τ) arg8 fullShare x8 ∗ owns (c : Thread nD τ) arg9 fullShare x9 ∗ owns (c : Thread nD τ) arg10 fullShare x10 ∗ owns (c : Thread nD τ) arg11 fullShare x11 ∗ owns (c : Thread nD τ) arg12 fullShare x12 ∗ owns (c : Thread nD τ) arg13 fullShare x13 ∗ owns (c : Thread nD τ) arg14 fullShare x14 ∗ owns (c : Thread nD τ) arg15 fullShare x15
        ∗ (iprop(owns (c : Thread nD τ) arg1 fullShare x1
            ∗ owns (c : Thread nD τ) arg2 fullShare x2
            ∗ owns (c : Thread nD τ) arg3 fullShare x3
            ∗ owns (c : Thread nD τ) arg4 fullShare x4
            ∗ owns (c : Thread nD τ) arg5 fullShare x5
            ∗ owns (c : Thread nD τ) arg6 fullShare x6
            ∗ owns (c : Thread nD τ) arg7 fullShare x7
            ∗ owns (c : Thread nD τ) arg8 fullShare x8
            ∗ owns (c : Thread nD τ) arg9 fullShare x9
            ∗ owns (c : Thread nD τ) arg10 fullShare x10
            ∗ owns (c : Thread nD τ) arg11 fullShare (k0_pay3 x2 (k0_pay2 (F := F)))
            ∗ owns (c : Thread nD τ) arg12 fullShare ((Rect.unit (s := S4096x1) (k0_off1 i) S512x1.size (k0_off1_inb i hc1)).overlay x12 (k0_pay4 x3))
            ∗ owns (c : Thread nD τ) arg13 fullShare x13
            ∗ owns (c : Thread nD τ) arg14 fullShare x14
            ∗ owns (c : Thread nD τ) arg15 fullShare x15) -∗ K ⟨⟩))
      ⊢ wp frame (wpE (defs₀ (F := F)) Variants.none c none) E (cc0__gcn_kernel i arg1 harg1 arg2 harg2 arg3 harg3 arg4 harg4 arg5 harg5 arg6 harg6 arg7 harg7 arg8 harg8 arg9 harg9 arg10 harg10 arg11 harg11 arg12 harg12 arg13 harg13 arg14 harg14 arg15 harg15) K := by
  iintro ⟨H1, H2, H3, H4, H5, H6, H7, H8, H9, H10, H11, H12, H13, H14, H15, Hk⟩
  iapply ((runA c i arg1 harg1 arg2 harg2 arg3 harg3 arg4 harg4 arg5 harg5 arg6 harg6 arg7 harg7 arg8 harg8 arg9 harg9 arg10 harg10 arg11 harg11 arg12 harg12 arg13 harg13 arg14 harg14 arg15 harg15 hc0 hc1 hc2 hc3 hc4 x1 x2 x3 x4 x5 x6 x7 x8 x9 x10 x11 x12 x13 x14 x15).2.2 E K)
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  isplitl [H14]; · iexact H14
  isplitl [H15]; · iexact H15
  iintro ⟨H1, H2, H3, H4, H5, H6, H7, H8, H9, H10, H11, H12, H13, H14, H15⟩
  iapply Hk
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]
  · icases H11 with ⟨%f, H11⟩
    unfold owns; iexists _; isplitr
    swap; · iexact H11
    ipureintro
    unfold runA; dsimp only
    sl_unfold_words
    simp only [load_part, read_store_part, ld_whole2, read_store_whole2, readCov_part2]
  isplitl [H12]
  · unfold owns; iexists _; isplitr
    swap; · iexact H12
    ipureintro
    unfold runA; dsimp only
    sl_unfold_words
    simp only [load_part, read_store_part, ld_whole2, read_store_whole2, readCov_part2]
  isplitl [H13]; · iexact H13
  isplitl [H14]; · iexact H14
  iexact H15

end Cert.KernelIdeal.Shared

end
-- ==== Proof.Ideal.SoundA.lean ====
/-
  The body at the first point: the degree row is cleared, then the first band's column sums are added and the first slice of `miss` is written, as the pipeline calls it: from the invariant before the point and
  every window's buffer at what it then holds, to the invariant after it and every buffer at what the body leaves.
-/
import proofs.«101174_g88562225643609_cont_sun_c4_799_5_alg».proof.Proof.Ideal.Data
import proofs.«101174_g88562225643609_cont_sun_c4_799_5_alg».proof.Proof.Ideal.StepA

set_option maxRecDepth 16384

noncomputable section

namespace Cert.KernelIdeal.Shared

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

variable (c : Dev nD)
variable (X0 : Vec F S1x4096 .f32) (X1 : Vec F S4096x1 .f32) (X2 : Vec F S3x4096 .f32) (X3 : Vec F S4096x3 .bf16) (X4 : Vec F S3x4096 .f32)

private theorem known_at (t : Fin cfg0.N) (h0 : t.val = 0)
    (inb : ∀ a, (k0_off1 (grid0.coords t)) a + S512x1.size a ≤ S4096x1.size a) :
    Known m c (t.val + 1) (k0_pay3 (iblk m c 1 t) (k0_pay2 (F := F))) ((Rect.unit (s := S4096x1) (k0_off1 (grid0.coords t)) S512x1.size inb).overlay X1 (k0_pay4 (iblk m c 2 t))) X2 X3 X4 := by
  obtain rfl : t = pt 0 (by decide) := Fin.ext h0
  exact known_first m c X1 X2 X3 X4 _ inb

set_option maxHeartbeats 4000000 in
theorem soundA (t : Fin cfg0.N) (h0 : t.val = 0) :
    bodyPre m c t ⊢ wp frame (wpE (defs₀ (F := F)) Variants.none c none) Set.univ (bodyAt0 t) (fun _ => bodyPost m c t) := by
  have hlt : t.val < 16 := lt_of_lt_of_eq t.isLt N_0
  have hc0 : isFirst (grid0.coords t) := (isFirst_iff t).mpr (by omega)
  have hc1 : inDegPhase (grid0.coords t) := (inDegPhase_iff t).mpr (by omega)
  have hc2 : ¬isTransition (grid0.coords t) := fun h => absurd ((isTransition_iff t).mp h) (by omega)
  have hc3 : ¬inMsgPhase (grid0.coords t) := fun h => absurd ((inMsgPhase_iff t).mp h) (by omega)
  have hc4 : ¬isLast (grid0.coords t) := fun h => absurd ((isLast_iff t).mp h) (by omega)
  unfold bodyPre bodyPost bodyAt0
  simp only [before_0, before_1, before_2, before_3, before_4, before_5, before_6, before_7, before_8]
  rw [show (dats m 0 c).owesAt () t.succ = (dats m 0 c).owesAt () t.castSucc from rfl, Phi_castSucc, Phi_succ,
    leaves_0, leaves_1, leaves_2, leaves_3, leaves_4, leaves_5, leaves_6, leaves_7, leaves_8, leaves_9_idle m c t (by omega)]
  unfold PhiS
  iintro ⟨⟨%X0, %X1, %X2, %X3, %X4, %hK, HS0, HS1, HS2, HS3, HS4⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩⟩
  iapply (stepA c (grid0.coords t) _ _ _ _ _ _ _ _ _ _ _ _ _ _ _ _ _ _ _ _ _ _ _ _ _ _ _ _ _ _ hc0 hc1 hc2 hc3 hc4
    (iblk m c 0 t) (iblk m c 1 t) (iblk m c 2 t) (iblk m c 3 t) (iblk m c 4 t) (iblk m c 5 t) (iblk m c 6 t) (iblk m c 7 t) (iblk m c 8 t) ((dats m 0 c).before 9 t d9) X0 X1 X2 X3 X4 Set.univ _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [HS0]; · iexact HS0
  isplitl [HS1]; · iexact HS1
  isplitl [HS2]; · iexact HS2
  isplitl [HS3]; · iexact HS3
  isplitl [HS4]; · iexact HS4
  iintro ⟨H0, H1, H2, H3, H4, H5, H6, H7, H8, H9, HS0, HS1, HS2, HS3, HS4⟩
  isplitl [HS0 HS1 HS2 HS3 HS4]
  · iexists _, _, _, _, _
    isplitr; · ipureintro; exact known_at m c X1 X2 X3 X4 t h0 (k0_off1_inb _ hc1)
    isplitl [HS0]; · iexact HS0
    isplitl [HS1]; · iexact HS1
    isplitl [HS2]; · iexact HS2
    isplitl [HS3]; · iexact HS3
    iexact HS4
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  iexists d9; iexact H9

end Cert.KernelIdeal.Shared

end
-- ==== Proof.Ideal.RunB.lean ====
/-
  The body at points 1 to 7: one band's column sums are added to the degree row and one slice of `miss` is written. Run once on any whole staging and scratch buffers at any contents; what each
  buffer it stores into ends with is found by the run, as the list of pieces stored.
-/
import proofs.«101174_g88562225643609_cont_sun_c4_799_5_alg».proof.Proof.Ideal.RunA
import Idealize.ShloMosaic.Lib.Pipeline.FrameBody

set_option maxRecDepth 16384

noncomputable section

namespace Cert.KernelIdeal.Shared

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option maxHeartbeats 4000000 in
noncomputable def runB (c : Dev nD) (i : grid0.Coords) (arg1 : Memref sig .tc .vmem S4096x3 .f32) (harg1 : arg1.IsWhole) (arg2 : Memref sig .tc .vmem S512x4096 .f32) (harg2 : arg2.IsWhole) (arg3 : Memref sig .tc .vmem S512x512 .f32) (harg3 : arg3.IsWhole) (arg4 : Memref sig .tc .vmem S3x16 .f32) (harg4 : arg4.IsWhole) (arg5 : Memref sig .tc .vmem S1x16 .f32) (harg5 : arg5.IsWhole) (arg6 : Memref sig .tc .vmem S16x3 .f32) (harg6 : arg6.IsWhole) (arg7 : Memref sig .tc .vmem S1x3 .f32) (harg7 : arg7.IsWhole) (arg8 : Memref sig .tc .vmem S3x3 .f32) (harg8 : arg8.IsWhole) (arg9 : Memref sig .tc .vmem S1x3 .f32) (harg9 : arg9.IsWhole) (arg10 : Memref sig .tc .vmem S4096x3 .f32) (harg10 : arg10.IsWhole) (arg11 : Memref sig .tc .vmem S1x4096 .f32) (harg11 : arg11.IsWhole) (arg12 : Memref sig .tc .vmem S4096x1 .f32) (harg12 : arg12.IsWhole) (arg13 : Memref sig .tc .vmem S3x4096 .f32) (harg13 : arg13.IsWhole) (arg14 : Memref sig .tc .vmem S4096x3 .bf16) (harg14 : arg14.IsWhole) (arg15 : Memref sig .tc .vmem S3x4096 .f32) (harg15 : arg15.IsWhole)
    (hc0 : ¬isFirst i) (hc1 : inDegPhase i) (hc2 : ¬isTransition i) (hc3 : ¬inMsgPhase i) (hc4 : ¬isLast i)
    (x1 : Vec F S4096x3 .f32) (x2 : Vec F S512x4096 .f32) (x3 : Vec F S512x512 .f32) (x4 : Vec F S3x16 .f32) (x5 : Vec F S1x16 .f32) (x6 : Vec F S16x3 .f32) (x7 : Vec F S1x3 .f32) (x8 : Vec F S3x3 .f32) (x9 : Vec F S1x3 .f32) (x10 : Vec F S4096x3 .f32) (x11 : Vec F S1x4096 .f32) (x12 : Vec F S4096x1 .f32) (x13 : Vec F S3x4096 .f32) (x14 : Vec F S4096x3 .bf16) (x15 : Vec F S3x4096 .f32) :
    Σ' (L11 : List (View.Piece (Elt F) S1x4096 .f32)), { L12 : List (View.Piece (Elt F) S4096x1 .f32) //
      ∀ (E : Set ℕ) (K : PUnit → sProp 𝕄),
        iprop(owns (c : Thread nD τ) arg1 fullShare x1 ∗ owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg6 fullShare x6 ∗ owns (c : Thread nD τ) arg7 fullShare x7 ∗ owns (c : Thread nD τ) arg8 fullShare x8 ∗ owns (c : Thread nD τ) arg9 fullShare x9 ∗ owns (c : Thread nD τ) arg10 fullShare x10 ∗ owns (c : Thread nD τ) arg11 fullShare x11 ∗ owns (c : Thread nD τ) arg12 fullShare x12 ∗ owns (c : Thread nD τ) arg13 fullShare x13 ∗ owns (c : Thread nD τ) arg14 fullShare x14 ∗ owns (c : Thread nD τ) arg15 fullShare x15
            ∗ (iprop(owns (c : Thread nD τ) arg1 fullShare x1 ∗ owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg6 fullShare x6 ∗ owns (c : Thread nD τ) arg7 fullShare x7 ∗ owns (c : Thread nD τ) arg8 fullShare x8 ∗ owns (c : Thread nD τ) arg9 fullShare x9 ∗ owns (c : Thread nD τ) arg10 fullShare x10 ∗ (∃ f, arg11.view.loc (c : Thread nD τ) ↦[arg11.view.set]{fullShare} arg11.view.writes (Elt F) f L11) ∗ (arg12.view.loc (c : Thread nD τ) ↦[arg12.view.set]{fullShare} arg12.view.writes (Elt F) (harg12.unread x12) L12) ∗ owns (c : Thread nD τ) arg13 fullShare x13 ∗ owns (c : Thread nD τ) arg14 fullShare x14 ∗ owns (c : Thread nD τ) arg15 fullShare x15) -∗ K ⟨⟩))
          ⊢ wp frame (wpE (defs₀ (F := F)) Variants.none c none) E (cc0__gcn_kernel i arg1 harg1 arg2 harg2 arg3 harg3 arg4 harg4 arg5 harg5 arg6 harg6 arg7 harg7 arg8 harg8 arg9 harg9 arg10 harg10 arg11 harg11 arg12 harg12 arg13 harg13 arg14 harg14 arg15 harg15) K } := by
  refine ⟨?_, ?_, fun E K => ?run⟩
  case run =>
    simp only [cc0__gcn_kernel_eq_skeleton]; unfold cc0__gcn_kernel_skel
    unfold owns
    iintro ⟨⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%f12, %hf12, H12⟩, ⟨%f13, %hf13, H13⟩, ⟨%f14, %hf14, H14⟩, ⟨%f15, %hf15, H15⟩, Hk⟩
    obtain rfl := harg1.eq_unread hf1; obtain rfl := harg2.eq_unread hf2; obtain rfl := harg3.eq_unread hf3; obtain rfl := harg4.eq_unread hf4; obtain rfl := harg5.eq_unread hf5; obtain rfl := harg6.eq_unread hf6; obtain rfl := harg7.eq_unread hf7; obtain rfl := harg8.eq_unread hf8; obtain rfl := harg9.eq_unread hf9; obtain rfl := harg10.eq_unread hf10; obtain rfl := harg11.eq_unread hf11; obtain rfl := harg12.eq_unread hf12; obtain rfl := harg13.eq_unread hf13; obtain rfl := harg14.eq_unread hf14; obtain rfl := harg15.eq_unread hf15
    sl_exec (disch := first | exact hc0 | exact hc1 | exact hc2 | exact hc3 | exact hc4)
    sl_step
    iapply Hk
    isplitl [H1]
    · iexists _; isplitr; · ipureintro; exact harg1.read_unread _
      iexact H1
    isplitl [H2]
    · iexists _; isplitr; · ipureintro; exact harg2.read_unread _
      iexact H2
    isplitl [H3]
    · iexists _; isplitr; · ipureintro; exact harg3.read_unread _
      iexact H3
    isplitl [H4]
    · iexists _; isplitr; · ipureintro; exact harg4.read_unread _
      iexact H4
    isplitl [H5]
    · iexists _; isplitr; · ipureintro; exact harg5.read_unread _
      iexact H5
    isplitl [H6]
    · iexists _; isplitr; · ipureintro; exact harg6.read_unread _
      iexact H6
    isplitl [H7]
    · iexists _; isplitr; · ipureintro; exact harg7.read_unread _
      iexact H7
    isplitl [H8]
    · iexists _; isplitr; · ipureintro; exact harg8.read_unread _
      iexact H8
    isplitl [H9]
    · iexists _; isplitr; · ipureintro; exact harg9.read_unread _
      iexact H9
    isplitl [H10]
    · iexists _; isplitr; · ipureintro; exact harg10.read_unread _
      iexact H10
    isplitl [H11]
    · iexists _; iexact H11
    isplitl [H12]
    · iexact H12
    isplitl [H13]
    · iexists _; isplitr; · ipureintro; exact harg13.read_unread _
      iexact H13
    isplitl [H14]
    · iexists _; isplitr; · ipureintro; exact harg14.read_unread _
      iexact H14
    iexists _; isplitr; · ipureintro; exact harg15.read_unread _
    iexact H15

end Cert.KernelIdeal.Shared

end
-- ==== Proof.Ideal.StepB.lean ====
/-
  The same step with what it leaves named: at points 1 to 7: one band's column sums are added to the degree row and one slice of `miss` is written, each buffer the body stores into ends
  at the stated function of what the buffers held; the others are handed back as they were.
-/
import proofs.«101174_g88562225643609_cont_sun_c4_799_5_alg».proof.Proof.Ideal.RunB
import proofs.«101174_g88562225643609_cont_sun_c4_799_5_alg».proof.Proof.Ideal.Readback

set_option maxRecDepth 16384

noncomputable section

namespace Cert.KernelIdeal.Shared

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option maxHeartbeats 2000000 in
theorem stepB (c : Dev nD) (i : grid0.Coords) (arg1 : Memref sig .tc .vmem S4096x3 .f32) (harg1 : arg1.IsWhole) (arg2 : Memref sig .tc .vmem S512x4096 .f32) (harg2 : arg2.IsWhole) (arg3 : Memref sig .tc .vmem S512x512 .f32) (harg3 : arg3.IsWhole) (arg4 : Memref sig .tc .vmem S3x16 .f32) (harg4 : arg4.IsWhole) (arg5 : Memref sig .tc .vmem S1x16 .f32) (harg5 : arg5.IsWhole) (arg6 : Memref sig .tc .vmem S16x3 .f32) (harg6 : arg6.IsWhole) (arg7 : Memref sig .tc .vmem S1x3 .f32) (harg7 : arg7.IsWhole) (arg8 : Memref sig .tc .vmem S3x3 .f32) (harg8 : arg8.IsWhole) (arg9 : Memref sig .tc .vmem S1x3 .f32) (harg9 : arg9.IsWhole) (arg10 : Memref sig .tc .vmem S4096x3 .f32) (harg10 : arg10.IsWhole) (arg11 : Memref sig .tc .vmem S1x4096 .f32) (harg11 : arg11.IsWhole) (arg12 : Memref sig .tc .vmem S4096x1 .f32) (harg12 : arg12.IsWhole) (arg13 : Memref sig .tc .vmem S3x4096 .f32) (harg13 : arg13.IsWhole) (arg14 : Memref sig .tc .vmem S4096x3 .bf16) (harg14 : arg14.IsWhole) (arg15 : Memref sig .tc .vmem S3x4096 .f32) (harg15 : arg15.IsWhole)
    (hc0 : ¬isFirst i) (hc1 : inDegPhase i) (hc2 : ¬isTransition i) (hc3 : ¬inMsgPhase i) (hc4 : ¬isLast i)
    (x1 : Vec F S4096x3 .f32) (x2 : Vec F S512x4096 .f32) (x3 : Vec F S512x512 .f32) (x4 : Vec F S3x16 .f32) (x5 : Vec F S1x16 .f32) (x6 : Vec F S16x3 .f32) (x7 : Vec F S1x3 .f32) (x8 : Vec F S3x3 .f32) (x9 : Vec F S1x3 .f32) (x10 : Vec F S4096x3 .f32) (x11 : Vec F S1x4096 .f32) (x12 : Vec F S4096x1 .f32) (x13 : Vec F S3x4096 .f32) (x14 : Vec F S4096x3 .bf16) (x15 : Vec F S3x4096 .f32) (E : Set ℕ) (K : PUnit → sProp 𝕄) :
    iprop(owns (c : Thread nD τ) arg1 fullShare x1 ∗ owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg6 fullShare x6 ∗ owns (c : Thread nD τ) arg7 fullShare x7 ∗ owns (c : Thread nD τ) arg8 fullShare x8 ∗ owns (c : Thread nD τ) arg9 fullShare x9 ∗ owns (c : Thread nD τ) arg10 fullShare x10 ∗ owns (c : Thread nD τ) arg11 fullShare x11 ∗ owns (c : Thread nD τ) arg12 fullShare x12 ∗ owns (c : Thread nD τ) arg13 fullShare x13 ∗ owns (c : Thread nD τ) arg14 fullShare x14 ∗ owns (c : Thread nD τ) arg15 fullShare x15
        ∗ (iprop(owns (c : Thread nD τ) arg1 fullShare x1
            ∗ owns (c : Thread nD τ) arg2 fullShare x2
            ∗ owns (c : Thread nD τ) arg3 fullShare x3
            ∗ owns (c : Thread nD τ) arg4 fullShare x4
            ∗ owns (c : Thread nD τ) arg5 fullShare x5
            ∗ owns (c : Thread nD τ) arg6 fullShare x6
            ∗ owns (c : Thread nD τ) arg7 fullShare x7
            ∗ owns (c : Thread nD τ) arg8 fullShare x8
            ∗ owns (c : Thread nD τ) arg9 fullShare x9
            ∗ owns (c : Thread nD τ) arg10 fullShare x10
            ∗ owns (c : Thread nD τ) arg11 fullShare (k0_pay3 x2 x11)
            ∗ owns (c : Thread nD τ) arg12 fullShare ((Rect.unit (s := S4096x1) (k0_off1 i) S512x1.size (k0_off1_inb i hc1)).overlay x12 (k0_pay4 x3))
            ∗ owns (c : Thread nD τ) arg13 fullShare x13
            ∗ owns (c : Thread nD τ) arg14 fullShare x14
            ∗ owns (c : Thread nD τ) arg15 fullShare x15) -∗ K ⟨⟩))
      ⊢ wp frame (wpE (defs₀ (F := F)) Variants.none c none) E (cc0__gcn_kernel i arg1 harg1 arg2 harg2 arg3 harg3 arg4 harg4 arg5 harg5 arg6 harg6 arg7 harg7 arg8 harg8 arg9 harg9 arg10 harg10 arg11 harg11 arg12 harg12 arg13 harg13 arg14 harg14 arg15 harg15) K := by
  iintro ⟨H1, H2, H3, H4, H5, H6, H7, H8, H9, H10, H11, H12, H13, H14, H15, Hk⟩
  iapply ((runB c i arg1 harg1 arg2 harg2 arg3 harg3 arg4 harg4 arg5 harg5 arg6 harg6 arg7 harg7 arg8 harg8 arg9 harg9 arg10 harg10 arg11 harg11 arg12 harg12 arg13 harg13 arg14 harg14 arg15 harg15 hc0 hc1 hc2 hc3 hc4 x1 x2 x3 x4 x5 x6 x7 x8 x9 x10 x11 x12 x13 x14 x15).2.2 E K)
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  isplitl [H14]; · iexact H14
  isplitl [H15]; · iexact H15
  iintro ⟨H1, H2, H3, H4, H5, H6, H7, H8, H9, H10, H11, H12, H13, H14, H15⟩
  iapply Hk
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]
  · icases H11 with ⟨%f, H11⟩
    unfold owns; iexists _; isplitr
    swap; · iexact H11
    ipureintro
    unfold runB; dsimp only
    simp only [load_part, read_store_part, ld_whole2, read_store_whole2]
  isplitl [H12]
  · unfold owns; iexists _; isplitr
    swap; · iexact H12
    ipureintro
    unfold runB; dsimp only
    simp only [load_part, read_store_part, ld_whole2, read_store_whole2]
  isplitl [H13]; · iexact H13
  isplitl [H14]; · iexact H14
  iexact H15

end Cert.KernelIdeal.Shared

end
-- ==== Proof.Ideal.SoundB.lean ====
/-
  The body at points 1 to 7: one band's column sums are added to the degree row and one slice of `miss` is written, as the pipeline calls it: from the invariant before the point and
  every window's buffer at what it then holds, to the invariant after it and every buffer at what the body leaves.
-/
import proofs.«101174_g88562225643609_cont_sun_c4_799_5_alg».proof.Proof.Ideal.Data
import proofs.«101174_g88562225643609_cont_sun_c4_799_5_alg».proof.Proof.Ideal.StepB

set_option maxRecDepth 16384

noncomputable section

namespace Cert.KernelIdeal.Shared

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

variable (c : Dev nD)
variable (X0 : Vec F S1x4096 .f32) (X1 : Vec F S4096x1 .f32) (X2 : Vec F S3x4096 .f32) (X3 : Vec F S4096x3 .bf16) (X4 : Vec F S3x4096 .f32)

private theorem known_at (t : Fin cfg0.N) (h1 : 1 ≤ t.val) (h8 : t.val < 8)
    (inb : ∀ a, (k0_off1 (grid0.coords t)) a + S512x1.size a ≤ S4096x1.size a)
    (hK : Known m c t.val X0 X1 X2 X3 X4) :
    Known m c (t.val + 1) (k0_pay3 (iblk m c 1 t) X0) ((Rect.unit (s := S4096x1) (k0_off1 (grid0.coords t)) S512x1.size inb).overlay X1 (k0_pay4 (iblk m c 2 t))) X2 X3 X4 :=
  known_deg m c X0 X1 X2 X3 X4 t.val h1 h8 (lt_of_lt_of_eq t.isLt N_0) inb hK

set_option maxHeartbeats 4000000 in
theorem soundB (t : Fin cfg0.N) (h1 : 1 ≤ t.val) (h8 : t.val < 8) :
    bodyPre m c t ⊢ wp frame (wpE (defs₀ (F := F)) Variants.none c none) Set.univ (bodyAt0 t) (fun _ => bodyPost m c t) := by
  have hlt : t.val < 16 := lt_of_lt_of_eq t.isLt N_0
  have hc0 : ¬isFirst (grid0.coords t) := fun h => absurd ((isFirst_iff t).mp h) (by omega)
  have hc1 : inDegPhase (grid0.coords t) := (inDegPhase_iff t).mpr (by omega)
  have hc2 : ¬isTransition (grid0.coords t) := fun h => absurd ((isTransition_iff t).mp h) (by omega)
  have hc3 : ¬inMsgPhase (grid0.coords t) := fun h => absurd ((inMsgPhase_iff t).mp h) (by omega)
  have hc4 : ¬isLast (grid0.coords t) := fun h => absurd ((isLast_iff t).mp h) (by omega)
  unfold bodyPre bodyPost bodyAt0
  simp only [before_0, before_1, before_2, before_3, before_4, before_5, before_6, before_7, before_8]
  rw [show (dats m 0 c).owesAt () t.succ = (dats m 0 c).owesAt () t.castSucc from rfl, Phi_castSucc, Phi_succ,
    leaves_0, leaves_1, leaves_2, leaves_3, leaves_4, leaves_5, leaves_6, leaves_7, leaves_8, leaves_9_idle m c t (by omega)]
  unfold PhiS
  iintro ⟨⟨%X0, %X1, %X2, %X3, %X4, %hK, HS0, HS1, HS2, HS3, HS4⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩⟩
  iapply (stepB c (grid0.coords t) _ _ _ _ _ _ _ _ _ _ _ _ _ _ _ _ _ _ _ _ _ _ _ _ _ _ _ _ _ _ hc0 hc1 hc2 hc3 hc4
    (iblk m c 0 t) (iblk m c 1 t) (iblk m c 2 t) (iblk m c 3 t) (iblk m c 4 t) (iblk m c 5 t) (iblk m c 6 t) (iblk m c 7 t) (iblk m c 8 t) ((dats m 0 c).before 9 t d9) X0 X1 X2 X3 X4 Set.univ _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [HS0]; · iexact HS0
  isplitl [HS1]; · iexact HS1
  isplitl [HS2]; · iexact HS2
  isplitl [HS3]; · iexact HS3
  isplitl [HS4]; · iexact HS4
  iintro ⟨H0, H1, H2, H3, H4, H5, H6, H7, H8, H9, HS0, HS1, HS2, HS3, HS4⟩
  isplitl [HS0 HS1 HS2 HS3 HS4]
  · iexists _, _, _, _, _
    isplitr; · ipureintro; exact known_at m c X0 X1 X2 X3 X4 t h1 h8 (k0_off1_inb _ hc1) hK
    isplitl [HS0]; · iexact HS0
    isplitl [HS1]; · iexact HS1
    isplitl [HS2]; · iexact HS2
    isplitl [HS3]; · iexact HS3
    iexact HS4
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  iexists d9; iexact H9

end Cert.KernelIdeal.Shared

end
-- ==== Proof.Ideal.RunC.lean ====
/-
  The body at point 8: the degree row becomes the normalisation, the messages are computed and kept in both layouts, the accumulator is cleared and receives the first band's contribution. Run once on any whole staging and scratch buffers at any contents; what each
  buffer it stores into ends with is found by the run, as the list of pieces stored.
-/
import proofs.«101174_g88562225643609_cont_sun_c4_799_5_alg».proof.Proof.Ideal.Points
import Idealize.ShloMosaic.Lib.Pipeline.FrameBody

set_option maxRecDepth 16384

noncomputable section

namespace Cert.KernelIdeal.Shared

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option maxHeartbeats 4000000 in
noncomputable def runC (c : Dev nD) (i : grid0.Coords) (arg1 : Memref sig .tc .vmem S4096x3 .f32) (harg1 : arg1.IsWhole) (arg2 : Memref sig .tc .vmem S512x4096 .f32) (harg2 : arg2.IsWhole) (arg3 : Memref sig .tc .vmem S512x512 .f32) (harg3 : arg3.IsWhole) (arg4 : Memref sig .tc .vmem S3x16 .f32) (harg4 : arg4.IsWhole) (arg5 : Memref sig .tc .vmem S1x16 .f32) (harg5 : arg5.IsWhole) (arg6 : Memref sig .tc .vmem S16x3 .f32) (harg6 : arg6.IsWhole) (arg7 : Memref sig .tc .vmem S1x3 .f32) (harg7 : arg7.IsWhole) (arg8 : Memref sig .tc .vmem S3x3 .f32) (harg8 : arg8.IsWhole) (arg9 : Memref sig .tc .vmem S1x3 .f32) (harg9 : arg9.IsWhole) (arg10 : Memref sig .tc .vmem S4096x3 .f32) (harg10 : arg10.IsWhole) (arg11 : Memref sig .tc .vmem S1x4096 .f32) (harg11 : arg11.IsWhole) (arg12 : Memref sig .tc .vmem S4096x1 .f32) (harg12 : arg12.IsWhole) (arg13 : Memref sig .tc .vmem S3x4096 .f32) (harg13 : arg13.IsWhole) (arg14 : Memref sig .tc .vmem S4096x3 .bf16) (harg14 : arg14.IsWhole) (arg15 : Memref sig .tc .vmem S3x4096 .f32) (harg15 : arg15.IsWhole)
    (hc0 : ¬isFirst i) (hc1 : ¬inDegPhase i) (hc2 : isTransition i) (hc3 : inMsgPhase i) (hc4 : ¬isLast i)
    (x1 : Vec F S4096x3 .f32) (x2 : Vec F S512x4096 .f32) (x3 : Vec F S512x512 .f32) (x4 : Vec F S3x16 .f32) (x5 : Vec F S1x16 .f32) (x6 : Vec F S16x3 .f32) (x7 : Vec F S1x3 .f32) (x8 : Vec F S3x3 .f32) (x9 : Vec F S1x3 .f32) (x10 : Vec F S4096x3 .f32) (x11 : Vec F S1x4096 .f32) (x12 : Vec F S4096x1 .f32) (x13 : Vec F S3x4096 .f32) (x14 : Vec F S4096x3 .bf16) (x15 : Vec F S3x4096 .f32) :
    Σ' (L11 : List (View.Piece (Elt F) S1x4096 .f32)) (L13 : List (View.Piece (Elt F) S3x4096 .f32)) (L14 : List (View.Piece (Elt F) S4096x3 .bf16)), { L15 : List (View.Piece (Elt F) S3x4096 .f32) //
      ∀ (E : Set ℕ) (K : PUnit → sProp 𝕄),
        iprop(owns (c : Thread nD τ) arg1 fullShare x1 ∗ owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg6 fullShare x6 ∗ owns (c : Thread nD τ) arg7 fullShare x7 ∗ owns (c : Thread nD τ) arg8 fullShare x8 ∗ owns (c : Thread nD τ) arg9 fullShare x9 ∗ owns (c : Thread nD τ) arg10 fullShare x10 ∗ owns (c : Thread nD τ) arg11 fullShare x11 ∗ owns (c : Thread nD τ) arg12 fullShare x12 ∗ owns (c : Thread nD τ) arg13 fullShare x13 ∗ owns (c : Thread nD τ) arg14 fullShare x14 ∗ owns (c : Thread nD τ) arg15 fullShare x15
            ∗ (iprop(owns (c : Thread nD τ) arg1 fullShare x1 ∗ owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg6 fullShare x6 ∗ owns (c : Thread nD τ) arg7 fullShare x7 ∗ owns (c : Thread nD τ) arg8 fullShare x8 ∗ owns (c : Thread nD τ) arg9 fullShare x9 ∗ owns (c : Thread nD τ) arg10 fullShare x10 ∗ (∃ f, arg11.view.loc (c : Thread nD τ) ↦[arg11.view.set]{fullShare} arg11.view.writes (Elt F) f L11) ∗ owns (c : Thread nD τ) arg12 fullShare x12 ∗ (∃ f, arg13.view.loc (c : Thread nD τ) ↦[arg13.view.set]{fullShare} arg13.view.writes (Elt F) f L13) ∗ (∃ f, arg14.view.loc (c : Thread nD τ) ↦[arg14.view.set]{fullShare} arg14.view.writes (Elt F) f L14) ∗ (∃ f, arg15.view.loc (c : Thread nD τ) ↦[arg15.view.set]{fullShare} arg15.view.writes (Elt F) f L15)) -∗ K ⟨⟩))
          ⊢ wp frame (wpE (defs₀ (F := F)) Variants.none c none) E (cc0__gcn_kernel i arg1 harg1 arg2 harg2 arg3 harg3 arg4 harg4 arg5 harg5 arg6 harg6 arg7 harg7 arg8 harg8 arg9 harg9 arg10 harg10 arg11 harg11 arg12 harg12 arg13 harg13 arg14 harg14 arg15 harg15) K } := by
  refine ⟨?_, ?_, ?_, ?_, fun E K => ?run⟩
  case run =>
    simp only [cc0__gcn_kernel_eq_skeleton]; unfold cc0__gcn_kernel_skel
    simp only [k0_part1_eq_skeleton]
    unfold owns
    iintro ⟨⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%f12, %hf12, H12⟩, ⟨%f13, %hf13, H13⟩, ⟨%f14, %hf14, H14⟩, ⟨%f15, %hf15, H15⟩, Hk⟩
    obtain rfl := harg1.eq_unread hf1; obtain rfl := harg2.eq_unread hf2; obtain rfl := harg3.eq_unread hf3; obtain rfl := harg4.eq_unread hf4; obtain rfl := harg5.eq_unread hf5; obtain rfl := harg6.eq_unread hf6; obtain rfl := harg7.eq_unread hf7; obtain rfl := harg8.eq_unread hf8; obtain rfl := harg9.eq_unread hf9; obtain rfl := harg10.eq_unread hf10; obtain rfl := harg11.eq_unread hf11; obtain rfl := harg12.eq_unread hf12; obtain rfl := harg13.eq_unread hf13; obtain rfl := harg14.eq_unread hf14; obtain rfl := harg15.eq_unread hf15
    sl_exec (disch := first | exact hc0 | exact hc1 | exact hc2 | exact hc3 | exact hc4)
    sl_step
    iapply Hk
    isplitl [H1]
    · iexists _; isplitr; · ipureintro; exact harg1.read_unread _
      iexact H1
    isplitl [H2]
    · iexists _; isplitr; · ipureintro; exact harg2.read_unread _
      iexact H2
    isplitl [H3]
    · iexists _; isplitr; · ipureintro; exact harg3.read_unread _
      iexact H3
    isplitl [H4]
    · iexists _; isplitr; · ipureintro; exact harg4.read_unread _
      iexact H4
    isplitl [H5]
    · iexists _; isplitr; · ipureintro; exact harg5.read_unread _
      iexact H5
    isplitl [H6]
    · iexists _; isplitr; · ipureintro; exact harg6.read_unread _
      iexact H6
    isplitl [H7]
    · iexists _; isplitr; · ipureintro; exact harg7.read_unread _
      iexact H7
    isplitl [H8]
    · iexists _; isplitr; · ipureintro; exact harg8.read_unread _
      iexact H8
    isplitl [H9]
    · iexists _; isplitr; · ipureintro; exact harg9.read_unread _
      iexact H9
    isplitl [H10]
    · iexists _; isplitr; · ipureintro; exact harg10.read_unread _
      iexact H10
    isplitl [H11]
    · iexists _; iexact H11
    isplitl [H12]
    · iexists _; isplitr; · ipureintro; exact harg12.read_unread _
      iexact H12
    isplitl [H13]
    · iexists _; iexact H13
    isplitl [H14]
    · iexists _; iexact H14
    iexists _; iexact H15

end Cert.KernelIdeal.Shared

end
-- ==== Proof.Ideal.StepC.lean ====
/-
  The same step with what it leaves named: at point 8: the degree row becomes the normalisation, the messages are computed and kept in both layouts, the accumulator is cleared and receives the first band's contribution, each buffer the body stores into ends
  at the stated function of what the buffers held; the others are handed back as they were.
-/
import proofs.«101174_g88562225643609_cont_sun_c4_799_5_alg».proof.Proof.Ideal.RunC
import proofs.«101174_g88562225643609_cont_sun_c4_799_5_alg».proof.Proof.Ideal.Covered

set_option maxRecDepth 16384

noncomputable section

namespace Cert.KernelIdeal.Shared

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option maxHeartbeats 2000000 in
theorem stepC (c : Dev nD) (i : grid0.Coords) (arg1 : Memref sig .tc .vmem S4096x3 .f32) (harg1 : arg1.IsWhole) (arg2 : Memref sig .tc .vmem S512x4096 .f32) (harg2 : arg2.IsWhole) (arg3 : Memref sig .tc .vmem S512x512 .f32) (harg3 : arg3.IsWhole) (arg4 : Memref sig .tc .vmem S3x16 .f32) (harg4 : arg4.IsWhole) (arg5 : Memref sig .tc .vmem S1x16 .f32) (harg5 : arg5.IsWhole) (arg6 : Memref sig .tc .vmem S16x3 .f32) (harg6 : arg6.IsWhole) (arg7 : Memref sig .tc .vmem S1x3 .f32) (harg7 : arg7.IsWhole) (arg8 : Memref sig .tc .vmem S3x3 .f32) (harg8 : arg8.IsWhole) (arg9 : Memref sig .tc .vmem S1x3 .f32) (harg9 : arg9.IsWhole) (arg10 : Memref sig .tc .vmem S4096x3 .f32) (harg10 : arg10.IsWhole) (arg11 : Memref sig .tc .vmem S1x4096 .f32) (harg11 : arg11.IsWhole) (arg12 : Memref sig .tc .vmem S4096x1 .f32) (harg12 : arg12.IsWhole) (arg13 : Memref sig .tc .vmem S3x4096 .f32) (harg13 : arg13.IsWhole) (arg14 : Memref sig .tc .vmem S4096x3 .bf16) (harg14 : arg14.IsWhole) (arg15 : Memref sig .tc .vmem S3x4096 .f32) (harg15 : arg15.IsWhole)
    (hc0 : ¬isFirst i) (hc1 : ¬inDegPhase i) (hc2 : isTransition i) (hc3 : inMsgPhase i) (hc4 : ¬isLast i)
    (x1 : Vec F S4096x3 .f32) (x2 : Vec F S512x4096 .f32) (x3 : Vec F S512x512 .f32) (x4 : Vec F S3x16 .f32) (x5 : Vec F S1x16 .f32) (x6 : Vec F S16x3 .f32) (x7 : Vec F S1x3 .f32) (x8 : Vec F S3x3 .f32) (x9 : Vec F S1x3 .f32) (x10 : Vec F S4096x3 .f32) (x11 : Vec F S1x4096 .f32) (x12 : Vec F S4096x1 .f32) (x13 : Vec F S3x4096 .f32) (x14 : Vec F S4096x3 .bf16) (x15 : Vec F S3x4096 .f32) (E : Set ℕ) (K : PUnit → sProp 𝕄) :
    iprop(owns (c : Thread nD τ) arg1 fullShare x1 ∗ owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg6 fullShare x6 ∗ owns (c : Thread nD τ) arg7 fullShare x7 ∗ owns (c : Thread nD τ) arg8 fullShare x8 ∗ owns (c : Thread nD τ) arg9 fullShare x9 ∗ owns (c : Thread nD τ) arg10 fullShare x10 ∗ owns (c : Thread nD τ) arg11 fullShare x11 ∗ owns (c : Thread nD τ) arg12 fullShare x12 ∗ owns (c : Thread nD τ) arg13 fullShare x13 ∗ owns (c : Thread nD τ) arg14 fullShare x14 ∗ owns (c : Thread nD τ) arg15 fullShare x15
        ∗ (iprop(owns (c : Thread nD τ) arg1 fullShare x1
            ∗ owns (c : Thread nD τ) arg2 fullShare x2
            ∗ owns (c : Thread nD τ) arg3 fullShare x3
            ∗ owns (c : Thread nD τ) arg4 fullShare x4
            ∗ owns (c : Thread nD τ) arg5 fullShare x5
            ∗ owns (c : Thread nD τ) arg6 fullShare x6
            ∗ owns (c : Thread nD τ) arg7 fullShare x7
            ∗ owns (c : Thread nD τ) arg8 fullShare x8
            ∗ owns (c : Thread nD τ) arg9 fullShare x9
            ∗ owns (c : Thread nD τ) arg10 fullShare x10
            ∗ owns (c : Thread nD τ) arg11 fullShare (k0_pay11 x12 x11)
            ∗ owns (c : Thread nD τ) arg12 fullShare x12
            ∗ owns (c : Thread nD τ) arg13 fullShare (k0_pay8 x2 (View.ld (k0_pay5 (k0_pay13 x12 x11 x1 x4 x5 x6 x7 x8)) (Rect.unit (s := S4096x3) (k0_off2 i) S512x3.size (k0_off2_inb i hc3))) (k0_pay7 (F := F)))
            ∗ owns (c : Thread nD τ) arg14 fullShare (k0_pay5 (k0_pay13 x12 x11 x1 x4 x5 x6 x7 x8))
            ∗ owns (c : Thread nD τ) arg15 fullShare (k0_pay6 (k0_pay12 x12 x11 x1 x4 x5 x6 x7 x8))) -∗ K ⟨⟩))
      ⊢ wp frame (wpE (defs₀ (F := F)) Variants.none c none) E (cc0__gcn_kernel i arg1 harg1 arg2 harg2 arg3 harg3 arg4 harg4 arg5 harg5 arg6 harg6 arg7 harg7 arg8 harg8 arg9 harg9 arg10 harg10 arg11 harg11 arg12 harg12 arg13 harg13 arg14 harg14 arg15 harg15) K := by
  iintro ⟨H1, H2, H3, H4, H5, H6, H7, H8, H9, H10, H11, H12, H13, H14, H15, Hk⟩
  iapply ((runC c i arg1 harg1 arg2 harg2 arg3 harg3 arg4 harg4 arg5 harg5 arg6 harg6 arg7 harg7 arg8 harg8 arg9 harg9 arg10 harg10 arg11 harg11 arg12 harg12 arg13 harg13 arg14 harg14 arg15 harg15 hc0 hc1 hc2 hc3 hc4 x1 x2 x3 x4 x5 x6 x7 x8 x9 x10 x11 x12 x13 x14 x15).2.2.2.2 E K)
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  isplitl [H14]; · iexact H14
  isplitl [H15]; · iexact H15
  iintro ⟨H1, H2, H3, H4, H5, H6, H7, H8, H9, H10, H11, H12, H13, H14, H15⟩
  iapply Hk
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]
  · icases H11 with ⟨%f, H11⟩
    unfold owns; iexists _; isplitr
    swap; · iexact H11
    ipureintro
    unfold runC; dsimp only
    sl_unfold_words
    simp only [View.readAt_eq_ld, Memref.IsWhole.read_unread, load_part, read_store_part, ld_whole2, read_store_whole2, readCov_part2]
  isplitl [H12]; · iexact H12
  isplitl [H13]
  · icases H13 with ⟨%f, H13⟩
    unfold owns; iexists _; isplitr
    swap; · iexact H13
    ipureintro
    unfold runC; dsimp only
    sl_unfold_words
    simp only [View.readAt_eq_ld, Memref.IsWhole.read_unread, load_part, read_store_part, ld_whole2, read_store_whole2, readCov_part2]
  isplitl [H14]
  · icases H14 with ⟨%f, H14⟩
    unfold owns; iexists _; isplitr
    swap; · iexact H14
    ipureintro
    unfold runC; dsimp only
    sl_unfold_words
    simp only [View.readAt_eq_ld, Memref.IsWhole.read_unread, load_part, read_store_part, ld_whole2, read_store_whole2, readCov_part2]
  icases H15 with ⟨%f, H15⟩
  unfold owns; iexists _; isplitr
  swap; · iexact H15
  ipureintro
  unfold runC; dsimp only
  sl_unfold_words
  simp only [View.readAt_eq_ld, Memref.IsWhole.read_unread, load_part, read_store_part, ld_whole2, read_store_whole2, readCov_part2]

end Cert.KernelIdeal.Shared

end
-- ==== Proof.Ideal.SoundC.lean ====
/-
  The body at point 8: the degree row becomes the normalisation, the messages are computed and kept in both layouts, the accumulator is cleared and receives the first band's contribution, as the pipeline calls it: from the invariant before the point and
  every window's buffer at what it then holds, to the invariant after it and every buffer at what the body leaves.
-/
import proofs.«101174_g88562225643609_cont_sun_c4_799_5_alg».proof.Proof.Ideal.Data
import proofs.«101174_g88562225643609_cont_sun_c4_799_5_alg».proof.Proof.Ideal.StepC

set_option maxRecDepth 16384

noncomputable section

namespace Cert.KernelIdeal.Shared

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

variable (c : Dev nD)
variable (X0 : Vec F S1x4096 .f32) (X1 : Vec F S4096x1 .f32) (X2 : Vec F S3x4096 .f32) (X3 : Vec F S4096x3 .bf16) (X4 : Vec F S3x4096 .f32)

private theorem known_at (t : Fin cfg0.N) (h8 : t.val = 8)
    (inb : ∀ a, (k0_off2 (grid0.coords t)) a + S512x3.size a ≤ S4096x3.size a)
    (hK : Known m c t.val X0 X1 X2 X3 X4) :
    Known m c (t.val + 1) (k0_pay11 X1 X0) X1
      (k0_pay8 (iblk m c 1 t) (View.ld (k0_pay5 (k0_pay13 X1 X0 (iblk m c 0 t) (iblk m c 3 t) (iblk m c 4 t) (iblk m c 5 t) (iblk m c 6 t) (iblk m c 7 t))) (Rect.unit (s := S4096x3) (k0_off2 (grid0.coords t)) S512x3.size inb)) (k0_pay7 (F := F)))
      (k0_pay5 (k0_pay13 X1 X0 (iblk m c 0 t) (iblk m c 3 t) (iblk m c 4 t) (iblk m c 5 t) (iblk m c 6 t) (iblk m c 7 t))) (k0_pay6 (k0_pay12 X1 X0 (iblk m c 0 t) (iblk m c 3 t) (iblk m c 4 t) (iblk m c 5 t) (iblk m c 6 t) (iblk m c 7 t))) := by
  obtain rfl : t = t8 := Fin.ext h8
  exact known_transition m c X0 X1 X2 X3 X4 inb hK

set_option maxHeartbeats 4000000 in
theorem soundC (t : Fin cfg0.N) (h8 : t.val = 8) :
    bodyPre m c t ⊢ wp frame (wpE (defs₀ (F := F)) Variants.none c none) Set.univ (bodyAt0 t) (fun _ => bodyPost m c t) := by
  have hlt : t.val < 16 := lt_of_lt_of_eq t.isLt N_0
  have hc0 : ¬isFirst (grid0.coords t) := fun h => absurd ((isFirst_iff t).mp h) (by omega)
  have hc1 : ¬inDegPhase (grid0.coords t) := fun h => absurd ((inDegPhase_iff t).mp h) (by omega)
  have hc2 : isTransition (grid0.coords t) := (isTransition_iff t).mpr (by omega)
  have hc3 : inMsgPhase (grid0.coords t) := (inMsgPhase_iff t).mpr (by omega)
  have hc4 : ¬isLast (grid0.coords t) := fun h => absurd ((isLast_iff t).mp h) (by omega)
  unfold bodyPre bodyPost bodyAt0
  simp only [before_0, before_1, before_2, before_3, before_4, before_5, before_6, before_7, before_8]
  rw [show (dats m 0 c).owesAt () t.succ = (dats m 0 c).owesAt () t.castSucc from rfl, Phi_castSucc, Phi_succ,
    leaves_0, leaves_1, leaves_2, leaves_3, leaves_4, leaves_5, leaves_6, leaves_7, leaves_8, leaves_9_idle m c t (by omega)]
  unfold PhiS
  iintro ⟨⟨%X0, %X1, %X2, %X3, %X4, %hK, HS0, HS1, HS2, HS3, HS4⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩⟩
  iapply (stepC c (grid0.coords t) _ _ _ _ _ _ _ _ _ _ _ _ _ _ _ _ _ _ _ _ _ _ _ _ _ _ _ _ _ _ hc0 hc1 hc2 hc3 hc4
    (iblk m c 0 t) (iblk m c 1 t) (iblk m c 2 t) (iblk m c 3 t) (iblk m c 4 t) (iblk m c 5 t) (iblk m c 6 t) (iblk m c 7 t) (iblk m c 8 t) ((dats m 0 c).before 9 t d9) X0 X1 X2 X3 X4 Set.univ _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [HS0]; · iexact HS0
  isplitl [HS1]; · iexact HS1
  isplitl [HS2]; · iexact HS2
  isplitl [HS3]; · iexact HS3
  isplitl [HS4]; · iexact HS4
  iintro ⟨H0, H1, H2, H3, H4, H5, H6, H7, H8, H9, HS0, HS1, HS2, HS3, HS4⟩
  isplitl [HS0 HS1 HS2 HS3 HS4]
  · iexists _, _, _, _, _
    isplitr; · ipureintro; exact known_at m c X0 X1 X2 X3 X4 t h8 (k0_off2_inb _ hc3) hK
    isplitl [HS0]; · iexact HS0
    isplitl [HS1]; · iexact HS1
    isplitl [HS2]; · iexact HS2
    isplitl [HS3]; · iexact HS3
    iexact HS4
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  iexists d9; iexact H9

end Cert.KernelIdeal.Shared

end
-- ==== Proof.Ideal.RunD.lean ====
/-
  The body at points 9 to 14: one band's contribution is added to the accumulator. Run once on any whole staging and scratch buffers at any contents; what each
  buffer it stores into ends with is found by the run, as the list of pieces stored.
-/
import proofs.«101174_g88562225643609_cont_sun_c4_799_5_alg».proof.Proof.Ideal.RunB
import Idealize.ShloMosaic.Lib.Pipeline.FrameBody

set_option maxRecDepth 16384

noncomputable section

namespace Cert.KernelIdeal.Shared

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option maxHeartbeats 4000000 in
noncomputable def runD (c : Dev nD) (i : grid0.Coords) (arg1 : Memref sig .tc .vmem S4096x3 .f32) (harg1 : arg1.IsWhole) (arg2 : Memref sig .tc .vmem S512x4096 .f32) (harg2 : arg2.IsWhole) (arg3 : Memref sig .tc .vmem S512x512 .f32) (harg3 : arg3.IsWhole) (arg4 : Memref sig .tc .vmem S3x16 .f32) (harg4 : arg4.IsWhole) (arg5 : Memref sig .tc .vmem S1x16 .f32) (harg5 : arg5.IsWhole) (arg6 : Memref sig .tc .vmem S16x3 .f32) (harg6 : arg6.IsWhole) (arg7 : Memref sig .tc .vmem S1x3 .f32) (harg7 : arg7.IsWhole) (arg8 : Memref sig .tc .vmem S3x3 .f32) (harg8 : arg8.IsWhole) (arg9 : Memref sig .tc .vmem S1x3 .f32) (harg9 : arg9.IsWhole) (arg10 : Memref sig .tc .vmem S4096x3 .f32) (harg10 : arg10.IsWhole) (arg11 : Memref sig .tc .vmem S1x4096 .f32) (harg11 : arg11.IsWhole) (arg12 : Memref sig .tc .vmem S4096x1 .f32) (harg12 : arg12.IsWhole) (arg13 : Memref sig .tc .vmem S3x4096 .f32) (harg13 : arg13.IsWhole) (arg14 : Memref sig .tc .vmem S4096x3 .bf16) (harg14 : arg14.IsWhole) (arg15 : Memref sig .tc .vmem S3x4096 .f32) (harg15 : arg15.IsWhole)
    (hc0 : ¬isFirst i) (hc1 : ¬inDegPhase i) (hc2 : ¬isTransition i) (hc3 : inMsgPhase i) (hc4 : ¬isLast i)
    (x1 : Vec F S4096x3 .f32) (x2 : Vec F S512x4096 .f32) (x3 : Vec F S512x512 .f32) (x4 : Vec F S3x16 .f32) (x5 : Vec F S1x16 .f32) (x6 : Vec F S16x3 .f32) (x7 : Vec F S1x3 .f32) (x8 : Vec F S3x3 .f32) (x9 : Vec F S1x3 .f32) (x10 : Vec F S4096x3 .f32) (x11 : Vec F S1x4096 .f32) (x12 : Vec F S4096x1 .f32) (x13 : Vec F S3x4096 .f32) (x14 : Vec F S4096x3 .bf16) (x15 : Vec F S3x4096 .f32) :
    { L13 : List (View.Piece (Elt F) S3x4096 .f32) //
      ∀ (E : Set ℕ) (K : PUnit → sProp 𝕄),
        iprop(owns (c : Thread nD τ) arg1 fullShare x1 ∗ owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg6 fullShare x6 ∗ owns (c : Thread nD τ) arg7 fullShare x7 ∗ owns (c : Thread nD τ) arg8 fullShare x8 ∗ owns (c : Thread nD τ) arg9 fullShare x9 ∗ owns (c : Thread nD τ) arg10 fullShare x10 ∗ owns (c : Thread nD τ) arg11 fullShare x11 ∗ owns (c : Thread nD τ) arg12 fullShare x12 ∗ owns (c : Thread nD τ) arg13 fullShare x13 ∗ owns (c : Thread nD τ) arg14 fullShare x14 ∗ owns (c : Thread nD τ) arg15 fullShare x15
            ∗ (iprop(owns (c : Thread nD τ) arg1 fullShare x1 ∗ owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg6 fullShare x6 ∗ owns (c : Thread nD τ) arg7 fullShare x7 ∗ owns (c : Thread nD τ) arg8 fullShare x8 ∗ owns (c : Thread nD τ) arg9 fullShare x9 ∗ owns (c : Thread nD τ) arg10 fullShare x10 ∗ owns (c : Thread nD τ) arg11 fullShare x11 ∗ owns (c : Thread nD τ) arg12 fullShare x12 ∗ (∃ f, arg13.view.loc (c : Thread nD τ) ↦[arg13.view.set]{fullShare} arg13.view.writes (Elt F) f L13) ∗ owns (c : Thread nD τ) arg14 fullShare x14 ∗ owns (c : Thread nD τ) arg15 fullShare x15) -∗ K ⟨⟩))
          ⊢ wp frame (wpE (defs₀ (F := F)) Variants.none c none) E (cc0__gcn_kernel i arg1 harg1 arg2 harg2 arg3 harg3 arg4 harg4 arg5 harg5 arg6 harg6 arg7 harg7 arg8 harg8 arg9 harg9 arg10 harg10 arg11 harg11 arg12 harg12 arg13 harg13 arg14 harg14 arg15 harg15) K } := by
  refine ⟨?_, fun E K => ?run⟩
  case run =>
    simp only [cc0__gcn_kernel_eq_skeleton]; unfold cc0__gcn_kernel_skel
    unfold owns
    iintro ⟨⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%f12, %hf12, H12⟩, ⟨%f13, %hf13, H13⟩, ⟨%f14, %hf14, H14⟩, ⟨%f15, %hf15, H15⟩, Hk⟩
    obtain rfl := harg1.eq_unread hf1; obtain rfl := harg2.eq_unread hf2; obtain rfl := harg3.eq_unread hf3; obtain rfl := harg4.eq_unread hf4; obtain rfl := harg5.eq_unread hf5; obtain rfl := harg6.eq_unread hf6; obtain rfl := harg7.eq_unread hf7; obtain rfl := harg8.eq_unread hf8; obtain rfl := harg9.eq_unread hf9; obtain rfl := harg10.eq_unread hf10; obtain rfl := harg11.eq_unread hf11; obtain rfl := harg12.eq_unread hf12; obtain rfl := harg13.eq_unread hf13; obtain rfl := harg14.eq_unread hf14; obtain rfl := harg15.eq_unread hf15
    sl_exec (disch := first | exact hc0 | exact hc1 | exact hc2 | exact hc3 | exact hc4)
    sl_step
    iapply Hk
    isplitl [H1]
    · iexists _; isplitr; · ipureintro; exact harg1.read_unread _
      iexact H1
    isplitl [H2]
    · iexists _; isplitr; · ipureintro; exact harg2.read_unread _
      iexact H2
    isplitl [H3]
    · iexists _; isplitr; · ipureintro; exact harg3.read_unread _
      iexact H3
    isplitl [H4]
    · iexists _; isplitr; · ipureintro; exact harg4.read_unread _
      iexact H4
    isplitl [H5]
    · iexists _; isplitr; · ipureintro; exact harg5.read_unread _
      iexact H5
    isplitl [H6]
    · iexists _; isplitr; · ipureintro; exact harg6.read_unread _
      iexact H6
    isplitl [H7]
    · iexists _; isplitr; · ipureintro; exact harg7.read_unread _
      iexact H7
    isplitl [H8]
    · iexists _; isplitr; · ipureintro; exact harg8.read_unread _
      iexact H8
    isplitl [H9]
    · iexists _; isplitr; · ipureintro; exact harg9.read_unread _
      iexact H9
    isplitl [H10]
    · iexists _; isplitr; · ipureintro; exact harg10.read_unread _
      iexact H10
    isplitl [H11]
    · iexists _; isplitr; · ipureintro; exact harg11.read_unread _
      iexact H11
    isplitl [H12]
    · iexists _; isplitr; · ipureintro; exact harg12.read_unread _
      iexact H12
    isplitl [H13]
    · iexists _; iexact H13
    isplitl [H14]
    · iexists _; isplitr; · ipureintro; exact harg14.read_unread _
      iexact H14
    iexists _; isplitr; · ipureintro; exact harg15.read_unread _
    iexact H15

end Cert.KernelIdeal.Shared

end
-- ==== Proof.Ideal.StepD.lean ====
/-
  The same step with what it leaves named: at points 9 to 14: one band's contribution is added to the accumulator, each buffer the body stores into ends
  at the stated function of what the buffers held; the others are handed back as they were.
-/
import proofs.«101174_g88562225643609_cont_sun_c4_799_5_alg».proof.Proof.Ideal.RunD
import proofs.«101174_g88562225643609_cont_sun_c4_799_5_alg».proof.Proof.Ideal.Readback

set_option maxRecDepth 16384

noncomputable section

namespace Cert.KernelIdeal.Shared

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option maxHeartbeats 2000000 in
theorem stepD (c : Dev nD) (i : grid0.Coords) (arg1 : Memref sig .tc .vmem S4096x3 .f32) (harg1 : arg1.IsWhole) (arg2 : Memref sig .tc .vmem S512x4096 .f32) (harg2 : arg2.IsWhole) (arg3 : Memref sig .tc .vmem S512x512 .f32) (harg3 : arg3.IsWhole) (arg4 : Memref sig .tc .vmem S3x16 .f32) (harg4 : arg4.IsWhole) (arg5 : Memref sig .tc .vmem S1x16 .f32) (harg5 : arg5.IsWhole) (arg6 : Memref sig .tc .vmem S16x3 .f32) (harg6 : arg6.IsWhole) (arg7 : Memref sig .tc .vmem S1x3 .f32) (harg7 : arg7.IsWhole) (arg8 : Memref sig .tc .vmem S3x3 .f32) (harg8 : arg8.IsWhole) (arg9 : Memref sig .tc .vmem S1x3 .f32) (harg9 : arg9.IsWhole) (arg10 : Memref sig .tc .vmem S4096x3 .f32) (harg10 : arg10.IsWhole) (arg11 : Memref sig .tc .vmem S1x4096 .f32) (harg11 : arg11.IsWhole) (arg12 : Memref sig .tc .vmem S4096x1 .f32) (harg12 : arg12.IsWhole) (arg13 : Memref sig .tc .vmem S3x4096 .f32) (harg13 : arg13.IsWhole) (arg14 : Memref sig .tc .vmem S4096x3 .bf16) (harg14 : arg14.IsWhole) (arg15 : Memref sig .tc .vmem S3x4096 .f32) (harg15 : arg15.IsWhole)
    (hc0 : ¬isFirst i) (hc1 : ¬inDegPhase i) (hc2 : ¬isTransition i) (hc3 : inMsgPhase i) (hc4 : ¬isLast i)
    (x1 : Vec F S4096x3 .f32) (x2 : Vec F S512x4096 .f32) (x3 : Vec F S512x512 .f32) (x4 : Vec F S3x16 .f32) (x5 : Vec F S1x16 .f32) (x6 : Vec F S16x3 .f32) (x7 : Vec F S1x3 .f32) (x8 : Vec F S3x3 .f32) (x9 : Vec F S1x3 .f32) (x10 : Vec F S4096x3 .f32) (x11 : Vec F S1x4096 .f32) (x12 : Vec F S4096x1 .f32) (x13 : Vec F S3x4096 .f32) (x14 : Vec F S4096x3 .bf16) (x15 : Vec F S3x4096 .f32) (E : Set ℕ) (K : PUnit → sProp 𝕄) :
    iprop(owns (c : Thread nD τ) arg1 fullShare x1 ∗ owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg6 fullShare x6 ∗ owns (c : Thread nD τ) arg7 fullShare x7 ∗ owns (c : Thread nD τ) arg8 fullShare x8 ∗ owns (c : Thread nD τ) arg9 fullShare x9 ∗ owns (c : Thread nD τ) arg10 fullShare x10 ∗ owns (c : Thread nD τ) arg11 fullShare x11 ∗ owns (c : Thread nD τ) arg12 fullShare x12 ∗ owns (c : Thread nD τ) arg13 fullShare x13 ∗ owns (c : Thread nD τ) arg14 fullShare x14 ∗ owns (c : Thread nD τ) arg15 fullShare x15
        ∗ (iprop(owns (c : Thread nD τ) arg1 fullShare x1
            ∗ owns (c : Thread nD τ) arg2 fullShare x2
            ∗ owns (c : Thread nD τ) arg3 fullShare x3
            ∗ owns (c : Thread nD τ) arg4 fullShare x4
            ∗ owns (c : Thread nD τ) arg5 fullShare x5
            ∗ owns (c : Thread nD τ) arg6 fullShare x6
            ∗ owns (c : Thread nD τ) arg7 fullShare x7
            ∗ owns (c : Thread nD τ) arg8 fullShare x8
            ∗ owns (c : Thread nD τ) arg9 fullShare x9
            ∗ owns (c : Thread nD τ) arg10 fullShare x10
            ∗ owns (c : Thread nD τ) arg11 fullShare x11
            ∗ owns (c : Thread nD τ) arg12 fullShare x12
            ∗ owns (c : Thread nD τ) arg13 fullShare (k0_pay8 x2 (View.ld x14 (Rect.unit (s := S4096x3) (k0_off2 i) S512x3.size (k0_off2_inb i hc3))) x13)
            ∗ owns (c : Thread nD τ) arg14 fullShare x14
            ∗ owns (c : Thread nD τ) arg15 fullShare x15) -∗ K ⟨⟩))
      ⊢ wp frame (wpE (defs₀ (F := F)) Variants.none c none) E (cc0__gcn_kernel i arg1 harg1 arg2 harg2 arg3 harg3 arg4 harg4 arg5 harg5 arg6 harg6 arg7 harg7 arg8 harg8 arg9 harg9 arg10 harg10 arg11 harg11 arg12 harg12 arg13 harg13 arg14 harg14 arg15 harg15) K := by
  iintro ⟨H1, H2, H3, H4, H5, H6, H7, H8, H9, H10, H11, H12, H13, H14, H15, Hk⟩
  iapply ((runD c i arg1 harg1 arg2 harg2 arg3 harg3 arg4 harg4 arg5 harg5 arg6 harg6 arg7 harg7 arg8 harg8 arg9 harg9 arg10 harg10 arg11 harg11 arg12 harg12 arg13 harg13 arg14 harg14 arg15 harg15 hc0 hc1 hc2 hc3 hc4 x1 x2 x3 x4 x5 x6 x7 x8 x9 x10 x11 x12 x13 x14 x15).2 E K)
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  isplitl [H14]; · iexact H14
  isplitl [H15]; · iexact H15
  iintro ⟨H1, H2, H3, H4, H5, H6, H7, H8, H9, H10, H11, H12, H13, H14, H15⟩
  iapply Hk
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]
  · icases H13 with ⟨%f, H13⟩
    unfold owns; iexists _; isplitr
    swap; · iexact H13
    ipureintro
    unfold runD; dsimp only
    simp only [load_part, read_store_part, ld_whole2, read_store_whole2]
  isplitl [H14]; · iexact H14
  iexact H15

end Cert.KernelIdeal.Shared

end
-- ==== Proof.Ideal.SoundD.lean ====
/-
  The body at points 9 to 14: one band's contribution is added to the accumulator, as the pipeline calls it: from the invariant before the point and
  every window's buffer at what it then holds, to the invariant after it and every buffer at what the body leaves.
-/
import proofs.«101174_g88562225643609_cont_sun_c4_799_5_alg».proof.Proof.Ideal.Data
import proofs.«101174_g88562225643609_cont_sun_c4_799_5_alg».proof.Proof.Ideal.StepD

set_option maxRecDepth 16384

noncomputable section

namespace Cert.KernelIdeal.Shared

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

variable (c : Dev nD)
variable (X0 : Vec F S1x4096 .f32) (X1 : Vec F S4096x1 .f32) (X2 : Vec F S3x4096 .f32) (X3 : Vec F S4096x3 .bf16) (X4 : Vec F S3x4096 .f32)

private theorem known_at (t : Fin cfg0.N) (h9 : 9 ≤ t.val)
    (inb : ∀ a, (k0_off2 (grid0.coords t)) a + S512x3.size a ≤ S4096x3.size a)
    (hK : Known m c t.val X0 X1 X2 X3 X4) :
    Known m c (t.val + 1) X0 X1 (k0_pay8 (iblk m c 1 t) (View.ld X3 (Rect.unit (s := S4096x3) (k0_off2 (grid0.coords t)) S512x3.size inb)) X2) X3 X4 :=
  known_msg m c X0 X1 X2 X3 X4 t.val h9 (lt_of_lt_of_eq t.isLt N_0) inb hK

set_option maxHeartbeats 4000000 in
theorem soundD (t : Fin cfg0.N) (h9 : 9 ≤ t.val) (h15 : t.val < 15) :
    bodyPre m c t ⊢ wp frame (wpE (defs₀ (F := F)) Variants.none c none) Set.univ (bodyAt0 t) (fun _ => bodyPost m c t) := by
  have hlt : t.val < 16 := lt_of_lt_of_eq t.isLt N_0
  have hc0 : ¬isFirst (grid0.coords t) := fun h => absurd ((isFirst_iff t).mp h) (by omega)
  have hc1 : ¬inDegPhase (grid0.coords t) := fun h => absurd ((inDegPhase_iff t).mp h) (by omega)
  have hc2 : ¬isTransition (grid0.coords t) := fun h => absurd ((isTransition_iff t).mp h) (by omega)
  have hc3 : inMsgPhase (grid0.coords t) := (inMsgPhase_iff t).mpr (by omega)
  have hc4 : ¬isLast (grid0.coords t) := fun h => absurd ((isLast_iff t).mp h) (by omega)
  unfold bodyPre bodyPost bodyAt0
  simp only [before_0, before_1, before_2, before_3, before_4, before_5, before_6, before_7, before_8]
  rw [show (dats m 0 c).owesAt () t.succ = (dats m 0 c).owesAt () t.castSucc from rfl, Phi_castSucc, Phi_succ,
    leaves_0, leaves_1, leaves_2, leaves_3, leaves_4, leaves_5, leaves_6, leaves_7, leaves_8, leaves_9_idle m c t (by omega)]
  unfold PhiS
  iintro ⟨⟨%X0, %X1, %X2, %X3, %X4, %hK, HS0, HS1, HS2, HS3, HS4⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩⟩
  iapply (stepD c (grid0.coords t) _ _ _ _ _ _ _ _ _ _ _ _ _ _ _ _ _ _ _ _ _ _ _ _ _ _ _ _ _ _ hc0 hc1 hc2 hc3 hc4
    (iblk m c 0 t) (iblk m c 1 t) (iblk m c 2 t) (iblk m c 3 t) (iblk m c 4 t) (iblk m c 5 t) (iblk m c 6 t) (iblk m c 7 t) (iblk m c 8 t) ((dats m 0 c).before 9 t d9) X0 X1 X2 X3 X4 Set.univ _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [HS0]; · iexact HS0
  isplitl [HS1]; · iexact HS1
  isplitl [HS2]; · iexact HS2
  isplitl [HS3]; · iexact HS3
  isplitl [HS4]; · iexact HS4
  iintro ⟨H0, H1, H2, H3, H4, H5, H6, H7, H8, H9, HS0, HS1, HS2, HS3, HS4⟩
  isplitl [HS0 HS1 HS2 HS3 HS4]
  · iexists _, _, _, _, _
    isplitr; · ipureintro; exact known_at m c X0 X1 X2 X3 X4 t h9 (k0_off2_inb _ hc3) hK
    isplitl [HS0]; · iexact HS0
    isplitl [HS1]; · iexact HS1
    isplitl [HS2]; · iexact HS2
    isplitl [HS3]; · iexact HS3
    iexact HS4
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  iexists d9; iexact H9

end Cert.KernelIdeal.Shared

end
-- ==== Proof.Ideal.RunE.lean ====
/-
  The body at the last point: the last band's contribution is added, then the result is assembled and stored. Run once on any whole staging and scratch buffers at any contents; what each
  buffer it stores into ends with is found by the run, as the list of pieces stored.
-/
import proofs.«101174_g88562225643609_cont_sun_c4_799_5_alg».proof.Proof.Ideal.RunC
import Idealize.ShloMosaic.Lib.Pipeline.FrameBody

set_option maxRecDepth 16384

noncomputable section

namespace Cert.KernelIdeal.Shared

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option maxHeartbeats 4000000 in
noncomputable def runE (c : Dev nD) (i : grid0.Coords) (arg1 : Memref sig .tc .vmem S4096x3 .f32) (harg1 : arg1.IsWhole) (arg2 : Memref sig .tc .vmem S512x4096 .f32) (harg2 : arg2.IsWhole) (arg3 : Memref sig .tc .vmem S512x512 .f32) (harg3 : arg3.IsWhole) (arg4 : Memref sig .tc .vmem S3x16 .f32) (harg4 : arg4.IsWhole) (arg5 : Memref sig .tc .vmem S1x16 .f32) (harg5 : arg5.IsWhole) (arg6 : Memref sig .tc .vmem S16x3 .f32) (harg6 : arg6.IsWhole) (arg7 : Memref sig .tc .vmem S1x3 .f32) (harg7 : arg7.IsWhole) (arg8 : Memref sig .tc .vmem S3x3 .f32) (harg8 : arg8.IsWhole) (arg9 : Memref sig .tc .vmem S1x3 .f32) (harg9 : arg9.IsWhole) (arg10 : Memref sig .tc .vmem S4096x3 .f32) (harg10 : arg10.IsWhole) (arg11 : Memref sig .tc .vmem S1x4096 .f32) (harg11 : arg11.IsWhole) (arg12 : Memref sig .tc .vmem S4096x1 .f32) (harg12 : arg12.IsWhole) (arg13 : Memref sig .tc .vmem S3x4096 .f32) (harg13 : arg13.IsWhole) (arg14 : Memref sig .tc .vmem S4096x3 .bf16) (harg14 : arg14.IsWhole) (arg15 : Memref sig .tc .vmem S3x4096 .f32) (harg15 : arg15.IsWhole)
    (hc0 : ¬isFirst i) (hc1 : ¬inDegPhase i) (hc2 : ¬isTransition i) (hc3 : inMsgPhase i) (hc4 : isLast i)
    (x1 : Vec F S4096x3 .f32) (x2 : Vec F S512x4096 .f32) (x3 : Vec F S512x512 .f32) (x4 : Vec F S3x16 .f32) (x5 : Vec F S1x16 .f32) (x6 : Vec F S16x3 .f32) (x7 : Vec F S1x3 .f32) (x8 : Vec F S3x3 .f32) (x9 : Vec F S1x3 .f32) (x10 : Vec F S4096x3 .f32) (x11 : Vec F S1x4096 .f32) (x12 : Vec F S4096x1 .f32) (x13 : Vec F S3x4096 .f32) (x14 : Vec F S4096x3 .bf16) (x15 : Vec F S3x4096 .f32) :
    Σ' (L10 : List (View.Piece (Elt F) S4096x3 .f32)), { L13 : List (View.Piece (Elt F) S3x4096 .f32) //
      ∀ (E : Set ℕ) (K : PUnit → sProp 𝕄),
        iprop(owns (c : Thread nD τ) arg1 fullShare x1 ∗ owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg6 fullShare x6 ∗ owns (c : Thread nD τ) arg7 fullShare x7 ∗ owns (c : Thread nD τ) arg8 fullShare x8 ∗ owns (c : Thread nD τ) arg9 fullShare x9 ∗ owns (c : Thread nD τ) arg10 fullShare x10 ∗ owns (c : Thread nD τ) arg11 fullShare x11 ∗ owns (c : Thread nD τ) arg12 fullShare x12 ∗ owns (c : Thread nD τ) arg13 fullShare x13 ∗ owns (c : Thread nD τ) arg14 fullShare x14 ∗ owns (c : Thread nD τ) arg15 fullShare x15
            ∗ (iprop(owns (c : Thread nD τ) arg1 fullShare x1 ∗ owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg6 fullShare x6 ∗ owns (c : Thread nD τ) arg7 fullShare x7 ∗ owns (c : Thread nD τ) arg8 fullShare x8 ∗ owns (c : Thread nD τ) arg9 fullShare x9 ∗ (∃ f, arg10.view.loc (c : Thread nD τ) ↦[arg10.view.set]{fullShare} arg10.view.writes (Elt F) f L10) ∗ owns (c : Thread nD τ) arg11 fullShare x11 ∗ owns (c : Thread nD τ) arg12 fullShare x12 ∗ (∃ f, arg13.view.loc (c : Thread nD τ) ↦[arg13.view.set]{fullShare} arg13.view.writes (Elt F) f L13) ∗ owns (c : Thread nD τ) arg14 fullShare x14 ∗ owns (c : Thread nD τ) arg15 fullShare x15) -∗ K ⟨⟩))
          ⊢ wp frame (wpE (defs₀ (F := F)) Variants.none c none) E (cc0__gcn_kernel i arg1 harg1 arg2 harg2 arg3 harg3 arg4 harg4 arg5 harg5 arg6 harg6 arg7 harg7 arg8 harg8 arg9 harg9 arg10 harg10 arg11 harg11 arg12 harg12 arg13 harg13 arg14 harg14 arg15 harg15) K } := by
  refine ⟨?_, ?_, fun E K => ?run⟩
  case run =>
    simp only [cc0__gcn_kernel_eq_skeleton]; unfold cc0__gcn_kernel_skel
    unfold owns
    iintro ⟨⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%f12, %hf12, H12⟩, ⟨%f13, %hf13, H13⟩, ⟨%f14, %hf14, H14⟩, ⟨%f15, %hf15, H15⟩, Hk⟩
    obtain rfl := harg1.eq_unread hf1; obtain rfl := harg2.eq_unread hf2; obtain rfl := harg3.eq_unread hf3; obtain rfl := harg4.eq_unread hf4; obtain rfl := harg5.eq_unread hf5; obtain rfl := harg6.eq_unread hf6; obtain rfl := harg7.eq_unread hf7; obtain rfl := harg8.eq_unread hf8; obtain rfl := harg9.eq_unread hf9; obtain rfl := harg10.eq_unread hf10; obtain rfl := harg11.eq_unread hf11; obtain rfl := harg12.eq_unread hf12; obtain rfl := harg13.eq_unread hf13; obtain rfl := harg14.eq_unread hf14; obtain rfl := harg15.eq_unread hf15
    sl_exec (disch := first | exact hc0 | exact hc1 | exact hc2 | exact hc3 | exact hc4)
    sl_step
    iapply Hk
    isplitl [H1]
    · iexists _; isplitr; · ipureintro; exact harg1.read_unread _
      iexact H1
    isplitl [H2]
    · iexists _; isplitr; · ipureintro; exact harg2.read_unread _
      iexact H2
    isplitl [H3]
    · iexists _; isplitr; · ipureintro; exact harg3.read_unread _
      iexact H3
    isplitl [H4]
    · iexists _; isplitr; · ipureintro; exact harg4.read_unread _
      iexact H4
    isplitl [H5]
    · iexists _; isplitr; · ipureintro; exact harg5.read_unread _
      iexact H5
    isplitl [H6]
    · iexists _; isplitr; · ipureintro; exact harg6.read_unread _
      iexact H6
    isplitl [H7]
    · iexists _; isplitr; · ipureintro; exact harg7.read_unread _
      iexact H7
    isplitl [H8]
    · iexists _; isplitr; · ipureintro; exact harg8.read_unread _
      iexact H8
    isplitl [H9]
    · iexists _; isplitr; · ipureintro; exact harg9.read_unread _
      iexact H9
    isplitl [H10]
    · iexists _; iexact H10
    isplitl [H11]
    · iexists _; isplitr; · ipureintro; exact harg11.read_unread _
      iexact H11
    isplitl [H12]
    · iexists _; isplitr; · ipureintro; exact harg12.read_unread _
      iexact H12
    isplitl [H13]
    · iexists _; iexact H13
    isplitl [H14]
    · iexists _; isplitr; · ipureintro; exact harg14.read_unread _
      iexact H14
    iexists _; isplitr; · ipureintro; exact harg15.read_unread _
    iexact H15

end Cert.KernelIdeal.Shared

end
-- ==== Proof.Ideal.StepE.lean ====
/-
  The same step with what it leaves named: at the last point: the last band's contribution is added, then the result is assembled and stored, each buffer the body stores into ends
  at the stated function of what the buffers held; the others are handed back as they were.
-/
import proofs.«101174_g88562225643609_cont_sun_c4_799_5_alg».proof.Proof.Ideal.RunE
import proofs.«101174_g88562225643609_cont_sun_c4_799_5_alg».proof.Proof.Ideal.Covered

set_option maxRecDepth 16384

noncomputable section

namespace Cert.KernelIdeal.Shared

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option maxHeartbeats 2000000 in
theorem stepE (c : Dev nD) (i : grid0.Coords) (arg1 : Memref sig .tc .vmem S4096x3 .f32) (harg1 : arg1.IsWhole) (arg2 : Memref sig .tc .vmem S512x4096 .f32) (harg2 : arg2.IsWhole) (arg3 : Memref sig .tc .vmem S512x512 .f32) (harg3 : arg3.IsWhole) (arg4 : Memref sig .tc .vmem S3x16 .f32) (harg4 : arg4.IsWhole) (arg5 : Memref sig .tc .vmem S1x16 .f32) (harg5 : arg5.IsWhole) (arg6 : Memref sig .tc .vmem S16x3 .f32) (harg6 : arg6.IsWhole) (arg7 : Memref sig .tc .vmem S1x3 .f32) (harg7 : arg7.IsWhole) (arg8 : Memref sig .tc .vmem S3x3 .f32) (harg8 : arg8.IsWhole) (arg9 : Memref sig .tc .vmem S1x3 .f32) (harg9 : arg9.IsWhole) (arg10 : Memref sig .tc .vmem S4096x3 .f32) (harg10 : arg10.IsWhole) (arg11 : Memref sig .tc .vmem S1x4096 .f32) (harg11 : arg11.IsWhole) (arg12 : Memref sig .tc .vmem S4096x1 .f32) (harg12 : arg12.IsWhole) (arg13 : Memref sig .tc .vmem S3x4096 .f32) (harg13 : arg13.IsWhole) (arg14 : Memref sig .tc .vmem S4096x3 .bf16) (harg14 : arg14.IsWhole) (arg15 : Memref sig .tc .vmem S3x4096 .f32) (harg15 : arg15.IsWhole)
    (hc0 : ¬isFirst i) (hc1 : ¬inDegPhase i) (hc2 : ¬isTransition i) (hc3 : inMsgPhase i) (hc4 : isLast i)
    (x1 : Vec F S4096x3 .f32) (x2 : Vec F S512x4096 .f32) (x3 : Vec F S512x512 .f32) (x4 : Vec F S3x16 .f32) (x5 : Vec F S1x16 .f32) (x6 : Vec F S16x3 .f32) (x7 : Vec F S1x3 .f32) (x8 : Vec F S3x3 .f32) (x9 : Vec F S1x3 .f32) (x10 : Vec F S4096x3 .f32) (x11 : Vec F S1x4096 .f32) (x12 : Vec F S4096x1 .f32) (x13 : Vec F S3x4096 .f32) (x14 : Vec F S4096x3 .bf16) (x15 : Vec F S3x4096 .f32) (E : Set ℕ) (K : PUnit → sProp 𝕄) :
    iprop(owns (c : Thread nD τ) arg1 fullShare x1 ∗ owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg6 fullShare x6 ∗ owns (c : Thread nD τ) arg7 fullShare x7 ∗ owns (c : Thread nD τ) arg8 fullShare x8 ∗ owns (c : Thread nD τ) arg9 fullShare x9 ∗ owns (c : Thread nD τ) arg10 fullShare x10 ∗ owns (c : Thread nD τ) arg11 fullShare x11 ∗ owns (c : Thread nD τ) arg12 fullShare x12 ∗ owns (c : Thread nD τ) arg13 fullShare x13 ∗ owns (c : Thread nD τ) arg14 fullShare x14 ∗ owns (c : Thread nD τ) arg15 fullShare x15
        ∗ (iprop(owns (c : Thread nD τ) arg1 fullShare x1
            ∗ owns (c : Thread nD τ) arg2 fullShare x2
            ∗ owns (c : Thread nD τ) arg3 fullShare x3
            ∗ owns (c : Thread nD τ) arg4 fullShare x4
            ∗ owns (c : Thread nD τ) arg5 fullShare x5
            ∗ owns (c : Thread nD τ) arg6 fullShare x6
            ∗ owns (c : Thread nD τ) arg7 fullShare x7
            ∗ owns (c : Thread nD τ) arg8 fullShare x8
            ∗ owns (c : Thread nD τ) arg9 fullShare x9
            ∗ owns (c : Thread nD τ) arg10 fullShare (k0_pay9 x12 x11 (k0_pay8 x2 (View.ld x14 (Rect.unit (s := S4096x3) (k0_off2 i) S512x3.size (k0_off2_inb i hc3))) x13) x15 x9)
            ∗ owns (c : Thread nD τ) arg11 fullShare x11
            ∗ owns (c : Thread nD τ) arg12 fullShare x12
            ∗ owns (c : Thread nD τ) arg13 fullShare (k0_pay8 x2 (View.ld x14 (Rect.unit (s := S4096x3) (k0_off2 i) S512x3.size (k0_off2_inb i hc3))) x13)
            ∗ owns (c : Thread nD τ) arg14 fullShare x14
            ∗ owns (c : Thread nD τ) arg15 fullShare x15) -∗ K ⟨⟩))
      ⊢ wp frame (wpE (defs₀ (F := F)) Variants.none c none) E (cc0__gcn_kernel i arg1 harg1 arg2 harg2 arg3 harg3 arg4 harg4 arg5 harg5 arg6 harg6 arg7 harg7 arg8 harg8 arg9 harg9 arg10 harg10 arg11 harg11 arg12 harg12 arg13 harg13 arg14 harg14 arg15 harg15) K := by
  iintro ⟨H1, H2, H3, H4, H5, H6, H7, H8, H9, H10, H11, H12, H13, H14, H15, Hk⟩
  iapply ((runE c i arg1 harg1 arg2 harg2 arg3 harg3 arg4 harg4 arg5 harg5 arg6 harg6 arg7 harg7 arg8 harg8 arg9 harg9 arg10 harg10 arg11 harg11 arg12 harg12 arg13 harg13 arg14 harg14 arg15 harg15 hc0 hc1 hc2 hc3 hc4 x1 x2 x3 x4 x5 x6 x7 x8 x9 x10 x11 x12 x13 x14 x15).2.2 E K)
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  isplitl [H14]; · iexact H14
  isplitl [H15]; · iexact H15
  iintro ⟨H1, H2, H3, H4, H5, H6, H7, H8, H9, H10, H11, H12, H13, H14, H15⟩
  iapply Hk
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]
  · icases H10 with ⟨%f, H10⟩
    unfold owns; iexists _; isplitr
    swap; · iexact H10
    ipureintro
    unfold runE; dsimp only
    sl_unfold_words
    simp only [load_part, read_store_part, ld_whole2, read_store_whole2, readCov_part2]
  isplitl [H11]; · iexact H11
  isplitl [H12]; · iexact H12
  isplitl [H13]
  · icases H13 with ⟨%f, H13⟩
    unfold owns; iexists _; isplitr
    swap; · iexact H13
    ipureintro
    unfold runE; dsimp only
    sl_unfold_words
    simp only [load_part, read_store_part, ld_whole2, read_store_whole2, readCov_part2]
  isplitl [H14]; · iexact H14
  iexact H15

end Cert.KernelIdeal.Shared

end
-- ==== Proof.Ideal.SoundE.lean ====
/-
  The body at the last point: the last band's contribution is added, then the result is assembled and stored, as the pipeline calls it: from the invariant before the point and
  every window's buffer at what it then holds, to the invariant after it and every buffer at what the body leaves.
-/
import proofs.«101174_g88562225643609_cont_sun_c4_799_5_alg».proof.Proof.Ideal.Data
import proofs.«101174_g88562225643609_cont_sun_c4_799_5_alg».proof.Proof.Ideal.StepE

set_option maxRecDepth 16384

noncomputable section

namespace Cert.KernelIdeal.Shared

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

variable (c : Dev nD)
variable (X0 : Vec F S1x4096 .f32) (X1 : Vec F S4096x1 .f32) (X2 : Vec F S3x4096 .f32) (X3 : Vec F S4096x3 .bf16) (X4 : Vec F S3x4096 .f32)

private theorem known_at (t : Fin cfg0.N) (h9 : 9 ≤ t.val)
    (inb : ∀ a, (k0_off2 (grid0.coords t)) a + S512x3.size a ≤ S4096x3.size a)
    (hK : Known m c t.val X0 X1 X2 X3 X4) :
    Known m c (t.val + 1) X0 X1 (k0_pay8 (iblk m c 1 t) (View.ld X3 (Rect.unit (s := S4096x3) (k0_off2 (grid0.coords t)) S512x3.size inb)) X2) X3 X4 :=
  known_msg m c X0 X1 X2 X3 X4 t.val h9 (lt_of_lt_of_eq t.isLt N_0) inb hK

private theorem result_at (t : Fin cfg0.N) (h15 : t.val = 15)
    (inb : ∀ a, (k0_off2 (grid0.coords t)) a + S512x3.size a ≤ S4096x3.size a)
    (hK : Known m c t.val X0 X1 X2 X3 X4) :
    k0_pay9 X1 X0 (k0_pay8 (iblk m c 1 t) (View.ld X3 (Rect.unit (s := S4096x3) (k0_off2 (grid0.coords t)) S512x3.size inb)) X2) X4 (iblk m c 8 t) = result m c := by
  obtain rfl : t = t15 := Fin.ext h15
  exact known_result m c X0 X1 X2 X3 X4 inb hK

set_option maxHeartbeats 4000000 in
theorem soundE (t : Fin cfg0.N) (h15 : t.val = 15) :
    bodyPre m c t ⊢ wp frame (wpE (defs₀ (F := F)) Variants.none c none) Set.univ (bodyAt0 t) (fun _ => bodyPost m c t) := by
  have hlt : t.val < 16 := lt_of_lt_of_eq t.isLt N_0
  have hc0 : ¬isFirst (grid0.coords t) := fun h => absurd ((isFirst_iff t).mp h) (by omega)
  have hc1 : ¬inDegPhase (grid0.coords t) := fun h => absurd ((inDegPhase_iff t).mp h) (by omega)
  have hc2 : ¬isTransition (grid0.coords t) := fun h => absurd ((isTransition_iff t).mp h) (by omega)
  have hc3 : inMsgPhase (grid0.coords t) := (inMsgPhase_iff t).mpr (by omega)
  have hc4 : isLast (grid0.coords t) := (isLast_iff t).mpr (by omega)
  unfold bodyPre bodyPost bodyAt0
  simp only [before_0, before_1, before_2, before_3, before_4, before_5, before_6, before_7, before_8]
  rw [show (dats m 0 c).owesAt () t.succ = (dats m 0 c).owesAt () t.castSucc from rfl, Phi_castSucc, Phi_succ,
    leaves_0, leaves_1, leaves_2, leaves_3, leaves_4, leaves_5, leaves_6, leaves_7, leaves_8, leaves_9_last m c t h15]
  unfold PhiS
  iintro ⟨⟨%X0, %X1, %X2, %X3, %X4, %hK, HS0, HS1, HS2, HS3, HS4⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩⟩
  rw [← result_at m c X0 X1 X2 X3 X4 t h15 (k0_off2_inb _ hc3) hK]
  iapply (stepE c (grid0.coords t) _ _ _ _ _ _ _ _ _ _ _ _ _ _ _ _ _ _ _ _ _ _ _ _ _ _ _ _ _ _ hc0 hc1 hc2 hc3 hc4
    (iblk m c 0 t) (iblk m c 1 t) (iblk m c 2 t) (iblk m c 3 t) (iblk m c 4 t) (iblk m c 5 t) (iblk m c 6 t) (iblk m c 7 t) (iblk m c 8 t) ((dats m 0 c).before 9 t d9) X0 X1 X2 X3 X4 Set.univ _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [HS0]; · iexact HS0
  isplitl [HS1]; · iexact HS1
  isplitl [HS2]; · iexact HS2
  isplitl [HS3]; · iexact HS3
  isplitl [HS4]; · iexact HS4
  iintro ⟨H0, H1, H2, H3, H4, H5, H6, H7, H8, H9, HS0, HS1, HS2, HS3, HS4⟩
  isplitl [HS0 HS1 HS2 HS3 HS4]
  · iexists _, _, _, _, _
    isplitr; · ipureintro; exact known_at m c X0 X1 X2 X3 X4 t (by omega) (k0_off2_inb _ hc3) hK
    isplitl [HS0]; · iexact HS0
    isplitl [HS1]; · iexact HS1
    isplitl [HS2]; · iexact HS2
    isplitl [HS3]; · iexact HS3
    iexact HS4
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  iexact H9

end Cert.KernelIdeal.Shared

end
-- ==== Proof.Ideal.Frame.lean ====
/-
  The run of the whole program. The body's obligation at a point is that of its kind of point; with it, the launch
  (one array behind two windows) gives the run of @main. The result window's one write-back, at the last point, puts
  the model's result through the block that is the whole array, so the result array ends at the model's result; an
  argument array a window stages ends as the region found it, the three bias vectors are never a window's array, and
  no reshape writes an argument: every argument ends as it was launched.
-/
import proofs.«101174_g88562225643609_cont_sun_c4_799_5_alg».proof.Proof.Ideal.SoundA
import proofs.«101174_g88562225643609_cont_sun_c4_799_5_alg».proof.Proof.Ideal.SoundB
import proofs.«101174_g88562225643609_cont_sun_c4_799_5_alg».proof.Proof.Ideal.SoundC
import proofs.«101174_g88562225643609_cont_sun_c4_799_5_alg».proof.Proof.Ideal.SoundD
import proofs.«101174_g88562225643609_cont_sun_c4_799_5_alg».proof.Proof.Ideal.SoundE
import Idealize.ShloMosaic.Lib.Pipeline.Value

set_option maxRecDepth 16384

noncomputable section

namespace Cert.KernelIdeal.Shared

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

variable (c : Dev nD)

/-- The body's obligation, at every point. -/
theorem body_obligation : BodyObligation (dats (F := F) m 0 c) (defs₀ (F := F)) Variants.none () Set.univ := fun t => by
  rw [bigSep_W0, bigSep_W0]
  have hlt : t.val < 16 := lt_of_lt_of_eq t.isLt N_0
  by_cases h0 : t.val = 0
  · exact soundA m c t h0
  by_cases h8 : t.val < 8
  · exact soundB m c t (by omega) h8
  by_cases he : t.val = 8
  · exact soundC m c t he
  by_cases h15 : t.val < 15
  · exact soundD m c t (by omega) h15
  · exact soundE m c t (by omega)

/-- The run of @main: every windowed array at what the proof data compute, every other buffer as the region found it. -/
theorem run_main : θ_run defs (onTc (τ := τ) (main (F := F))) (s₀ m ρ) (Pipeline.FramePost cfgs (dats m) 0 (V m)) :=
  run_shared m ρ Variants.none (dats m) (fun c => (body_obligation m c).loose) (fun c => q_eq m c) (fun _ _ => rfl)
    (fun c w => A_eq m c w) (fun c => phi_in m c) (fun c => phi_out m c)

/-- No reshape before the region writes argument 0. -/
theorem V_main_arg0 : V m c main_arg0 = m ((c : Thread nD τ).loc main_arg0) :=
  StableHlo.after_of_forall_not_mem (b := Proc.devRef .tc main_arg0) _ _ (List.forall_iff_forall_mem.mp (by
    simp only [hostOps0, List.Forall, StableHlo.reshape_writes, Finset.mem_singleton]
    repeat' apply And.intro
    all_goals exact StableHlo.devRef_ne_of_ne (by decide)))
/-- No reshape before the region writes argument 1. -/
theorem V_main_arg1 : V m c main_arg1 = m ((c : Thread nD τ).loc main_arg1) :=
  StableHlo.after_of_forall_not_mem (b := Proc.devRef .tc main_arg1) _ _ (List.forall_iff_forall_mem.mp (by
    simp only [hostOps0, List.Forall, StableHlo.reshape_writes, Finset.mem_singleton]
    repeat' apply And.intro
    all_goals exact StableHlo.devRef_ne_of_ne (by decide)))
/-- No reshape before the region writes argument 2. -/
theorem V_main_arg2 : V m c main_arg2 = m ((c : Thread nD τ).loc main_arg2) :=
  StableHlo.after_of_forall_not_mem (b := Proc.devRef .tc main_arg2) _ _ (List.forall_iff_forall_mem.mp (by
    simp only [hostOps0, List.Forall, StableHlo.reshape_writes, Finset.mem_singleton]
    repeat' apply And.intro
    all_goals exact StableHlo.devRef_ne_of_ne (by decide)))
/-- No reshape before the region writes argument 3. -/
theorem V_main_arg3 : V m c main_arg3 = m ((c : Thread nD τ).loc main_arg3) :=
  StableHlo.after_of_forall_not_mem (b := Proc.devRef .tc main_arg3) _ _ (List.forall_iff_forall_mem.mp (by
    simp only [hostOps0, List.Forall, StableHlo.reshape_writes, Finset.mem_singleton]
    repeat' apply And.intro
    all_goals exact StableHlo.devRef_ne_of_ne (by decide)))
/-- No reshape before the region writes argument 4. -/
theorem V_main_arg4 : V m c main_arg4 = m ((c : Thread nD τ).loc main_arg4) :=
  StableHlo.after_of_forall_not_mem (b := Proc.devRef .tc main_arg4) _ _ (List.forall_iff_forall_mem.mp (by
    simp only [hostOps0, List.Forall, StableHlo.reshape_writes, Finset.mem_singleton]
    repeat' apply And.intro
    all_goals exact StableHlo.devRef_ne_of_ne (by decide)))
/-- No reshape before the region writes argument 5. -/
theorem V_main_arg5 : V m c main_arg5 = m ((c : Thread nD τ).loc main_arg5) :=
  StableHlo.after_of_forall_not_mem (b := Proc.devRef .tc main_arg5) _ _ (List.forall_iff_forall_mem.mp (by
    simp only [hostOps0, List.Forall, StableHlo.reshape_writes, Finset.mem_singleton]
    repeat' apply And.intro
    all_goals exact StableHlo.devRef_ne_of_ne (by decide)))
/-- No reshape before the region writes argument 6. -/
theorem V_main_arg6 : V m c main_arg6 = m ((c : Thread nD τ).loc main_arg6) :=
  StableHlo.after_of_forall_not_mem (b := Proc.devRef .tc main_arg6) _ _ (List.forall_iff_forall_mem.mp (by
    simp only [hostOps0, List.Forall, StableHlo.reshape_writes, Finset.mem_singleton]
    repeat' apply And.intro
    all_goals exact StableHlo.devRef_ne_of_ne (by decide)))
/-- No reshape before the region writes argument 7. -/
theorem V_main_arg7 : V m c main_arg7 = m ((c : Thread nD τ).loc main_arg7) :=
  StableHlo.after_of_forall_not_mem (b := Proc.devRef .tc main_arg7) _ _ (List.forall_iff_forall_mem.mp (by
    simp only [hostOps0, List.Forall, StableHlo.reshape_writes, Finset.mem_singleton]
    repeat' apply And.intro
    all_goals exact StableHlo.devRef_ne_of_ne (by decide)))

/-- The one write-back of the result window, at the last point, writes the model's result: its block is the whole array. -/
theorem flushed_eq (t : Fin cfg0.N) (hf : (cfg0.win 9).flush t = true) :
    (dats m 0 c).flushed 9 t = ((cfg0.win 9).blk t).view.read (Elt F) (result m c) := by
  have h15 : t.val = 15 := (flush_out_iff t).mp hf
  obtain rfl : t = t15 := Fin.ext h15
  show (cfg0.win 9).cut (grid0.coords t15) ((dats m 0 c).after 9 t15) = _
  rw [after_9]
  have hz' : (fun a => win0_9.index t15 a * main_v3.ty.shape.size a) = fun _ => 0 := funext fun a => by fin_cases a <;> decide +kernel
  exact (Memref.read_access_unit_zero (Elt F) main_v3 hz' (fun a => by rw [congrFun hz' a]; simp) (result m c)).symm

/-- So the result array ends holding the model's result. -/
theorem final_result : (dats m 0 c).arrAt 9 cfg0.N = result m c :=
  (dats m 0 c).arrAt_eq_of_cover 9 (result m c) (flushed_eq m c) fun i =>
    ⟨t15, (flush_out_iff t15).mpr rfl, by
      show i ∈ ((View.whole main_v3).slice (win0_9.rect t15)).set
      rw [View.set_slice_whole, Rect.mem_set_unit]
      intro a
      have h0 : (i 0 : Nat) < 4096 := (i 0).isLt
      have h1 : (i 1 : Nat) < 3 := (i 1).isLt
      match a with
      | ⟨0, _⟩ =>
        show win0_9.index t15 0 * win0_9.size 0 ≤ (i 0 : Nat) ∧ (i 0 : Nat) < win0_9.index t15 0 * win0_9.size 0 + win0_9.xsize (grid0.coords t15) 0
        rw [show win0_9.index t15 0 * win0_9.size 0 = 0 from by decide +kernel, show win0_9.xsize (grid0.coords t15) 0 = 4096 from by decide +kernel]; omega
      | ⟨1, _⟩ =>
        show win0_9.index t15 1 * win0_9.size 1 ≤ (i 1 : Nat) ∧ (i 1 : Nat) < win0_9.index t15 1 * win0_9.size 1 + win0_9.xsize (grid0.coords t15) 1
        rw [show win0_9.index t15 1 * win0_9.size 1 = 0 from by decide +kernel, show win0_9.xsize (grid0.coords t15) 1 = 3 from by decide +kernel]; omega⟩

/-- The run, read: the result array at the model's result, every argument as launched. -/
theorem run : θ_run defs (onTc (τ := τ) (main (F := F))) ⟨m, fun _ => 0, ρ⟩ fun r => ∀ c : Dev nD,
      r.2.mem ((c.tc : Thread nD τ).loc main_v3) = result m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7) :=
  (θ_run defs _ _).mono (fun _ h c => ⟨((h c).1 9).trans (final_result m c),
      ((h c).1 0).trans (((dats m 0 c).arrAt_in 0 rfl _).trans ((A_eq m c 0).trans (V_main_arg0 m c))),
      ((h c).1 1).trans (((dats m 0 c).arrAt_in 1 rfl _).trans ((A_eq m c 1).trans (V_main_arg1 m c))),
      ((h c).1 3).trans (((dats m 0 c).arrAt_in 3 rfl _).trans ((A_eq m c 3).trans (V_main_arg2 m c))),
      ((h c).2 main_arg3 (Pipeline.mem_restRefs_of main_arg3 (by decide) (by decide))).trans (V_main_arg3 m c),
      ((h c).1 5).trans (((dats m 0 c).arrAt_in 5 rfl _).trans ((A_eq m c 5).trans (V_main_arg4 m c))),
      ((h c).2 main_arg5 (Pipeline.mem_restRefs_of main_arg5 (by decide) (by decide))).trans (V_main_arg5 m c),
      ((h c).1 7).trans (((dats m 0 c).arrAt_in 7 rfl _).trans ((A_eq m c 7).trans (V_main_arg6 m c))),
      ((h c).2 main_arg7 (Pipeline.mem_restRefs_of main_arg7 (by decide) (by decide))).trans (V_main_arg7 m c)⟩)
    (run_main m ρ)

/-- The frame: every weakly fair execution terminates, without a fault, every argument as launched. -/
theorem frame : θ_run defs (onTc (τ := τ) (main (F := F))) ⟨m, fun _ => 0, ρ⟩ fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7) :=
  (θ_run defs _ _).mono (fun _ h c => (h c).2) (run m ρ)

end Cert.KernelIdeal.Shared

end
-- ==== Proof.Spec.lean ====
/-
  A two-layer perceptron followed by one graph-convolution layer on a dense
  adjacency matrix, written twice as plain formulas over the extended reals:
  once with the self loops put into the matrix (`refOut`), once with the self
  loops kept apart as a correction term (`kerOut`).

  Nodes range over a finite type `N`; `Fa`, `Fh`, `Fj`, `Fk` are the finite types
  of the input features, the first hidden layer's, the second hidden layer's and
  the output features.
-/
import Mathlib.Data.EReal.Basic
import Mathlib.Algebra.BigOperators.Group.Finset.Basic
import Idealize.ShloMosaic.PureOps.Ideal

noncomputable section

namespace GCN

open Idealize.ShloMosaic
open scoped BigOperators

variable {N Fa Fh Fj Fk : Type} [Fintype N] [DecidableEq N] [Fintype Fa] [Fintype Fh] [Fintype Fj]

/-! ### The perceptron -/

/-- First dense layer with its rectifier: `max (Σ_a x r a * W1 a i + b1 i) 0`. -/
def hidden1 (x : N → Fa → EReal) (W1 : Fa → Fh → EReal) (b1 : Fh → EReal) (r : N) (i : Fh) : EReal :=
  max (∑ a, x r a * W1 a i + b1 i) 0

/-- Second dense layer with its rectifier: `max (Σ_i h1 r i * W3 i j + b3 j) 0`. -/
def hidden2 (x : N → Fa → EReal) (W1 : Fa → Fh → EReal) (b1 : Fh → EReal)
    (W3 : Fh → Fj → EReal) (b3 : Fj → EReal) (r : N) (j : Fj) : EReal :=
  max (∑ i, hidden1 x W1 b1 r i * W3 i j + b3 j) 0

/-- The node features entering the convolution: `Σ_j h2 r j * Wg j k`. -/
def feat (x : N → Fa → EReal) (W1 : Fa → Fh → EReal) (b1 : Fh → EReal)
    (W3 : Fh → Fj → EReal) (b3 : Fj → EReal) (Wg : Fj → Fk → EReal) (r : N) (k : Fk) : EReal :=
  ∑ j, hidden2 x W1 b1 W3 b3 r j * Wg j k

/-! ### The convolution with the self loops inside the matrix -/

/-- The adjacency matrix with every diagonal entry raised to at least one. -/
def loopAdj (adj : N → N → EReal) (r c : N) : EReal :=
  max (adj r c) (if r = c then 1 else 0)

/-- Column sums of `loopAdj`: the in-degree of a node, self loop counted. -/
def degR (adj : N → N → EReal) (c : N) : EReal :=
  ∑ r, loopAdj adj r c

/-- Inverse square root of the degree where it is positive, zero elsewhere. -/
def dinvR (adj : N → N → EReal) (c : N) : EReal :=
  if 0 < degR adj c then Ideal.rsqrt (degR adj c) else 0

/-- Symmetrically normalised aggregation of `hw` along `loopAdj`, plus a bias. -/
def aggR (adj : N → N → EReal) (hw : N → Fk → EReal) (bg : Fk → EReal) (c : N) (k : Fk) : EReal :=
  dinvR adj c * (∑ r, loopAdj adj r c * (dinvR adj r * hw r k)) + bg k

/-! ### The convolution with the self loops as a correction -/

/-- One where a node has no self loop, zero where it has one. -/
def miss (adj : N → N → EReal) (c : N) : EReal :=
  if 0 < adj c c then 0 else 1

/-- Column sum of the raw matrix plus the missing self loop. -/
def degK (adj : N → N → EReal) (c : N) : EReal :=
  (∑ r, adj r c) + miss adj c

/-- Inverse square root of the degree clamped below by one. -/
def dinvK (adj : N → N → EReal) (c : N) : EReal :=
  Ideal.rsqrt (max (degK adj c) 1)

/-- The message a node sends: its features scaled by its own normaliser. -/
def msg (adj : N → N → EReal) (hw : N → Fk → EReal) (r : N) (k : Fk) : EReal :=
  dinvK adj r * hw r k

/-- Aggregation along the raw matrix, the missing self loop added afterwards. -/
def aggK (adj : N → N → EReal) (hw : N → Fk → EReal) (bg : Fk → EReal) (c : N) (k : Fk) : EReal :=
  dinvK adj c * ((∑ r, msg adj hw r k * adj r c) + miss adj c * msg adj hw c k) + bg k

/-! ### The two whole networks -/

/-- Perceptron, then the convolution with the self loops inside the matrix. -/
def refOut (x : N → Fa → EReal) (adj : N → N → EReal) (W1 : Fa → Fh → EReal) (b1 : Fh → EReal)
    (W3 : Fh → Fj → EReal) (b3 : Fj → EReal) (Wg : Fj → Fk → EReal) (bg : Fk → EReal)
    (c : N) (k : Fk) : EReal :=
  aggR adj (feat x W1 b1 W3 b3 Wg) bg c k

/-- Perceptron, then the convolution with the self loops as a correction. -/
def kerOut (x : N → Fa → EReal) (adj : N → N → EReal) (W1 : Fa → Fh → EReal) (b1 : Fh → EReal)
    (W3 : Fh → Fj → EReal) (b3 : Fj → EReal) (Wg : Fj → Fk → EReal) (bg : Fk → EReal)
    (c : N) (k : Fk) : EReal :=
  aggK adj (feat x W1 b1 W3 b3 Wg) bg c k

end GCN

end
-- ==== Proof.Ref.Read.lean ====
/-
  The reference program's result, read at an index, is the graph convolution
  with the self loops inside the matrix (`GCN.refOut`) of the argument arrays
  read as curried functions of their coordinates.

  The program is read one stage at a time: the two rectified dense layers, the
  product with the convolution's weights, the adjacency matrix raised on its
  diagonal, its column sums (the sum's initial zero absorbed), the guarded
  inverse square root, the scaled features, the transposed contraction, and the
  final scaling and bias.
-/
import proofs.«101174_g88562225643609_cont_sun_c4_799_5_alg».proof.Proof.Gen.ReferenceIdeal.Read
import proofs.«101174_g88562225643609_cont_sun_c4_799_5_alg».proof.Proof.Spec

noncomputable section

namespace Cert.ReferenceIdeal.RefRead

open Cert.ReferenceIdeal Cert.ReferenceIdeal.Read Idealize.ShloMosaic Idealize.ShloMosaic.ValueIdx
open scoped BigOperators

/-! ### The identity matrix as the program builds it -/

/-- Comparing the row number with the column number and reading the bit as a
    float gives one on the diagonal and zero off it. -/
theorem eye_entry (r c : Fin 4096) :
    (FloatOps.uitofp (F := Ideal) .f32
        (IntOp.cmpi .eq (IntOp.addi (BitVec.ofNat 32 r.val) 0#32) (BitVec.ofNat 32 c.val)) : EReal)
      = if r = c then 1 else 0 := by
  have hadd : IntOp.addi (BitVec.ofNat 32 r.val) 0#32 = BitVec.ofNat 32 r.val := by
    unfold IntOp.addi; exact BitVec.add_zero _
  rw [hadd]
  by_cases h : r = c
  · subst h
    rw [if_pos rfl]
    show (((BitVec.ofBool (BitVec.ofNat 32 r.val == BitVec.ofNat 32 r.val)).toNat : ℝ) : EReal) = 1
    rw [beq_self_eq_true]
    simp
  · rw [if_neg h]
    have hne : (BitVec.ofNat 32 r.val == BitVec.ofNat 32 c.val) = false := by
      rw [beq_eq_false_iff_ne]
      intro e
      have e' := congrArg BitVec.toNat e
      simp only [BitVec.toNat_ofNat] at e'
      have hr := r.isLt
      have hc := c.isLt
      apply h
      apply Fin.ext
      omega
    show (((BitVec.ofBool (BitVec.ofNat 32 r.val == BitVec.ofNat 32 c.val)).toNat : ℝ) : EReal) = 0
    rw [hne]
    simp

/-! ### The perceptron -/

section Stages

variable (x0 : (⟨S4096x3, .f32⟩ : BufTy).Contents (Elt Ideal))
  (x1 : (⟨S4096x4096, .f32⟩ : BufTy).Contents (Elt Ideal))
  (x2 : (⟨S3x16, .f32⟩ : BufTy).Contents (Elt Ideal))
  (x3 : (⟨S16, .f32⟩ : BufTy).Contents (Elt Ideal))
  (x4 : (⟨S16x3, .f32⟩ : BufTy).Contents (Elt Ideal))
  (x5 : (⟨S3, .f32⟩ : BufTy).Contents (Elt Ideal))
  (x6 : (⟨S3x3, .f32⟩ : BufTy).Contents (Elt Ideal))
  (x7 : (⟨S3, .f32⟩ : BufTy).Contents (Elt Ideal))

/-- The first rectified dense layer. -/
theorem hidden1_read (r : Fin 4096) (i : Fin 16) :
    val_main_v4 (F := Ideal) x0 x2 x3 (ix2 r i)
      = GCN.hidden1 (fun r a => x0 (ix2 r a)) (fun a i => x2 (ix2 a i)) (fun i => x3 (ix1 i)) r i := by
  have e1 : ∀ k, lidx_main_v0 (ix2 r i) k = ix2 r k := fun k =>
    funext fun a => Fin.ext (by match a with | ⟨0, _⟩ => rfl | ⟨1, _⟩ => rfl)
  have e2 : ∀ k, ridx_main_v0 (ix2 r i) k = ix2 k i := fun k =>
    funext fun a => Fin.ext (by match a with | ⟨0, _⟩ => rfl | ⟨1, _⟩ => rfl)
  have e3 : idx_main_v1 (idx_main_v2 (ix2 r i)) = ix1 i :=
    funext fun a => Fin.ext (by match a with | ⟨0, _⟩ => rfl)
  rw [val_main_v4_apply, val_main_v3_apply, val_main_v0_apply, val_main_v2_apply, val_main_v1_apply,
    val_main_call0_v0_apply, val_main_call0_cst_apply]
  simp only [e1, e2, e3, Ideal.maximumf_def, Ideal.addf_def, Ideal.ofBits_def, Ideal.ofBits_zero_f32]
  rfl

/-- The second rectified dense layer. -/
theorem hidden2_read (r : Fin 4096) (j : Fin 3) :
    val_main_v9 (F := Ideal) x0 x2 x3 x4 x5 (ix2 r j)
      = GCN.hidden2 (fun r a => x0 (ix2 r a)) (fun a i => x2 (ix2 a i)) (fun i => x3 (ix1 i))
          (fun i j => x4 (ix2 i j)) (fun j => x5 (ix1 j)) r j := by
  have e1 : ∀ k, lidx_main_v5 (ix2 r j) k = ix2 r k := fun k =>
    funext fun a => Fin.ext (by match a with | ⟨0, _⟩ => rfl | ⟨1, _⟩ => rfl)
  have e2 : ∀ k, ridx_main_v5 (ix2 r j) k = ix2 k j := fun k =>
    funext fun a => Fin.ext (by match a with | ⟨0, _⟩ => rfl | ⟨1, _⟩ => rfl)
  have e3 : idx_main_v6 (idx_main_v7 (ix2 r j)) = ix1 j :=
    funext fun a => Fin.ext (by match a with | ⟨0, _⟩ => rfl)
  rw [val_main_v9_apply, val_main_v8_apply, val_main_v5_apply, val_main_v7_apply, val_main_v6_apply,
    val_main_call1_v0_apply, val_main_call1_cst_apply]
  simp only [e1, e2, e3, hidden1_read, Ideal.maximumf_def, Ideal.addf_def, Ideal.ofBits_def,
    Ideal.ofBits_zero_f32]
  rfl

/-- The features entering the convolution. -/
theorem feat_read (r : Fin 4096) (k : Fin 3) :
    val_main_v22 (F := Ideal) x0 x2 x3 x4 x5 x6 (ix2 r k)
      = GCN.feat (fun r a => x0 (ix2 r a)) (fun a i => x2 (ix2 a i)) (fun i => x3 (ix1 i))
          (fun i j => x4 (ix2 i j)) (fun j => x5 (ix1 j)) (fun j k => x6 (ix2 j k)) r k := by
  have e1 : ∀ j, lidx_main_v22 (ix2 r k) j = ix2 r j := fun j =>
    funext fun a => Fin.ext (by match a with | ⟨0, _⟩ => rfl | ⟨1, _⟩ => rfl)
  have e2 : ∀ j, ridx_main_v22 (ix2 r k) j = ix2 j k := fun j =>
    funext fun a => Fin.ext (by match a with | ⟨0, _⟩ => rfl | ⟨1, _⟩ => rfl)
  rw [val_main_v22_apply]
  simp only [e1, e2, hidden2_read]
  rfl

/-! ### The convolution -/

/-- The adjacency matrix with its diagonal raised to at least one. -/
theorem loopAdj_read (r c : Fin 4096) :
    val_main_v16 (F := Ideal) x1 (ix2 r c) = GCN.loopAdj (fun r c => x1 (ix2 r c)) r c := by
  rw [val_main_v16_apply, val_main_v15_apply, val_main_v14_apply, val_main_v13_apply, val_main_v10_apply,
    val_main_v12_apply, val_main_c_apply, val_main_v11_apply]
  show FloatOps.maximumf (x1 (ix2 r c)) (FloatOps.uitofp (F := Ideal) .f32
      (IntOp.cmpi .eq (IntOp.addi (BitVec.ofNat 32 r.val) 0#32) (BitVec.ofNat 32 c.val))) = _
  rw [eye_entry]
  rfl

/-- Its column sums; the sum's initial zero is absorbed. -/
theorem degR_read (c : Fin 4096) :
    val_main_v17 (F := Ideal) x1 (ix1 c) = GCN.degR (fun r c => x1 (ix2 r c)) c := by
  have e : ∀ k, idx_main_v17 (ix1 c) k = ix2 k c := fun k =>
    funext fun a => Fin.ext (by match a with | ⟨0, _⟩ => rfl | ⟨1, _⟩ => rfl)
  rw [val_main_v17_apply, val_main_cst_apply]
  simp only [e, loopAdj_read, Ideal.ofBits_def, Ideal.ofBits_zero_f32, zero_add]
  rfl

/-- The inverse square root of the degree, guarded by the test that it is positive. -/
theorem dinvR_read (c : Fin 4096) :
    val_main_v21 (F := Ideal) x1 (ix1 c) = GCN.dinvR (fun r c => x1 (ix2 r c)) c := by
  rw [val_main_v21_apply, val_main_v19_apply, val_main_v20_apply, val_main_v18_apply, val_main_cst_0_apply,
    val_main_call2_v1_apply, val_main_call2_v0_apply, val_main_cst_1_apply, degR_read]
  simp only [Ideal.ofBits_def, Ideal.ofBits_zero_f32, Ideal.hostUnary_rsqrt_def]
  unfold GCN.dinvR
  by_cases h : 0 < GCN.degR (fun r c => x1 (ix2 r c)) c
  · rw [if_pos h]
    show Scalar.select (BitVec.ofBool (decide (0 < GCN.degR (fun r c => x1 (ix2 r c)) c))) _ _ = _
    rw [decide_eq_true h]
    rfl
  · rw [if_neg h]
    show Scalar.select (BitVec.ofBool (decide (0 < GCN.degR (fun r c => x1 (ix2 r c)) c))) _ _ = _
    rw [decide_eq_false h]
    rfl

/-- A node's features scaled by its own normaliser. -/
theorem scaled_read (r : Fin 4096) (k : Fin 3) :
    val_main_v27 (F := Ideal) x0 x1 x2 x3 x4 x5 x6 (ix2 r k)
      = GCN.dinvR (fun r c => x1 (ix2 r c)) r
        * GCN.feat (fun r a => x0 (ix2 r a)) (fun a i => x2 (ix2 a i)) (fun i => x3 (ix1 i))
            (fun i j => x4 (ix2 i j)) (fun j => x5 (ix1 j)) (fun j k => x6 (ix2 j k)) r k := by
  have e : idx_main_v25 (idx_main_v26 (ix2 r k)) = ix1 r :=
    funext fun a => Fin.ext (by match a with | ⟨0, _⟩ => rfl)
  rw [val_main_v27_apply, val_main_v26_apply, val_main_v25_apply, e, dinvR_read, feat_read]
  rfl

/-- The transposed matrix at row `c`, column `r` is the raised matrix at `r`, `c`. -/
theorem transposed_read (c r : Fin 4096) :
    val_main_v24 (F := Ideal) x1 (ix2 c r) = GCN.loopAdj (fun r c => x1 (ix2 r c)) r c := by
  have e : idx_main_v24 (ix2 c r) = ix2 r c :=
    funext fun a => Fin.ext (by match a with | ⟨0, _⟩ => rfl | ⟨1, _⟩ => rfl)
  rw [val_main_v24_apply, e, loopAdj_read]

/-- The whole reference: its result at node `c`, output feature `k`. -/
theorem result_read (c : Fin 4096) (k : Fin 3) :
    val_main_v33 (F := Ideal) x0 x1 x2 x3 x4 x5 x6 x7 (ix2 c k)
      = GCN.refOut (fun r a => x0 (ix2 r a)) (fun r c => x1 (ix2 r c)) (fun a i => x2 (ix2 a i))
          (fun i => x3 (ix1 i)) (fun i j => x4 (ix2 i j)) (fun j => x5 (ix1 j))
          (fun j k => x6 (ix2 j k)) (fun k => x7 (ix1 k)) c k := by
  have e1 : idx_main_v23 (idx_main_v29 (ix2 c k)) = ix1 c :=
    funext fun a => Fin.ext (by match a with | ⟨0, _⟩ => rfl)
  have e2 : ∀ r, lidx_main_v28 (ix2 c k) r = ix2 c r := fun r =>
    funext fun a => Fin.ext (by match a with | ⟨0, _⟩ => rfl | ⟨1, _⟩ => rfl)
  have e3 : ∀ r, ridx_main_v28 (ix2 c k) r = ix2 r k := fun r =>
    funext fun a => Fin.ext (by match a with | ⟨0, _⟩ => rfl | ⟨1, _⟩ => rfl)
  have e4 : idx_main_v31 (idx_main_v32 (ix2 c k)) = ix1 k :=
    funext fun a => Fin.ext (by match a with | ⟨0, _⟩ => rfl)
  rw [val_main_v33_apply, val_main_v30_apply, val_main_v29_apply, val_main_v23_apply, val_main_v28_apply,
    val_main_v32_apply, val_main_v31_apply, e1, e4, dinvR_read]
  simp only [e2, e3, transposed_read, scaled_read, Ideal.addf_def, Ideal.mulf_def]
  rfl

/-- The same, as one function of the index. -/
theorem result_eq :
    val_main_v33 (F := Ideal) x0 x1 x2 x3 x4 x5 x6 x7
      = fun j => GCN.refOut (fun r a => x0 (ix2 r a)) (fun r c => x1 (ix2 r c)) (fun a i => x2 (ix2 a i))
          (fun i => x3 (ix1 i)) (fun i j => x4 (ix2 i j)) (fun j => x5 (ix1 j))
          (fun j k => x6 (ix2 j k)) (fun k => x7 (ix1 k)) (j 0) (j 1) := by
  funext j
  obtain ⟨c, k, rfl⟩ : ∃ (c : Fin 4096) (k : Fin 3), j = ix2 c k := ⟨j 0, j 1, eq_ix2 j⟩
  exact result_read x0 x1 x2 x3 x4 x5 x6 x7 c k

end Stages

end Cert.ReferenceIdeal.RefRead

end
-- ==== Proof.Ref.Run.lean ====
/-
  The reference program runs to the end, leaves its arguments unchanged, and
  leaves as its result the graph convolution with the self loops inside the
  matrix, of the argument arrays read as curried functions of their coordinates.
-/
import proofs.«101174_g88562225643609_cont_sun_c4_799_5_alg».proof.Proof.Ref.Read

noncomputable section

namespace Cert.ReferenceIdeal.RefRead

open Cert.ReferenceIdeal Cert.ReferenceIdeal.Gen Cert.ReferenceIdeal.Read Idealize.ShloMosaic Idealize.ShloMosaic.TcCoe
  Idealize.SL.Sem Idealize.ShloMosaic.StableHlo Idealize.ShloMosaic.ValueIdx

/-- The convolution of the eight argument arrays as one array over the result's indices. -/
def refArray (x0 : (⟨S4096x3, .f32⟩ : BufTy).Contents (Elt Ideal))
    (x1 : (⟨S4096x4096, .f32⟩ : BufTy).Contents (Elt Ideal))
    (x2 : (⟨S3x16, .f32⟩ : BufTy).Contents (Elt Ideal))
    (x3 : (⟨S16, .f32⟩ : BufTy).Contents (Elt Ideal))
    (x4 : (⟨S16x3, .f32⟩ : BufTy).Contents (Elt Ideal))
    (x5 : (⟨S3, .f32⟩ : BufTy).Contents (Elt Ideal))
    (x6 : (⟨S3x3, .f32⟩ : BufTy).Contents (Elt Ideal))
    (x7 : (⟨S3, .f32⟩ : BufTy).Contents (Elt Ideal)) :
    (⟨S4096x3, .f32⟩ : BufTy).Contents (Elt Ideal) :=
  fun j => GCN.refOut (fun r a => x0 (ix2 r a)) (fun r c => x1 (ix2 r c)) (fun a i => x2 (ix2 a i))
    (fun i => x3 (ix1 i)) (fun i j => x4 (ix2 i j)) (fun j => x5 (ix1 j))
    (fun j k => x6 (ix2 j k)) (fun k => x7 (ix1 k)) (j 0) (j 1)

/-- Every fair execution of the reference ends with its result at `refArray` of the
    arguments as they were at the start, the arguments unchanged. -/
theorem run (m : (ℓ : Loc nD τ sig) → Buf (Elt Ideal) ℓ) (ρ : Dev nD → PrngReg) :
    θ_run (defs (F := Ideal)) (onTc (τ := τ) (main (F := Ideal))) ⟨m, fun _ => 0, ρ⟩ fun r => ∀ c : Dev nD,
      r.2.mem ((c.tc : Thread nD τ).loc main_v33)
        = refArray (m ((c.tc : Thread nD τ).loc main_arg0)) (m ((c.tc : Thread nD τ).loc main_arg1))
            (m ((c.tc : Thread nD τ).loc main_arg2)) (m ((c.tc : Thread nD τ).loc main_arg3))
            (m ((c.tc : Thread nD τ).loc main_arg4)) (m ((c.tc : Thread nD τ).loc main_arg5))
            (m ((c.tc : Thread nD τ).loc main_arg6)) (m ((c.tc : Thread nD τ).loc main_arg7))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7) :=
  (θ_run defs _ _).mono
    (fun _ h c => ⟨by rw [(h c).1, Read.val_main_v33_eq, result_eq]; rfl, (h c).2⟩)
    (Cert.ReferenceIdeal.Value.run (F := Ideal) m ρ)

end Cert.ReferenceIdeal.RefRead

end
-- ==== Proof.Value.Blocks.lean ====
/-
  The argument arrays read entry by entry, and every window's block read at an index as an entry of its array.

  The region finds the five matrices as they were launched and the three bias vectors laid out as one row each. A block
  sits in its array at block index times block size: the band of the adjacency matrix at point t is rows
  512·(t mod 8) onwards, all columns; the diagonal square at point t is those rows and the same columns; every other
  window is its whole array at every point.
-/
import proofs.«101174_g88562225643609_cont_sun_c4_799_5_alg».proof.Proof.Ideal.Model
import Idealize.ShloMosaic.Lib.ValueLayout
import Idealize.ShloMosaic.Lib.Pipeline.Value

set_option maxRecDepth 16384

noncomputable section

namespace Cert.KernelIdeal.ValueAt

open Cert.KernelIdeal Cert.KernelIdeal.Gen Cert.KernelIdeal.Shared
open Idealize.ShloMosaic Idealize.ShloMosaic.TcCoe Idealize.ShloMosaic.ValueIdx
open Idealize.SL.Sem
open Idealize.ShloMosaic.Pipeline (Dat Cfg Window)
open scoped BigOperators

variable (m : (ℓ : Loc nD τ sig) → Buf (Elt Ideal) ℓ)

/-! ## The eight argument arrays, entry by entry -/

/-- The node features, node `r`, feature `a`. -/
abbrev inX (c : Dev nD) (r : Fin 4096) (a : Fin 3) : EReal := m ((c : Thread nD τ).loc main_arg0) (ix2 r a)
/-- The adjacency matrix, row `r`, column `s`. -/
abbrev inAdj (c : Dev nD) (r s : Fin 4096) : EReal := m ((c : Thread nD τ).loc main_arg1) (ix2 r s)
/-- The first layer's weights. -/
abbrev inW1 (c : Dev nD) (a : Fin 3) (i : Fin 16) : EReal := m ((c : Thread nD τ).loc main_arg2) (ix2 a i)
/-- The first layer's bias. -/
abbrev inB1 (c : Dev nD) (i : Fin 16) : EReal := m ((c : Thread nD τ).loc main_arg3) (ix1 i)
/-- The second layer's weights. -/
abbrev inW3 (c : Dev nD) (i : Fin 16) (j : Fin 3) : EReal := m ((c : Thread nD τ).loc main_arg4) (ix2 i j)
/-- The second layer's bias. -/
abbrev inB3 (c : Dev nD) (j : Fin 3) : EReal := m ((c : Thread nD τ).loc main_arg5) (ix1 j)
/-- The convolution's weights. -/
abbrev inWg (c : Dev nD) (j : Fin 3) (k : Fin 3) : EReal := m ((c : Thread nD τ).loc main_arg6) (ix2 j k)
/-- The convolution's bias. -/
abbrev inBg (c : Dev nD) (k : Fin 3) : EReal := m ((c : Thread nD τ).loc main_arg7) (ix1 k)

/-! ## What the region finds in the windows' arrays -/

theorem V_arg0 (c : Dev nD) : V m c main_arg0 = m ((c : Thread nD τ).loc main_arg0) :=
  StableHlo.after_of_forall_not_mem (b := Proc.devRef .tc main_arg0) _ _ (List.forall_iff_forall_mem.mp (by
    simp only [hostOps0, List.Forall, StableHlo.reshape_writes, Finset.mem_singleton]
    repeat' apply And.intro
    all_goals exact StableHlo.devRef_ne_of_ne (by decide)))

theorem V_arg1 (c : Dev nD) : V m c main_arg1 = m ((c : Thread nD τ).loc main_arg1) :=
  StableHlo.after_of_forall_not_mem (b := Proc.devRef .tc main_arg1) _ _ (List.forall_iff_forall_mem.mp (by
    simp only [hostOps0, List.Forall, StableHlo.reshape_writes, Finset.mem_singleton]
    repeat' apply And.intro
    all_goals exact StableHlo.devRef_ne_of_ne (by decide)))

theorem V_arg2 (c : Dev nD) : V m c main_arg2 = m ((c : Thread nD τ).loc main_arg2) :=
  StableHlo.after_of_forall_not_mem (b := Proc.devRef .tc main_arg2) _ _ (List.forall_iff_forall_mem.mp (by
    simp only [hostOps0, List.Forall, StableHlo.reshape_writes, Finset.mem_singleton]
    repeat' apply And.intro
    all_goals exact StableHlo.devRef_ne_of_ne (by decide)))

theorem V_arg4 (c : Dev nD) : V m c main_arg4 = m ((c : Thread nD τ).loc main_arg4) :=
  StableHlo.after_of_forall_not_mem (b := Proc.devRef .tc main_arg4) _ _ (List.forall_iff_forall_mem.mp (by
    simp only [hostOps0, List.Forall, StableHlo.reshape_writes, Finset.mem_singleton]
    repeat' apply And.intro
    all_goals exact StableHlo.devRef_ne_of_ne (by decide)))

theorem V_arg6 (c : Dev nD) : V m c main_arg6 = m ((c : Thread nD τ).loc main_arg6) :=
  StableHlo.after_of_forall_not_mem (b := Proc.devRef .tc main_arg6) _ _ (List.forall_iff_forall_mem.mp (by
    simp only [hostOps0, List.Forall, StableHlo.reshape_writes, Finset.mem_singleton]
    repeat' apply And.intro
    all_goals exact StableHlo.devRef_ne_of_ne (by decide)))

theorem V_v0 (c : Dev nD) : (V m c main_v0 : S1x16.Idx → EReal)
    = shapeCast S1x16 (m ((c : Thread nD τ).loc main_arg3) : S16.Idx → EReal) shapeCasts_S16_S1x16 := by
  dsimp only [V, hostOps0]
  after_results
  rfl

theorem V_v0_apply (c : Dev nD) (u : Fin 1) (i : Fin 16) :
    V m c main_v0 (ix2 u i) = m ((c : Thread nD τ).loc main_arg3) (ix1 i) := by
  show (V m c main_v0 : S1x16.Idx → EReal) (ix2 u i) = _
  rw [V_v0]
  exact shapeCast_a_1a_apply _ _ u i

theorem V_v1 (c : Dev nD) : (V m c main_v1 : S1x3.Idx → EReal)
    = shapeCast S1x3 (m ((c : Thread nD τ).loc main_arg5) : S3.Idx → EReal) shapeCasts_S3_S1x3 := by
  dsimp only [V, hostOps0]
  after_results
  rfl

theorem V_v1_apply (c : Dev nD) (u : Fin 1) (i : Fin 3) :
    V m c main_v1 (ix2 u i) = m ((c : Thread nD τ).loc main_arg5) (ix1 i) := by
  show (V m c main_v1 : S1x3.Idx → EReal) (ix2 u i) = _
  rw [V_v1]
  exact shapeCast_a_1a_apply _ _ u i

theorem V_v2 (c : Dev nD) : (V m c main_v2 : S1x3.Idx → EReal)
    = shapeCast S1x3 (m ((c : Thread nD τ).loc main_arg7) : S3.Idx → EReal) shapeCasts_S3_S1x3 := by
  dsimp only [V, hostOps0]
  after_results
  rfl

theorem V_v2_apply (c : Dev nD) (u : Fin 1) (i : Fin 3) :
    V m c main_v2 (ix2 u i) = m ((c : Thread nD τ).loc main_arg7) (ix1 i) := by
  show (V m c main_v2 : S1x3.Idx → EReal) (ix2 u i) = _
  rw [V_v2]
  exact shapeCast_a_1a_apply _ _ u i

/-! ## The index maps over the grid -/

/-- The band and the square both sit at block row `t mod 8`; the band spans all columns, the square sits at block
    column `t mod 8` too. -/
theorem bandFacts : ∀ t : Fin cfg0.N, win0_1.index t (0 : Fin 2) = t.val % 8 ∧ win0_1.index t (1 : Fin 2) = 0
    ∧ win0_2.index t (0 : Fin 2) = t.val % 8 ∧ win0_2.index t (1 : Fin 2) = t.val % 8 :=
  (by decide +kernel : ∀ t : Fin grid0.N, _)

/-- Every other input window stays at block (0, 0). -/
theorem wholeFacts : ∀ t : Fin cfg0.N, win0_0.index t (0 : Fin 2) = 0 ∧ win0_0.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) = 0 ∧ win0_5.index t (1 : Fin 2) = 0
    ∧ win0_6.index t (0 : Fin 2) = 0 ∧ win0_6.index t (1 : Fin 2) = 0
    ∧ win0_7.index t (0 : Fin 2) = 0 ∧ win0_7.index t (1 : Fin 2) = 0
    ∧ win0_8.index t (0 : Fin 2) = 0 ∧ win0_8.index t (1 : Fin 2) = 0 :=
  (by decide +kernel : ∀ t : Fin grid0.N, _)

/-! ## The blocks at an index -/

/-- The band at point `t`: rows `512·(t mod 8) + p`, every column. -/
theorem iblk1_apply (c : Dev nD) (t : Fin cfg0.N) (p : Fin 512) (q : Fin 4096) :
    iblk m c 1 t (ix2 p q) = inAdj m c (⟨512 * (t.val % 8) + p.val, by have := p.isLt; omega⟩ : Fin 4096) q := by
  rw [inAdj, ← V_arg1 m c]
  show V m c main_arg1 (((cfg0.win 1).blk t).view.emb (ix2 p q)) = _
  obtain ⟨e0, e1, -, -⟩ := bandFacts t
  refine congrArg (V m c main_arg1) (funext fun a => Fin.ext ?_)
  match a with
  | ⟨0, _⟩ => show win0_1.index t (0 : Fin 2) * 512 + 1 * p.val = 512 * (t.val % 8) + p.val; omega
  | ⟨1, _⟩ => show win0_1.index t (1 : Fin 2) * 4096 + 1 * q.val = q.val; omega

/-- The diagonal square at point `t`: rows and columns `512·(t mod 8)` onwards. -/
theorem iblk2_apply (c : Dev nD) (t : Fin cfg0.N) (p : Fin 512) (q : Fin 512) :
    iblk m c 2 t (ix2 p q) = inAdj m c (⟨512 * (t.val % 8) + p.val, by have := p.isLt; omega⟩ : Fin 4096)
      (⟨512 * (t.val % 8) + q.val, by have := q.isLt; omega⟩ : Fin 4096) := by
  rw [inAdj, ← V_arg1 m c]
  show V m c main_arg1 (((cfg0.win 2).blk t).view.emb (ix2 p q)) = _
  obtain ⟨-, -, e0, e1⟩ := bandFacts t
  refine congrArg (V m c main_arg1) (funext fun a => Fin.ext ?_)
  match a with
  | ⟨0, _⟩ => show win0_2.index t (0 : Fin 2) * 512 + 1 * p.val = 512 * (t.val % 8) + p.val; omega
  | ⟨1, _⟩ => show win0_2.index t (1 : Fin 2) * 512 + 1 * q.val = 512 * (t.val % 8) + q.val; omega

/-- Window 0 is its whole array at every point. -/
theorem iblk0_apply (c : Dev nD) (t : Fin cfg0.N) (p : Fin 4096) (q : Fin 3) :
    iblk m c 0 t (ix2 p q) = inX m c p q := by
  have e : iblk m c 0 t (ix2 p q) = V m c main_arg0 (ix2 p q) := by
    show V m c main_arg0 (((cfg0.win 0).blk t).view.emb (ix2 p q)) = _
    have h := wholeFacts t
    refine congrArg (V m c main_arg0) (funext fun a => Fin.ext ?_)
    match a with
    | ⟨0, _⟩ => show win0_0.index t (0 : Fin 2) * 4096 + 1 * p.val = p.val; omega
    | ⟨1, _⟩ => show win0_0.index t (1 : Fin 2) * 3 + 1 * q.val = q.val; omega
  rw [e, V_arg0]

/-- Window 3 is its whole array at every point. -/
theorem iblk3_apply (c : Dev nD) (t : Fin cfg0.N) (p : Fin 3) (q : Fin 16) :
    iblk m c 3 t (ix2 p q) = inW1 m c p q := by
  have e : iblk m c 3 t (ix2 p q) = V m c main_arg2 (ix2 p q) := by
    show V m c main_arg2 (((cfg0.win 3).blk t).view.emb (ix2 p q)) = _
    have h := wholeFacts t
    refine congrArg (V m c main_arg2) (funext fun a => Fin.ext ?_)
    match a with
    | ⟨0, _⟩ => show win0_3.index t (0 : Fin 2) * 3 + 1 * p.val = p.val; omega
    | ⟨1, _⟩ => show win0_3.index t (1 : Fin 2) * 16 + 1 * q.val = q.val; omega
  rw [e, V_arg2]

/-- Window 4 is its whole array at every point. -/
theorem iblk4_apply (c : Dev nD) (t : Fin cfg0.N) (p : Fin 1) (q : Fin 16) :
    iblk m c 4 t (ix2 p q) = inB1 m c q := by
  have e : iblk m c 4 t (ix2 p q) = V m c main_v0 (ix2 p q) := by
    show V m c main_v0 (((cfg0.win 4).blk t).view.emb (ix2 p q)) = _
    have h := wholeFacts t
    refine congrArg (V m c main_v0) (funext fun a => Fin.ext ?_)
    match a with
    | ⟨0, _⟩ => show win0_4.index t (0 : Fin 2) * 1 + 1 * p.val = p.val; omega
    | ⟨1, _⟩ => show win0_4.index t (1 : Fin 2) * 16 + 1 * q.val = q.val; omega
  rw [e, V_v0_apply]

/-- Window 5 is its whole array at every point. -/
theorem iblk5_apply (c : Dev nD) (t : Fin cfg0.N) (p : Fin 16) (q : Fin 3) :
    iblk m c 5 t (ix2 p q) = inW3 m c p q := by
  have e : iblk m c 5 t (ix2 p q) = V m c main_arg4 (ix2 p q) := by
    show V m c main_arg4 (((cfg0.win 5).blk t).view.emb (ix2 p q)) = _
    have h := wholeFacts t
    refine congrArg (V m c main_arg4) (funext fun a => Fin.ext ?_)
    match a with
    | ⟨0, _⟩ => show win0_5.index t (0 : Fin 2) * 16 + 1 * p.val = p.val; omega
    | ⟨1, _⟩ => show win0_5.index t (1 : Fin 2) * 3 + 1 * q.val = q.val; omega
  rw [e, V_arg4]

/-- Window 6 is its whole array at every point. -/
theorem iblk6_apply (c : Dev nD) (t : Fin cfg0.N) (p : Fin 1) (q : Fin 3) :
    iblk m c 6 t (ix2 p q) = inB3 m c q := by
  have e : iblk m c 6 t (ix2 p q) = V m c main_v1 (ix2 p q) := by
    show V m c main_v1 (((cfg0.win 6).blk t).view.emb (ix2 p q)) = _
    have h := wholeFacts t
    refine congrArg (V m c main_v1) (funext fun a => Fin.ext ?_)
    match a with
    | ⟨0, _⟩ => show win0_6.index t (0 : Fin 2) * 1 + 1 * p.val = p.val; omega
    | ⟨1, _⟩ => show win0_6.index t (1 : Fin 2) * 3 + 1 * q.val = q.val; omega
  rw [e, V_v1_apply]

/-- Window 7 is its whole array at every point. -/
theorem iblk7_apply (c : Dev nD) (t : Fin cfg0.N) (p : Fin 3) (q : Fin 3) :
    iblk m c 7 t (ix2 p q) = inWg m c p q := by
  have e : iblk m c 7 t (ix2 p q) = V m c main_arg6 (ix2 p q) := by
    show V m c main_arg6 (((cfg0.win 7).blk t).view.emb (ix2 p q)) = _
    have h := wholeFacts t
    refine congrArg (V m c main_arg6) (funext fun a => Fin.ext ?_)
    match a with
    | ⟨0, _⟩ => show win0_7.index t (0 : Fin 2) * 3 + 1 * p.val = p.val; omega
    | ⟨1, _⟩ => show win0_7.index t (1 : Fin 2) * 3 + 1 * q.val = q.val; omega
  rw [e, V_arg6]

/-- Window 8 is its whole array at every point. -/
theorem iblk8_apply (c : Dev nD) (t : Fin cfg0.N) (p : Fin 1) (q : Fin 3) :
    iblk m c 8 t (ix2 p q) = inBg m c q := by
  have e : iblk m c 8 t (ix2 p q) = V m c main_v2 (ix2 p q) := by
    show V m c main_v2 (((cfg0.win 8).blk t).view.emb (ix2 p q)) = _
    have h := wholeFacts t
    refine congrArg (V m c main_v2) (funext fun a => Fin.ext ?_)
    match a with
    | ⟨0, _⟩ => show win0_8.index t (0 : Fin 2) * 1 + 1 * p.val = p.val; omega
    | ⟨1, _⟩ => show win0_8.index t (1 : Fin 2) * 3 + 1 * q.val = q.val; omega
  rw [e, V_v2_apply]

end Cert.KernelIdeal.ValueAt

end
-- ==== Proof.LibMatmul2d.lean ====
/-
  A matrix product of the exact instance read at an index, for two-dimensional operands.

  At the exact instance a product into a zero accumulator is, at the output index (i, j), the sum over the
  contraction index of the operands' products. The contraction index is a one-axis multi-index; the operands are
  addressed through the dimension record's index maps. This file turns that into the textbook form

      (A · B) (i, j) = Σ_{k < K} A (i, k) · B (k, j)            (M×K by K×N),
      (A · Bᵀ) (i, j) = Σ_{k < K} A (i, k) · B (j, k)           (M×K by N×K),

  with the sum over `Fin K` and every index written by coordinates, for the library's two canonical dimension
  records. A printed program's own record with the same six index lists is equal to the canonical one by `rfl`
  (its well-formedness field is a proposition), so `rw [show dot_… = DotDims.plain M K N from rfl]` brings a printed
  product under these lemmas.
-/
import Idealize.ShloMosaic.Lib.ValueIdx
import Idealize.ShloMosaic.PureOps.Ideal.Laws

noncomputable section

namespace Cert.LibMatmul2d

open Idealize.ShloMosaic Idealize.ShloMosaic.ValueIdx
open scoped BigOperators

variable {M K N : ℕ}

/-! ## M×K by K×N -/

section Plain

local notation "D" => DotDims.plain M K N

theorem plain_rank : (D).contr.rank = 1 := rfl
theorem plain_size : (D).contr.size ⟨0, by rw [plain_rank]; exact Nat.one_pos⟩ = K := rfl

/-- The left operand's row is the output's row. -/
theorem plain_lhs_row (i : Fin M) (j : Fin N) (k : (D).contr.Idx) : (D).lhsIdx (ix2 i j) k (0 : Fin 2) = i := by
  unfold DotDims.lhsIdx
  simp [DotDims.plain]
  first | rfl | exact Fin.ext rfl | (apply Fin.ext; simp)

/-- The right operand's column is the output's column. -/
theorem plain_rhs_col (i : Fin M) (j : Fin N) (k : (D).contr.Idx) : (D).rhsIdx (ix2 i j) k (1 : Fin 2) = j := by
  unfold DotDims.rhsIdx
  simp [DotDims.plain]
  first | rfl | exact Fin.ext rfl | (apply Fin.ext; simp)

/-- The product of an M×K by a K×N operand into a zero accumulator, at (i, j). -/
theorem matmul_plain_apply {φ₁ φ₂ : FTy} (a : FVec Ideal ⟨2, ![M, K]⟩ φ₁) (b : FVec Ideal ⟨2, ![K, N]⟩ φ₂)
    (i : Fin M) (j : Fin N) :
    FloatOps.matmul (D) none a b (constant ⟨2, ![M, N]⟩ .f32 0x00000000#32) (ix2 i j)
      = ∑ k : Fin K, a (ix2 i k) * b (ix2 k j) := by
  rw [Ideal.matmul_constant_zero_apply, ← Equiv.sum_comp (contrEquiv1 (D) K plain_rank plain_size).symm]
  refine Finset.sum_congr rfl fun k _ => ?_
  have hl : (D).lhsIdx (ix2 i j) ((contrEquiv1 (D) K plain_rank plain_size).symm k) = ix2 i k := by
    funext ax
    match ax with
    | ⟨0, _⟩ => exact plain_lhs_row i j _
    | ⟨1, _⟩ =>
      refine Fin.ext ?_
      rw [show (⟨1, by decide⟩ : Fin 2) = (1 : Fin 2) from rfl, DotDims.lhsIdx_val_of_single (D) (cl := (1 : Fin 2)) rfl]
      exact contrEquiv1_symm_val (D) K plain_rank plain_size k
  have hr : (D).rhsIdx (ix2 i j) ((contrEquiv1 (D) K plain_rank plain_size).symm k) = ix2 k j := by
    funext ax
    match ax with
    | ⟨0, _⟩ =>
      refine Fin.ext ?_
      rw [show (⟨0, by decide⟩ : Fin 2) = (0 : Fin 2) from rfl, DotDims.rhsIdx_val_of_single (D) (cr := (0 : Fin 2)) rfl]
      exact contrEquiv1_symm_val (D) K plain_rank plain_size k
    | ⟨1, _⟩ => exact plain_rhs_col i j _
  rw [hl, hr]

end Plain

/-! ## M×K by N×K: the right operand contracted on its last axis -/

section TransposedRhs

local notation "D" => DotDims.transposedRhs M K N

theorem trhs_rank : (D).contr.rank = 1 := rfl
theorem trhs_size : (D).contr.size ⟨0, by rw [trhs_rank]; exact Nat.one_pos⟩ = K := rfl

theorem trhs_lhs_row (i : Fin M) (j : Fin N) (k : (D).contr.Idx) : (D).lhsIdx (ix2 i j) k (0 : Fin 2) = i := by
  unfold DotDims.lhsIdx
  simp [DotDims.transposedRhs]
  first | rfl | exact Fin.ext rfl | (apply Fin.ext; simp)

theorem trhs_rhs_row (i : Fin M) (j : Fin N) (k : (D).contr.Idx) : (D).rhsIdx (ix2 i j) k (0 : Fin 2) = j := by
  unfold DotDims.rhsIdx
  simp [DotDims.transposedRhs]
  first | rfl | exact Fin.ext rfl | (apply Fin.ext; simp)

/-- The product of an M×K operand with the transpose of an N×K operand into a zero accumulator, at (i, j). -/
theorem matmul_transposedRhs_apply {φ₁ φ₂ : FTy} (a : FVec Ideal ⟨2, ![M, K]⟩ φ₁) (b : FVec Ideal ⟨2, ![N, K]⟩ φ₂)
    (i : Fin M) (j : Fin N) :
    FloatOps.matmul (D) none a b (constant ⟨2, ![M, N]⟩ .f32 0x00000000#32) (ix2 i j)
      = ∑ k : Fin K, a (ix2 i k) * b (ix2 j k) := by
  rw [Ideal.matmul_constant_zero_apply, ← Equiv.sum_comp (contrEquiv1 (D) K trhs_rank trhs_size).symm]
  refine Finset.sum_congr rfl fun k _ => ?_
  have hl : (D).lhsIdx (ix2 i j) ((contrEquiv1 (D) K trhs_rank trhs_size).symm k) = ix2 i k := by
    funext ax
    match ax with
    | ⟨0, _⟩ => exact trhs_lhs_row i j _
    | ⟨1, _⟩ =>
      refine Fin.ext ?_
      rw [show (⟨1, by decide⟩ : Fin 2) = (1 : Fin 2) from rfl, DotDims.lhsIdx_val_of_single (D) (cl := (1 : Fin 2)) rfl]
      exact contrEquiv1_symm_val (D) K trhs_rank trhs_size k
  have hr : (D).rhsIdx (ix2 i j) ((contrEquiv1 (D) K trhs_rank trhs_size).symm k) = ix2 j k := by
    funext ax
    match ax with
    | ⟨0, _⟩ => exact trhs_rhs_row i j _
    | ⟨1, _⟩ =>
      refine Fin.ext ?_
      rw [show (⟨1, by decide⟩ : Fin 2) = (1 : Fin 2) from rfl, DotDims.rhsIdx_val_of_single (D) (cr := (1 : Fin 2)) rfl]
      exact contrEquiv1_symm_val (D) K trhs_rank trhs_size k
  rw [hl, hr]

end TransposedRhs

/-! ## K×M by K×N: both operands contracted on their first axis -/

/-- `<[0], [0], [1], [1], [0, 1, 1, 1], [], []>`: the transpose of a K×M operand by a K×N operand. -/
def transposedLhs (K M N : Nat) : DotDims ⟨2, ![K, M]⟩ ⟨2, ![K, N]⟩ ⟨2, ![M, N]⟩ where
  lhsContracting := [0]
  rhsContracting := [0]
  lhsNonContracting := [1]
  rhsNonContracting := [1]
  lhsBatch := []
  rhsBatch := []
  wf := ⟨rfl, by simp, rfl, by simp, by simp, by simp, by simpa [List.finRange] using List.Perm.swap 0 1 [],
    by simpa [List.finRange] using List.Perm.swap 0 1 [], rfl, Nat.two_pos, fun b => by fin_cases b <;> rfl⟩

section TransposedLhs

local notation "D" => transposedLhs K M N

theorem tlhs_rank : (D).contr.rank = 1 := rfl
theorem tlhs_size : (D).contr.size ⟨0, by rw [tlhs_rank]; exact Nat.one_pos⟩ = K := rfl

theorem tlhs_lhs_col (i : Fin M) (j : Fin N) (k : (D).contr.Idx) : (D).lhsIdx (ix2 i j) k (1 : Fin 2) = i := by
  unfold DotDims.lhsIdx
  simp [transposedLhs]
  first | rfl | exact Fin.ext rfl | (apply Fin.ext; simp)

theorem tlhs_rhs_col (i : Fin M) (j : Fin N) (k : (D).contr.Idx) : (D).rhsIdx (ix2 i j) k (1 : Fin 2) = j := by
  unfold DotDims.rhsIdx
  simp [transposedLhs]
  first | rfl | exact Fin.ext rfl | (apply Fin.ext; simp)

/-- The product of the transpose of a K×M operand with a K×N operand into a zero accumulator, at (i, j). -/
theorem matmul_transposedLhs_apply {φ₁ φ₂ : FTy} (a : FVec Ideal ⟨2, ![K, M]⟩ φ₁) (b : FVec Ideal ⟨2, ![K, N]⟩ φ₂)
    (i : Fin M) (j : Fin N) :
    FloatOps.matmul (D) none a b (constant ⟨2, ![M, N]⟩ .f32 0x00000000#32) (ix2 i j)
      = ∑ k : Fin K, a (ix2 k i) * b (ix2 k j) := by
  rw [Ideal.matmul_constant_zero_apply, ← Equiv.sum_comp (contrEquiv1 (D) K tlhs_rank tlhs_size).symm]
  refine Finset.sum_congr rfl fun k _ => ?_
  have hl : (D).lhsIdx (ix2 i j) ((contrEquiv1 (D) K tlhs_rank tlhs_size).symm k) = ix2 k i := by
    funext ax
    match ax with
    | ⟨0, _⟩ =>
      refine Fin.ext ?_
      rw [show (⟨0, by decide⟩ : Fin 2) = (0 : Fin 2) from rfl, DotDims.lhsIdx_val_of_single (D) (cl := (0 : Fin 2)) rfl]
      exact contrEquiv1_symm_val (D) K tlhs_rank tlhs_size k
    | ⟨1, _⟩ => exact tlhs_lhs_col i j _
  have hr : (D).rhsIdx (ix2 i j) ((contrEquiv1 (D) K tlhs_rank tlhs_size).symm k) = ix2 k j := by
    funext ax
    match ax with
    | ⟨0, _⟩ =>
      refine Fin.ext ?_
      rw [show (⟨0, by decide⟩ : Fin 2) = (0 : Fin 2) from rfl, DotDims.rhsIdx_val_of_single (D) (cr := (0 : Fin 2)) rfl]
      exact contrEquiv1_symm_val (D) K tlhs_rank tlhs_size k
    | ⟨1, _⟩ => exact tlhs_rhs_col i j _
  rw [hl, hr]

end TransposedLhs

end Cert.LibMatmul2d

end
-- ==== Proof.LibRowwise.lean ====
/-
  Matrices read row by row, at the exact instance and for any extents.

  Two layout operations in their column forms — a vector made a one-column matrix (`[a] → [a, 1]`, what a sum that keeps
  its axis prints) and a one-column matrix repeated along its rows (`[a, 1] → [a, b]`) — read at an index written by
  coordinates, beside the library's row forms, so that "a per-row quantity broadcast over the row" and "a per-column
  quantity broadcast down the column" are each one rewrite.

  And the reductions of a matrix over its LAST axis read at a row: a sum is the sum over the row's entries, a maximum
  the fold of `max` over them from the starting value, on the vector unit (`multiReduction`) and on the host
  (`Host.reduceAdd`, `Host.reduce`) alike. The reduced index with a coordinate put back on the dropped axis is
  (row, coordinate): `lift_lastAxis`.
-/
import Idealize.ShloMosaic.Lib.ValueLayout
import Idealize.ShloMosaic.Lib.IdealHost
import Idealize.ShloMosaic.PureOps.Ideal.Laws

noncomputable section

namespace Cert.LibRowwise

open Idealize.ShloMosaic Idealize.ShloMosaic.ValueIdx
open scoped BigOperators

variable {α : Type}

/-! ## Column layouts -/

/-- An `[a]` array cast to `[a, 1]` reads, at `(i, u)`, the operand at `i`, whatever the unit coordinate `u`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- An `[a, 1]` array broadcast to `[a, b]` reads, at `(p, c)`, the operand's one column at `p`. -/
theorem broadcastTo_a1_ab_apply {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- A per-row quantity `x : [a]`, kept as a column and repeated along the rows, reads `x p` everywhere in row `p`. -/
theorem perRow_apply {a b : ℕ} (x : (⟨1, ![a]⟩ : Shape).Idx → α) (h₁ : (⟨1, ![a]⟩ : Shape).ShapeCasts ⟨2, ![a, 1]⟩)
    (h₂ : (⟨2, ![a, 1]⟩ : Shape).Broadcasts ⟨2, ![a, b]⟩) (p : Fin a) (c : Fin b) :
    broadcastTo ⟨2, ![a, b]⟩ (shapeCast ⟨2, ![a, 1]⟩ x h₁) h₂ (ix2 p c) = x (ix1 p) :=
  (broadcastTo_a1_ab_apply _ h₂ p c).trans (shapeCast_a_a1_apply x h₁ p 0)

/-- A per-column quantity `x : [b]`, laid as one row and repeated down the rows, reads `x c` everywhere in column `c`. -/
theorem perColumn_apply {a b : ℕ} (x : (⟨1, ![b]⟩ : Shape).Idx → α) (h₁ : (⟨1, ![b]⟩ : Shape).ShapeCasts ⟨2, ![1, b]⟩)
    (h₂ : (⟨2, ![1, b]⟩ : Shape).Broadcasts ⟨2, ![a, b]⟩) (p : Fin a) (c : Fin b) :
    broadcastTo ⟨2, ![a, b]⟩ (shapeCast ⟨2, ![1, b]⟩ x h₁) h₂ (ix2 p c) = x (ix1 c) :=
  (broadcastTo_1b_ab_apply _ h₂ p c).trans (shapeCast_a_1a_apply x h₁ 0 c)

/-! ## Reductions over the last axis, at a row -/

/-- Row `p` with the coordinate `k` put back on the dropped last axis is the matrix index `(p, k)`. -/
theorem lift_lastAxis {a b : ℕ} (h : (⟨2, ![a, b]⟩ : Shape).Reduces [1] ⟨1, ![a]⟩) (p : Fin a) (k : Fin b) :
    h.lift (ix1 p) k = ix2 p k := by
  funext c
  apply Fin.ext
  show h.liftVal (ix1 p) k.val c = _
  unfold Shape.Reduces.liftVal
  match c with
  | ⟨0, _⟩ => exact (dif_neg (show ¬((0 : ℕ) = 1) by omega)).trans (dif_pos (show (0 : ℕ) < 1 by omega))
  | ⟨1, _⟩ => exact dif_pos (show (1 : ℕ) = 1 from rfl)

/-- The vector unit's sum of a matrix over its last axis, at row `p`: the sum of the row's entries. -/
theorem rowSum_apply {φ : FTy} {a b : ℕ} (src : FVec Ideal ⟨2, ![a, b]⟩ φ) (acc : BitVec φ.bits)
    (h : (⟨2, ![a, b]⟩ : Shape).Reduces [1] ⟨1, ![a]⟩) (hφ : FKind.Formats φ) (hacc : acc = FKind.add.neutral φ hφ)
    (p : Fin a) :
    multiReduction .add [1] ⟨1, ![a]⟩ src acc h hφ hacc (ix1 p) = ∑ k : Fin b, src (ix2 p k) :=
  (Ideal.multiReduction_add_single src acc h hφ hacc (ix1 p)).trans
    (Finset.sum_congr rfl fun k _ => congrArg src (lift_lastAxis h p k))

/-- The vector unit's maximum of a matrix over its last axis, at row `p`: the fold of `max` over the row's entries,
    from the accumulator's value. -/
theorem rowMax_apply {φ : FTy} {a b : ℕ} (src : FVec Ideal ⟨2, ![a, b]⟩ φ) (acc : BitVec φ.bits)
    (h : (⟨2, ![a, b]⟩ : Shape).Reduces [1] ⟨1, ![a]⟩) (hφ : FKind.Formats φ) (hacc : acc = FKind.maximumf.neutral φ hφ)
    (p : Fin a) :
    multiReduction .maximumf [1] ⟨1, ![a]⟩ src acc h hφ hacc (ix1 p)
      = (Finset.univ : Finset (Fin b)).fold max (Ideal.ofBits φ acc) (fun k => src (ix2 p k)) :=
  (Ideal.multiReduction_maximumf_single src acc h hφ hacc (ix1 p)).trans
    (congrArg (fun f => (Finset.univ : Finset (Fin b)).fold max (Ideal.ofBits φ acc) f)
      (funext fun k => congrArg src (lift_lastAxis h p k)))

/-- The host's sum of a matrix over its last axis, at row `p`: the initial value plus the sum of the row's entries. -/
theorem hostRowSum_apply {φ : FTy} {a b : ℕ} {u : Shape} (x : FVec Ideal ⟨2, ![a, b]⟩ φ) (init : u.Idx → Ideal φ)
    (h' : (⟨2, ![a, b]⟩ : Shape).ReducesTo [1] ⟨1, ![a]⟩) (h : (⟨2, ![a, b]⟩ : Shape).Reduces [1] ⟨1, ![a]⟩)
    (hu : 0 < u.numel) (p : Fin a) :
    Host.reduceAdd x init h' hu (ix1 p) = init (Shape.Idx.first hu) + ∑ k : Fin b, x (ix2 p k) :=
  (hostReduceAdd_apply x init h' hu (ix1 p)).trans
    ((Ideal.hostReduceAdd_single h' h x _ (ix1 p)).trans
      (congrArg (init (Shape.Idx.first hu) + ·) (Finset.sum_congr rfl fun k _ => congrArg x (lift_lastAxis h p k))))

/-- The host's maximum of a matrix over its last axis, at row `p`: the fold of `max` over the row's entries, from the
    initial value. -/
theorem hostRowMax_apply {φ : FTy} {a b : ℕ} {u : Shape} (x : FVec Ideal ⟨2, ![a, b]⟩ φ) (init : u.Idx → Ideal φ)
    (h' : (⟨2, ![a, b]⟩ : Shape).ReducesTo [1] ⟨1, ![a]⟩) (h : (⟨2, ![a, b]⟩ : Shape).Reduces [1] ⟨1, ![a]⟩)
    (hu : 0 < u.numel) (p : Fin a) :
    Host.reduce (FloatOps.maximumf (F := Ideal) (φ := φ)) x init h' hu (ix1 p)
      = (Finset.univ : Finset (Fin b)).fold max (init (Shape.Idx.first hu)) (fun k => x (ix2 p k)) :=
  (Host.reduce_eq_fold_single (FloatOps.maximumf (F := Ideal) (φ := φ)) x init h' h hu (ix1 p)).trans
    (congrArg (fun f => (Finset.univ : Finset (Fin b)).fold max (init (Shape.Idx.first hu)) f)
      (funext fun k => congrArg x (lift_lastAxis h p k)))

end Cert.LibRowwise

end
-- ==== Proof.Value.PayDeg.lean ====
/-
  The three payloads of the degree phase, read at an index at the exact instance.

  The degree row is cleared to zero. Each band then adds its column sums: the product of a column of ones with the band,
  contracted over the band's 512 rows, is the sum of the band's entries in the column. The column `miss` is computed
  from the diagonal square: the square times the indicator of the diagonal (the two coordinate counters compared),
  summed along the row, leaves the diagonal entry; where that is positive the value is zero, elsewhere one.
-/
import proofs.«101174_g88562225643609_cont_sun_c4_799_5_alg».proof.Proof.Gen.KernelIdeal.Skeleton
import proofs.«101174_g88562225643609_cont_sun_c4_799_5_alg».proof.Proof.LibMatmul2d
import proofs.«101174_g88562225643609_cont_sun_c4_799_5_alg».proof.Proof.LibRowwise
import Idealize.ShloMosaic.Lib.ValueLayout
import Idealize.ShloMosaic.Lib.Pipeline.Value
import Idealize.ShloMosaic.Lib.IdealHost
import Idealize.ShloMosaic.PureOps.Ideal.Laws

set_option maxRecDepth 16384

noncomputable section

namespace Cert.KernelIdeal.ValueAt

open Cert.KernelIdeal Cert.KernelIdeal.Gen
open Idealize.ShloMosaic Idealize.ShloMosaic.TcCoe Idealize.ShloMosaic.ValueIdx
open Idealize.SL.Sem
open Idealize.ShloMosaic.Pipeline (Dat Cfg Window)
open scoped BigOperators

/-- The cleared degree row. -/
theorem pay2_apply (u : Fin 1) (q : Fin 4096) : k0_pay2 (F := Ideal) (ix2 u q) = 0 := by
  unfold k0_pay2
  rw [shapeCast_self]
  exact Ideal.ofBits_zero_f32

/-- One band's column sums added to the degree row. -/
theorem pay3_apply (band : Vec Ideal S512x4096 .f32) (prev : Vec Ideal S1x4096 .f32) (u : Fin 1) (q : Fin 4096) :
    k0_pay3 band prev (ix2 u q) = prev (ix2 u q) + ∑ r : Fin 512, band (ix2 r q) := by
  unfold k0_pay3 k0_pay1
  rw [shapeCast_self]
  show prev (ix2 u q) + FloatOps.matmul (F := Ideal) dot_S512x1_S512x4096_S1x4096_0_0_1_1_n_n none _ _ (constant (F := Ideal) S1x4096 .f32 0x00000000#32) (ix2 u q) = _
  rw [show dot_S512x1_S512x4096_S1x4096_0_0_1_1_n_n = Cert.LibMatmul2d.transposedLhs 512 1 4096 from rfl,
    Cert.LibMatmul2d.matmul_transposedLhs_apply]
  refine congrArg (prev (ix2 u q) + ·) (Finset.sum_congr rfl fun r _ => ?_)
  show Ideal.ofBits .bf16 0x3F80#16 * band (ix2 r q) = _
  rw [Ideal.ofBits_one_bf16, one_mul]

/-- The word comparing two coordinates below 512, widened and converted: the indicator of their equality. -/
theorem diagIndicator (r k : Fin 512) :
    (FloatOps.sitofp (F := Ideal) .f32 ((IntOp.cmpi .eq (BitVec.ofNat 32 r.val) (BitVec.ofNat 32 k.val)).setWidth 32) : EReal)
      = if r = k then 1 else 0 := by
  by_cases h : r = k
  · subst h
    rw [if_pos rfl, IntOp.cmpi_eq.mpr rfl]
    show (((((1#1 : BitVec 1).setWidth 32).toInt : ℤ) : ℝ) : EReal) = 1
    rw [show ((1#1 : BitVec 1).setWidth 32).toInt = 1 by decide]
    norm_cast
  · rw [if_neg h]
    have hne : ¬ IntOp.cmpi .eq (BitVec.ofNat 32 r.val) (BitVec.ofNat 32 k.val) = 1#1 := fun e => h (Fin.ext (by
      have e' := congrArg BitVec.toNat (IntOp.cmpi_eq.mp e)
      rw [BitVec.toNat_ofNat, BitVec.toNat_ofNat] at e'
      have := r.isLt; have := k.isLt
      omega))
    rw [eq_zero_of_ne_one hne]
    show (((((0#1 : BitVec 1).setWidth 32).toInt : ℤ) : ℝ) : EReal) = 0
    rw [show ((0#1 : BitVec 1).setWidth 32).toInt = 0 by decide]
    norm_cast

/-- The lane sum of a 512 × 512 block at a row, with the accumulator's proof spelt as the program prints it. -/
theorem rowSum512 (src : FVec Ideal S512x512 .f32) (hφ : FKind.Formats FTy.f32)
    (hacc : (0x00000000#32 : BitVec 32) = 0x00000000#32) (r : Fin 512) :
    multiReduction .add [1] S512 src 0x00000000#32 reduces_S512x512_S512 hφ hacc (ix1 r) = ∑ k : Fin 512, src (ix2 r k) :=
  Cert.LibRowwise.rowSum_apply src _ reduces_S512x512_S512 hφ hacc r

/-- A slice of the column `miss` from the diagonal square: zero where the diagonal entry is positive, one elsewhere. -/
theorem pay4_apply (sq : Vec Ideal S512x512 .f32) (r : Fin 512) (u : Fin 1) :
    k0_pay4 sq (ix2 r u) = if 0 < sq (ix2 r r) then 0 else 1 := by
  unfold k0_pay4
  rw [shapeCast_self, select_apply, cmpf_apply, broadcast_apply, broadcast_apply,
    Cert.LibRowwise.shapeCast_a_a1_apply, rowSum512]
  have hsum : ∑ k : Fin 512, mulf sq (sitofp (F := Ideal) .f32 (extui 32 (cmpi .eq (iota .tc S512x512 32 [0] iota_S512x512_d0_w32)
      (iota .tc S512x512 32 [1] iota_S512x512_d1_w32)) natLt_1_32)) (ix2 r k) = sq (ix2 r r) := by
    rw [Finset.sum_eq_single r]
    · show sq (ix2 r r) * FloatOps.sitofp (F := Ideal) .f32 ((IntOp.cmpi .eq (iota .tc S512x512 32 [0] iota_S512x512_d0_w32 (ix2 r r))
          (iota .tc S512x512 32 [1] iota_S512x512_d1_w32 (ix2 r r))).setWidth 32) = _
      rw [iota_single_apply, iota_single_apply]
      show sq (ix2 r r) * FloatOps.sitofp (F := Ideal) .f32 ((IntOp.cmpi .eq (BitVec.ofNat 32 r.val) (BitVec.ofNat 32 r.val)).setWidth 32) = _
      rw [diagIndicator, if_pos rfl, mul_one]
    · intro k _ hk
      show sq (ix2 r k) * FloatOps.sitofp (F := Ideal) .f32 ((IntOp.cmpi .eq (iota .tc S512x512 32 [0] iota_S512x512_d0_w32 (ix2 r k))
          (iota .tc S512x512 32 [1] iota_S512x512_d1_w32 (ix2 r k))).setWidth 32) = _
      rw [iota_single_apply, iota_single_apply]
      show sq (ix2 r k) * FloatOps.sitofp (F := Ideal) .f32 ((IntOp.cmpi .eq (BitVec.ofNat 32 r.val) (BitVec.ofNat 32 k.val)).setWidth 32) = _
      rw [diagIndicator, if_neg (fun e => hk e.symm), mul_zero]
    · intro h; exact absurd (Finset.mem_univ r) h
  rw [hsum]
  show Scalar.select (Ideal.cmp .ogt (sq (ix2 r r)) (Ideal.ofBits .f32 0x00000000#32)) (Ideal.ofBits .f32 0x00000000#32) (Ideal.ofBits .f32 0x3F800000#32) = _
  rw [Ideal.ofBits_zero_f32, Ideal.ofBits_one_f32]
  by_cases h : 0 < sq (ix2 r r)
  · rw [if_pos h, show Ideal.cmp .ogt (sq (ix2 r r)) 0 = 1#1 by simp [Ideal.cmp, h], select_one]
  · rw [if_neg h, show Ideal.cmp .ogt (sq (ix2 r r)) 0 = 0#1 by simp [Ideal.cmp, h], select_zero]

end Cert.KernelIdeal.ValueAt

end
-- ==== Proof.LibBlockSum.lean ====
/-
  A finite sum over n·B consecutive indices, taken block by block.

  A contraction over a long axis is often computed in pieces: the axis is cut into n blocks of B entries, each block
  is summed by itself, and the partial sums are added up one after another. In a commutative monoid the order and
  the grouping of a finite sum do not matter, so the partial sums add up to the whole sum. Nothing is asked of the
  entries (no finiteness, no ring laws): the statement holds in any additive commutative monoid, the extended reals
  included.
-/
import Mathlib.Algebra.BigOperators.Fin
import Mathlib.Algebra.BigOperators.Ring.Finset
import Mathlib.Logic.Equiv.Fin.Basic

namespace Cert.LibBlockSum

open scoped BigOperators

variable {β : Type*} [AddCommMonoid β]

/-- The position, among n·B consecutive indices, of entry `r` of block `s`: `s·B + r`. -/
def blockIdx {n B : ℕ} (s : Fin n) (r : Fin B) : Fin (n * B) := finProdFinEquiv (s, r)

theorem blockIdx_val {n B : ℕ} (s : Fin n) (r : Fin B) : (blockIdx s r).val = r.val + B * s.val := rfl

/-- A sum over n·B indices is the sum, over the n blocks, of each block's B entries. -/
theorem sum_eq_sum_blocks (n B : ℕ) (g : Fin (n * B) → β) :
    ∑ k : Fin (n * B), g k = ∑ s : Fin n, ∑ r : Fin B, g (blockIdx s r) := by
  rw [← Equiv.sum_comp finProdFinEquiv g, Fintype.sum_prod_type]
  rfl

/-- The same with the blocks counted by the naturals below n (the form a fold over consecutive steps leaves):
    if `f s` is block `s`'s partial sum for every `s < n`, the partial sums add up to the whole sum. -/
theorem sum_range_blocks (n B : ℕ) (g : Fin (n * B) → β) (f : ℕ → β)
    (hf : ∀ s : Fin n, f s.val = ∑ r : Fin B, g (blockIdx s r)) :
    ∑ s ∈ Finset.range n, f s = ∑ k : Fin (n * B), g k := by
  rw [Finset.sum_range, sum_eq_sum_blocks]
  exact Finset.sum_congr rfl fun s _ => hf s

end Cert.LibBlockSum
-- ==== Proof.Value.Deg.lean ====
/-
  The degree row and the column `miss` after the degree phase, as functions of the adjacency matrix.

  The degree row is a fold over the eight bands: cleared, then each band's column sums added. After n bands it holds
  the sum over the first n·512 rows; after all eight, a sum over 8·512 rows taken block by block, which is the column
  sum of the whole matrix. The column `miss` is written slice by slice from the diagonal squares: row r comes from
  the square at point r / 512, entry (r mod 512, r mod 512), which is the matrix's diagonal entry (r, r).
-/
import proofs.«101174_g88562225643609_cont_sun_c4_799_5_alg».proof.Proof.Value.Blocks
import proofs.«101174_g88562225643609_cont_sun_c4_799_5_alg».proof.Proof.Value.PayDeg
import proofs.«101174_g88562225643609_cont_sun_c4_799_5_alg».proof.Proof.LibBlockSum
import proofs.«101174_g88562225643609_cont_sun_c4_799_5_alg».proof.Proof.Spec

set_option maxRecDepth 16384

noncomputable section

namespace Cert.KernelIdeal.ValueAt

open Cert.KernelIdeal Cert.KernelIdeal.Gen Cert.KernelIdeal.Shared
open Idealize.ShloMosaic Idealize.ShloMosaic.TcCoe Idealize.ShloMosaic.ValueIdx
open Idealize.SL.Sem
open Idealize.ShloMosaic.Pipeline (Dat Cfg Window)
open scoped BigOperators

variable (m : (ℓ : Loc nD τ sig) → Buf (Elt Ideal) ℓ)

/-- The degree row after `n` bands: the sum, over the bands so far, of each band's column sums. -/
theorem degRow_apply (c : Dev nD) (u : Fin 1) (q : Fin 4096) : ∀ (n : ℕ) (h : n ≤ 8),
    degRow m c n h (ix2 u q)
      = ∑ s : Fin n, ∑ r : Fin 512, inAdj m c (⟨512 * s.val + r.val, by have := s.isLt; have := r.isLt; omega⟩ : Fin 4096) q
  | 0, _ => by
    show k0_pay2 (F := Ideal) (ix2 u q) = _
    rw [pay2_apply]
    rfl
  | n + 1, h => by
    show k0_pay3 (iblk m c 1 (pt n (by omega))) (degRow m c n (by omega)) (ix2 u q) = _
    refine (pay3_apply (iblk m c 1 (pt n (by omega))) (degRow m c n (by omega)) u q).trans ?_
    rw [degRow_apply c u q n (by omega)]
    refine Eq.trans ?_ (Fin.sum_univ_castSucc _).symm
    refine congrArg₂ (· + ·) rfl (Finset.sum_congr rfl fun r _ => ?_)
    refine (iblk1_apply m c (pt n (by omega)) r q).trans ?_
    refine congrArg (fun i => inAdj m c i q) (Fin.ext ?_)
    show 512 * (n % 8) + r.val = 512 * n + r.val
    omega

/-- The degree row after all eight bands: the column sums of the whole matrix. -/
theorem degRow8_apply (c : Dev nD) (u : Fin 1) (q : Fin 4096) :
    degRow m c 8 le_rfl (ix2 u q) = ∑ r : Fin 4096, inAdj m c r q := by
  rw [degRow_apply m c u q 8 le_rfl]
  refine ((Cert.LibBlockSum.sum_eq_sum_blocks 8 512 (fun k : Fin (8 * 512) => inAdj m c k q)).trans ?_).symm
  refine Finset.sum_congr rfl fun s _ => Finset.sum_congr rfl fun r _ => ?_
  refine congrArg (fun i => inAdj m c i q) (Fin.ext ?_)
  show (Cert.LibBlockSum.blockIdx s r).val = 512 * s.val + r.val
  rw [Cert.LibBlockSum.blockIdx_val]
  omega

/-- The column `miss`: one where a node's diagonal entry is not positive. -/
theorem missCol_apply (c : Dev nD) (r : Fin 4096) (u : Fin 1) :
    missCol m c (ix2 r u) = GCN.miss (inAdj m c) r := by
  have hr := r.isLt
  show k0_pay4 (iblk m c 2 (pt (r.val / 512) (by omega))) (ix2 (⟨r.val % 512, Nat.mod_lt _ (by decide)⟩ : Fin 512) (0 : Fin 1)) = _
  refine (pay4_apply (iblk m c 2 (pt (r.val / 512) (by omega))) ⟨r.val % 512, Nat.mod_lt _ (by decide)⟩ 0).trans ?_
  rw [iblk2_apply]
  unfold GCN.miss
  have e : (⟨512 * ((pt (r.val / 512) (by omega)).val % 8) + (⟨r.val % 512, Nat.mod_lt _ (by decide)⟩ : Fin 512).val, by
      show 512 * ((r.val / 512) % 8) + r.val % 512 < 4096; omega⟩ : Fin 4096) = r := Fin.ext (by
    show 512 * ((r.val / 512) % 8) + r.val % 512 = r.val; omega)
  rw [e]

end Cert.KernelIdeal.ValueAt

end
-- ==== Proof.LibHostStack.lean ====
/-
  Stacks of matrices on the host, read at an index by coordinates, for any extents.

  A rank-3 array [K, a, b] is a stack of K matrices. Three layout steps move between the stack and its matrices:
  cutting slab k out of the stack and dropping the unit axis ([K, a, b] → [1, a, b] → [a, b]) reads the stack at
  (k, n, d); laying a matrix out as a stack of one ([a, b] → [1, a, b]) reads the matrix at (n, d) whatever the unit
  coordinate; joining four stacks of one along the leading axis reads piece k. At the exact instance the host's
  matrix product of an M × K by a K × N operand is the textbook sum over the K products.
-/
import Idealize.ShloMosaic.Lib.ValueIdx
import Idealize.ShloMosaic.Lib.ValueLayout
import Idealize.ShloMosaic.Lib.Pipeline.Value
import Idealize.ShloMosaic.Lib.KernelVsHost
import proofs.«101174_g88562225643609_cont_sun_c4_799_5_alg».proof.Proof.LibMatmul2d

noncomputable section

namespace Cert.LibHostStack

open Idealize.ShloMosaic Idealize.ShloMosaic.ValueIdx
open scoped BigOperators

variable {α : Type}

/-- Slab `k` of a stack, as a matrix: the slice of extent one at offset `k` along the leading axis, its unit axis
    dropped, reads at (n, d) the stack at (k, n, d). -/
theorem slab_apply {K a b : ℕ} (o : ℕ) (y : (⟨3, ![K, a, b]⟩ : Shape).Idx → α)
    (hs : (⟨3, ![K, a, b]⟩ : Shape).Slices ![o, 0, 0] ⟨3, ![1, a, b]⟩)
    (hc : (⟨3, ![1, a, b]⟩ : Shape).ShapeCasts ⟨2, ![a, b]⟩) (k : Fin K) (hk : k.val = o) (n : Fin a) (d : Fin b) :
    shapeCast ⟨2, ![a, b]⟩ (extractStridedSlice ⟨3, ![1, a, b]⟩ ![o, 0, 0] y hs) hc (ix2 n d) = y (ix3 k n d) := by
  refine (shapeCast_1ab_ab_apply _ hc n d).trans ?_
  refine extractStridedSlice_apply _ y hs _ _ fun ax => ?_
  match ax with
  | ⟨0, _⟩ => show k.val = o + 0; omega
  | ⟨1, _⟩ => show n.val = 0 + n.val; omega
  | ⟨2, _⟩ => show d.val = 0 + d.val; omega

/-- A matrix laid out as a stack of one reads, at (u, n, d), the matrix at (n, d). -/
theorem lift_apply {a b : ℕ} (z : (⟨2, ![a, b]⟩ : Shape).Idx → α)
    (h : (⟨2, ![a, b]⟩ : Shape).BroadcastsInDim ⟨3, ![1, a, b]⟩ (![1, 2] : Fin 2 → Fin 3)) (u : Fin 1) (n : Fin a) (d : Fin b) :
    broadcastInDim ⟨3, ![1, a, b]⟩ ![1, 2] h z (ix3 u n d) = z (ix2 n d) := by
  have hn := n.isLt
  have hd := d.isLt
  refine broadcastInDim_apply _ h z _ _ fun ax => ?_
  match ax with
  | ⟨0, _⟩ => show n.val = if a = 1 then 0 else n.val; split_ifs with h1 <;> omega
  | ⟨1, _⟩ => show d.val = if b = 1 then 0 else d.val; split_ifs with h1 <;> omega

/-- Four stacks of one joined along the leading axis read, at (k, n, d), piece `k` at (0, n, d). -/
theorem stack4_apply {a b : ℕ} (p0 p1 p2 p3 : (⟨3, ![1, a, b]⟩ : Shape).Idx → α)
    (h : Shape.Concatenates [(⟨3, ![1, a, b]⟩ : Shape), ⟨3, ![1, a, b]⟩, ⟨3, ![1, a, b]⟩, ⟨3, ![1, a, b]⟩] ⟨3, ![4, a, b]⟩ 0)
    (k : Fin 4) (n : Fin a) (d : Fin b) :
    concatenate ⟨3, ![4, a, b]⟩ 0 [⟨⟨3, ![1, a, b]⟩, p0⟩, ⟨⟨3, ![1, a, b]⟩, p1⟩, ⟨⟨3, ![1, a, b]⟩, p2⟩, ⟨⟨3, ![1, a, b]⟩, p3⟩] h (ix3 k n d)
      = (![p0, p1, p2, p3] k) (ix3 (0 : Fin 1) n d) :=
  concatenate_ofFn_unit_apply (t := ⟨3, ![4, a, b]⟩) (s₁ := ⟨3, ![1, a, b]⟩) (0 : Fin 3) (fun q : Fin 4 => ![p0, p1, p2, p3] q) h rfl rfl
    (ix3 k n d) k rfl (ix3 (0 : Fin 1) n d) (fun bx hb => by
      match bx with
      | ⟨0, _⟩ => exact absurd rfl hb
      | ⟨1, _⟩ => rfl
      | ⟨2, _⟩ => rfl)

/-- The host's product of an M × K by a K × N operand at the exact instance, at (i, j). -/
theorem dotGeneral_plain_apply {M K N : ℕ} {φ₁ φ₂ : FTy} (x : FVec Ideal ⟨2, ![M, K]⟩ φ₁) (y : FVec Ideal ⟨2, ![K, N]⟩ φ₂)
    (i : Fin M) (j : Fin N) :
    Host.dotGeneral (DotDims.plain M K N) none x y (ix2 i j) = ∑ k : Fin K, x (ix2 i k) * y (ix2 k j) := by
  rw [← matmul_zero_eq_dotGeneral]
  exact Cert.LibMatmul2d.matmul_plain_apply x y i j

end Cert.LibHostStack

end
-- ==== Proof.LibColumns.lean ====
/-
  Columns of a matrix, and a matrix assembled from columns, read at an index — for any extents and any element type.

  A column taken out of an `[a, n]` matrix as a one-column slice and flattened to a vector reads, at `i`, the matrix
  at `(i, column)`. A vector made a one-column matrix again (by a broadcast along a new trailing unit axis) reads the
  vector at the row. Twelve one-column matrices laid side by side read, at `(r, k)`, the `k`-th of them at row `r`.
  And a vector of per-column values laid as one row by a broadcast (`[b] → [1, b]`) and repeated down the rows by another
  (`[1, b] → [a, b]`) reads, at `(p, c)`, the vector at `c`.
-/
import Idealize.ShloMosaic.Lib.ValueLayout
import Idealize.ShloMosaic.Lib.Pipeline.Value

noncomputable section

namespace Cert.LibColumns

open Idealize.ShloMosaic Idealize.ShloMosaic.ValueIdx

variable {α : Type}

/-! ## One column in, one column out -/

/-- An `[a, 1]` array cast to `[a]` reads, at `i`, the operand's one column at row `i`. -/
theorem shapeCast_a1_a_apply {a : ℕ} (x : (⟨2, ![a, 1]⟩ : Shape).Idx → α) (h : (⟨2, ![a, 1]⟩ : Shape).ShapeCasts ⟨1, ![a]⟩)
    (i : Fin a) : shapeCast ⟨1, ![a]⟩ x h (ix1 i) = x (ix2 i (0 : Fin 1)) :=
  shapeCast_apply x h _ _ (by
    rw [Shape.rowMajor_val_two, Shape.rowMajor_val_one]
    show i.val * 1 + 0 = i.val
    rw [Nat.mul_one, Nat.add_zero])

/-- Column `k` of an `[a, n]` matrix — the one-column slice at offset `o = k`, cast to a vector — reads, at `i`,
    the matrix at `(i, k)`. -/
theorem column_apply {a n : ℕ} (o : ℕ) (x : (⟨2, ![a, n]⟩ : Shape).Idx → α)
    (hs : (⟨2, ![a, n]⟩ : Shape).Slices ![0, o] ⟨2, ![a, 1]⟩) (hc : (⟨2, ![a, 1]⟩ : Shape).ShapeCasts ⟨1, ![a]⟩)
    (i : Fin a) (k : Fin n) (hk : k.val = o) :
    shapeCast ⟨1, ![a]⟩ (extractStridedSlice ⟨2, ![a, 1]⟩ ![0, o] x hs) hc (ix1 i) = x (ix2 i k) :=
  (shapeCast_a1_a_apply _ hc i).trans (slice2_axis1_apply o x hs i (0 : Fin 1) k (by show k.val = o + 0; omega))

/-- A vector `[a]` broadcast along a new trailing unit axis (`dims = [0]`) reads, at `(i, u)`, the vector at `i`. -/
theorem broadcastInDim_a_a1_apply {a : ℕ} (x : (⟨1, ![a]⟩ : Shape).Idx → α)
    (h : (⟨1, ![a]⟩ : Shape).BroadcastsInDim ⟨2, ![a, 1]⟩ (![0] : Fin 1 → Fin (⟨2, ![a, 1]⟩ : Shape).rank))
    (i : Fin a) (u : Fin 1) : broadcastInDim ⟨2, ![a, 1]⟩ ![0] h x (ix2 i u) = x (ix1 i) := by
  refine broadcastInDim_apply _ h x (ix2 i u) (ix1 i) fun ax => ?_
  match ax with
  | ⟨0, _⟩ =>
    show i.val = if a = 1 then 0 else i.val
    split
    · have := i.isLt; omega
    · rfl

/-! ## A row of per-column values over a matrix, the host's way -/

/-- A vector `[b]` laid as one row by a broadcast (`dims = [1]`) reads, at `(u, c)`, the vector at `c`. -/
theorem broadcastInDim_b_1b_apply {b : ℕ} (x : (⟨1, ![b]⟩ : Shape).Idx → α)
    (h : (⟨1, ![b]⟩ : Shape).BroadcastsInDim ⟨2, ![1, b]⟩ (![1] : Fin 1 → Fin (⟨2, ![1, b]⟩ : Shape).rank))
    (u : Fin 1) (c : Fin b) : broadcastInDim ⟨2, ![1, b]⟩ ![1] h x (ix2 u c) = x (ix1 c) := by
  refine broadcastInDim_apply _ h x (ix2 u c) (ix1 c) fun ax => ?_
  match ax with
  | ⟨0, _⟩ =>
    show c.val = if b = 1 then 0 else c.val
    split
    · have := c.isLt; omega
    · rfl

/-- A one-row matrix `[1, b]` repeated down `a` rows by a broadcast (`dims = [0, 1]`) reads, at `(p, c)`, the row at `c`. -/
theorem broadcastInDim_1b_ab_apply {a b : ℕ} (x : (⟨2, ![1, b]⟩ : Shape).Idx → α)
    (h : (⟨2, ![1, b]⟩ : Shape).BroadcastsInDim ⟨2, ![a, b]⟩ (![0, 1] : Fin 2 → Fin (⟨2, ![a, b]⟩ : Shape).rank))
    (p : Fin a) (c : Fin b) : broadcastInDim ⟨2, ![a, b]⟩ ![0, 1] h x (ix2 p c) = x (ix2 (0 : Fin 1) c) := by
  refine broadcastInDim_apply _ h x (ix2 p c) (ix2 (0 : Fin 1) c) fun ax => ?_
  match ax with
  | ⟨0, _⟩ => exact (if_pos rfl).symm
  | ⟨1, _⟩ =>
    show c.val = if b = 1 then 0 else c.val
    split
    · have := c.isLt; omega
    · rfl

/-- Per-column values `x : [b]` laid as a row and repeated down the rows, both by broadcasts: `x c` everywhere in column `c`. -/
theorem perColumnHost_apply {a b : ℕ} (x : (⟨1, ![b]⟩ : Shape).Idx → α)
    (h₁ : (⟨1, ![b]⟩ : Shape).BroadcastsInDim ⟨2, ![1, b]⟩ (![1] : Fin 1 → Fin (⟨2, ![1, b]⟩ : Shape).rank))
    (h₂ : (⟨2, ![1, b]⟩ : Shape).BroadcastsInDim ⟨2, ![a, b]⟩ (![0, 1] : Fin 2 → Fin (⟨2, ![a, b]⟩ : Shape).rank))
    (p : Fin a) (c : Fin b) :
    broadcastInDim ⟨2, ![a, b]⟩ ![0, 1] h₂ (broadcastInDim ⟨2, ![1, b]⟩ ![1] h₁ x) (ix2 p c) = x (ix1 c) :=
  (broadcastInDim_1b_ab_apply _ h₂ p c).trans (broadcastInDim_b_1b_apply x h₁ 0 c)

/-! ## Twelve columns side by side -/

/-- Twelve one-column matrices concatenated along the column axis read, at `(r, k)`, the `k`-th of them at row `r`. -/
theorem stack12_apply {a : ℕ} (p0 p1 p2 p3 p4 p5 p6 p7 p8 p9 p10 p11 : (⟨2, ![a, 1]⟩ : Shape).Idx → α)
    (h : Shape.Concatenates [(⟨2, ![a, 1]⟩ : Shape), ⟨2, ![a, 1]⟩, ⟨2, ![a, 1]⟩, ⟨2, ![a, 1]⟩, ⟨2, ![a, 1]⟩, ⟨2, ![a, 1]⟩,
      ⟨2, ![a, 1]⟩, ⟨2, ![a, 1]⟩, ⟨2, ![a, 1]⟩, ⟨2, ![a, 1]⟩, ⟨2, ![a, 1]⟩, ⟨2, ![a, 1]⟩] ⟨2, ![a, 12]⟩ 1)
    (r : Fin a) (k : Fin 12) :
    concatenate ⟨2, ![a, 12]⟩ 1 [⟨⟨2, ![a, 1]⟩, p0⟩, ⟨⟨2, ![a, 1]⟩, p1⟩, ⟨⟨2, ![a, 1]⟩, p2⟩, ⟨⟨2, ![a, 1]⟩, p3⟩,
        ⟨⟨2, ![a, 1]⟩, p4⟩, ⟨⟨2, ![a, 1]⟩, p5⟩, ⟨⟨2, ![a, 1]⟩, p6⟩, ⟨⟨2, ![a, 1]⟩, p7⟩, ⟨⟨2, ![a, 1]⟩, p8⟩,
        ⟨⟨2, ![a, 1]⟩, p9⟩, ⟨⟨2, ![a, 1]⟩, p10⟩, ⟨⟨2, ![a, 1]⟩, p11⟩] h (ix2 r k)
      = (![p0, p1, p2, p3, p4, p5, p6, p7, p8, p9, p10, p11] : Fin 12 → (⟨2, ![a, 1]⟩ : Shape).Idx → α) k (ix2 r (0 : Fin 1)) := by
  refine concatenate_ofFn_unit_apply (t := ⟨2, ![a, 12]⟩) (s₁ := ⟨2, ![a, 1]⟩) (1 : Fin 2) (N := 12)
    (![p0, p1, p2, p3, p4, p5, p6, p7, p8, p9, p10, p11] : Fin 12 → (⟨2, ![a, 1]⟩ : Shape).Idx → α) h rfl rfl (ix2 r k) k rfl
    (ix2 r (0 : Fin 1)) fun b hb => ?_
  match b with
  | ⟨0, _⟩ => rfl
  | ⟨1, _⟩ => exact absurd rfl hb

/-- Twelve values listed, a function applied to the `k`-th of them: it is the `k`-th of the twelve results. -/
theorem vec12_map {β γ : Type} (g : β → γ) (a0 a1 a2 a3 a4 a5 a6 a7 a8 a9 a10 a11 : β)
    (m0 m1 m2 m3 m4 m5 m6 m7 m8 m9 m10 m11 : γ)
    (h0 : g a0 = m0) (h1 : g a1 = m1) (h2 : g a2 = m2) (h3 : g a3 = m3) (h4 : g a4 = m4) (h5 : g a5 = m5)
    (h6 : g a6 = m6) (h7 : g a7 = m7) (h8 : g a8 = m8) (h9 : g a9 = m9) (h10 : g a10 = m10) (h11 : g a11 = m11)
    (k : Fin 12) :
    g ((![a0, a1, a2, a3, a4, a5, a6, a7, a8, a9, a10, a11] : Fin 12 → β) k)
      = (![m0, m1, m2, m3, m4, m5, m6, m7, m8, m9, m10, m11] : Fin 12 → γ) k := by
  subst h0 h1 h2 h3 h4 h5 h6 h7 h8 h9 h10 h11
  fin_cases k <;> rfl

end Cert.LibColumns

end
-- ==== Proof.LibDenseRelu.lean ====
/-
  A dense unit with a rectifier, and a linear read-out, read at an index at the exact instance, for any extents.

  * `vectorDense_apply`: the vector unit's `max (h · W into a zero accumulator + a one-row bias repeated down the rows) 0`
    at `(p, q)` is `max (∑ k, h(p, k) · W(k, q) + b(0, q)) 0`.
  * `hostDense_apply`: the host's `max (dot_general h W + a bias vector laid as a row and repeated down the rows) 0`
    at `(p, q)` is `max (∑ k, h(p, k) · W(k, q) + b q) 0`.
  * `vectorReadout_apply`: the vector unit's row sum of `H ⊙ (a one-row weight repeated down the rows)`, kept as a column,
    plus a 1×1 offset repeated down the rows, at `(p, u)` is `∑ k, H(p, k) · w(0, k) + c(0, 0)`.
  * `hostReadout_apply`: the host's `dot_general H W` against a one-column `W` plus a one-entry offset, at `(p, u)`, is
    `∑ k, H(p, k) · W(k, u) + c 0`.
-/
import Idealize.ShloMosaic.Lib.ValueIdx
import Idealize.ShloMosaic.Lib.ValueLayout
import Idealize.ShloMosaic.Lib.Pipeline.Value
import Idealize.ShloMosaic.PureOps.Ideal.Laws
import proofs.«101174_g88562225643609_cont_sun_c4_799_5_alg».proof.Proof.LibMatmul2d
import proofs.«101174_g88562225643609_cont_sun_c4_799_5_alg».proof.Proof.LibHostStack
import proofs.«101174_g88562225643609_cont_sun_c4_799_5_alg».proof.Proof.LibColumns
import proofs.«101174_g88562225643609_cont_sun_c4_799_5_alg».proof.Proof.LibRowwise

noncomputable section

namespace Cert.LibDenseRelu

open Idealize.ShloMosaic Idealize.ShloMosaic.ValueIdx
open scoped BigOperators

variable {n K N : ℕ}

/-- A dense unit with a rectifier on the vector unit, at `(p, q)`. -/
theorem vectorDense_apply {φ₁ φ₂ : FTy} (h : FVec Ideal ⟨2, ![n, K]⟩ φ₁) (W : FVec Ideal ⟨2, ![K, N]⟩ φ₂)
    (b : FVec Ideal ⟨2, ![1, N]⟩ .f32) (hb : (⟨2, ![1, N]⟩ : Shape).Broadcasts ⟨2, ![n, N]⟩) (p : Fin n) (q : Fin N) :
    maximumf (addf (matmul (DotDims.plain n K N) none h W (constant ⟨2, ![n, N]⟩ .f32 0x00000000#32)) (broadcastTo ⟨2, ![n, N]⟩ b hb))
        (broadcast ⟨2, ![n, N]⟩ (Scalar.ofBits .f32 0x00000000#32)) (ix2 p q)
      = max (∑ k : Fin K, h (ix2 p k) * W (ix2 k q) + b (ix2 (0 : Fin 1) q)) 0 := by
  have h1 := Cert.LibMatmul2d.matmul_plain_apply h W p q
  have h2 := broadcastTo_1b_ab_apply b hb p q
  show max (FloatOps.matmul (DotDims.plain n K N) none h W (constant ⟨2, ![n, N]⟩ .f32 0x00000000#32) (ix2 p q)
      + broadcastTo ⟨2, ![n, N]⟩ b hb (ix2 p q)) (Ideal.ofBits .f32 0x00000000#32) = _
  rw [h1, h2, Ideal.ofBits_zero_f32]

/-- A dense unit with a rectifier on the host, at `(p, q)`. -/
theorem hostDense_apply {φ₁ φ₂ : FTy} (h : FVec Ideal ⟨2, ![n, K]⟩ φ₁) (W : FVec Ideal ⟨2, ![K, N]⟩ φ₂)
    (b : FVec Ideal ⟨1, ![N]⟩ .f32)
    (h₁ : (⟨1, ![N]⟩ : Shape).BroadcastsInDim ⟨2, ![1, N]⟩ (![1] : Fin 1 → Fin (⟨2, ![1, N]⟩ : Shape).rank))
    (h₂ : (⟨2, ![1, N]⟩ : Shape).BroadcastsInDim ⟨2, ![n, N]⟩ (![0, 1] : Fin 2 → Fin (⟨2, ![n, N]⟩ : Shape).rank))
    (h₀ : (⟨0, ![]⟩ : Shape).BroadcastsInDim ⟨2, ![n, N]⟩ (![] : Fin 0 → Fin (⟨2, ![n, N]⟩ : Shape).rank))
    (p : Fin n) (q : Fin N) :
    maximumf (addf (Host.dotGeneral (DotDims.plain n K N) none h W)
          (broadcastInDim ⟨2, ![n, N]⟩ ![0, 1] h₂ (broadcastInDim ⟨2, ![1, N]⟩ ![1] h₁ b)))
        (broadcastInDim ⟨2, ![n, N]⟩ ![] h₀ (constant (F := Ideal) ⟨0, ![]⟩ .f32 0x00000000#32)) (ix2 p q)
      = max (∑ k : Fin K, h (ix2 p k) * W (ix2 k q) + b (ix1 q)) 0 := by
  have h1 := Cert.LibHostStack.dotGeneral_plain_apply h W p q
  have h2 := Cert.LibColumns.perColumnHost_apply (a := n) b h₁ h₂ p q
  have h3 : broadcastInDim ⟨2, ![n, N]⟩ ![] h₀ (constant (F := Ideal) ⟨0, ![]⟩ .f32 0x00000000#32) (ix2 p q) = 0 :=
    (broadcastInDim_apply _ h₀ _ (ix2 p q) (fun a => a.elim0) (fun a => a.elim0)).trans Ideal.ofBits_zero_f32
  show max (Host.dotGeneral (DotDims.plain n K N) none h W (ix2 p q)
      + broadcastInDim ⟨2, ![n, N]⟩ ![0, 1] h₂ (broadcastInDim ⟨2, ![1, N]⟩ ![1] h₁ b) (ix2 p q))
      (broadcastInDim ⟨2, ![n, N]⟩ ![] h₀ (constant (F := Ideal) ⟨0, ![]⟩ .f32 0x00000000#32) (ix2 p q)) = _
  rw [h1, h2, h3]

/-- The read-out on the vector unit, at `(p, u)`. -/
theorem vectorReadout_apply (H : FVec Ideal ⟨2, ![n, K]⟩ .f32) (w : FVec Ideal ⟨2, ![1, K]⟩ .f32) (c : FVec Ideal ⟨2, ![1, 1]⟩ .f32)
    (hw : (⟨2, ![1, K]⟩ : Shape).Broadcasts ⟨2, ![n, K]⟩) (hc : (⟨2, ![1, 1]⟩ : Shape).Broadcasts ⟨2, ![n, 1]⟩)
    (hr : (⟨2, ![n, K]⟩ : Shape).Reduces [1] ⟨1, ![n]⟩) (hφ : FKind.Formats FTy.f32)
    (hacc : (0x00000000#32 : BitVec FTy.f32.bits) = FKind.add.neutral .f32 hφ)
    (hs : (⟨1, ![n]⟩ : Shape).ShapeCasts ⟨2, ![n, 1]⟩) (p : Fin n) (u : Fin 1) :
    addf (shapeCast ⟨2, ![n, 1]⟩ (multiReduction .add [1] ⟨1, ![n]⟩ (mulf H (broadcastTo ⟨2, ![n, K]⟩ w hw)) 0x00000000#32 hr hφ hacc) hs)
        (broadcastTo ⟨2, ![n, 1]⟩ c hc) (ix2 p u)
      = ∑ k : Fin K, H (ix2 p k) * w (ix2 (0 : Fin 1) k) + c (ix2 (0 : Fin 1) (0 : Fin 1)) := by
  have h1 := Cert.LibRowwise.shapeCast_a_a1_apply
    (multiReduction .add [1] ⟨1, ![n]⟩ (mulf H (broadcastTo ⟨2, ![n, K]⟩ w hw)) 0x00000000#32 hr hφ hacc) hs p u
  have h2 := Cert.LibRowwise.rowSum_apply (mulf H (broadcastTo ⟨2, ![n, K]⟩ w hw)) 0x00000000#32 hr hφ hacc p
  have h3 := broadcastTo_1b_ab_apply c hc p u
  have hu : u = 0 := Subsingleton.elim _ _
  show shapeCast ⟨2, ![n, 1]⟩ (multiReduction .add [1] ⟨1, ![n]⟩ (mulf H (broadcastTo ⟨2, ![n, K]⟩ w hw)) 0x00000000#32 hr hφ hacc) hs (ix2 p u)
      + broadcastTo ⟨2, ![n, 1]⟩ c hc (ix2 p u) = _
  rw [h1, h2, h3, hu]
  refine congrArg (· + c (ix2 (0 : Fin 1) (0 : Fin 1))) (Finset.sum_congr rfl fun k _ => ?_)
  show H (ix2 p k) * broadcastTo ⟨2, ![n, K]⟩ w hw (ix2 p k) = _
  rw [broadcastTo_1b_ab_apply w hw p k]

/-- The read-out on the host, at `(p, u)`. -/
theorem hostReadout_apply (H : FVec Ideal ⟨2, ![n, K]⟩ .f32) (W : FVec Ideal ⟨2, ![K, 1]⟩ .f32) (c : FVec Ideal ⟨1, ![1]⟩ .f32)
    (h₁ : (⟨1, ![1]⟩ : Shape).BroadcastsInDim ⟨2, ![1, 1]⟩ (![1] : Fin 1 → Fin (⟨2, ![1, 1]⟩ : Shape).rank))
    (h₂ : (⟨2, ![1, 1]⟩ : Shape).BroadcastsInDim ⟨2, ![n, 1]⟩ (![0, 1] : Fin 2 → Fin (⟨2, ![n, 1]⟩ : Shape).rank))
    (p : Fin n) (u : Fin 1) :
    addf (Host.dotGeneral (DotDims.plain n K 1) none H W)
        (broadcastInDim ⟨2, ![n, 1]⟩ ![0, 1] h₂ (broadcastInDim ⟨2, ![1, 1]⟩ ![1] h₁ c)) (ix2 p u)
      = ∑ k : Fin K, H (ix2 p k) * W (ix2 k u) + c (ix1 (0 : Fin 1)) := by
  have h1 := Cert.LibHostStack.dotGeneral_plain_apply H W p u
  have h2 := Cert.LibColumns.perColumnHost_apply (a := n) c h₁ h₂ p u
  have hu : u = 0 := Subsingleton.elim _ _
  show Host.dotGeneral (DotDims.plain n K 1) none H W (ix2 p u)
      + broadcastInDim ⟨2, ![n, 1]⟩ ![0, 1] h₂ (broadcastInDim ⟨2, ![1, 1]⟩ ![1] h₁ c) (ix2 p u) = _
  rw [h1, h2, hu]

end Cert.LibDenseRelu

end
-- ==== Proof.Value.PayMsg.lean ====
/-
  The payloads of the transition point, read at an index at the exact instance.

  The degree row plus the column `miss` (transposed into a row), clamped below by one, under the inverse square root, is
  the normalisation. The node features pass through two dense layers with rectifiers and one product without bias; each
  product into a zero accumulator is a plain sum over the contracted axis, each bias a row repeated down the rows. The
  normalisation, transposed back into a column and repeated along the rows, scales the features into the messages. The
  messages are kept once in the narrow format (the format change is the identity here) and once transposed.
-/
import proofs.«101174_g88562225643609_cont_sun_c4_799_5_alg».proof.Proof.Gen.KernelIdeal.Skeleton
import proofs.«101174_g88562225643609_cont_sun_c4_799_5_alg».proof.Proof.LibMatmul2d
import proofs.«101174_g88562225643609_cont_sun_c4_799_5_alg».proof.Proof.LibRowwise
import Idealize.ShloMosaic.Lib.ValueLayout
import Idealize.ShloMosaic.Lib.Pipeline.Value
import Idealize.ShloMosaic.Lib.IdealHost
import Idealize.ShloMosaic.PureOps.Ideal.Laws
import proofs.«101174_g88562225643609_cont_sun_c4_799_5_alg».proof.Proof.LibDenseRelu

set_option maxRecDepth 16384

noncomputable section

namespace Cert.KernelIdeal.ValueAt

open Cert.KernelIdeal Cert.KernelIdeal.Gen
open Idealize.ShloMosaic Idealize.ShloMosaic.TcCoe Idealize.ShloMosaic.ValueIdx
open Idealize.SL.Sem
open Idealize.ShloMosaic.Pipeline (Dat Cfg Window)
open scoped BigOperators

/-- The normalisation from the degree row and the column `miss`: the inverse square root of their sum clamped below by one. -/
theorem pay10_apply (miss : Vec Ideal S4096x1 .f32) (deg : Vec Ideal S1x4096 .f32) (u : Fin 1) (q : Fin 4096) :
    k0_pay10 miss deg (ix2 u q) = Ideal.rsqrt (max (deg (ix2 u q) + miss (ix2 q (0 : Fin 1))) 1) := by
  unfold k0_pay10
  show Ideal.rsqrt (max (deg (ix2 u q) + transpose S1x4096 [1, 0] miss transposes_S4096x1_p1_0_S1x4096 (ix2 u q)) (Ideal.ofBits .f32 0x3F800000#32)) = _
  rw [transpose_ix2_apply, Ideal.ofBits_one_f32, Subsingleton.elim u (0 : Fin 1)]

/-- As stored: the same row. -/
theorem pay11_apply (miss : Vec Ideal S4096x1 .f32) (deg : Vec Ideal S1x4096 .f32) (u : Fin 1) (q : Fin 4096) :
    k0_pay11 miss deg (ix2 u q) = Ideal.rsqrt (max (deg (ix2 u q) + miss (ix2 q (0 : Fin 1))) 1) := by
  unfold k0_pay11
  rw [shapeCast_self]
  exact pay10_apply miss deg u q

/-- The first dense layer with its rectifier, at (p, q). -/
theorem dense1_apply (x : FVec Ideal S4096x3 .f32) (W : FVec Ideal S3x16 .f32) (b : FVec Ideal S1x16 .f32) (p : Fin 4096) (q : Fin 16) :
    maximumf (addf (matmul dot_S4096x3_S3x16_S4096x16_1_0_0_1_n_n none x W (constant (F := Ideal) S4096x16 .f32 0x00000000#32))
        (broadcastTo S4096x16 (shapeCast S1x16 b shapeCasts_S1x16_S1x16) broadcasts_S1x16_S4096x16))
      (broadcast S4096x16 (Scalar.ofBits (F := Ideal) .f32 0x00000000#32)) (ix2 p q)
    = max (∑ k : Fin 3, x (ix2 p k) * W (ix2 k q) + b (ix2 (0 : Fin 1) q)) 0 := by
  rw [shapeCast_self]
  exact Cert.LibDenseRelu.vectorDense_apply x W b broadcasts_S1x16_S4096x16 p q

/-- The second dense layer with its rectifier, at (p, q). -/
theorem dense2_apply (h : FVec Ideal S4096x16 .f32) (W : FVec Ideal S16x3 .f32) (b : FVec Ideal S1x3 .f32) (p : Fin 4096) (q : Fin 3) :
    maximumf (addf (matmul dot_S4096x16_S16x3_S4096x3_1_0_0_1_n_n none h W (constant (F := Ideal) S4096x3 .f32 0x00000000#32))
        (broadcastTo S4096x3 (shapeCast S1x3 b shapeCasts_S1x3_S1x3) broadcasts_S1x3_S4096x3))
      (broadcast S4096x3 (Scalar.ofBits (F := Ideal) .f32 0x00000000#32)) (ix2 p q)
    = max (∑ k : Fin 16, h (ix2 p k) * W (ix2 k q) + b (ix2 (0 : Fin 1) q)) 0 := by
  rw [shapeCast_self]
  exact Cert.LibDenseRelu.vectorDense_apply h W b broadcasts_S1x3_S4096x3 p q

/-- The last product, without bias, at (p, q). -/
theorem feat_apply (h : FVec Ideal S4096x3 .f32) (W : FVec Ideal S3x3 .f32) (p : Fin 4096) (q : Fin 3) :
    matmul dot_S4096x3_S3x3_S4096x3_1_0_0_1_n_n none h W (constant (F := Ideal) S4096x3 .f32 0x00000000#32) (ix2 p q)
    = ∑ k : Fin 3, h (ix2 p k) * W (ix2 k q) :=
  Cert.LibMatmul2d.matmul_plain_apply h W p q

/-- The messages: the normalisation of the row times the features. -/
theorem pay12_apply (miss : Vec Ideal S4096x1 .f32) (deg : Vec Ideal S1x4096 .f32) (x : Vec Ideal S4096x3 .f32)
    (W1 : Vec Ideal S3x16 .f32) (b1 : Vec Ideal S1x16 .f32) (W3 : Vec Ideal S16x3 .f32) (b3 : Vec Ideal S1x3 .f32)
    (Wg : Vec Ideal S3x3 .f32) (p : Fin 4096) (k : Fin 3) :
    k0_pay12 miss deg x W1 b1 W3 b3 Wg (ix2 p k)
      = Ideal.rsqrt (max (deg (ix2 (0 : Fin 1) p) + miss (ix2 p (0 : Fin 1))) 1)
        * ∑ j : Fin 3, max (∑ i : Fin 16, max (∑ a : Fin 3, x (ix2 p a) * W1 (ix2 a i) + b1 (ix2 (0 : Fin 1) i)) 0 * W3 (ix2 i j)
            + b3 (ix2 (0 : Fin 1) j)) 0 * Wg (ix2 j k) := by
  unfold k0_pay12
  rw [mulf_apply, Cert.LibRowwise.broadcastTo_a1_ab_apply, transpose_ix2_apply, pay10_apply, feat_apply]
  refine congrArg (_ * ·) (Finset.sum_congr rfl fun j _ => ?_)
  rw [dense2_apply]
  refine congrArg (fun s => max (s + b3 (ix2 (0 : Fin 1) j)) 0 * Wg (ix2 j k)) (Finset.sum_congr rfl fun i _ => ?_)
  rw [dense1_apply]

/-- The messages in the narrow format: the format change is the identity. -/
theorem pay13_apply (miss : Vec Ideal S4096x1 .f32) (deg : Vec Ideal S1x4096 .f32) (x : Vec Ideal S4096x3 .f32)
    (W1 : Vec Ideal S3x16 .f32) (b1 : Vec Ideal S1x16 .f32) (W3 : Vec Ideal S16x3 .f32) (b3 : Vec Ideal S1x3 .f32)
    (Wg : Vec Ideal S3x3 .f32) (p : Fin 4096) (k : Fin 3) :
    k0_pay13 miss deg x W1 b1 W3 b3 Wg (ix2 p k) = k0_pay12 miss deg x W1 b1 W3 b3 Wg (ix2 p k) := rfl

/-- As stored: the same matrix. -/
theorem pay5_apply (v : FVec Ideal S4096x3 .bf16) (p : Fin 4096) (k : Fin 3) : k0_pay5 v (ix2 p k) = v (ix2 p k) := by
  unfold k0_pay5
  rw [shapeCast_self]

/-- The messages transposed. -/
theorem pay6_apply (v : FVec Ideal S4096x3 .f32) (k : Fin 3) (p : Fin 4096) : k0_pay6 v (ix2 k p) = v (ix2 p k) := by
  unfold k0_pay6
  rw [shapeCast_self, transpose_ix2_apply]

end Cert.KernelIdeal.ValueAt

end
-- ==== Proof.Value.Msg.lean ====
/-
  The normalisation row and the messages at the transition point, as functions of the argument arrays.

  With the degree row at the whole matrix's column sums and the column `miss` at the missing self loops, the
  normalisation at a node is the inverse square root of its clamped degree. The blocks of the features, weights and
  bias rows are their arrays, so the messages are each node's features after the two dense layers and the last
  product, scaled by the node's normaliser; the narrow copy and the transposed copy hold the same numbers.
-/
import proofs.«101174_g88562225643609_cont_sun_c4_799_5_alg».proof.Proof.Value.Deg
import proofs.«101174_g88562225643609_cont_sun_c4_799_5_alg».proof.Proof.Value.PayMsg
import proofs.«101174_g88562225643609_cont_sun_c4_799_5_alg».proof.Proof.Spec

set_option maxRecDepth 16384

noncomputable section

namespace Cert.KernelIdeal.ValueAt

open Cert.KernelIdeal Cert.KernelIdeal.Gen Cert.KernelIdeal.Shared
open Idealize.ShloMosaic Idealize.ShloMosaic.TcCoe Idealize.ShloMosaic.ValueIdx
open Idealize.SL.Sem
open Idealize.ShloMosaic.Pipeline (Dat Cfg Window)
open scoped BigOperators

variable (m : (ℓ : Loc nD τ sig) → Buf (Elt Ideal) ℓ)

/-- The node features entering the convolution, of the argument arrays. -/
abbrev featOf (c : Dev nD) : Fin 4096 → Fin 3 → EReal :=
  GCN.feat (inX m c) (inW1 m c) (inB1 m c) (inW3 m c) (inB3 m c) (inWg m c)

/-- The normalisation row: the inverse square root of each node's clamped degree. -/
theorem normRow_apply (c : Dev nD) (u : Fin 1) (q : Fin 4096) : normRow m c (ix2 u q) = GCN.dinvK (inAdj m c) q := by
  show k0_pay11 (missCol m c) (degRow m c 8 le_rfl) (ix2 u q) = _
  refine (pay11_apply (missCol m c) (degRow m c 8 le_rfl) u q).trans ?_
  rw [degRow8_apply, missCol_apply]
  rfl

/-- The messages: each node's features scaled by its normaliser. -/
theorem msgs_apply (c : Dev nD) (p : Fin 4096) (k : Fin 3) :
    msgs m c (ix2 p k) = GCN.msg (inAdj m c) (featOf m c) p k := by
  show k0_pay12 (missCol m c) (degRow m c 8 le_rfl) (iblk m c 0 t8) (iblk m c 3 t8) (iblk m c 4 t8) (iblk m c 5 t8)
    (iblk m c 6 t8) (iblk m c 7 t8) (ix2 p k) = _
  refine (pay12_apply (missCol m c) (degRow m c 8 le_rfl) (iblk m c 0 t8) (iblk m c 3 t8) (iblk m c 4 t8) (iblk m c 5 t8)
    (iblk m c 6 t8) (iblk m c 7 t8) p k).trans ?_
  rw [degRow8_apply, missCol_apply]
  simp only [iblk0_apply, iblk3_apply, iblk4_apply, iblk5_apply, iblk6_apply, iblk7_apply]
  rfl

/-- The messages as stored in the narrow format: the same numbers. -/
theorem msgsN_apply (c : Dev nD) (p : Fin 4096) (k : Fin 3) : msgsN m c (ix2 p k) = GCN.msg (inAdj m c) (featOf m c) p k :=
  (pay5_apply _ p k).trans (msgs_apply m c p k)

/-- The messages as stored transposed. -/
theorem msgsT_apply (c : Dev nD) (k : Fin 3) (p : Fin 4096) : msgsT m c (ix2 k p) = GCN.msg (inAdj m c) (featOf m c) p k :=
  (pay6_apply (msgs m c) k p).trans (msgs_apply m c p k)

end Cert.KernelIdeal.ValueAt

end
-- ==== Proof.Value.PayAcc.lean ====
/-
  The payloads of the message phase and of the last point, read at an index at the exact instance.

  The accumulator is cleared to zero; each band adds the product of its 512 rows of the messages with the band,
  contracted over those rows. At the last point the column `miss` (transposed into a row and repeated over the three
  output features) times the transposed messages is added to the accumulator, the sum is scaled by the normalisation,
  transposed, and the bias row added.
-/
import proofs.«101174_g88562225643609_cont_sun_c4_799_5_alg».proof.Proof.Gen.KernelIdeal.Skeleton
import proofs.«101174_g88562225643609_cont_sun_c4_799_5_alg».proof.Proof.LibMatmul2d
import proofs.«101174_g88562225643609_cont_sun_c4_799_5_alg».proof.Proof.LibRowwise
import Idealize.ShloMosaic.Lib.ValueLayout
import Idealize.ShloMosaic.Lib.Pipeline.Value
import Idealize.ShloMosaic.Lib.IdealHost
import Idealize.ShloMosaic.PureOps.Ideal.Laws

set_option maxRecDepth 16384

noncomputable section

namespace Cert.KernelIdeal.ValueAt

open Cert.KernelIdeal Cert.KernelIdeal.Gen
open Idealize.ShloMosaic Idealize.ShloMosaic.TcCoe Idealize.ShloMosaic.ValueIdx
open Idealize.SL.Sem
open Idealize.ShloMosaic.Pipeline (Dat Cfg Window)
open scoped BigOperators

/-- The cleared accumulator. -/
theorem pay7_apply (k : Fin 3) (q : Fin 4096) : k0_pay7 (F := Ideal) (ix2 k q) = 0 := by
  unfold k0_pay7
  rw [shapeCast_self]
  exact Ideal.ofBits_zero_f32

/-- One band's contribution to the accumulator: the band's rows of the messages against the band, contracted over the
    band's 512 rows. -/
theorem pay8_apply (band : Vec Ideal S512x4096 .f32) (slice : Vec Ideal S512x3 .bf16) (acc : Vec Ideal S3x4096 .f32)
    (k : Fin 3) (q : Fin 4096) :
    k0_pay8 band slice acc (ix2 k q) = acc (ix2 k q) + ∑ r : Fin 512, slice (ix2 r k) * band (ix2 r q) := by
  unfold k0_pay8 k0_pay1
  rw [shapeCast_self]
  show acc (ix2 k q) + FloatOps.matmul (F := Ideal) dot_S512x3_S512x4096_S3x4096_0_0_1_1_n_n none _ _ (constant (F := Ideal) S3x4096 .f32 0x00000000#32) (ix2 k q) = _
  rw [show dot_S512x3_S512x4096_S3x4096_0_0_1_1_n_n = Cert.LibMatmul2d.transposedLhs 512 3 4096 from rfl,
    Cert.LibMatmul2d.matmul_transposedLhs_apply]
  rfl

/-- The result assembled: the normalisation times (the accumulator plus the missing self loop's message), plus the bias. -/
theorem pay9_apply (miss : Vec Ideal S4096x1 .f32) (norm : Vec Ideal S1x4096 .f32) (acc : Vec Ideal S3x4096 .f32)
    (msgT : Vec Ideal S3x4096 .f32) (bg : Vec Ideal S1x3 .f32) (q : Fin 4096) (k : Fin 3) :
    k0_pay9 miss norm acc msgT bg (ix2 q k)
      = norm (ix2 (0 : Fin 1) q) * (acc (ix2 k q) + miss (ix2 q (0 : Fin 1)) * msgT (ix2 k q)) + bg (ix2 (0 : Fin 1) k) := by
  unfold k0_pay9
  rw [addf_apply, transpose_ix2_apply, mulf_apply, addf_apply, mulf_apply, shapeCast_self,
    broadcastTo_1b_ab_apply, broadcastTo_1b_ab_apply, broadcastTo_1b_ab_apply, transpose_ix2_apply]

end Cert.KernelIdeal.ValueAt

end
-- ==== Proof.Value.Acc.lean ====
/-
  The accumulator of the message phase, as a function of the argument arrays.

  Band 8 + j meets rows 512·j onwards of the stored messages (the dynamic offset is 512 times the point's number
  mod 8). The accumulator is a fold over the eight bands: cleared, then each band's product of its rows of the
  messages with the band added. After all eight bands the eight partial sums make one sum over all 4096 rows: the
  messages aggregated along the raw adjacency matrix.
-/
import proofs.«101174_g88562225643609_cont_sun_c4_799_5_alg».proof.Proof.Value.Msg
import proofs.«101174_g88562225643609_cont_sun_c4_799_5_alg».proof.Proof.Value.PayAcc
import proofs.«101174_g88562225643609_cont_sun_c4_799_5_alg».proof.Proof.LibBlockSum
import proofs.«101174_g88562225643609_cont_sun_c4_799_5_alg».proof.Proof.Spec

set_option maxRecDepth 16384

noncomputable section

namespace Cert.KernelIdeal.ValueAt

open Cert.KernelIdeal Cert.KernelIdeal.Gen Cert.KernelIdeal.Shared
open Idealize.ShloMosaic Idealize.ShloMosaic.TcCoe Idealize.ShloMosaic.ValueIdx
open Idealize.SL.Sem
open Idealize.ShloMosaic.Pipeline (Dat Cfg Window)
open scoped BigOperators

variable (m : (ℓ : Loc nD τ sig) → Buf (Elt Ideal) ℓ)

/-- The dynamic row offset of the messages' slice at a point: 512 times the point's number mod 8; the column offset zero. -/
theorem off2Facts : ∀ t : Fin cfg0.N, k0_off2 (grid0.coords t) (0 : Fin 2) = 512 * (t.val % 8) ∧ k0_off2 (grid0.coords t) (1 : Fin 2) = 0 :=
  (by decide +kernel : ∀ t : Fin grid0.N, _)

/-- The slice of the messages band `8 + j` meets: rows `512·j` onwards. -/
theorem msgSlice_apply (c : Dev nD) (j : ℕ) (h : j < 8) (r : Fin 512) (k : Fin 3) :
    msgSlice m c j h (ix2 r k) = msgsN m c (ix2 (⟨512 * j + r.val, by have := r.isLt; omega⟩ : Fin 4096) k) := by
  obtain ⟨e0, e1⟩ := off2Facts (pt (8 + j) (by omega))
  show msgsN m c ((Rect.unit (s := S4096x3) (k0_off2 (grid0.coords (pt (8 + j) (by omega)))) S512x3.size _).idx (ix2 r k)) = _
  refine congrArg (msgsN m c) (funext fun a => Fin.ext ?_)
  match a with
  | ⟨0, _⟩ =>
    show k0_off2 (grid0.coords (pt (8 + j) (by omega))) (0 : Fin 2) + 1 * r.val = 512 * j + r.val
    rw [e0]; show 512 * ((8 + j) % 8) + 1 * r.val = _; omega
  | ⟨1, _⟩ =>
    show k0_off2 (grid0.coords (pt (8 + j) (by omega))) (1 : Fin 2) + 1 * k.val = k.val
    rw [e1]; omega

/-- The accumulator after `j` bands of the message phase. -/
theorem accAt_apply (c : Dev nD) (k : Fin 3) (q : Fin 4096) : ∀ (j : ℕ) (h : j ≤ 8),
    accAt m c j h (ix2 k q)
      = ∑ s : Fin j, ∑ r : Fin 512, GCN.msg (inAdj m c) (featOf m c) (⟨512 * s.val + r.val, by have := s.isLt; have := r.isLt; omega⟩ : Fin 4096) k
          * inAdj m c (⟨512 * s.val + r.val, by have := s.isLt; have := r.isLt; omega⟩ : Fin 4096) q
  | 0, _ => by
    show k0_pay7 (F := Ideal) (ix2 k q) = _
    rw [pay7_apply]
    rfl
  | j + 1, h => by
    show k0_pay8 (iblk m c 1 (pt (8 + j) (by omega))) (msgSlice m c j (by omega)) (accAt m c j (by omega)) (ix2 k q) = _
    refine (pay8_apply (iblk m c 1 (pt (8 + j) (by omega))) (msgSlice m c j (by omega)) (accAt m c j (by omega)) k q).trans ?_
    rw [accAt_apply c k q j (by omega)]
    refine Eq.trans ?_ (Fin.sum_univ_castSucc _).symm
    refine congrArg₂ (· + ·) rfl (Finset.sum_congr rfl fun r _ => ?_)
    rw [msgSlice_apply, msgsN_apply]
    refine congrArg₂ (fun a b : EReal => a * b) rfl ?_
    refine (iblk1_apply m c (pt (8 + j) (by omega)) r q).trans ?_
    refine congrArg (fun i => inAdj m c i q) (Fin.ext ?_)
    show 512 * ((8 + j) % 8) + r.val = 512 * j + r.val
    omega

/-- The accumulator after the whole message phase: the messages aggregated along the raw matrix. -/
theorem accAt8_apply (c : Dev nD) (k : Fin 3) (q : Fin 4096) :
    accAt m c 8 le_rfl (ix2 k q) = ∑ r : Fin 4096, GCN.msg (inAdj m c) (featOf m c) r k * inAdj m c r q := by
  rw [accAt_apply m c k q 8 le_rfl]
  refine ((Cert.LibBlockSum.sum_eq_sum_blocks 8 512
    (fun i : Fin (8 * 512) => GCN.msg (inAdj m c) (featOf m c) i k * inAdj m c i q)).trans ?_).symm
  refine Finset.sum_congr rfl fun s _ => Finset.sum_congr rfl fun r _ => ?_
  have e : (Cert.LibBlockSum.blockIdx s r : Fin (8 * 512))
      = (⟨512 * s.val + r.val, by have := s.isLt; have := r.isLt; omega⟩ : Fin 4096) := Fin.ext (by
    show (Cert.LibBlockSum.blockIdx s r).val = 512 * s.val + r.val
    rw [Cert.LibBlockSum.blockIdx_val]; omega)
  rw [e]

end Cert.KernelIdeal.ValueAt

end
-- ==== Proof.Value.Result.lean ====
/-
  The kernel's result read at an index.

  At the last point the result is assembled from the normalisation row, the accumulator, the column `miss`, the
  transposed messages and the convolution's bias row. With each of them read as a function of the argument arrays,
  entry (c, k) is the normaliser of node c times (the aggregated messages plus the missing self loop's own message),
  plus the bias: the perceptron followed by the graph convolution with the self loops kept as a correction term.
-/
import proofs.«101174_g88562225643609_cont_sun_c4_799_5_alg».proof.Proof.Value.Acc
import proofs.«101174_g88562225643609_cont_sun_c4_799_5_alg».proof.Proof.Spec

set_option maxRecDepth 16384

noncomputable section

namespace Cert.KernelIdeal.ValueAt

open Cert.KernelIdeal Cert.KernelIdeal.Gen Cert.KernelIdeal.Shared
open Idealize.ShloMosaic Idealize.ShloMosaic.TcCoe Idealize.ShloMosaic.ValueIdx
open Idealize.SL.Sem
open Idealize.ShloMosaic.Pipeline (Dat Cfg Window)
open scoped BigOperators

variable (m : (ℓ : Loc nD τ sig) → Buf (Elt Ideal) ℓ)

/-- THE KERNEL'S RESULT at an index: the perceptron followed by the convolution with the self loops as a correction. -/
theorem result_apply (c : Dev nD) (cc : Fin 4096) (k : Fin 3) :
    result (F := Ideal) m c (ix2 cc k)
      = GCN.kerOut (inX m c) (inAdj m c) (inW1 m c) (inB1 m c) (inW3 m c) (inB3 m c) (inWg m c) (inBg m c) cc k := by
  show k0_pay9 (missCol m c) (normRow m c) (accAt m c 8 le_rfl) (msgsT m c) (iblk m c 8 t15) (ix2 cc k) = _
  refine (pay9_apply (missCol m c) (normRow m c) (accAt m c 8 le_rfl) (msgsT m c) (iblk m c 8 t15) cc k).trans ?_
  rw [normRow_apply, accAt8_apply, missCol_apply, msgsT_apply, iblk8_apply]
  rfl

end Cert.KernelIdeal.ValueAt

end
-- ==== Proof.LibFiniteDecode.lean ====
/-
  "Every entry has absolute value below +∞" read as "every entry is a real".

  A precondition that an array is finite is printed as an all-reduce by "and" of the comparison |a| < +∞ against the
  word of +∞. On the extended reals |x| < +∞ says x is neither infinity, that is, x is a real. The lemma below takes one
  such conjunct — the all-reduce equal to 1 — to "every entry of `a` is real", for an array of any shape reduced over all
  its axes.
-/
import Idealize.ShloMosaic.PureOps.Ideal
import Idealize.ShloMosaic.Lib.ReduceAll
import Idealize.ShloMosaic.Lib.ValueIdx

noncomputable section

namespace Cert.LibFiniteDecode

open Idealize.ShloMosaic Idealize.ShloMosaic.ValueIdx

/-- The scalar shape has one index. -/
instance : Subsingleton (⟨0, ![]⟩ : Shape).Idx := ⟨fun a b => funext fun d => d.elim0⟩

/-- The word of +∞ denotes the top of the extended reals. -/
theorem ofBits_inf : Ideal.ofBits .f32 0x7F800000#32 = (⊤ : EReal) := by
  simp [Ideal.ofBits, Ideal.ieee]

/-- An extended real whose absolute value is below +∞ is a real. -/
theorem real_of_abs_lt (x : EReal) (h : max x (-x) < ⊤) : ∃ r : ℝ, x = ((r : ℝ) : EReal) := by
  induction x using EReal.rec with
  | bot => simp at h
  | coe r => exact ⟨r, rfl⟩
  | top => simp at h

/-- One conjunct of a finiteness precondition: an all-reduce by "and" of the comparison |a| < +∞ that is 1 makes every
    entry of `a` a real. -/
theorem real_of_all {s : Shape} {axes : List (Fin s.rank)} (a : FVec Ideal s .f32)
    (hb : (⟨0, ![]⟩ : Shape).BroadcastsInDim s ![]) (hred : s.ReducesTo axes ⟨0, ![]⟩) (hu : 0 < (⟨0, ![]⟩ : Shape).numel)
    (e : Host.reduce IntOp.andi (cmpf .olt (Host.absf a) (broadcastInDim s ![] hb (constant ⟨0, ![]⟩ .f32 0x7F800000#32)))
      (constantI ⟨0, ![]⟩ 1 1#1) hred hu ix0 = 1#1) (i : s.Idx) : ∃ r : ℝ, a i = ((r : ℝ) : EReal) := by
  have h := Host.reduce_andi_all _ _ hred hu ix0 e i
  have h' : Ideal.cmp .olt (max (a i) (-(a i))) (Ideal.ofBits .f32 0x7F800000#32) = 1#1 := h
  rw [ofBits_inf] at h'
  refine real_of_abs_lt (a i) ?_
  unfold Ideal.cmp at h'
  by_contra hn
  simp [hn] at h'

end Cert.LibFiniteDecode

end
-- ==== Proof.PreDecode.lean ====
/-
  The finiteness precondition, read back: every entry of every input is a real,
  and every entry of the adjacency matrix is zero or one.

  The precondition is a conjunction of nine tests, each "all entries satisfy …"
  folded by "and" from one: eight of them compare an input's absolute value with
  +∞, the ninth asks of each adjacency entry that it equal zero or equal one.
-/
import proofs.«101174_g88562225643609_cont_sun_c4_799_5_alg».proof.Pre_finite_inputs
import proofs.«101174_g88562225643609_cont_sun_c4_799_5_alg».proof.Proof.LibFiniteDecode
import Idealize.ShloMosaic.PureOps.Ideal.Laws
import Idealize.ShloMosaic.Lib.ReduceAll
import Idealize.ShloMosaic.Lib.ValueIdx

noncomputable section

namespace Cert.PreDecode

open Idealize.ShloMosaic Idealize.ShloMosaic.ValueIdx Cert.Pre_finite_inputs Cert.LibFiniteDecode

/-- The word of one denotes one. -/
theorem ofBits_one : Ideal.ofBits .f32 0x3F800000#32 = (1 : EReal) := by
  simp [Ideal.ofBits, Ideal.ieee]
  rw [← EReal.coe_mul, ← EReal.coe_one]
  congr 1
  norm_num

/-- An equality test that answers one is an equality. -/
theorem eq_of_cmp_oeq (x y : EReal) (h : Ideal.cmp .oeq x y = 1#1) : x = y := by
  unfold Ideal.cmp at h
  by_contra hn
  simp [hn] at h

variable [Cert.Pre_finite_inputs.Facts]

/-- What the precondition says of the eight inputs. -/
theorem decode (a0 : FVec Ideal S4096x3 .f32) (a1 : FVec Ideal S4096x4096 .f32) (a2 : FVec Ideal S3x16 .f32)
    (a3 : FVec Ideal S16 .f32) (a4 : FVec Ideal S16x3 .f32) (a5 : FVec Ideal S3 .f32)
    (a6 : FVec Ideal S3x3 .f32) (a7 : FVec Ideal S3 .f32)
    (h : fn (F := Ideal) a0 a1 a2 a3 a4 a5 a6 a7 = fun _ => 1#1) :
    (∀ i, ∃ r : ℝ, a0 i = (r : EReal)) ∧ (∀ i, a1 i = 0 ∨ a1 i = 1) ∧ (∀ i, ∃ r : ℝ, a2 i = (r : EReal))
      ∧ (∀ i, ∃ r : ℝ, a3 i = (r : EReal)) ∧ (∀ i, ∃ r : ℝ, a4 i = (r : EReal))
      ∧ (∀ i, ∃ r : ℝ, a5 i = (r : EReal)) ∧ (∀ i, ∃ r : ℝ, a6 i = (r : EReal))
      ∧ (∀ i, ∃ r : ℝ, a7 i = (r : EReal)) := by
  have h0 := congrFun h ix0
  dsimp only [fn, fn_part1, fn_part2] at h0
  simp only [andi, IntOp.andi_eq_one] at h0
  obtain ⟨⟨⟨⟨⟨⟨⟨⟨c0, c1⟩, c2⟩, c3⟩, c4⟩, c5⟩, c6⟩, c7⟩, c8⟩ := h0
  refine ⟨real_of_all a0 _ _ _ c0, ?_, real_of_all a2 _ _ _ c2, real_of_all a3 _ _ _ c3,
    real_of_all a4 _ _ _ c4, real_of_all a5 _ _ _ c5, real_of_all a6 _ _ _ c6, real_of_all a7 _ _ _ c7⟩
  intro i
  have hi := Host.reduce_andi_all _ _ _ _ ix0 c8 i
  have hi' : Ideal.cmp .oeq (a1 i) (Ideal.ofBits .f32 0x00000000#32) = 1#1
      ∨ Ideal.cmp .oeq (a1 i) (Ideal.ofBits .f32 0x3F800000#32) = 1#1 := IntOp.ori_eq_one.mp hi
  rcases hi' with e | e
  · left; rw [eq_of_cmp_oeq _ _ e, Ideal.ofBits_zero_f32]
  · right; rw [eq_of_cmp_oeq _ _ e, ofBits_one]

end Cert.PreDecode

end
-- ==== Proof.SpecLaw.lean ====
/-
  The two arrangements of the graph convolution agree on real inputs with a
  zero-one adjacency matrix.

  On such inputs raising the diagonal to at least one is the same as adding the
  missing self loops, so both degrees are the same real number, at least one;
  the clamp and the positivity test are then idle, both normalisers are the
  inverse square root of that degree, and the two aggregations differ by
  distributing a product over a sum. The extended reals do not distribute at
  infinities, so every quantity is first shown to be a real and the algebra is
  done there.
-/
import proofs.«101174_g88562225643609_cont_sun_c4_799_5_alg».proof.Proof.Spec
import Mathlib.Data.EReal.Operations
import Mathlib.Tactic.Ring
import Mathlib.Tactic.Linarith

noncomputable section

namespace GCN

open Idealize.ShloMosaic
open scoped BigOperators

variable {N Fa Fh Fj Fk : Type} [Fintype N] [DecidableEq N] [Fintype Fa] [Fintype Fh] [Fintype Fj]

/-! ### Reals inside the extended reals -/

/-- The coercion of a finite sum of reals is the sum of the coercions. -/
theorem coe_sum {ι : Type} (s : Finset ι) (f : ι → ℝ) :
    ((∑ i ∈ s, f i : ℝ) : EReal) = ∑ i ∈ s, (f i : EReal) := by
  classical
  refine Finset.induction_on s ?_ ?_
  · simp
  · intro i s hi ih
    rw [Finset.sum_insert hi, Finset.sum_insert hi, EReal.coe_add, ih]

/-- The coercion commutes with the maximum. -/
theorem coe_max (u v : ℝ) : ((max u v : ℝ) : EReal) = max (u : EReal) (v : EReal) :=
  EReal.coe_strictMono.monotone.map_max

/-- A sum of products of reals is a real: the shape of every contraction here. -/
theorem sum_mul_coe {ι : Type} [Fintype ι] (f g : ι → ℝ) :
    (∑ i, (f i : EReal) * (g i : EReal)) = ((∑ i, f i * g i : ℝ) : EReal) := by
  rw [coe_sum]
  exact Finset.sum_congr rfl fun i _ => (EReal.coe_mul _ _).symm

/-! ### The perceptron's values are reals -/

/-- A rectified dense unit of real operands is a real. -/
theorem dense_relu_real {ι : Type} [Fintype ι] (f g : ι → ℝ) (b : ℝ) :
    max (∑ i, (f i : EReal) * (g i : EReal) + (b : EReal)) 0
      = ((max (∑ i, f i * g i + b) 0 : ℝ) : EReal) := by
  rw [sum_mul_coe, ← EReal.coe_add, coe_max, EReal.coe_zero]

theorem hidden1_real {x : N → Fa → EReal} {W1 : Fa → Fh → EReal} {b1 : Fh → EReal}
    (hx : ∀ r a, ∃ v : ℝ, x r a = v) (hW1 : ∀ a i, ∃ v : ℝ, W1 a i = v) (hb1 : ∀ i, ∃ v : ℝ, b1 i = v)
    (r : N) (i : Fh) : ∃ v : ℝ, hidden1 x W1 b1 r i = v := by
  choose x' hx using hx
  choose W1' hW1 using hW1
  choose b1' hb1 using hb1
  refine ⟨max (∑ a, x' r a * W1' a i + b1' i) 0, ?_⟩
  unfold hidden1
  simp only [hx, hW1, hb1]
  exact dense_relu_real _ _ _

theorem hidden2_real {x : N → Fa → EReal} {W1 : Fa → Fh → EReal} {b1 : Fh → EReal}
    {W3 : Fh → Fj → EReal} {b3 : Fj → EReal}
    (hx : ∀ r a, ∃ v : ℝ, x r a = v) (hW1 : ∀ a i, ∃ v : ℝ, W1 a i = v) (hb1 : ∀ i, ∃ v : ℝ, b1 i = v)
    (hW3 : ∀ i j, ∃ v : ℝ, W3 i j = v) (hb3 : ∀ j, ∃ v : ℝ, b3 j = v)
    (r : N) (j : Fj) : ∃ v : ℝ, hidden2 x W1 b1 W3 b3 r j = v := by
  have h1 := hidden1_real hx hW1 hb1
  choose h1' hh1 using h1
  choose W3' hW3 using hW3
  choose b3' hb3 using hb3
  refine ⟨max (∑ i, h1' r i * W3' i j + b3' j) 0, ?_⟩
  unfold hidden2
  simp only [hh1, hW3, hb3]
  exact dense_relu_real _ _ _

theorem feat_real {x : N → Fa → EReal} {W1 : Fa → Fh → EReal} {b1 : Fh → EReal}
    {W3 : Fh → Fj → EReal} {b3 : Fj → EReal} {Wg : Fj → Fk → EReal}
    (hx : ∀ r a, ∃ v : ℝ, x r a = v) (hW1 : ∀ a i, ∃ v : ℝ, W1 a i = v) (hb1 : ∀ i, ∃ v : ℝ, b1 i = v)
    (hW3 : ∀ i j, ∃ v : ℝ, W3 i j = v) (hb3 : ∀ j, ∃ v : ℝ, b3 j = v)
    (hWg : ∀ j k, ∃ v : ℝ, Wg j k = v)
    (r : N) (k : Fk) : ∃ v : ℝ, feat x W1 b1 W3 b3 Wg r k = v := by
  have h2 := hidden2_real hx hW1 hb1 hW3 hb3
  choose h2' hh2 using h2
  choose Wg' hWg using hWg
  refine ⟨∑ j, h2' r j * Wg' j k, ?_⟩
  unfold feat
  simp only [hh2, hWg]
  exact sum_mul_coe _ _

/-! ### The zero-one matrix, in the reals -/

/-- The degree of a node in the reals: column sum plus the missing self loop. -/
def rdeg (a : N → N → ℝ) (c : N) : ℝ := (∑ r, a r c) + (if 0 < a c c then 0 else 1)

/-- The normaliser in the reals: inverse square root of the degree. -/
def rdinv (a : N → N → ℝ) (c : N) : ℝ := (Real.sqrt (rdeg a c))⁻¹

section ZeroOne

variable {a : N → N → ℝ} (ha : ∀ r c, a r c = 0 ∨ a r c = 1)
include ha

/-- Raising the diagonal of a zero-one matrix to one adds exactly the missing self loop. -/
theorem max_eye_eq (r c : N) :
    max (a r c) (if r = c then 1 else 0)
      = a r c + (if r = c then (if 0 < a c c then 0 else 1) else 0) := by
  by_cases h : r = c
  · subst h
    rcases ha r r with h0 | h1
    · simp [h0]
    · simp [h1]
  · rcases ha r c with h0 | h1
    · simp [h, h0]
    · simp [h, h1]

/-- Hence the column sums of the raised matrix are the degree. -/
theorem sum_max_eye (c : N) :
    ∑ r, max (a r c) (if r = c then 1 else 0) = rdeg a c := by
  unfold rdeg
  simp only [max_eye_eq ha, Finset.sum_add_distrib, Finset.sum_ite_eq', Finset.mem_univ, if_true]

/-- Every degree is at least one: the diagonal entry or the missing loop supplies it. -/
theorem one_le_rdeg (c : N) : 1 ≤ rdeg a c := by
  unfold rdeg
  have hnn : ∀ r ∈ Finset.univ, 0 ≤ a r c := fun r _ => by
    rcases ha r c with h | h <;> rw [h] <;> norm_num
  have hle : a c c ≤ ∑ r, a r c := Finset.single_le_sum hnn (Finset.mem_univ c)
  rcases ha c c with h0 | h1
  · have h : ¬ (0 < a c c) := by rw [h0]; exact lt_irrefl 0
    rw [if_neg h]
    have := Finset.sum_nonneg hnn
    linarith
  · have h : 0 < a c c := by rw [h1]; exact one_pos
    rw [if_pos h]
    linarith

/-- Aggregating along the raised matrix is aggregating along the raw one and
    adding the missing self loop's term. -/
theorem sum_max_eye_mul (c : N) (u : N → ℝ) :
    ∑ r, max (a r c) (if r = c then 1 else 0) * u r
      = (∑ r, u r * a r c) + (if 0 < a c c then 0 else 1) * u c := by
  simp only [max_eye_eq ha, add_mul, Finset.sum_add_distrib, ite_mul, zero_mul,
    Finset.sum_ite_eq', Finset.mem_univ, if_true]
  congr 1
  exact Finset.sum_congr rfl fun r _ => mul_comm _ _

end ZeroOne

/-! ### The convolution's pieces are reals -/

/-- A zero-one matrix of extended reals is a zero-one matrix of reals. -/
theorem zeroOne_real {adj : N → N → EReal} (hadj : ∀ r c, adj r c = 0 ∨ adj r c = 1) :
    ∃ a : N → N → ℝ, (∀ r c, adj r c = a r c) ∧ ∀ r c, a r c = 0 ∨ a r c = 1 := by
  refine ⟨fun r c => (adj r c).toReal, fun r c => ?_, fun r c => ?_⟩
  · rcases hadj r c with h | h <;> simp [h]
  · rcases hadj r c with h | h <;> simp [h]

/-- The inverse square root of a positive real is the real one. -/
theorem rsqrt_coe_of_pos {D : ℝ} (hD : 0 < D) :
    Ideal.rsqrt (D : EReal) = (((Real.sqrt D)⁻¹ : ℝ) : EReal) := by
  rw [Ideal.rsqrt_coe, if_neg (not_lt.mpr hD.le), if_neg hD.ne']

section Coe

variable {adj : N → N → EReal} {a : N → N → ℝ} (hA : ∀ r c, adj r c = a r c)
include hA

theorem loopAdj_coe (r c : N) :
    loopAdj adj r c = ((max (a r c) (if r = c then 1 else 0) : ℝ) : EReal) := by
  unfold loopAdj
  rw [hA, coe_max]
  congr 1
  split_ifs <;> simp

theorem miss_coe (c : N) : miss adj c = ((if 0 < a c c then 0 else 1 : ℝ) : EReal) := by
  unfold miss
  rw [hA]
  by_cases h : 0 < a c c
  · rw [if_pos h, if_pos (EReal.coe_pos.mpr h)]; simp
  · rw [if_neg h, if_neg (fun h' => h (EReal.coe_pos.mp h'))]; simp

theorem degK_coe (c : N) : degK adj c = (rdeg a c : EReal) := by
  unfold degK rdeg
  simp only [hA, miss_coe hA]
  rw [← coe_sum, ← EReal.coe_add]

variable (ha : ∀ r c, a r c = 0 ∨ a r c = 1)
include ha

theorem degR_coe (c : N) : degR adj c = (rdeg a c : EReal) := by
  unfold degR
  simp only [loopAdj_coe hA]
  rw [← coe_sum, sum_max_eye ha]

theorem dinvK_coe (c : N) : dinvK adj c = (rdinv a c : EReal) := by
  have h1 := one_le_rdeg ha c
  have h1' : (1 : EReal) ≤ (rdeg a c : EReal) := by
    rw [← EReal.coe_one]; exact EReal.coe_le_coe_iff.mpr h1
  unfold dinvK rdinv
  rw [degK_coe hA, max_eq_left h1', rsqrt_coe_of_pos (by linarith)]

theorem dinvR_coe (c : N) : dinvR adj c = (rdinv a c : EReal) := by
  have h1 := one_le_rdeg ha c
  unfold dinvR rdinv
  rw [degR_coe hA ha, if_pos (EReal.coe_pos.mpr (by linarith)), rsqrt_coe_of_pos (by linarith)]

end Coe

/-! ### The law -/

/-- On a zero-one matrix and real node features the two convolutions agree. -/
theorem aggK_eq_aggR {adj : N → N → EReal} {hw : N → Fk → EReal} (bg : Fk → EReal)
    (hadj : ∀ r c, adj r c = 0 ∨ adj r c = 1) (hhw : ∀ r k, ∃ v : ℝ, hw r k = v)
    (c : N) (k : Fk) : aggK adj hw bg c k = aggR adj hw bg c k := by
  obtain ⟨a, hA, ha⟩ := zeroOne_real hadj
  choose w hw' using hhw
  unfold aggK aggR msg
  simp only [dinvK_coe hA ha, dinvR_coe hA ha, loopAdj_coe hA, miss_coe hA, hA, hw']
  congr 1
  simp only [← EReal.coe_mul, ← coe_sum, ← EReal.coe_add]
  rw [sum_max_eye_mul ha c (fun r => rdinv a r * w r k)]

/-- The two networks agree when every input entry is a real and the adjacency
    matrix has only zeros and ones. -/
theorem kerOut_eq_refOut {x : N → Fa → EReal} {adj : N → N → EReal} {W1 : Fa → Fh → EReal}
    {b1 : Fh → EReal} {W3 : Fh → Fj → EReal} {b3 : Fj → EReal} {Wg : Fj → Fk → EReal}
    {bg : Fk → EReal}
    (hx : ∀ r a, ∃ v : ℝ, x r a = v) (hadj : ∀ r c, adj r c = 0 ∨ adj r c = 1)
    (hW1 : ∀ a i, ∃ v : ℝ, W1 a i = v) (hb1 : ∀ i, ∃ v : ℝ, b1 i = v)
    (hW3 : ∀ i j, ∃ v : ℝ, W3 i j = v) (hb3 : ∀ j, ∃ v : ℝ, b3 j = v)
    (hWg : ∀ j k, ∃ v : ℝ, Wg j k = v) (c : N) (k : Fk) :
    kerOut x adj W1 b1 W3 b3 Wg bg c k = refOut x adj W1 b1 W3 b3 Wg bg c k := by
  unfold kerOut refOut
  exact aggK_eq_aggR bg hadj (feat_real hx hW1 hb1 hW3 hb3 hWg) c k

end GCN

end
-- ==== Proof.PreLaw.lean ====
/-
  Under the finiteness precondition the two arrangements of the convolution
  agree on the argument arrays read as curried functions of their coordinates.
-/
import proofs.«101174_g88562225643609_cont_sun_c4_799_5_alg».proof.Proof.PreDecode
import proofs.«101174_g88562225643609_cont_sun_c4_799_5_alg».proof.Proof.SpecLaw

noncomputable section

namespace Cert.PreDecode

open Idealize.ShloMosaic Idealize.ShloMosaic.ValueIdx Cert.Pre_finite_inputs

variable [Cert.Pre_finite_inputs.Facts]

/-- The precondition puts the inputs where the law between the two arrangements holds. -/
theorem kerOut_eq_refOut_of_pre (a0 : FVec Ideal S4096x3 .f32) (a1 : FVec Ideal S4096x4096 .f32)
    (a2 : FVec Ideal S3x16 .f32) (a3 : FVec Ideal S16 .f32) (a4 : FVec Ideal S16x3 .f32)
    (a5 : FVec Ideal S3 .f32) (a6 : FVec Ideal S3x3 .f32) (a7 : FVec Ideal S3 .f32)
    (h : fn (F := Ideal) a0 a1 a2 a3 a4 a5 a6 a7 = fun _ => 1#1) (c : Fin 4096) (k : Fin 3) :
    GCN.kerOut (fun r a => a0 (ix2 r a)) (fun r c => a1 (ix2 r c)) (fun a i => a2 (ix2 a i))
        (fun i => a3 (ix1 i)) (fun i j => a4 (ix2 i j)) (fun j => a5 (ix1 j))
        (fun j k => a6 (ix2 j k)) (fun k => a7 (ix1 k)) c k
      = GCN.refOut (fun r a => a0 (ix2 r a)) (fun r c => a1 (ix2 r c)) (fun a i => a2 (ix2 a i))
        (fun i => a3 (ix1 i)) (fun i j => a4 (ix2 i j)) (fun j => a5 (ix1 j))
        (fun j k => a6 (ix2 j k)) (fun k => a7 (ix1 k)) c k := by
  obtain ⟨h0, h1, h2, h3, h4, h5, h6, _⟩ := decode a0 a1 a2 a3 a4 a5 a6 a7 h
  exact GCN.kerOut_eq_refOut (fun r a => h0 (ix2 r a)) (fun r c => h1 (ix2 r c))
    (fun a i => h2 (ix2 a i)) (fun i => h3 (ix1 i)) (fun i j => h4 (ix2 i j)) (fun j => h5 (ix1 j))
    (fun j k => h6 (ix2 j k)) c k

end Cert.PreDecode

end
-- ==== Proof.Value.Meet.lean ====
/-
  Where the two sides meet: under the finiteness precondition the reference's array — the convolution with the self
  loops inside the matrix — and the kernel's result — the convolution with the self loops as a correction — are the
  same array of the argument arrays.

  Entry by entry: the kernel's result at (c, k) is the correction form of the argument arrays; the precondition makes
  every entry of the arguments a real, where the two forms of the convolution agree; and the reference's array at
  (c, k) is by definition the other form.
-/
import proofs.«101174_g88562225643609_cont_sun_c4_799_5_alg».proof.Proof.Value.Result
import proofs.«101174_g88562225643609_cont_sun_c4_799_5_alg».proof.Proof.PreLaw
import proofs.«101174_g88562225643609_cont_sun_c4_799_5_alg».proof.Proof.Ref.Run
import proofs.«101174_g88562225643609_cont_sun_c4_799_5_alg».proof.Defs

set_option maxRecDepth 16384

noncomputable section

namespace Cert.KernelIdeal.ValueAt

open Cert.KernelIdeal Cert.KernelIdeal.Gen Cert.KernelIdeal.Shared
open Idealize.ShloMosaic Idealize.ShloMosaic.TcCoe Idealize.ShloMosaic.ValueIdx
open Idealize.SL.Sem

/-- Under the precondition the reference's array of the kernel's arguments is the kernel's result. -/
theorem refArray_eq_result [Cert.Pre_finite_inputs.Facts]
    (m : (ℓ : Loc Cert.KernelIdeal.nD Cert.KernelIdeal.τ Cert.KernelIdeal.sig) → Buf (Elt Ideal) ℓ)
    (c : Dev Cert.KernelIdeal.nD) (hpre : Cert.Pre_KernelIdeal m) :
    Cert.ReferenceIdeal.RefRead.refArray
        (m ((c.tc : Thread Cert.KernelIdeal.nD Cert.KernelIdeal.τ).loc Cert.KernelIdeal.main_arg0))
        (m ((c.tc : Thread Cert.KernelIdeal.nD Cert.KernelIdeal.τ).loc Cert.KernelIdeal.main_arg1))
        (m ((c.tc : Thread Cert.KernelIdeal.nD Cert.KernelIdeal.τ).loc Cert.KernelIdeal.main_arg2))
        (m ((c.tc : Thread Cert.KernelIdeal.nD Cert.KernelIdeal.τ).loc Cert.KernelIdeal.main_arg3))
        (m ((c.tc : Thread Cert.KernelIdeal.nD Cert.KernelIdeal.τ).loc Cert.KernelIdeal.main_arg4))
        (m ((c.tc : Thread Cert.KernelIdeal.nD Cert.KernelIdeal.τ).loc Cert.KernelIdeal.main_arg5))
        (m ((c.tc : Thread Cert.KernelIdeal.nD Cert.KernelIdeal.τ).loc Cert.KernelIdeal.main_arg6))
        (m ((c.tc : Thread Cert.KernelIdeal.nD Cert.KernelIdeal.τ).loc Cert.KernelIdeal.main_arg7))
      = Cert.KernelIdeal.Shared.result (F := Ideal) m c := by
  funext j
  obtain ⟨p, k, rfl⟩ : ∃ (p : Fin 4096) (k : Fin 3), j = ix2 p k := ⟨j 0, j 1, eq_ix2 j⟩
  rw [result_apply]
  exact (Cert.PreDecode.kerOut_eq_refOut_of_pre _ _ _ _ _ _ _ _ (hpre c) p k).symm

end Cert.KernelIdeal.ValueAt

end
-- ==== Proof.lean ====
/-
  A graph convolution over a dense adjacency matrix, after two small rectified layers, against its plain reference.
  With h the node features after the two layers and the convolution's weights, the reference forms A = max(adj, I),
  the column sums deg of A, dinv = 1/sqrt(deg), and returns dinv ⊙ (Aᵀ (dinv ⊙ h)) + bias. The kernel never forms A:
  it streams adj twice in bands of 512 rows, first summing columns and reading the diagonal (miss = 1 where the
  diagonal entry is not positive), then, after computing dinv = 1/sqrt(max(colsum + miss, 1)) and the messages
  dinv ⊙ h, accumulating messagesᵀ · adj band by band, and finishes with dinv ⊙ (acc + miss ⊙ messagesᵀ) + bias.
  For an adjacency matrix with entries 0 and 1 — the reference's own stated domain — max(adj, I) = adj + diag(miss),
  every degree is at least 1, and the two agree on finite inputs by distributivity; that law, the reference read at
  an index and the decoding of the precondition are proved in Proof/Spec*.lean, Proof/Ref/ and Proof/Pre*.lean.
  The kernel's side is in Proof/Ideal/ (and, word for word at the other instance, Proof/Bits/): the launch of a
  region two of whose windows read one array, the body run at each of its five kinds of grid point, what the five
  scratch buffers hold point by point, and the run of the whole program; Proof/Value/ reads the kernel's result at
  an index. Here the five claims are assembled.
-/
import proofs.«101174_g88562225643609_cont_sun_c4_799_5_alg».proof.Defs
import proofs.«101174_g88562225643609_cont_sun_c4_799_5_alg».proof.Proof.Gen.Kernel
import proofs.«101174_g88562225643609_cont_sun_c4_799_5_alg».proof.Proof.Gen.KernelIdeal
import proofs.«101174_g88562225643609_cont_sun_c4_799_5_alg».proof.Proof.Gen.ReferenceIdeal
import proofs.«101174_g88562225643609_cont_sun_c4_799_5_alg».proof.Proof.Gen.Pre_finite_inputs
import proofs.«101174_g88562225643609_cont_sun_c4_799_5_alg».proof.Proof.Bits.Frame
import proofs.«101174_g88562225643609_cont_sun_c4_799_5_alg».proof.Proof.Ideal.Frame
import proofs.«101174_g88562225643609_cont_sun_c4_799_5_alg».proof.Proof.Ref.Run
import proofs.«101174_g88562225643609_cont_sun_c4_799_5_alg».proof.Proof.Value.Meet
import Idealize.ShloMosaic.Adequacy
import Idealize.ShloMosaic.Init

noncomputable section

namespace Cert.Proof

open Idealize.ShloMosaic Idealize.ShloMosaic.TcCoe Idealize.SL.Sem

section Claims

variable [Cert.Kernel.Facts] [Cert.KernelIdeal.Facts] [Cert.ReferenceIdeal.Facts] [Cert.Pre_finite_inputs.Facts]

/-- The word-level program runs to the end, faults nowhere and leaves its arguments as launched. -/
theorem frame_kernel : Cert.frame_Kernel := fun m ρ _ => Cert.Kernel.Shared.frame m ρ

/-- So does the idealized program. -/
theorem frame_kernelIdeal : Cert.frame_KernelIdeal := fun m ρ _ => Cert.KernelIdeal.Shared.frame m ρ

/-- So does the reference: its run, the result dropped. -/
theorem frame_reference : Cert.frame_ReferenceIdeal := fun m ρ _ =>
  (θ_run Cert.ReferenceIdeal.defs _ _).mono (fun _ h c => (h c).2) (Cert.ReferenceIdeal.RefRead.run m ρ)

/-- The idealization rewrote nothing. -/
theorem preserves : Cert.preserves_Kernel_KernelIdeal := trivial

/-- Run from memories that agree on the arguments, the kernel's result array ends at the model's result and the
    reference's at its own formula of the same arguments; under the precondition the two are one array. -/
theorem algebraic : Cert.algebraic_KernelIdeal_ReferenceIdeal := by
  intro m ρ m' ρ' hpre hagree
  refine ⟨fun c => Cert.KernelIdeal.Shared.result (F := Ideal) m c, Cert.KernelIdeal.Shared.run (F := Ideal) m ρ, ?_⟩
  refine (θ_run Cert.ReferenceIdeal.defs _ _).mono (fun _ h c => ⟨(h c).1.trans ?_, (h c).2⟩)
    (Cert.ReferenceIdeal.RefRead.run m' ρ')
  obtain ⟨e0, e1, e2, e3, e4, e5, e6, e7⟩ := hagree c
  rw [e0, e1, e2, e3, e4, e5, e6, e7]
  exact Cert.KernelIdeal.ValueAt.refArray_eq_result m c hpre

end Claims

theorem claim : Cert.Claim :=
  ⟨Cert.Kernel.Gen.facts, Cert.KernelIdeal.Gen.facts, Cert.ReferenceIdeal.Gen.facts, Cert.Pre_finite_inputs.Gen.facts,
    frame_kernel, frame_kernelIdeal, frame_reference, preserves, algebraic⟩

end Cert.Proof

end
